-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S256x256 : Shape := ⟨2, ![256, 256]⟩
abbrev S256 : Shape := ⟨1, ![256]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S32x256x56x56 .f32) (main_arg1 : FVec F S256x256 .f32) (main_arg2 : FVec F S256 .f32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S32x256x56x56 : Shape := ⟨4, ![32, 256, 56, 56]⟩
abbrev S256x256 : Shape := ⟨2, ![256, 256]⟩
abbrev S256 : Shape := ⟨1, ![256]⟩
abbrev S32x256x3136 : Shape := ⟨3, ![32, 256, 3136]⟩
abbrev S256x1 : Shape := ⟨2, ![256, 1]⟩
abbrev S2x256x1 : Shape := ⟨3, ![2, 256, 1]⟩
abbrev S1x256x3136 : Shape := ⟨3, ![1, 256, 3136]⟩
abbrev S1x256x1 : Shape := ⟨3, ![1, 256, 1]⟩
abbrev S256x3136 : Shape := ⟨2, ![256, 3136]⟩
abbrev S_ : Shape := ⟨0, ![]⟩

abbrev nBuf : Space → Nat
  | .hbm => 29
  | .vmem => 28
  | .smem => 0
  | _ => 0

abbrev bufTy : (tb : Table) → Fin (tcTables nBuf tb) → BufTy
  | .hbm, ⟨0, _⟩ => ⟨S32x256x56x56, .f32⟩
  | .hbm, ⟨1, _⟩ => ⟨S256x256, .f32⟩
  | .hbm, ⟨2, _⟩ => ⟨S256, .f32⟩
  | .hbm, ⟨3, _⟩ => ⟨S32x256x3136, .f32⟩
  | .hbm, ⟨4, _⟩ => ⟨S256x256, .f32⟩
  | .hbm, ⟨5, _⟩ => ⟨S256x1, .f32⟩
  | .hbm, ⟨6, _⟩ => ⟨S2x256x1, .f32⟩
  | .hbm, ⟨7, _⟩ => ⟨S_, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S2x256x1, .f32⟩
  | .hbm, ⟨14, _⟩ => ⟨S2x256x1, .f32⟩
  | .hbm, ⟨15, _⟩ => ⟨S_, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S_, .f32⟩
  | .hbm, ⟨21, _⟩ => ⟨S256x1, .f32⟩
  | .hbm, ⟨22, _⟩ => ⟨S256x1, .f32⟩
  | .hbm, ⟨23, _⟩ => ⟨S256x1, .f32⟩
  | .hbm, ⟨24, _⟩ => ⟨S_, .f32⟩
  | .hbm, ⟨25, _⟩ => ⟨S256x1, .f32⟩
  | .hbm, ⟨26, _⟩ => ⟨S256x1, .f32⟩
  | .hbm, ⟨27, _⟩ => ⟨S32x256x3136, .f32⟩
  | .hbm, ⟨28, _⟩ => ⟨S32x256x56x56, .f32⟩
  | .local _ .vmem, ⟨0, _⟩ => ⟨S1x256x3136, .f32⟩
  | .local _ .vmem, ⟨1, _⟩ => ⟨S1x256x3136, .f32⟩
  | .local _ .vmem, ⟨2, _⟩ => ⟨S1x256x1, .f32⟩
  | .local _ .vmem, ⟨3, _⟩ => ⟨S1x256x1, .f32⟩
  | .local _ .vmem, ⟨4, _⟩ => ⟨S256x1, .f32⟩
  | .local _ .vmem, ⟨5, _⟩ => ⟨S1x256x3136, .f32⟩
  | .local _ .vmem, ⟨6, _⟩ => ⟨S1x256x3136, .f32⟩
  | .local _ .vmem, ⟨7, _⟩ => ⟨S256x256, .f32⟩
  | .local _ .vmem, ⟨8, _⟩ => ⟨S256x1, .f32⟩
  | .local _ .vmem, ⟨9, _⟩ => ⟨S256x1, .f32⟩
  | .local _ .vmem, ⟨10, _⟩ => ⟨S1x256x1, .f32⟩
  | .local _ .vmem, ⟨11, _⟩ => ⟨S1x256x1, .f32⟩
  | .local _ .vmem, ⟨12, _⟩ => ⟨S1x256x1, .f32⟩
  | .local _ .vmem, ⟨13, _⟩ => ⟨S1x256x1, .f32⟩
  | .local _ .vmem, ⟨14, _⟩ => ⟨S256x1, .f32⟩
  | .local _ .vmem, ⟨15, _⟩ => ⟨S256x1, .f32⟩
  | .local _ .vmem, ⟨16, _⟩ => ⟨S1x256x3136, .f32⟩
  | .local _ .vmem, ⟨17, _⟩ => ⟨S1x256x3136, .f32⟩
  | .local _ .vmem, ⟨18, _⟩ => ⟨S256x256, .f32⟩
  | .local _ .vmem, ⟨19, _⟩ => ⟨S256x256, .f32⟩
  | .local _ .vmem, ⟨20, _⟩ => ⟨S256x1, .f32⟩
  | .local _ .vmem, ⟨21, _⟩ => ⟨S256x1, .f32⟩
  | .local _ .vmem, ⟨22, _⟩ => ⟨S256x1, .f32⟩
  | .local _ .vmem, ⟨23, _⟩ => ⟨S256x1, .f32⟩
  | .local _ .vmem, ⟨24, _⟩ => ⟨S256x1, .f32⟩
  | .local _ .vmem, ⟨25, _⟩ => ⟨S256x1, .f32⟩
  | .local _ .vmem, ⟨26, _⟩ => ⟨S1x256x3136, .f32⟩
  | .local _ .vmem, ⟨27, _⟩ => ⟨S1x256x3136, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_scratch0 : Ref sig .tc := ⟨.vmem, 14, rfl⟩
abbrev cc1_scratch1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg9_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem9_0 : DmaSem sig := 23
abbrev cc2_sem9_1 : DmaSem sig := 24

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x3136 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x256x3136 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S1x256x3136 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  shapeCasts_S32x256x56x56_S32x256x3136 : S32x256x56x56.ShapeCasts S32x256x3136
  transposes_S256x256_S256x256_1_0 : S256x256.Transposes [1, 0] S256x256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x256x3136_S1x256x3136_0_0_0 : ∀ a, (![0, 0, 0] : Fin 3 → Nat) a + S1x256x3136.size a ≤ S1x256x3136.size a
  h_S1x256x3136 : 0 < S1x256x3136.numel
  shapeCasts_S1x256x3136_S256x3136 : S1x256x3136.ShapeCasts S256x3136
  reduces_S256x3136_S256 : S256x3136.Reduces [1] S256
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  reducesTo_S2x256x1_S256x1_d0 : S2x256x1.ReducesTo [0] S256x1
  h_S_ : 0 < S_.numel
  bcast_S_S256x1 : S_.BroadcastsInDim S256x1 (![] : Fin 0 → Fin S256x1.rank)
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S256x1_S256x3136 : S256x1.Broadcasts S256x3136
  shapeCasts_S256x3136_S1x256x3136 : S256x3136.ShapeCasts S1x256x3136
  shapeCasts_S32x256x3136_S32x256x56x56 : S32x256x3136.ShapeCasts S32x256x56x56
  dot_S256x256_S256x1_S256x1_1_0_0_1_n_n_wf : DotDims.WF S256x256 S256x1 S256x1 [1] [0] [0] [1] [] []
  dot_S256x256_S256x3136_S256x3136_1_0_0_1_n_n_wf : DotDims.WF S256x256 S256x3136 S256x3136 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3136.size a ≤ S32x256x3136.size a
  hwx0_0 : ∀ i : grid0.Coords, EltTy.bits .f32 = 32 ∨ (Rect.block (s := S32x256x3136) S1x256x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S2x256x1.size a
  hwx0_1 : ∀ i : grid0.Coords, EltTy.bits .f32 = 32 ∨ (Rect.block (s := S2x256x1) S1x256x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x3136.size a ≤ S32x256x3136.size a
  hwx1_0 : ∀ i : grid1.Coords, EltTy.bits .f32 = 32 ∨ (Rect.block (s := S32x256x3136) S1x256x3136.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S256x1.size a
  hwx1_2 : ∀ i : grid1.Coords, EltTy.bits .f32 = 32 ∨ (Rect.block (s := S256x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S256x1.size a
  hwx1_3 : ∀ i : grid1.Coords, EltTy.bits .f32 = 32 ∨ (Rect.block (s := S256x1) S256x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x1.size a ≤ S2x256x1.size a
  hwx1_4 : ∀ i : grid1.Coords, EltTy.bits .f32 = 32 ∨ (Rect.block (s := S2x256x1) S1x256x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1.size a ≤ S2x256x1.size a
  hwx1_5 : ∀ i : grid1.Coords, EltTy.bits .f32 = 32 ∨ (Rect.block (s := S2x256x1) S1x256x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x3136.size a ≤ S32x256x3136.size a
  hwx2_0 : ∀ i : grid2.Coords, EltTy.bits .f32 = 32 ∨ (Rect.block (s := S32x256x3136) S1x256x3136.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x1.size a ≤ S256x1.size a
  hwx2_3 : ∀ i : grid2.Coords, EltTy.bits .f32 = 32 ∨ (Rect.block (s := S256x1) S256x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x1.size a ≤ S256x1.size a
  hwx2_4 : ∀ i : grid2.Coords, EltTy.bits .f32 = 32 ∨ (Rect.block (s := S256x1) S256x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x1.size a ≤ S256x1.size a
  hwx2_5 : ∀ i : grid2.Coords, EltTy.bits .f32 = 32 ∨ (Rect.block (s := S256x1) S256x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x1.size a ≤ S256x1.size a
  hwx2_6 : ∀ i : grid2.Coords, EltTy.bits .f32 = 32 ∨ (Rect.block (s := S256x1) S256x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x1.size a ≤ S256x1.size a
  hwx2_7 : ∀ i : grid2.Coords, EltTy.bits .f32 = 32 ∨ (Rect.block (s := S256x1) S256x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x1.size a ≤ S256x1.size a
  hwx2_8 : ∀ i : grid2.Coords, EltTy.bits .f32 = 32 ∨ (Rect.block (s := S256x1) S256x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1x256x3136.size a ≤ S32x256x3136.size a
  hwx2_9 : ∀ i : grid2.Coords, EltTy.bits .f32 = 32 ∨ (Rect.block (s := S32x256x3136) S1x256x3136.size (cc2_transform_9 i) (hinb2_9 i)).WholeWords (EltTy.packing .f32)

variable [Facts₀]

def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf
def dot_S256x256_S256x3136_S256x3136_1_0_0_1_n_n : DotDims S256x256 S256x3136 S256x3136 where
  lhsContracting := [1]
  rhsContracting := [0]
  lhsNonContracting := [0]
  rhsNonContracting := [1]
  lhsBatch := []
  rhsBatch := []
  wf := dot_S256x256_S256x3136_S256x3136_1_0_0_1_n_n_wf

abbrev win0_0 : Pipeline.Window sig grid0 :=
  Pipeline.Window.ofSpec (Memref.whole main_v0) S1x256x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1x256x3136.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S256x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S256x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8_0) S1x256x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v8_1) S1x256x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v0) S1x256x3136.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S256x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S256x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v2) S256x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v9) S256x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v13) S256x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v16) S256x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v17) S1x256x3136.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S32x256x56x56 : Shape := ⟨4, ![32, 256, 56, 56]⟩
abbrev S256x256 : Shape := ⟨2, ![256, 256]⟩
abbrev S256 : Shape := ⟨1, ![256]⟩
abbrev S_ : Shape := ⟨0, ![]⟩
abbrev S32x56x56x256 : Shape := ⟨4, ![32, 56, 56, 256]⟩
abbrev S100352x256 : Shape := ⟨2, ![100352, 256]⟩
abbrev S256x100352 : Shape := ⟨2, ![256, 100352]⟩
abbrev S256x1 : Shape := ⟨2, ![256, 1]⟩

abbrev nBuf : Space → Nat
  | .hbm => 50
  | .vmem => 0
  | .smem => 0
  | _ => 0

abbrev bufTy : (tb : Table) → Fin (tcTables nBuf tb) → BufTy
  | .hbm, ⟨0, _⟩ => ⟨S32x256x56x56, .f32⟩
  | .hbm, ⟨1, _⟩ => ⟨S256x256, .f32⟩
  | .hbm, ⟨2, _⟩ => ⟨S256, .f32⟩
  | .hbm, ⟨3, _⟩ => ⟨S_, .f32⟩
  | .hbm, ⟨4, _⟩ => ⟨S32x256x56x56, .f32⟩
  | .hbm, ⟨5, _⟩ => ⟨S32x256x56x56, .f32⟩
  | .hbm, ⟨6, _⟩ => ⟨S32x56x56x256, .f32⟩
  | .hbm, ⟨7, _⟩ => ⟨S100352x256, .f32⟩
  | .hbm, ⟨8, _⟩ => ⟨S256x100352, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x100352, .f32⟩
  | .hbm, ⟨16, _⟩ => ⟨S256x100352, .f32⟩
  | .hbm, ⟨17, _⟩ => ⟨S256x256, .f32⟩
  | .hbm, ⟨18, _⟩ => ⟨S256x100352, .f32⟩
  | .hbm, ⟨19, _⟩ => ⟨S256x1, .f32⟩
  | .hbm, ⟨20, _⟩ => ⟨S256x1, .f32⟩
  | .hbm, ⟨21, _⟩ => ⟨S256x100352, .f32⟩
  | .hbm, ⟨22, _⟩ => ⟨S256x100352, .f32⟩
  | .hbm, ⟨23, _⟩ => ⟨S256x100352, .f32⟩
  | .hbm, ⟨24, _⟩ => ⟨S256x100352, .f32⟩
  | .hbm, ⟨25, _⟩ => ⟨S_, .f32⟩
  | .hbm, ⟨26, _⟩ => ⟨S256, .f32⟩
  | .hbm, ⟨27, _⟩ => ⟨S256x1, .f32⟩
  | .hbm, ⟨28, _⟩ => ⟨S_, .f32⟩
  | .hbm, ⟨29, _⟩ => ⟨S256, .f32⟩
  | .hbm, ⟨30, _⟩ => ⟨S256x1, .f32⟩
  | .hbm, ⟨31, _⟩ => ⟨S256x1, .f32⟩
  | .hbm, ⟨32, _⟩ => ⟨S_, .f32⟩
  | .hbm, ⟨33, _⟩ => ⟨S256x1, .f32⟩
  | .hbm, ⟨34, _⟩ => ⟨S256x1, .f32⟩
  | .hbm, ⟨35, _⟩ => ⟨S256x100352, .f32⟩
  | .hbm, ⟨36, _⟩ => ⟨S256x100352, .f32⟩
  | .hbm, ⟨37, _⟩ => ⟨S256x100352, .f32⟩
  | .hbm, ⟨38, _⟩ => ⟨S256x100352, .f32⟩
  | .hbm, ⟨39, _⟩ => ⟨S256x100352, .f32⟩
  | .hbm, ⟨40, _⟩ => ⟨S256x100352, .f32⟩
  | .hbm, ⟨41, _⟩ => ⟨S256x100352, .f32⟩
  | .hbm, ⟨42, _⟩ => ⟨S256x100352, .f32⟩
  | .hbm, ⟨43, _⟩ => ⟨S256x100352, .f32⟩
  | .hbm, ⟨44, _⟩ => ⟨S256x100352, .f32⟩
  | .hbm, ⟨45, _⟩ => ⟨S256x100352, .f32⟩
  | .hbm, ⟨46, _⟩ => ⟨S256x100352, .f32⟩
  | .hbm, ⟨47, _⟩ => ⟨S100352x256, .f32⟩
  | .hbm, ⟨48, _⟩ => ⟨S32x56x56x256, .f32⟩
  | .hbm, ⟨49, _⟩ => ⟨S32x256x56x56, .f32⟩
  | _, _ => ⟨S32x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S_S32x256x56x56 : S_.BroadcastsInDim S32x256x56x56 (![] : Fin 0 → Fin S32x256x56x56.rank)
  transposes_S32x256x56x56_S32x56x56x256_0_2_3_1 : S32x256x56x56.Transposes [0, 2, 3, 1] S32x56x56x256
  shapeCasts_S32x56x56x256_S100352x256 : S32x56x56x256.ShapeCasts S100352x256
  transposes_S100352x256_S256x100352_1_0 : S100352x256.Transposes [1, 0] S256x100352
  reducesTo_S256x100352_S256_d1 : S256x100352.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x100352_0_1 : S256x1.BroadcastsInDim S256x100352 (![0, 1] : Fin 2 → Fin S256x100352.rank)
  transposes_S256x256_S256x256_1_0 : S256x256.Transposes [1, 0] S256x256
  transposes_S256x100352_S100352x256_1_0 : S256x100352.Transposes [1, 0] S100352x256
  shapeCasts_S100352x256_S32x56x56x256 : S100352x256.ShapeCasts S32x56x56x256
  transposes_S32x56x56x256_S32x256x56x56_0_3_1_2 : S32x56x56x256.Transposes [0, 3, 1, 2] S32x256x56x56
  dot_S256x256_S256x100352_S256x100352_1_0_0_1_n_n_wf : DotDims.WF S256x256 S256x100352 S256x100352 [1] [0] [0] [1] [] []

variable [Facts₀]

def dot_S256x256_S256x100352_S256x100352_1_0_0_1_n_n : DotDims S256x256 S256x100352 S256x100352 where
  lhsContracting := [1]
  rhsContracting := [0]
  lhsNonContracting := [0]
  rhsNonContracting := [1]
  lhsBatch := []
  rhsBatch := []
  wf := dot_S256x256_S256x100352_S256x100352_1_0_0_1_n_n_wf

class Facts : Prop extends Facts₀ where

variable [Facts]
-- ==== Proof.Bits.Region0Runs.lean ====
/-
  The first kernel region (the per-channel sum of the rectified input): what its runs share.
  The grid is 2 × 16; a point (p, b) adds the lane sums of batch 16·p + b's rectified slab to a
  scratch accumulator that the point b = 0 resets, and copies the accumulator to the output block
  p. Two control cases: the first point of a chain (reset, then add) and a later point (add to what
  the point before left in the scratch).
-/
import proofs.«128398_j30554397343924_2_alg».proof.Proof.Gen.Kernel.Launch
import proofs.«128398_j30554397343924_2_alg».proof.Proof.Gen.Kernel.Skeleton
import proofs.«128398_j30554397343924_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The control case -/

/-- The body's one branch condition from the grid coordinates: the inner coordinate is zero. -/
abbrev chainStart0 (i : grid0.Coords) : Prop :=
  (Scalar.cmpi .ne (Scalar.extui (Scalar.cmpi .eq (BitVec.ofNat 32 (i 1).val) 0#32)) 0#32) = 1#1

/-- It holds exactly at the points ≡ 0 (mod 16): the first point of each of the two chains. -/
theorem chainStart0_iff : ∀ t : Fin cfg0.N, chainStart0 (grid0.coords t) ↔ t.val % 16 = 0 :=
  (by decide +kernel : ∀ t : Fin grid0.N, chainStart0 (grid0.coords t) ↔ t.val % 16 = 0)

/-- No window of this region is ever idle. -/
theorem live0_0 : ∀ t : Fin cfg0.N, cfg0.idle 0 (grid0.coords t) = false := by decide +kernel
theorem live0_1 : ∀ t : Fin cfg0.N, cfg0.idle 1 (grid0.coords t) = false := by decide +kernel

/-! ## The memrefs the body is called with -/

abbrev mIn0 (t : Fin cfg0.N) : Memref sig .tc .vmem S1x256x3136 .f32 := win0_0.stage (cfg0.slots t 0)
abbrev hIn0 (t : Fin cfg0.N) : (mIn0 t).IsWhole := hstage0_0 ((cfg0.slots t 0).cast nbuf0_0)
abbrev mOut0 (t : Fin cfg0.N) : Memref sig .tc .vmem S1x256x1 .f32 := win0_1.stage (cfg0.slots t 1)
abbrev hOut0 (t : Fin cfg0.N) : (mOut0 t).IsWhole := hstage0_1 ((cfg0.slots t 1).cast nbuf0_1)
/-- The accumulator: a whole scoped buffer of the kernel's own. -/
abbrev mAcc0 : Memref sig .tc .vmem S256x1 .f32 := Memref.whole cc0_scratch0
/-- Views through which the output block's and the accumulator's contents are stated. -/
abbrev vOut0 : View sig .tc .vmem S1x256x1 .f32 := (Memref.whole cc0_stg1_0 : Memref sig .tc .vmem S1x256x1 .f32).view
abbrev vAcc0 : View sig .tc .vmem S256x1 .f32 := mAcc0.view

/-! ## The scoped buffers the region does not stage: the accumulator and the others -/

theorem scoped0_split (c : Dev nD) : ∃ R : sProp 𝕄,
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ R) :=
  ⟨_, scopedRest0_eq c⟩

/-- Every scoped buffer that is neither a staging buffer of this region nor its accumulator, at some contents. -/
def others0 (c : Dev nD) : sProp 𝕄 := Classical.choose (scoped0_split (F := F) c)

theorem scoped0_eq (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ others0 c) :=
  Classical.choose_spec (scoped0_split (F := F) c)

/-- The class invariant with the accumulator as a memref owned at some contents. -/
theorem PhiA0_eq (c : Dev nD) :
    (Pipeline.ΦA spec0 c : sProp 𝕄)
      = iprop(((∃ d, owns (c : Thread nD τ) mAcc0 fullShare d) ∗ others0 c) ∗ (∃ r, prngReg c r)) := by
  unfold Pipeline.ΦA; rw [scoped0_eq]; simp only [mAcc0, owns_whole]; try rfl

/-! ## The body's run in each case, with the pieces each buffer ends with as its witness -/

set_option maxHeartbeats 1000000 in
/-- The first point of a chain: the accumulator is reset, then the lane sums are added and the result
    copied to the output block. The pieces each buffer ends with are found by the run. -/
noncomputable def runStart0 (c : Dev nD) (i : grid0.Coords) (arg2 : Memref sig .tc .vmem S1x256x3136 .f32) (harg2 : arg2.IsWhole) (arg3 : Memref sig .tc .vmem S1x256x1 .f32) (harg3 : arg3.IsWhole) (arg4 : Memref sig .tc .vmem S256x1 .f32) (harg4 : arg4.IsWhole) (hc : chainStart0 i)
    (x0 : Vec F S1x256x3136 .f32) :
    Σ' (L1 : List (View.Piece (Elt F) S1x256x1 .f32)), { LS : List (View.Piece (Elt F) S256x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS)) -∗ K ⟨⟩))
          ⊢ wp frame (wpE (defs₀ (F := F)) Variants.none c none) E (cc0_kernel i arg2 harg2 arg3 harg3 arg4 harg4) K } := by
  refine ⟨?_, ?_, fun E K => ?run⟩
  case run =>
    simp only [cc0_kernel_eq_skeleton]; unfold cc0_kernel_skel
    unfold owns
    iintro ⟨⟨%f0, %hf0, H0⟩, ⟨%d1, %f1, -, H1⟩, ⟨%ds, %fs, -, HS⟩, Hk⟩
    obtain rfl := harg2.eq_unread hf0
    sl_exec (disch := first | exact hc)
    sl_step
    iapply Hk
    isplitl [H0]
    · iexists _; isplitr; · ipureintro; exact harg2.read_unread _
      iexact H0
    isplitl [H1]; · iexists _; iexact H1
    iexists _; iexact HS

set_option maxHeartbeats 1000000 in
/-- A later point of a chain: the lane sums are added to what the point before left in the accumulator
    (`xs`), and the result copied to the output block. -/
noncomputable def runNext0 (c : Dev nD) (i : grid0.Coords) (arg2 : Memref sig .tc .vmem S1x256x3136 .f32) (harg2 : arg2.IsWhole) (arg3 : Memref sig .tc .vmem S1x256x1 .f32) (harg3 : arg3.IsWhole) (arg4 : Memref sig .tc .vmem S256x1 .f32) (harg4 : arg4.IsWhole) (hc : ¬chainStart0 i)
    (x0 : Vec F S1x256x3136 .f32) (xs : Vec F S256x1 .f32) :
    Σ' (L1 : List (View.Piece (Elt F) S1x256x1 .f32)), { LS : List (View.Piece (Elt F) S256x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS)) -∗ K ⟨⟩))
          ⊢ wp frame (wpE (defs₀ (F := F)) Variants.none c none) E (cc0_kernel i arg2 harg2 arg3 harg3 arg4 harg4) K } := by
  refine ⟨?_, ?_, fun E K => ?run⟩
  case run =>
    simp only [cc0_kernel_eq_skeleton]; unfold cc0_kernel_skel
    unfold owns
    iintro ⟨⟨%f0, %hf0, H0⟩, ⟨%d1, %f1, -, H1⟩, ⟨%fs, %hfs, HS⟩, Hk⟩
    obtain rfl := harg2.eq_unread hf0; obtain rfl := harg4.eq_unread hfs
    sl_exec (disch := first | exact hc)
    sl_step
    iapply Hk
    isplitl [H0]
    · iexists _; isplitr; · ipureintro; exact harg2.read_unread _
      iexact H0
    isplitl [H1]; · iexists _; iexact H1
    iexists _; iexact HS

end Cert.Kernel.Fr

end
-- ==== Proof.Bits.Region0.lean ====
/-
  The first kernel region (the per-channel sum of the rectified input): what its buffers hold point by
  point, the proof data and the body obligation, at the buffer contents `V` the region is entered with.
-/
import proofs.«128398_j30554397343924_2_alg».proof.Proof.Gen.Kernel.Launch
import proofs.«128398_j30554397343924_2_alg».proof.Proof.Gen.Kernel.Skeleton
import proofs.«128398_j30554397343924_2_alg».proof.Proof.Gen.Kernel.Points
import proofs.«128398_j30554397343924_2_alg».proof.Proof.Bits.Region0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the output block's buffer and in the accumulator -/

theorem coverOutStart0 (c : Dev nD) (i : grid0.Coords) (arg2 : Memref sig .tc .vmem S1x256x3136 .f32) (harg2 : arg2.IsWhole) (arg3 : Memref sig .tc .vmem S1x256x1 .f32) (harg3 : arg3.IsWhole) (arg4 : Memref sig .tc .vmem S256x1 .f32) (harg4 : arg4.IsWhole) (hc : chainStart0 i)
    (x0 : Vec F S1x256x3136 .f32) (y : S1x256x1.Idx) :
    ∃ pc ∈ (runStart0 c i arg2 harg2 arg3 harg3 arg4 harg4 hc x0).1, y ∈ pc.1.set :=
  View.cover_of_tiledL (runStart0 c i arg2 harg2 arg3 harg3 arg4 harg4 hc x0).1 S1x256x1.size (by sl_kernel_rfl) y

def outStart0 (c : Dev nD) (i : grid0.Coords) (arg2 : Memref sig .tc .vmem S1x256x3136 .f32) (harg2 : arg2.IsWhole) (arg3 : Memref sig .tc .vmem S1x256x1 .f32) (harg3 : arg3.IsWhole) (arg4 : Memref sig .tc .vmem S256x1 .f32) (harg4 : arg4.IsWhole) (hc : chainStart0 i)
    (x0 : Vec F S1x256x3136 .f32) : Vec F S1x256x1 .f32 :=
  vOut0.read (Elt F) (vOut0.writes (Elt F) vOut0.junk (runStart0 c i arg2 harg2 arg3 harg3 arg4 harg4 hc x0).1)

theorem coverAccStart0 (c : Dev nD) (i : grid0.Coords) (arg2 : Memref sig .tc .vmem S1x256x3136 .f32) (harg2 : arg2.IsWhole) (arg3 : Memref sig .tc .vmem S1x256x1 .f32) (harg3 : arg3.IsWhole) (arg4 : Memref sig .tc .vmem S256x1 .f32) (harg4 : arg4.IsWhole) (hc : chainStart0 i)
    (x0 : Vec F S1x256x3136 .f32) (y : S256x1.Idx) :
    ∃ pc ∈ (runStart0 c i arg2 harg2 arg3 harg3 arg4 harg4 hc x0).2.1, y ∈ pc.1.set :=
  View.cover_of_tiledL (runStart0 c i arg2 harg2 arg3 harg3 arg4 harg4 hc x0).2.1 S256x1.size (by sl_kernel_rfl) y

def accStart0 (c : Dev nD) (i : grid0.Coords) (arg2 : Memref sig .tc .vmem S1x256x3136 .f32) (harg2 : arg2.IsWhole) (arg3 : Memref sig .tc .vmem S1x256x1 .f32) (harg3 : arg3.IsWhole) (arg4 : Memref sig .tc .vmem S256x1 .f32) (harg4 : arg4.IsWhole) (hc : chainStart0 i)
    (x0 : Vec F S1x256x3136 .f32) : Vec F S256x1 .f32 :=
  vAcc0.read (Elt F) (vAcc0.writes (Elt F) vAcc0.junk (runStart0 c i arg2 harg2 arg3 harg3 arg4 harg4 hc x0).2.1)

theorem coverOutNext0 (c : Dev nD) (i : grid0.Coords) (arg2 : Memref sig .tc .vmem S1x256x3136 .f32) (harg2 : arg2.IsWhole) (arg3 : Memref sig .tc .vmem S1x256x1 .f32) (harg3 : arg3.IsWhole) (arg4 : Memref sig .tc .vmem S256x1 .f32) (harg4 : arg4.IsWhole) (hc : ¬chainStart0 i)
    (x0 : Vec F S1x256x3136 .f32) (xs : Vec F S256x1 .f32) (y : S1x256x1.Idx) :
    ∃ pc ∈ (runNext0 c i arg2 harg2 arg3 harg3 arg4 harg4 hc x0 xs).1, y ∈ pc.1.set :=
  View.cover_of_tiledL (runNext0 c i arg2 harg2 arg3 harg3 arg4 harg4 hc x0 xs).1 S1x256x1.size (by sl_kernel_rfl) y

def outNext0 (c : Dev nD) (i : grid0.Coords) (arg2 : Memref sig .tc .vmem S1x256x3136 .f32) (harg2 : arg2.IsWhole) (arg3 : Memref sig .tc .vmem S1x256x1 .f32) (harg3 : arg3.IsWhole) (arg4 : Memref sig .tc .vmem S256x1 .f32) (harg4 : arg4.IsWhole) (hc : ¬chainStart0 i)
    (x0 : Vec F S1x256x3136 .f32) (xs : Vec F S256x1 .f32) : Vec F S1x256x1 .f32 :=
  vOut0.read (Elt F) (vOut0.writes (Elt F) vOut0.junk (runNext0 c i arg2 harg2 arg3 harg3 arg4 harg4 hc x0 xs).1)

theorem coverAccNext0 (c : Dev nD) (i : grid0.Coords) (arg2 : Memref sig .tc .vmem S1x256x3136 .f32) (harg2 : arg2.IsWhole) (arg3 : Memref sig .tc .vmem S1x256x1 .f32) (harg3 : arg3.IsWhole) (arg4 : Memref sig .tc .vmem S256x1 .f32) (harg4 : arg4.IsWhole) (hc : ¬chainStart0 i)
    (x0 : Vec F S1x256x3136 .f32) (xs : Vec F S256x1 .f32) (y : S256x1.Idx) :
    ∃ pc ∈ (runNext0 c i arg2 harg2 arg3 harg3 arg4 harg4 hc x0 xs).2.1, y ∈ pc.1.set :=
  View.cover_of_tiledL (runNext0 c i arg2 harg2 arg3 harg3 arg4 harg4 hc x0 xs).2.1 S256x1.size (by sl_kernel_rfl) y

def accNext0 (c : Dev nD) (i : grid0.Coords) (arg2 : Memref sig .tc .vmem S1x256x3136 .f32) (harg2 : arg2.IsWhole) (arg3 : Memref sig .tc .vmem S1x256x1 .f32) (harg3 : arg3.IsWhole) (arg4 : Memref sig .tc .vmem S256x1 .f32) (harg4 : arg4.IsWhole) (hc : ¬chainStart0 i)
    (x0 : Vec F S1x256x3136 .f32) (xs : Vec F S256x1 .f32) : Vec F S256x1 .f32 :=
  vAcc0.read (Elt F) (vAcc0.writes (Elt F) vAcc0.junk (runNext0 c i arg2 harg2 arg3 harg3 arg4 harg4 hc x0 xs).2.1)

/-! ## What the output block's buffer and the accumulator hold after each point -/

/-- After the body at position `n`: (the output block's buffer, the accumulator). At the first point of
    a chain the reset case; elsewhere the adding case over what the point before left in the accumulator. -/
def held0 (c : Dev nD) : (n : ℕ) → n < cfg0.N → Vec F S1x256x1 .f32 × Vec F S256x1 .f32
  | 0, hn => (outStart0 c (grid0.coords ⟨0, hn⟩) (mIn0 ⟨0, hn⟩) (hIn0 ⟨0, hn⟩) (mOut0 ⟨0, hn⟩) (hOut0 ⟨0, hn⟩) mAcc0 (Memref.isWhole_whole _) ((chainStart0_iff ⟨0, hn⟩).mpr (Nat.zero_mod _)) (iblk0 V c 0 ⟨0, hn⟩),
      accStart0 c (grid0.coords ⟨0, hn⟩) (mIn0 ⟨0, hn⟩) (hIn0 ⟨0, hn⟩) (mOut0 ⟨0, hn⟩) (hOut0 ⟨0, hn⟩) mAcc0 (Memref.isWhole_whole _) ((chainStart0_iff ⟨0, hn⟩).mpr (Nat.zero_mod _)) (iblk0 V c 0 ⟨0, hn⟩))
  | n + 1, hn =>
    if h0 : (n + 1) % 16 = 0 then
      (outStart0 c (grid0.coords ⟨n + 1, hn⟩) (mIn0 ⟨n + 1, hn⟩) (hIn0 ⟨n + 1, hn⟩) (mOut0 ⟨n + 1, hn⟩) (hOut0 ⟨n + 1, hn⟩) mAcc0 (Memref.isWhole_whole _) ((chainStart0_iff ⟨n + 1, hn⟩).mpr h0) (iblk0 V c 0 ⟨n + 1, hn⟩),
        accStart0 c (grid0.coords ⟨n + 1, hn⟩) (mIn0 ⟨n + 1, hn⟩) (hIn0 ⟨n + 1, hn⟩) (mOut0 ⟨n + 1, hn⟩) (hOut0 ⟨n + 1, hn⟩) mAcc0 (Memref.isWhole_whole _) ((chainStart0_iff ⟨n + 1, hn⟩).mpr h0) (iblk0 V c 0 ⟨n + 1, hn⟩))
    else
      (outNext0 c (grid0.coords ⟨n + 1, hn⟩) (mIn0 ⟨n + 1, hn⟩) (hIn0 ⟨n + 1, hn⟩) (mOut0 ⟨n + 1, hn⟩) (hOut0 ⟨n + 1, hn⟩) mAcc0 (Memref.isWhole_whole _) (fun h => h0 ((chainStart0_iff ⟨n + 1, hn⟩).mp h)) (iblk0 V c 0 ⟨n + 1, hn⟩) (held0 c n (Nat.lt_of_succ_lt hn)).2,
        accNext0 c (grid0.coords ⟨n + 1, hn⟩) (mIn0 ⟨n + 1, hn⟩) (hIn0 ⟨n + 1, hn⟩) (mOut0 ⟨n + 1, hn⟩) (hOut0 ⟨n + 1, hn⟩) mAcc0 (Memref.isWhole_whole _) (fun h => h0 ((chainStart0_iff ⟨n + 1, hn⟩).mp h)) (iblk0 V c 0 ⟨n + 1, hn⟩) (held0 c n (Nat.lt_of_succ_lt hn)).2)

theorem held0_start (c : Dev nD) (t : Fin cfg0.N) (h0 : t.val % 16 = 0) :
    held0 V c t.val t.isLt = (outStart0 c (grid0.coords t) (mIn0 t) (hIn0 t) (mOut0 t) (hOut0 t) mAcc0 (Memref.isWhole_whole _) ((chainStart0_iff t).mpr h0) (iblk0 V c 0 t),
      accStart0 c (grid0.coords t) (mIn0 t) (hIn0 t) (mOut0 t) (hOut0 t) mAcc0 (Memref.isWhole_whole _) ((chainStart0_iff t).mpr h0) (iblk0 V c 0 t)) := by
  obtain ⟨n, hn⟩ := t
  cases n with
  | zero => exact rfl
  | succ n => exact (dif_pos h0).trans rfl

theorem held0_next (c : Dev nD) (t : Fin cfg0.N) (h0 : ¬t.val % 16 = 0) :
    held0 V c t.val t.isLt = (outNext0 c (grid0.coords t) (mIn0 t) (hIn0 t) (mOut0 t) (hOut0 t) mAcc0 (Memref.isWhole_whole _) (fun h => h0 ((chainStart0_iff t).mp h)) (iblk0 V c 0 t) (held0 V c (t.val - 1) (Nat.lt_of_le_of_lt (Nat.sub_le _ _) t.isLt)).2,
      accNext0 c (grid0.coords t) (mIn0 t) (hIn0 t) (mOut0 t) (hOut0 t) mAcc0 (Memref.isWhole_whole _) (fun h => h0 ((chainStart0_iff t).mp h)) (iblk0 V c 0 t) (held0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region invariant -/

/-- Before position `n`: at the start the class invariant (every scoped buffer at anything); afterwards
    the accumulator at what the point before left, the other scoped buffers at anything, and the
    generator register at some state. -/
def inv0 (c : Dev nD) : (n : ℕ) → n ≤ cfg0.N → sProp 𝕄
  | 0, _ => Pipeline.ΦA spec0 c
  | n + 1, hn => iprop((owns (c : Thread nD τ) mAcc0 fullShare ((held0 V c n hn).2) ∗ others0 c) ∗ (∃ r, prngReg c r))

theorem inv0_zero (c : Dev nD) (n : ℕ) (h : n ≤ cfg0.N) (hz : n = 0) : inv0 V c n h = Pipeline.ΦA spec0 c := by
  subst hz; rfl

theorem inv0_succ (c : Dev nD) (n : ℕ) (hn : n < cfg0.N) :
    inv0 V c (n + 1) hn = iprop((owns (c : Thread nD τ) mAcc0 fullShare ((held0 V c n hn).2) ∗ others0 c) ∗ (∃ r, prngReg c r)) := rfl

theorem inv0_pos (c : Dev nD) (n : ℕ) (h : n ≤ cfg0.N) (hz : n ≠ 0) :
    inv0 V c n h = iprop((owns (c : Thread nD τ) mAcc0 fullShare ((held0 V c (n - 1) (by omega)).2) ∗ others0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (held0 V c t.val t.isLt).1
  Φ t := inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem inv0_castSucc (c : Dev nD) (t : Fin cfg0.N) :
    (dat0 V c).Φ t.castSucc = inv0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (held0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (mIn0 t) fullShare ((dat0 V c).before 0 t d))
    ∗ (∃ d, owns (c : Thread nD τ) (mOut0 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = inv0 V c (t.val + 1) t.isLt from rfl, inv0_succ]
  have hN : t.val < 32 := lt_of_lt_of_eq t.isLt (show cfg0.N = 32 from N_0)
  rw [show (dat0 V c).leavesExact 0 t = owns (c : Thread nD τ) (mIn0 t) fullShare ((dat0 V c).after 0 t) from by
    unfold Dat.leavesExact; rw [live0_0 t], after0_0]
  rw [show (dat0 V c).leavesExact 1 t = owns (c : Thread nD τ) (mOut0 t) fullShare ((dat0 V c).after 1 t) from by
    unfold Dat.leavesExact; rw [live0_1 t], after0_1]
  by_cases h0 : t.val % 16 = 0
  · rw [held0_start V c t h0]
    unfold outStart0 accStart0; (try dsimp only)
    have hpre : (dat0 V c).Φ t.castSucc ⊢ (iprop(((∃ d, owns (c : Thread nD τ) mAcc0 fullShare d) ∗ others0 c) ∗ (∃ r, prngReg c r)) : sProp 𝕄) := by
      rw [inv0_castSucc V c t]
      by_cases hz : t.val = 0
      · rw [inv0_zero V c _ _ hz, PhiA0_eq]
      · rw [inv0_pos V c _ _ hz]
        iintro ⟨⟨HS, Hr⟩, Hg⟩
        isplitl [HS Hr]
        · isplitl [HS]; · iexists _; iexact HS
          iexact Hr
        iexact Hg
    iintro ⟨HΦ, Ho, ⟨%d0, H0⟩, ⟨%d1, H1⟩⟩
    ihave HΦ' := hpre $$ HΦ
    icases HΦ' with ⟨⟨HS, Hr⟩, Hg⟩
    iapply ((runStart0 c (grid0.coords t) _ _ _ _ _ _ ((chainStart0_iff t).mpr h0) (iblk0 V c 0 t)).2.2 Set.univ _)
    isplitl [H0]; · iexact H0
    isplitl [H1]; · iexists _; iexact H1
    isplitl [HS]; · iexact HS
    iintro ⟨H0, ⟨%e1, H1⟩, ⟨%es, HS⟩⟩
    isplitl [HS Hr Hg]
    · isplitl [HS Hr]
      · isplitl [HS]
        · unfold owns; iexists _; isplitr
          swap; · iexact HS
          ipureintro; exact View.read_writes_of_cover _ _ _ _ _ (coverAccStart0 c _ _ _ _ _ _ _ _ _)
        iexact Hr
      iexact Hg
    isplitl [Ho]; · iexact Ho
    isplitl [H0]; · iexact H0
    unfold owns; iexists _; isplitr
    swap; · iexact H1
    ipureintro; exact View.read_writes_of_cover _ _ _ _ _ (coverOutStart0 c _ _ _ _ _ _ _ _ _)
  · rw [held0_next V c t h0]
    unfold outNext0 accNext0; (try dsimp only)
    have hz : t.val ≠ 0 := fun h => h0 (by rw [h])
    rw [inv0_castSucc V c t, inv0_pos V c _ _ hz]
    iintro ⟨⟨⟨HS, Hr⟩, Hg⟩, Ho, ⟨%d0, H0⟩, ⟨%d1, H1⟩⟩
    iapply ((runNext0 c (grid0.coords t) _ _ _ _ _ _ (fun h => h0 ((chainStart0_iff t).mp h)) (iblk0 V c 0 t) _).2.2 Set.univ _)
    isplitl [H0]; · iexact H0
    isplitl [H1]; · iexists _; iexact H1
    isplitl [HS]; · iexact HS
    iintro ⟨H0, ⟨%e1, H1⟩, ⟨%es, HS⟩⟩
    isplitl [HS Hr Hg]
    · isplitl [HS Hr]
      · isplitl [HS]
        · unfold owns; iexists _; isplitr
          swap; · iexact HS
          ipureintro; exact View.read_writes_of_cover _ _ _ _ _ (coverAccNext0 c _ _ _ _ _ _ _ _ _ _)
        iexact Hr
      iexact Hg
    isplitl [Ho]; · iexact Ho
    isplitl [H0]; · iexact H0
    unfold owns; iexists _; isplitr
    swap; · iexact H1
    ipureintro; exact View.read_writes_of_cover _ _ _ _ _ (coverOutNext0 c _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = inv0 V c 0 (Nat.zero_le _) from rfl, inv0_zero V c 0 _ rfl]

/-- After the last point the invariant gives the class invariant back: the accumulator's contents are forgotten. -/
theorem hout0 (c : Dev nD) : (dat0 V c).Φ (Fin.last cfg0.N) ⊢ Pipeline.ΦA spec0 c := by
  rw [show (dat0 V c).Φ (Fin.last cfg0.N) = inv0 V c (Fin.last cfg0.N).val (Nat.le_of_lt_succ (Fin.last cfg0.N).isLt) from rfl,
    inv0_pos V c _ _ (by rw [Fin.val_last]; have : cfg0.N = 32 := N_0; omega), PhiA0_eq]
  iintro ⟨⟨HS, Hr⟩, Hg⟩
  isplitl [HS Hr]
  · isplitl [HS]; · iexists _; iexact HS
    iexact Hr
  iexact Hg

end

end Cert.Kernel.Fr

end
-- ==== Proof.Bits.Region1Runs.lean ====
/-
  The second kernel region (the running per-channel minimum and maximum of the clamped projection): what
  its runs share. The grid is 2 × 16; a point (p, b) projects batch 16·p + b's rectified slab, subtracts
  the projected mean, clamps, and folds the lane minima and maxima into two scratch accumulators that the
  point b = 0 resets to +∞ and −∞; both accumulators are copied to the output blocks p.
-/
import proofs.«128398_j30554397343924_2_alg».proof.Proof.Gen.Kernel.Launch
import proofs.«128398_j30554397343924_2_alg».proof.Proof.Gen.Kernel.Skeleton
import proofs.«128398_j30554397343924_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The control case -/

abbrev chainStart1 (i : grid1.Coords) : Prop :=
  (Scalar.cmpi .ne (Scalar.extui (Scalar.cmpi .eq (BitVec.ofNat 32 (i 1).val) 0#32)) 0#32) = 1#1

theorem chainStart1_iff : ∀ t : Fin cfg1.N, chainStart1 (grid1.coords t) ↔ t.val % 16 = 0 :=
  (by decide +kernel : ∀ t : Fin grid1.N, chainStart1 (grid1.coords t) ↔ t.val % 16 = 0)

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
theorem live1_5 : ∀ t : Fin cfg1.N, cfg1.idle 5 (grid1.coords t) = false := by decide +kernel

/-! ## The memrefs the body is called with -/

abbrev m1_0 (t : Fin cfg1.N) : Memref sig .tc .vmem S1x256x3136 .f32 := win1_0.stage (cfg1.slots t 0)
abbrev h1_0 (t : Fin cfg1.N) : (m1_0 t).IsWhole := hstage1_0 ((cfg1.slots t 0).cast nbuf1_0)
abbrev m1_1 (t : Fin cfg1.N) : Memref sig .tc .vmem S256x256 .f32 := win1_1.stage (cfg1.slots t 1)
abbrev h1_1 (t : Fin cfg1.N) : (m1_1 t).IsWhole := hstage1_1 ((cfg1.slots t 1).cast nbuf1_1)
abbrev m1_2 (t : Fin cfg1.N) : Memref sig .tc .vmem S256x1 .f32 := win1_2.stage (cfg1.slots t 2)
abbrev h1_2 (t : Fin cfg1.N) : (m1_2 t).IsWhole := hstage1_2 ((cfg1.slots t 2).cast nbuf1_2)
abbrev m1_3 (t : Fin cfg1.N) : Memref sig .tc .vmem S256x1 .f32 := win1_3.stage (cfg1.slots t 3)
abbrev h1_3 (t : Fin cfg1.N) : (m1_3 t).IsWhole := hstage1_3 ((cfg1.slots t 3).cast nbuf1_3)
abbrev m1_4 (t : Fin cfg1.N) : Memref sig .tc .vmem S1x256x1 .f32 := win1_4.stage (cfg1.slots t 4)
abbrev h1_4 (t : Fin cfg1.N) : (m1_4 t).IsWhole := hstage1_4 ((cfg1.slots t 4).cast nbuf1_4)
abbrev m1_5 (t : Fin cfg1.N) : Memref sig .tc .vmem S1x256x1 .f32 := win1_5.stage (cfg1.slots t 5)
abbrev h1_5 (t : Fin cfg1.N) : (m1_5 t).IsWhole := hstage1_5 ((cfg1.slots t 5).cast nbuf1_5)
/-- The two accumulators (running minimum, running maximum): whole scoped buffers of the kernel's own. -/
abbrev mMin1 : Memref sig .tc .vmem S256x1 .f32 := Memref.whole cc1_scratch0
abbrev mMax1 : Memref sig .tc .vmem S256x1 .f32 := Memref.whole cc1_scratch1
abbrev vOutMin1 : View sig .tc .vmem S1x256x1 .f32 := (Memref.whole cc1_stg4_0 : Memref sig .tc .vmem S1x256x1 .f32).view
abbrev vOutMax1 : View sig .tc .vmem S1x256x1 .f32 := (Memref.whole cc1_stg5_0 : Memref sig .tc .vmem S1x256x1 .f32).view
abbrev vMin1 : View sig .tc .vmem S256x1 .f32 := mMin1.view
abbrev vMax1 : View sig .tc .vmem S256x1 .f32 := mMax1.view

/-! ## The scoped buffers the region does not stage: the two accumulators and the others -/

/-- A scoped buffer whole at some contents. -/
abbrev anyAt (c : Dev nD) (b : Ref sig .tc) : sProp 𝕄 :=
  iprop(∃ f : Buf (Elt F) ((c : Thread nD τ).loc b), ((c : Thread nD τ).loc b) ↦{fullShare} f)

theorem scoped1_split (c : Dev nD) : ∃ R : sProp 𝕄,
    (Pipeline.scopedRest (Ix := Unit) (Name := ℕ) (U := UR sig nD τ) (Lvl := ℕ) (Val := Elt F) spec1 c : sProp 𝕄)
      = iprop(anyAt c cc0_stg0_0 ∗ anyAt c cc0_stg0_1 ∗ anyAt c cc0_stg1_0 ∗ anyAt c cc0_stg1_1 ∗ anyAt c cc0_scratch0 ∗ anyAt c cc1_scratch0 ∗ anyAt c cc1_scratch1 ∗ R) :=
  ⟨_, scopedRest1_eq c⟩

/-- The scoped buffers listed after the accumulators, at some contents. -/
def tail1 (c : Dev nD) : sProp 𝕄 := Classical.choose (scoped1_split (F := F) c)

theorem scoped1_eq (c : Dev nD) :
    (Pipeline.scopedRest (Ix := Unit) (Name := ℕ) (U := UR sig nD τ) (Lvl := ℕ) (Val := Elt F) spec1 c : sProp 𝕄)
      = iprop(anyAt c cc0_stg0_0 ∗ anyAt c cc0_stg0_1 ∗ anyAt c cc0_stg1_0 ∗ anyAt c cc0_stg1_1 ∗ anyAt c cc0_scratch0 ∗ anyAt c cc1_scratch0 ∗ anyAt c cc1_scratch1 ∗ tail1 c) :=
  Classical.choose_spec (scoped1_split (F := F) c)

/-- Every scoped buffer that is neither a staging buffer of this region nor one of its accumulators, at some contents. -/
def others1 (c : Dev nD) : sProp 𝕄 :=
  iprop(anyAt c cc0_stg0_0 ∗ anyAt c cc0_stg0_1 ∗ anyAt c cc0_stg1_0 ∗ anyAt c cc0_stg1_1 ∗ anyAt c cc0_scratch0 ∗ tail1 c)

/-- The class invariant opened: the two accumulators as memrefs owned at some contents, beside the others. -/
theorem PhiA1_open (c : Dev nD) :
    (Pipeline.ΦA spec1 c : sProp 𝕄)
      ⊢ iprop(((∃ d, owns (c : Thread nD τ) mMin1 fullShare d) ∗ (∃ d, owns (c : Thread nD τ) mMax1 fullShare d) ∗ others1 c) ∗ (∃ r, prngReg c r)) := by
  unfold Pipeline.ΦA others1; rw [scoped1_eq]; simp only [mMin1, mMax1, owns_whole]
  iintro ⟨⟨A1, A2, A3, A4, A5, S0, S1, R⟩, Hg⟩
  isplitr [Hg]
  · isplitl [S0]; · iexact S0
    isplitl [S1]; · iexact S1
    isplitl [A1]; · iexact A1
    isplitl [A2]; · iexact A2
    isplitl [A3]; · iexact A3
    isplitl [A4]; · iexact A4
    isplitl [A5]; · iexact A5
    iexact R
  iexact Hg

/-- And closed again. -/
theorem PhiA1_close (c : Dev nD) :
    (iprop(((∃ d, owns (c : Thread nD τ) mMin1 fullShare d) ∗ (∃ d, owns (c : Thread nD τ) mMax1 fullShare d) ∗ others1 c) ∗ (∃ r, prngReg c r)) : sProp 𝕄)
      ⊢ Pipeline.ΦA spec1 c := by
  unfold Pipeline.ΦA others1; rw [scoped1_eq]; simp only [mMin1, mMax1, owns_whole]
  iintro ⟨⟨S0, S1, A1, A2, A3, A4, A5, R⟩, Hg⟩
  isplitr [Hg]
  · isplitl [A1]; · iexact A1
    isplitl [A2]; · iexact A2
    isplitl [A3]; · iexact A3
    isplitl [A4]; · iexact A4
    isplitl [A5]; · iexact A5
    isplitl [S0]; · iexact S0
    isplitl [S1]; · iexact S1
    iexact R
  iexact Hg

/-! ## The body's run in each case -/

set_option maxHeartbeats 2000000 in
noncomputable def runStart1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : chainStart1 i)
    (x0 : Vec F S1x256x3136 .f32) (x1 : Vec F S256x256 .f32) (x2 : Vec F S256x1 .f32) (x3 : Vec F S256x1 .f32) :
    Σ' (L4 : List (View.Piece (Elt F) S1x256x1 .f32)) (L5 : List (View.Piece (Elt F) S1x256x1 .f32)) (LS0 : List (View.Piece (Elt F) S256x1 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1_kernel i arg2 harg2 arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

set_option maxHeartbeats 2000000 in
noncomputable def runNext1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : ¬chainStart1 i)
    (x0 : Vec F S1x256x3136 .f32) (x1 : Vec F S256x256 .f32) (x2 : Vec F S256x1 .f32) (x3 : Vec F S256x1 .f32) (xs0 : Vec F S256x1 .f32) (xs1 : Vec F S256x1 .f32) :
    Σ' (L4 : List (View.Piece (Elt F) S1x256x1 .f32)) (L5 : List (View.Piece (Elt F) S1x256x1 .f32)) (LS0 : List (View.Piece (Elt F) S256x1 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1_kernel i arg2 harg2 arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg8.eq_unread hfs0; obtain rfl := harg9.eq_unread hfs1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.Kernel.Fr

end
-- ==== Proof.Bits.Region1.lean ====
/-
  The second kernel region (running per-channel minimum and maximum of the clamped projection): what its
  buffers hold point by point, the proof data and the body obligation, at the buffer contents `V` the
  region is entered with.
-/
import proofs.«128398_j30554397343924_2_alg».proof.Proof.Gen.Kernel.Launch
import proofs.«128398_j30554397343924_2_alg».proof.Proof.Gen.Kernel.Skeleton
import proofs.«128398_j30554397343924_2_alg».proof.Proof.Gen.Kernel.Points
import proofs.«128398_j30554397343924_2_alg».proof.Proof.Bits.Region1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the two output blocks' buffers and in the two accumulators -/

theorem coverOutMinStart1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : chainStart1 i)
    (x0 : Vec F S1x256x3136 .f32) (x1 : Vec F S256x256 .f32) (x2 : Vec F S256x1 .f32) (x3 : Vec F S256x1 .f32) (y : S1x256x1.Idx) :
    ∃ pc ∈ (runStart1 c i arg2 harg2 arg3 harg3 arg4 harg4 arg5 harg5 arg6 harg6 arg7 harg7 arg8 harg8 arg9 harg9 hc x0 x1 x2 x3).1, y ∈ pc.1.set :=
  View.cover_of_tiledL (runStart1 c i arg2 harg2 arg3 harg3 arg4 harg4 arg5 harg5 arg6 harg6 arg7 harg7 arg8 harg8 arg9 harg9 hc x0 x1 x2 x3).1 S1x256x1.size (by sl_kernel_rfl) y

def valOutMinStart1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : chainStart1 i)
    (x0 : Vec F S1x256x3136 .f32) (x1 : Vec F S256x256 .f32) (x2 : Vec F S256x1 .f32) (x3 : Vec F S256x1 .f32) : Vec F S1x256x1 .f32 :=
  vOutMin1.read (Elt F) (vOutMin1.writes (Elt F) vOutMin1.junk (runStart1 c i arg2 harg2 arg3 harg3 arg4 harg4 arg5 harg5 arg6 harg6 arg7 harg7 arg8 harg8 arg9 harg9 hc x0 x1 x2 x3).1)

theorem coverOutMaxStart1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : chainStart1 i)
    (x0 : Vec F S1x256x3136 .f32) (x1 : Vec F S256x256 .f32) (x2 : Vec F S256x1 .f32) (x3 : Vec F S256x1 .f32) (y : S1x256x1.Idx) :
    ∃ pc ∈ (runStart1 c i arg2 harg2 arg3 harg3 arg4 harg4 arg5 harg5 arg6 harg6 arg7 harg7 arg8 harg8 arg9 harg9 hc x0 x1 x2 x3).2.1, y ∈ pc.1.set :=
  View.cover_of_tiledL (runStart1 c i arg2 harg2 arg3 harg3 arg4 harg4 arg5 harg5 arg6 harg6 arg7 harg7 arg8 harg8 arg9 harg9 hc x0 x1 x2 x3).2.1 S1x256x1.size (by sl_kernel_rfl) y

def valOutMaxStart1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : chainStart1 i)
    (x0 : Vec F S1x256x3136 .f32) (x1 : Vec F S256x256 .f32) (x2 : Vec F S256x1 .f32) (x3 : Vec F S256x1 .f32) : Vec F S1x256x1 .f32 :=
  vOutMax1.read (Elt F) (vOutMax1.writes (Elt F) vOutMax1.junk (runStart1 c i arg2 harg2 arg3 harg3 arg4 harg4 arg5 harg5 arg6 harg6 arg7 harg7 arg8 harg8 arg9 harg9 hc x0 x1 x2 x3).2.1)

theorem coverMinStart1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : chainStart1 i)
    (x0 : Vec F S1x256x3136 .f32) (x1 : Vec F S256x256 .f32) (x2 : Vec F S256x1 .f32) (x3 : Vec F S256x1 .f32) (y : S256x1.Idx) :
    ∃ pc ∈ (runStart1 c i arg2 harg2 arg3 harg3 arg4 harg4 arg5 harg5 arg6 harg6 arg7 harg7 arg8 harg8 arg9 harg9 hc x0 x1 x2 x3).2.2.1, y ∈ pc.1.set :=
  View.cover_of_tiledL (runStart1 c i arg2 harg2 arg3 harg3 arg4 harg4 arg5 harg5 arg6 harg6 arg7 harg7 arg8 harg8 arg9 harg9 hc x0 x1 x2 x3).2.2.1 S256x1.size (by sl_kernel_rfl) y

def valMinStart1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : chainStart1 i)
    (x0 : Vec F S1x256x3136 .f32) (x1 : Vec F S256x256 .f32) (x2 : Vec F S256x1 .f32) (x3 : Vec F S256x1 .f32) : Vec F S256x1 .f32 :=
  vMin1.read (Elt F) (vMin1.writes (Elt F) vMin1.junk (runStart1 c i arg2 harg2 arg3 harg3 arg4 harg4 arg5 harg5 arg6 harg6 arg7 harg7 arg8 harg8 arg9 harg9 hc x0 x1 x2 x3).2.2.1)

theorem coverMaxStart1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : chainStart1 i)
    (x0 : Vec F S1x256x3136 .f32) (x1 : Vec F S256x256 .f32) (x2 : Vec F S256x1 .f32) (x3 : Vec F S256x1 .f32) (y : S256x1.Idx) :
    ∃ pc ∈ (runStart1 c i arg2 harg2 arg3 harg3 arg4 harg4 arg5 harg5 arg6 harg6 arg7 harg7 arg8 harg8 arg9 harg9 hc x0 x1 x2 x3).2.2.2.1, y ∈ pc.1.set :=
  View.cover_of_tiledL (runStart1 c i arg2 harg2 arg3 harg3 arg4 harg4 arg5 harg5 arg6 harg6 arg7 harg7 arg8 harg8 arg9 harg9 hc x0 x1 x2 x3).2.2.2.1 S256x1.size (by sl_kernel_rfl) y

def valMaxStart1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : chainStart1 i)
    (x0 : Vec F S1x256x3136 .f32) (x1 : Vec F S256x256 .f32) (x2 : Vec F S256x1 .f32) (x3 : Vec F S256x1 .f32) : Vec F S256x1 .f32 :=
  vMax1.read (Elt F) (vMax1.writes (Elt F) vMax1.junk (runStart1 c i arg2 harg2 arg3 harg3 arg4 harg4 arg5 harg5 arg6 harg6 arg7 harg7 arg8 harg8 arg9 harg9 hc x0 x1 x2 x3).2.2.2.1)

theorem coverOutMinNext1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : ¬chainStart1 i)
    (x0 : Vec F S1x256x3136 .f32) (x1 : Vec F S256x256 .f32) (x2 : Vec F S256x1 .f32) (x3 : Vec F S256x1 .f32) (xs0 : Vec F S256x1 .f32) (xs1 : Vec F S256x1 .f32) (y : S1x256x1.Idx) :
    ∃ pc ∈ (runNext1 c i arg2 harg2 arg3 harg3 arg4 harg4 arg5 harg5 arg6 harg6 arg7 harg7 arg8 harg8 arg9 harg9 hc x0 x1 x2 x3 xs0 xs1).1, y ∈ pc.1.set :=
  View.cover_of_tiledL (runNext1 c i arg2 harg2 arg3 harg3 arg4 harg4 arg5 harg5 arg6 harg6 arg7 harg7 arg8 harg8 arg9 harg9 hc x0 x1 x2 x3 xs0 xs1).1 S1x256x1.size (by sl_kernel_rfl) y

def valOutMinNext1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : ¬chainStart1 i)
    (x0 : Vec F S1x256x3136 .f32) (x1 : Vec F S256x256 .f32) (x2 : Vec F S256x1 .f32) (x3 : Vec F S256x1 .f32) (xs0 : Vec F S256x1 .f32) (xs1 : Vec F S256x1 .f32) : Vec F S1x256x1 .f32 :=
  vOutMin1.read (Elt F) (vOutMin1.writes (Elt F) vOutMin1.junk (runNext1 c i arg2 harg2 arg3 harg3 arg4 harg4 arg5 harg5 arg6 harg6 arg7 harg7 arg8 harg8 arg9 harg9 hc x0 x1 x2 x3 xs0 xs1).1)

theorem coverOutMaxNext1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : ¬chainStart1 i)
    (x0 : Vec F S1x256x3136 .f32) (x1 : Vec F S256x256 .f32) (x2 : Vec F S256x1 .f32) (x3 : Vec F S256x1 .f32) (xs0 : Vec F S256x1 .f32) (xs1 : Vec F S256x1 .f32) (y : S1x256x1.Idx) :
    ∃ pc ∈ (runNext1 c i arg2 harg2 arg3 harg3 arg4 harg4 arg5 harg5 arg6 harg6 arg7 harg7 arg8 harg8 arg9 harg9 hc x0 x1 x2 x3 xs0 xs1).2.1, y ∈ pc.1.set :=
  View.cover_of_tiledL (runNext1 c i arg2 harg2 arg3 harg3 arg4 harg4 arg5 harg5 arg6 harg6 arg7 harg7 arg8 harg8 arg9 harg9 hc x0 x1 x2 x3 xs0 xs1).2.1 S1x256x1.size (by sl_kernel_rfl) y

def valOutMaxNext1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : ¬chainStart1 i)
    (x0 : Vec F S1x256x3136 .f32) (x1 : Vec F S256x256 .f32) (x2 : Vec F S256x1 .f32) (x3 : Vec F S256x1 .f32) (xs0 : Vec F S256x1 .f32) (xs1 : Vec F S256x1 .f32) : Vec F S1x256x1 .f32 :=
  vOutMax1.read (Elt F) (vOutMax1.writes (Elt F) vOutMax1.junk (runNext1 c i arg2 harg2 arg3 harg3 arg4 harg4 arg5 harg5 arg6 harg6 arg7 harg7 arg8 harg8 arg9 harg9 hc x0 x1 x2 x3 xs0 xs1).2.1)

theorem coverMinNext1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : ¬chainStart1 i)
    (x0 : Vec F S1x256x3136 .f32) (x1 : Vec F S256x256 .f32) (x2 : Vec F S256x1 .f32) (x3 : Vec F S256x1 .f32) (xs0 : Vec F S256x1 .f32) (xs1 : Vec F S256x1 .f32) (y : S256x1.Idx) :
    ∃ pc ∈ (runNext1 c i arg2 harg2 arg3 harg3 arg4 harg4 arg5 harg5 arg6 harg6 arg7 harg7 arg8 harg8 arg9 harg9 hc x0 x1 x2 x3 xs0 xs1).2.2.1, y ∈ pc.1.set :=
  View.cover_of_tiledL (runNext1 c i arg2 harg2 arg3 harg3 arg4 harg4 arg5 harg5 arg6 harg6 arg7 harg7 arg8 harg8 arg9 harg9 hc x0 x1 x2 x3 xs0 xs1).2.2.1 S256x1.size (by sl_kernel_rfl) y

def valMinNext1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : ¬chainStart1 i)
    (x0 : Vec F S1x256x3136 .f32) (x1 : Vec F S256x256 .f32) (x2 : Vec F S256x1 .f32) (x3 : Vec F S256x1 .f32) (xs0 : Vec F S256x1 .f32) (xs1 : Vec F S256x1 .f32) : Vec F S256x1 .f32 :=
  vMin1.read (Elt F) (vMin1.writes (Elt F) vMin1.junk (runNext1 c i arg2 harg2 arg3 harg3 arg4 harg4 arg5 harg5 arg6 harg6 arg7 harg7 arg8 harg8 arg9 harg9 hc x0 x1 x2 x3 xs0 xs1).2.2.1)

theorem coverMaxNext1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : ¬chainStart1 i)
    (x0 : Vec F S1x256x3136 .f32) (x1 : Vec F S256x256 .f32) (x2 : Vec F S256x1 .f32) (x3 : Vec F S256x1 .f32) (xs0 : Vec F S256x1 .f32) (xs1 : Vec F S256x1 .f32) (y : S256x1.Idx) :
    ∃ pc ∈ (runNext1 c i arg2 harg2 arg3 harg3 arg4 harg4 arg5 harg5 arg6 harg6 arg7 harg7 arg8 harg8 arg9 harg9 hc x0 x1 x2 x3 xs0 xs1).2.2.2.1, y ∈ pc.1.set :=
  View.cover_of_tiledL (runNext1 c i arg2 harg2 arg3 harg3 arg4 harg4 arg5 harg5 arg6 harg6 arg7 harg7 arg8 harg8 arg9 harg9 hc x0 x1 x2 x3 xs0 xs1).2.2.2.1 S256x1.size (by sl_kernel_rfl) y

def valMaxNext1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : ¬chainStart1 i)
    (x0 : Vec F S1x256x3136 .f32) (x1 : Vec F S256x256 .f32) (x2 : Vec F S256x1 .f32) (x3 : Vec F S256x1 .f32) (xs0 : Vec F S256x1 .f32) (xs1 : Vec F S256x1 .f32) : Vec F S256x1 .f32 :=
  vMax1.read (Elt F) (vMax1.writes (Elt F) vMax1.junk (runNext1 c i arg2 harg2 arg3 harg3 arg4 harg4 arg5 harg5 arg6 harg6 arg7 harg7 arg8 harg8 arg9 harg9 hc x0 x1 x2 x3 xs0 xs1).2.2.2.1)

/-! ## What the buffers hold after each point -/

/-- After the body at position `n`: (the minimum's output block, the maximum's output block, the running
    minimum, the running maximum). -/
def held1 (c : Dev nD) : (n : ℕ) → n < cfg1.N → Vec F S1x256x1 .f32 × Vec F S1x256x1 .f32 × Vec F S256x1 .f32 × Vec F S256x1 .f32
  | 0, hn => (valOutMinStart1 c (grid1.coords ⟨0, hn⟩) (m1_0 ⟨0, hn⟩) (h1_0 ⟨0, hn⟩) (m1_1 ⟨0, hn⟩) (h1_1 ⟨0, hn⟩) (m1_2 ⟨0, hn⟩) (h1_2 ⟨0, hn⟩) (m1_3 ⟨0, hn⟩) (h1_3 ⟨0, hn⟩) (m1_4 ⟨0, hn⟩) (h1_4 ⟨0, hn⟩) (m1_5 ⟨0, hn⟩) (h1_5 ⟨0, hn⟩) mMin1 (Memref.isWhole_whole _) mMax1 (Memref.isWhole_whole _) ((chainStart1_iff ⟨0, hn⟩).mpr (Nat.zero_mod _)) (iblk1 V c 0 ⟨0, hn⟩) (iblk1 V c 1 ⟨0, hn⟩) (iblk1 V c 2 ⟨0, hn⟩) (iblk1 V c 3 ⟨0, hn⟩),
      valOutMaxStart1 c (grid1.coords ⟨0, hn⟩) (m1_0 ⟨0, hn⟩) (h1_0 ⟨0, hn⟩) (m1_1 ⟨0, hn⟩) (h1_1 ⟨0, hn⟩) (m1_2 ⟨0, hn⟩) (h1_2 ⟨0, hn⟩) (m1_3 ⟨0, hn⟩) (h1_3 ⟨0, hn⟩) (m1_4 ⟨0, hn⟩) (h1_4 ⟨0, hn⟩) (m1_5 ⟨0, hn⟩) (h1_5 ⟨0, hn⟩) mMin1 (Memref.isWhole_whole _) mMax1 (Memref.isWhole_whole _) ((chainStart1_iff ⟨0, hn⟩).mpr (Nat.zero_mod _)) (iblk1 V c 0 ⟨0, hn⟩) (iblk1 V c 1 ⟨0, hn⟩) (iblk1 V c 2 ⟨0, hn⟩) (iblk1 V c 3 ⟨0, hn⟩),
      valMinStart1 c (grid1.coords ⟨0, hn⟩) (m1_0 ⟨0, hn⟩) (h1_0 ⟨0, hn⟩) (m1_1 ⟨0, hn⟩) (h1_1 ⟨0, hn⟩) (m1_2 ⟨0, hn⟩) (h1_2 ⟨0, hn⟩) (m1_3 ⟨0, hn⟩) (h1_3 ⟨0, hn⟩) (m1_4 ⟨0, hn⟩) (h1_4 ⟨0, hn⟩) (m1_5 ⟨0, hn⟩) (h1_5 ⟨0, hn⟩) mMin1 (Memref.isWhole_whole _) mMax1 (Memref.isWhole_whole _) ((chainStart1_iff ⟨0, hn⟩).mpr (Nat.zero_mod _)) (iblk1 V c 0 ⟨0, hn⟩) (iblk1 V c 1 ⟨0, hn⟩) (iblk1 V c 2 ⟨0, hn⟩) (iblk1 V c 3 ⟨0, hn⟩),
      valMaxStart1 c (grid1.coords ⟨0, hn⟩) (m1_0 ⟨0, hn⟩) (h1_0 ⟨0, hn⟩) (m1_1 ⟨0, hn⟩) (h1_1 ⟨0, hn⟩) (m1_2 ⟨0, hn⟩) (h1_2 ⟨0, hn⟩) (m1_3 ⟨0, hn⟩) (h1_3 ⟨0, hn⟩) (m1_4 ⟨0, hn⟩) (h1_4 ⟨0, hn⟩) (m1_5 ⟨0, hn⟩) (h1_5 ⟨0, hn⟩) mMin1 (Memref.isWhole_whole _) mMax1 (Memref.isWhole_whole _) ((chainStart1_iff ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 16 = 0 then
      (valOutMinStart1 c (grid1.coords ⟨n + 1, hn⟩) (m1_0 ⟨n + 1, hn⟩) (h1_0 ⟨n + 1, hn⟩) (m1_1 ⟨n + 1, hn⟩) (h1_1 ⟨n + 1, hn⟩) (m1_2 ⟨n + 1, hn⟩) (h1_2 ⟨n + 1, hn⟩) (m1_3 ⟨n + 1, hn⟩) (h1_3 ⟨n + 1, hn⟩) (m1_4 ⟨n + 1, hn⟩) (h1_4 ⟨n + 1, hn⟩) (m1_5 ⟨n + 1, hn⟩) (h1_5 ⟨n + 1, hn⟩) mMin1 (Memref.isWhole_whole _) mMax1 (Memref.isWhole_whole _) ((chainStart1_iff ⟨n + 1, hn⟩).mpr h0) (iblk1 V c 0 ⟨n + 1, hn⟩) (iblk1 V c 1 ⟨n + 1, hn⟩) (iblk1 V c 2 ⟨n + 1, hn⟩) (iblk1 V c 3 ⟨n + 1, hn⟩),
      valOutMaxStart1 c (grid1.coords ⟨n + 1, hn⟩) (m1_0 ⟨n + 1, hn⟩) (h1_0 ⟨n + 1, hn⟩) (m1_1 ⟨n + 1, hn⟩) (h1_1 ⟨n + 1, hn⟩) (m1_2 ⟨n + 1, hn⟩) (h1_2 ⟨n + 1, hn⟩) (m1_3 ⟨n + 1, hn⟩) (h1_3 ⟨n + 1, hn⟩) (m1_4 ⟨n + 1, hn⟩) (h1_4 ⟨n + 1, hn⟩) (m1_5 ⟨n + 1, hn⟩) (h1_5 ⟨n + 1, hn⟩) mMin1 (Memref.isWhole_whole _) mMax1 (Memref.isWhole_whole _) ((chainStart1_iff ⟨n + 1, hn⟩).mpr h0) (iblk1 V c 0 ⟨n + 1, hn⟩) (iblk1 V c 1 ⟨n + 1, hn⟩) (iblk1 V c 2 ⟨n + 1, hn⟩) (iblk1 V c 3 ⟨n + 1, hn⟩),
      valMinStart1 c (grid1.coords ⟨n + 1, hn⟩) (m1_0 ⟨n + 1, hn⟩) (h1_0 ⟨n + 1, hn⟩) (m1_1 ⟨n + 1, hn⟩) (h1_1 ⟨n + 1, hn⟩) (m1_2 ⟨n + 1, hn⟩) (h1_2 ⟨n + 1, hn⟩) (m1_3 ⟨n + 1, hn⟩) (h1_3 ⟨n + 1, hn⟩) (m1_4 ⟨n + 1, hn⟩) (h1_4 ⟨n + 1, hn⟩) (m1_5 ⟨n + 1, hn⟩) (h1_5 ⟨n + 1, hn⟩) mMin1 (Memref.isWhole_whole _) mMax1 (Memref.isWhole_whole _) ((chainStart1_iff ⟨n + 1, hn⟩).mpr h0) (iblk1 V c 0 ⟨n + 1, hn⟩) (iblk1 V c 1 ⟨n + 1, hn⟩) (iblk1 V c 2 ⟨n + 1, hn⟩) (iblk1 V c 3 ⟨n + 1, hn⟩),
      valMaxStart1 c (grid1.coords ⟨n + 1, hn⟩) (m1_0 ⟨n + 1, hn⟩) (h1_0 ⟨n + 1, hn⟩) (m1_1 ⟨n + 1, hn⟩) (h1_1 ⟨n + 1, hn⟩) (m1_2 ⟨n + 1, hn⟩) (h1_2 ⟨n + 1, hn⟩) (m1_3 ⟨n + 1, hn⟩) (h1_3 ⟨n + 1, hn⟩) (m1_4 ⟨n + 1, hn⟩) (h1_4 ⟨n + 1, hn⟩) (m1_5 ⟨n + 1, hn⟩) (h1_5 ⟨n + 1, hn⟩) mMin1 (Memref.isWhole_whole _) mMax1 (Memref.isWhole_whole _) ((chainStart1_iff ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (valOutMinNext1 c (grid1.coords ⟨n + 1, hn⟩) (m1_0 ⟨n + 1, hn⟩) (h1_0 ⟨n + 1, hn⟩) (m1_1 ⟨n + 1, hn⟩) (h1_1 ⟨n + 1, hn⟩) (m1_2 ⟨n + 1, hn⟩) (h1_2 ⟨n + 1, hn⟩) (m1_3 ⟨n + 1, hn⟩) (h1_3 ⟨n + 1, hn⟩) (m1_4 ⟨n + 1, hn⟩) (h1_4 ⟨n + 1, hn⟩) (m1_5 ⟨n + 1, hn⟩) (h1_5 ⟨n + 1, hn⟩) mMin1 (Memref.isWhole_whole _) mMax1 (Memref.isWhole_whole _) (fun h => h0 ((chainStart1_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (held1 c n (Nat.lt_of_succ_lt hn)).2.2.1 (held1 c n (Nat.lt_of_succ_lt hn)).2.2.2,
      valOutMaxNext1 c (grid1.coords ⟨n + 1, hn⟩) (m1_0 ⟨n + 1, hn⟩) (h1_0 ⟨n + 1, hn⟩) (m1_1 ⟨n + 1, hn⟩) (h1_1 ⟨n + 1, hn⟩) (m1_2 ⟨n + 1, hn⟩) (h1_2 ⟨n + 1, hn⟩) (m1_3 ⟨n + 1, hn⟩) (h1_3 ⟨n + 1, hn⟩) (m1_4 ⟨n + 1, hn⟩) (h1_4 ⟨n + 1, hn⟩) (m1_5 ⟨n + 1, hn⟩) (h1_5 ⟨n + 1, hn⟩) mMin1 (Memref.isWhole_whole _) mMax1 (Memref.isWhole_whole _) (fun h => h0 ((chainStart1_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (held1 c n (Nat.lt_of_succ_lt hn)).2.2.1 (held1 c n (Nat.lt_of_succ_lt hn)).2.2.2,
      valMinNext1 c (grid1.coords ⟨n + 1, hn⟩) (m1_0 ⟨n + 1, hn⟩) (h1_0 ⟨n + 1, hn⟩) (m1_1 ⟨n + 1, hn⟩) (h1_1 ⟨n + 1, hn⟩) (m1_2 ⟨n + 1, hn⟩) (h1_2 ⟨n + 1, hn⟩) (m1_3 ⟨n + 1, hn⟩) (h1_3 ⟨n + 1, hn⟩) (m1_4 ⟨n + 1, hn⟩) (h1_4 ⟨n + 1, hn⟩) (m1_5 ⟨n + 1, hn⟩) (h1_5 ⟨n + 1, hn⟩) mMin1 (Memref.isWhole_whole _) mMax1 (Memref.isWhole_whole _) (fun h => h0 ((chainStart1_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (held1 c n (Nat.lt_of_succ_lt hn)).2.2.1 (held1 c n (Nat.lt_of_succ_lt hn)).2.2.2,
      valMaxNext1 c (grid1.coords ⟨n + 1, hn⟩) (m1_0 ⟨n + 1, hn⟩) (h1_0 ⟨n + 1, hn⟩) (m1_1 ⟨n + 1, hn⟩) (h1_1 ⟨n + 1, hn⟩) (m1_2 ⟨n + 1, hn⟩) (h1_2 ⟨n + 1, hn⟩) (m1_3 ⟨n + 1, hn⟩) (h1_3 ⟨n + 1, hn⟩) (m1_4 ⟨n + 1, hn⟩) (h1_4 ⟨n + 1, hn⟩) (m1_5 ⟨n + 1, hn⟩) (h1_5 ⟨n + 1, hn⟩) mMin1 (Memref.isWhole_whole _) mMax1 (Memref.isWhole_whole _) (fun h => h0 ((chainStart1_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (held1 c n (Nat.lt_of_succ_lt hn)).2.2.1 (held1 c n (Nat.lt_of_succ_lt hn)).2.2.2)

theorem held1_start (c : Dev nD) (t : Fin cfg1.N) (h0 : t.val % 16 = 0) :
    held1 V c t.val t.isLt = (valOutMinStart1 c (grid1.coords t) (m1_0 t) (h1_0 t) (m1_1 t) (h1_1 t) (m1_2 t) (h1_2 t) (m1_3 t) (h1_3 t) (m1_4 t) (h1_4 t) (m1_5 t) (h1_5 t) mMin1 (Memref.isWhole_whole _) mMax1 (Memref.isWhole_whole _) ((chainStart1_iff t).mpr h0) (iblk1 V c 0 t) (iblk1 V c 1 t) (iblk1 V c 2 t) (iblk1 V c 3 t),
      valOutMaxStart1 c (grid1.coords t) (m1_0 t) (h1_0 t) (m1_1 t) (h1_1 t) (m1_2 t) (h1_2 t) (m1_3 t) (h1_3 t) (m1_4 t) (h1_4 t) (m1_5 t) (h1_5 t) mMin1 (Memref.isWhole_whole _) mMax1 (Memref.isWhole_whole _) ((chainStart1_iff t).mpr h0) (iblk1 V c 0 t) (iblk1 V c 1 t) (iblk1 V c 2 t) (iblk1 V c 3 t),
      valMinStart1 c (grid1.coords t) (m1_0 t) (h1_0 t) (m1_1 t) (h1_1 t) (m1_2 t) (h1_2 t) (m1_3 t) (h1_3 t) (m1_4 t) (h1_4 t) (m1_5 t) (h1_5 t) mMin1 (Memref.isWhole_whole _) mMax1 (Memref.isWhole_whole _) ((chainStart1_iff t).mpr h0) (iblk1 V c 0 t) (iblk1 V c 1 t) (iblk1 V c 2 t) (iblk1 V c 3 t),
      valMaxStart1 c (grid1.coords t) (m1_0 t) (h1_0 t) (m1_1 t) (h1_1 t) (m1_2 t) (h1_2 t) (m1_3 t) (h1_3 t) (m1_4 t) (h1_4 t) (m1_5 t) (h1_5 t) mMin1 (Memref.isWhole_whole _) mMax1 (Memref.isWhole_whole _) ((chainStart1_iff t).mpr h0) (iblk1 V c 0 t) (iblk1 V c 1 t) (iblk1 V c 2 t) (iblk1 V c 3 t)) := by
  obtain ⟨n, hn⟩ := t
  cases n with
  | zero => exact rfl
  | succ n => exact (dif_pos h0).trans rfl

theorem held1_next (c : Dev nD) (t : Fin cfg1.N) (h0 : ¬t.val % 16 = 0) :
    held1 V c t.val t.isLt = (valOutMinNext1 c (grid1.coords t) (m1_0 t) (h1_0 t) (m1_1 t) (h1_1 t) (m1_2 t) (h1_2 t) (m1_3 t) (h1_3 t) (m1_4 t) (h1_4 t) (m1_5 t) (h1_5 t) mMin1 (Memref.isWhole_whole _) mMax1 (Memref.isWhole_whole _) (fun h => h0 ((chainStart1_iff t).mp h)) (iblk1 V c 0 t) (iblk1 V c 1 t) (iblk1 V c 2 t) (iblk1 V c 3 t) (held1 V c (t.val - 1) (Nat.lt_of_le_of_lt (Nat.sub_le _ _) t.isLt)).2.2.1 (held1 V c (t.val - 1) (Nat.lt_of_le_of_lt (Nat.sub_le _ _) t.isLt)).2.2.2,
      valOutMaxNext1 c (grid1.coords t) (m1_0 t) (h1_0 t) (m1_1 t) (h1_1 t) (m1_2 t) (h1_2 t) (m1_3 t) (h1_3 t) (m1_4 t) (h1_4 t) (m1_5 t) (h1_5 t) mMin1 (Memref.isWhole_whole _) mMax1 (Memref.isWhole_whole _) (fun h => h0 ((chainStart1_iff t).mp h)) (iblk1 V c 0 t) (iblk1 V c 1 t) (iblk1 V c 2 t) (iblk1 V c 3 t) (held1 V c (t.val - 1) (Nat.lt_of_le_of_lt (Nat.sub_le _ _) t.isLt)).2.2.1 (held1 V c (t.val - 1) (Nat.lt_of_le_of_lt (Nat.sub_le _ _) t.isLt)).2.2.2,
      valMinNext1 c (grid1.coords t) (m1_0 t) (h1_0 t) (m1_1 t) (h1_1 t) (m1_2 t) (h1_2 t) (m1_3 t) (h1_3 t) (m1_4 t) (h1_4 t) (m1_5 t) (h1_5 t) mMin1 (Memref.isWhole_whole _) mMax1 (Memref.isWhole_whole _) (fun h => h0 ((chainStart1_iff t).mp h)) (iblk1 V c 0 t) (iblk1 V c 1 t) (iblk1 V c 2 t) (iblk1 V c 3 t) (held1 V c (t.val - 1) (Nat.lt_of_le_of_lt (Nat.sub_le _ _) t.isLt)).2.2.1 (held1 V c (t.val - 1) (Nat.lt_of_le_of_lt (Nat.sub_le _ _) t.isLt)).2.2.2,
      valMaxNext1 c (grid1.coords t) (m1_0 t) (h1_0 t) (m1_1 t) (h1_1 t) (m1_2 t) (h1_2 t) (m1_3 t) (h1_3 t) (m1_4 t) (h1_4 t) (m1_5 t) (h1_5 t) mMin1 (Memref.isWhole_whole _) mMax1 (Memref.isWhole_whole _) (fun h => h0 ((chainStart1_iff t).mp h)) (iblk1 V c 0 t) (iblk1 V c 1 t) (iblk1 V c 2 t) (iblk1 V c 3 t) (held1 V c (t.val - 1) (Nat.lt_of_le_of_lt (Nat.sub_le _ _) t.isLt)).2.2.1 (held1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The region invariant -/

def inv1 (c : Dev nD) : (n : ℕ) → n ≤ cfg1.N → sProp 𝕄
  | 0, _ => Pipeline.ΦA spec1 c
  | n + 1, hn => iprop((owns (c : Thread nD τ) mMin1 fullShare ((held1 V c n hn).2.2.1) ∗ owns (c : Thread nD τ) mMax1 fullShare ((held1 V c n hn).2.2.2) ∗ others1 c) ∗ (∃ r, prngReg c r))

theorem inv1_zero (c : Dev nD) (n : ℕ) (h : n ≤ cfg1.N) (hz : n = 0) : inv1 V c n h = Pipeline.ΦA spec1 c := by
  subst hz; rfl

theorem inv1_succ (c : Dev nD) (n : ℕ) (hn : n < cfg1.N) :
    inv1 V c (n + 1) hn = iprop((owns (c : Thread nD τ) mMin1 fullShare ((held1 V c n hn).2.2.1) ∗ owns (c : Thread nD τ) mMax1 fullShare ((held1 V c n hn).2.2.2) ∗ others1 c) ∗ (∃ r, prngReg c r)) := rfl

theorem inv1_pos (c : Dev nD) (n : ℕ) (h : n ≤ cfg1.N) (hz : n ≠ 0) :
    inv1 V c n h = iprop((owns (c : Thread nD τ) mMin1 fullShare ((held1 V c (n - 1) (by omega)).2.2.1) ∗ owns (c : Thread nD τ) mMax1 fullShare ((held1 V c (n - 1) (by omega)).2.2.2) ∗ others1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (held1 V c t.val t.isLt).1
    | ⟨5, _⟩ => (held1 V c t.val t.isLt).2.1
  Φ t := inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem inv1_castSucc (c : Dev nD) (t : Fin cfg1.N) :
    (dat1 V c).Φ t.castSucc = inv1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (held1 V c t.val t.isLt).1 := by dsimp only [dat1]
theorem after1_5 (c : Dev nD) (t : Fin cfg1.N) : (dat1 V c).after 5 t = (held1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (m1_0 t) fullShare ((dat1 V c).before 0 t d))
    ∗ (∃ d, owns (c : Thread nD τ) (m1_1 t) fullShare ((dat1 V c).before 1 t d))
    ∗ (∃ d, owns (c : Thread nD τ) (m1_2 t) fullShare ((dat1 V c).before 2 t d))
    ∗ (∃ d, owns (c : Thread nD τ) (m1_3 t) fullShare ((dat1 V c).before 3 t d))
    ∗ (∃ d, owns (c : Thread nD τ) (m1_4 t) fullShare ((dat1 V c).before 4 t d))
    ∗ (∃ d, owns (c : Thread nD τ) (m1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = inv1 V c (t.val + 1) t.isLt from rfl, inv1_succ]
  have hN : t.val < 32 := lt_of_lt_of_eq t.isLt (show cfg1.N = 32 from N_1)
  rw [show (dat1 V c).leavesExact 0 t = owns (c : Thread nD τ) (m1_0 t) fullShare ((dat1 V c).after 0 t) from by
    unfold Dat.leavesExact; rw [live1_0 t], after1_0]
  rw [show (dat1 V c).leavesExact 1 t = owns (c : Thread nD τ) (m1_1 t) fullShare ((dat1 V c).after 1 t) from by
    unfold Dat.leavesExact; rw [live1_1 t], after1_1]
  rw [show (dat1 V c).leavesExact 2 t = owns (c : Thread nD τ) (m1_2 t) fullShare ((dat1 V c).after 2 t) from by
    unfold Dat.leavesExact; rw [live1_2 t], after1_2]
  rw [show (dat1 V c).leavesExact 3 t = owns (c : Thread nD τ) (m1_3 t) fullShare ((dat1 V c).after 3 t) from by
    unfold Dat.leavesExact; rw [live1_3 t], after1_3]
  rw [show (dat1 V c).leavesExact 4 t = owns (c : Thread nD τ) (m1_4 t) fullShare ((dat1 V c).after 4 t) from by
    unfold Dat.leavesExact; rw [live1_4 t], after1_4]
  rw [show (dat1 V c).leavesExact 5 t = owns (c : Thread nD τ) (m1_5 t) fullShare ((dat1 V c).after 5 t) from by
    unfold Dat.leavesExact; rw [live1_5 t], after1_5]
  by_cases h0 : t.val % 16 = 0
  · rw [held1_start V c t h0]
    unfold valOutMinStart1 valOutMaxStart1 valMinStart1 valMaxStart1; (try dsimp only)
    have hpre : (dat1 V c).Φ t.castSucc ⊢ (iprop(((∃ d, owns (c : Thread nD τ) mMin1 fullShare d) ∗ (∃ d, owns (c : Thread nD τ) mMax1 fullShare d) ∗ others1 c) ∗ (∃ r, prngReg c r)) : sProp 𝕄) := by
      rw [inv1_castSucc V c t]
      by_cases hz : t.val = 0
      · rw [inv1_zero V c _ _ hz]; exact PhiA1_open c
      · rw [inv1_pos V c _ _ hz]
        iintro ⟨⟨HS0, HS1, Hr⟩, Hg⟩
        isplitl [HS0 HS1 Hr]
        · isplitl [HS0]; · iexists _; iexact HS0
          isplitl [HS1]; · iexists _; iexact HS1
          iexact Hr
        iexact Hg
    iintro ⟨HΦ, Ho, ⟨%d0, H0⟩, ⟨%d1, H1⟩, ⟨%d2, H2⟩, ⟨%d3, H3⟩, ⟨%d4, H4⟩, ⟨%d5, H5⟩⟩
    ihave HΦ' := hpre $$ HΦ
    icases HΦ' with ⟨⟨HS0, HS1, Hr⟩, Hg⟩
    iapply ((runStart1 c (grid1.coords t) _ _ _ _ _ _ _ _ _ _ _ _ _ _ _ _ ((chainStart1_iff t).mpr h0) (iblk1 V c 0 t) (iblk1 V c 1 t) (iblk1 V c 2 t) (iblk1 V c 3 t)).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, ⟨%e4, H4⟩, ⟨%e5, H5⟩, ⟨%es0, HS0⟩, ⟨%es1, HS1⟩⟩
    isplitl [HS0 HS1 Hr Hg]
    · isplitl [HS0 HS1 Hr]
      · isplitl [HS0]
        · unfold owns; iexists _; isplitr
          swap; · iexact HS0
          ipureintro; exact View.read_writes_of_cover _ _ _ _ _ (coverMinStart1 c _ _ _ _ _ _ _ _ _ _ _ _ _ _ _ _ _ _ _ _ _ _)
        isplitl [HS1]
        · unfold owns; iexists _; isplitr
          swap; · iexact HS1
          ipureintro; exact View.read_writes_of_cover _ _ _ _ _ (coverMaxStart1 c _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverOutMinStart1 c _ _ _ _ _ _ _ _ _ _ _ _ _ _ _ _ _ _ _ _ _ _)
    unfold owns; iexists _; isplitr
    swap; · iexact H5
    ipureintro; exact View.read_writes_of_cover _ _ _ _ _ (coverOutMaxStart1 c _ _ _ _ _ _ _ _ _ _ _ _ _ _ _ _ _ _ _ _ _ _)
  · rw [held1_next V c t h0]
    unfold valOutMinNext1 valOutMaxNext1 valMinNext1 valMaxNext1; (try dsimp only)
    have hz : t.val ≠ 0 := fun h => h0 (by rw [h])
    rw [inv1_castSucc V c t, inv1_pos V c _ _ hz]
    iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
    iapply ((runNext1 c (grid1.coords t) _ _ _ _ _ _ _ _ _ _ _ _ _ _ _ _ (fun h => h0 ((chainStart1_iff t).mp h)) (iblk1 V c 0 t) (iblk1 V c 1 t) (iblk1 V c 2 t) (iblk1 V c 3 t) _ _).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, ⟨%e4, H4⟩, ⟨%e5, H5⟩, ⟨%es0, HS0⟩, ⟨%es1, HS1⟩⟩
    isplitl [HS0 HS1 Hr Hg]
    · isplitl [HS0 HS1 Hr]
      · isplitl [HS0]
        · unfold owns; iexists _; isplitr
          swap; · iexact HS0
          ipureintro; exact View.read_writes_of_cover _ _ _ _ _ (coverMinNext1 c _ _ _ _ _ _ _ _ _ _ _ _ _ _ _ _ _ _ _ _ _ _ _ _)
        isplitl [HS1]
        · unfold owns; iexists _; isplitr
          swap; · iexact HS1
          ipureintro; exact View.read_writes_of_cover _ _ _ _ _ (coverMaxNext1 c _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverOutMinNext1 c _ _ _ _ _ _ _ _ _ _ _ _ _ _ _ _ _ _ _ _ _ _ _ _)
    unfold owns; iexists _; isplitr
    swap; · iexact H5
    ipureintro; exact View.read_writes_of_cover _ _ _ _ _ (coverOutMaxNext1 c _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = inv1 V c 0 (Nat.zero_le _) from rfl, inv1_zero V c 0 _ rfl]

theorem hout1 (c : Dev nD) : (dat1 V c).Φ (Fin.last cfg1.N) ⊢ Pipeline.ΦA spec1 c := by
  rw [show (dat1 V c).Φ (Fin.last cfg1.N) = inv1 V c (Fin.last cfg1.N).val (Nat.le_of_lt_succ (Fin.last cfg1.N).isLt) from rfl,
    inv1_pos V c _ _ (by rw [Fin.val_last]; have : cfg1.N = 32 := N_1; omega)]
  refine .trans ?_ (PhiA1_close c)
  iintro ⟨⟨HS0, HS1, Hr⟩, Hg⟩
  isplitl [HS0 HS1 Hr]
  · isplitl [HS0]; · iexists _; iexact HS0
    isplitl [HS1]; · iexists _; iexact HS1
    iexact Hr
  iexact Hg

end

end Cert.Kernel.Fr

end
-- ==== Proof.Bits.Region2Runs.lean ====
/-
  The third kernel region (quantise and reconstruct): its one run. The grid is the 32 batches; a point
  recomputes the clamped projection of its batch's rectified slab, rounds it on the per-channel grid,
  multiplies by the basis and adds the mean back; the whole output block is stored.
-/
import proofs.«128398_j30554397343924_2_alg».proof.Proof.Gen.Kernel.Launch
import proofs.«128398_j30554397343924_2_alg».proof.Proof.Gen.Kernel.Skeleton
import proofs.«128398_j30554397343924_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
theorem live2_4 : ∀ t : Fin cfg2.N, cfg2.idle 4 (grid2.coords t) = false := by decide +kernel
theorem live2_5 : ∀ t : Fin cfg2.N, cfg2.idle 5 (grid2.coords t) = false := by decide +kernel
theorem live2_6 : ∀ t : Fin cfg2.N, cfg2.idle 6 (grid2.coords t) = false := by decide +kernel
theorem live2_7 : ∀ t : Fin cfg2.N, cfg2.idle 7 (grid2.coords t) = false := by decide +kernel
theorem live2_8 : ∀ t : Fin cfg2.N, cfg2.idle 8 (grid2.coords t) = false := by decide +kernel
theorem live2_9 : ∀ t : Fin cfg2.N, cfg2.idle 9 (grid2.coords t) = false := by decide +kernel

/-! ## The memrefs the body is called with -/

abbrev m2_0 (t : Fin cfg2.N) : Memref sig .tc .vmem S1x256x3136 .f32 := win2_0.stage (cfg2.slots t 0)
abbrev h2_0 (t : Fin cfg2.N) : (m2_0 t).IsWhole := hstage2_0 ((cfg2.slots t 0).cast nbuf2_0)
abbrev m2_1 (t : Fin cfg2.N) : Memref sig .tc .vmem S256x256 .f32 := win2_1.stage (cfg2.slots t 1)
abbrev h2_1 (t : Fin cfg2.N) : (m2_1 t).IsWhole := hstage2_1 ((cfg2.slots t 1).cast nbuf2_1)
abbrev m2_2 (t : Fin cfg2.N) : Memref sig .tc .vmem S256x256 .f32 := win2_2.stage (cfg2.slots t 2)
abbrev h2_2 (t : Fin cfg2.N) : (m2_2 t).IsWhole := hstage2_2 ((cfg2.slots t 2).cast nbuf2_2)
abbrev m2_3 (t : Fin cfg2.N) : Memref sig .tc .vmem S256x1 .f32 := win2_3.stage (cfg2.slots t 3)
abbrev h2_3 (t : Fin cfg2.N) : (m2_3 t).IsWhole := hstage2_3 ((cfg2.slots t 3).cast nbuf2_3)
abbrev m2_4 (t : Fin cfg2.N) : Memref sig .tc .vmem S256x1 .f32 := win2_4.stage (cfg2.slots t 4)
abbrev h2_4 (t : Fin cfg2.N) : (m2_4 t).IsWhole := hstage2_4 ((cfg2.slots t 4).cast nbuf2_4)
abbrev m2_5 (t : Fin cfg2.N) : Memref sig .tc .vmem S256x1 .f32 := win2_5.stage (cfg2.slots t 5)
abbrev h2_5 (t : Fin cfg2.N) : (m2_5 t).IsWhole := hstage2_5 ((cfg2.slots t 5).cast nbuf2_5)
abbrev m2_6 (t : Fin cfg2.N) : Memref sig .tc .vmem S256x1 .f32 := win2_6.stage (cfg2.slots t 6)
abbrev h2_6 (t : Fin cfg2.N) : (m2_6 t).IsWhole := hstage2_6 ((cfg2.slots t 6).cast nbuf2_6)
abbrev m2_7 (t : Fin cfg2.N) : Memref sig .tc .vmem S256x1 .f32 := win2_7.stage (cfg2.slots t 7)
abbrev h2_7 (t : Fin cfg2.N) : (m2_7 t).IsWhole := hstage2_7 ((cfg2.slots t 7).cast nbuf2_7)
abbrev m2_8 (t : Fin cfg2.N) : Memref sig .tc .vmem S256x1 .f32 := win2_8.stage (cfg2.slots t 8)
abbrev h2_8 (t : Fin cfg2.N) : (m2_8 t).IsWhole := hstage2_8 ((cfg2.slots t 8).cast nbuf2_8)
abbrev m2_9 (t : Fin cfg2.N) : Memref sig .tc .vmem S1x256x3136 .f32 := win2_9.stage (cfg2.slots t 9)
abbrev h2_9 (t : Fin cfg2.N) : (m2_9 t).IsWhole := hstage2_9 ((cfg2.slots t 9).cast nbuf2_9)
abbrev vOut2 : View sig .tc .vmem S1x256x3136 .f32 := (Memref.whole cc2_stg9_0 : Memref sig .tc .vmem S1x256x3136 .f32).view

/-! ## The body's run -/

set_option maxHeartbeats 2000000 in
noncomputable def runBody2 (c : Dev nD) (i : grid2.Coords) (arg1 : Memref sig .tc .vmem S1x256x3136 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S1x256x3136 .f32) (harg10 : arg10.IsWhole)
    (x0 : Vec F S1x256x3136 .f32) (x1 : Vec F S256x256 .f32) (x2 : Vec F S256x256 .f32) (x3 : Vec F S256x1 .f32) (x4 : Vec F S256x1 .f32) (x5 : Vec F S256x1 .f32) (x6 : Vec F S256x1 .f32) (x7 : Vec F S256x1 .f32) (x8 : Vec F S256x1 .f32) :
    { L9 : List (View.Piece (Elt F) S1x256x3136 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9)) -∗ K ⟨⟩))
          ⊢ wp frame (wpE (defs₀ (F := F)) Variants.none c none) E (cc2_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    iexists _; iexact H9

end Cert.Kernel.Fr

end
-- ==== Proof.Bits.Region2.lean ====
/-
  The third kernel region (quantise and reconstruct): what the output block's buffer holds after the
  body, the proof data and the body obligation, at the buffer contents `V` the region is entered with.
-/
import proofs.«128398_j30554397343924_2_alg».proof.Proof.Gen.Kernel.Launch
import proofs.«128398_j30554397343924_2_alg».proof.Proof.Gen.Kernel.Skeleton
import proofs.«128398_j30554397343924_2_alg».proof.Proof.Gen.Kernel.Points
import proofs.«128398_j30554397343924_2_alg».proof.Proof.Bits.Region2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- The run's one store tiles the output block. -/
theorem coverOut2 (c : Dev nD) (i : grid2.Coords) (arg1 : Memref sig .tc .vmem S1x256x3136 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S1x256x3136 .f32) (harg10 : arg10.IsWhole)
    (x0 : Vec F S1x256x3136 .f32) (x1 : Vec F S256x256 .f32) (x2 : Vec F S256x256 .f32) (x3 : Vec F S256x1 .f32) (x4 : Vec F S256x1 .f32) (x5 : Vec F S256x1 .f32) (x6 : Vec F S256x1 .f32) (x7 : Vec F S256x1 .f32) (x8 : Vec F S256x1 .f32) (y : S1x256x3136.Idx) :
    ∃ pc ∈ (runBody2 c i arg1 harg1 arg2 harg2 arg3 harg3 arg4 harg4 arg5 harg5 arg6 harg6 arg7 harg7 arg8 harg8 arg9 harg9 arg10 harg10 x0 x1 x2 x3 x4 x5 x6 x7 x8).1, y ∈ pc.1.set :=
  View.cover_of_tiledL (runBody2 c i arg1 harg1 arg2 harg2 arg3 harg3 arg4 harg4 arg5 harg5 arg6 harg6 arg7 harg7 arg8 harg8 arg9 harg9 arg10 harg10 x0 x1 x2 x3 x4 x5 x6 x7 x8).1 S1x256x3136.size (by sl_kernel_rfl) y

/-- What the body leaves in the output block's buffer: its pieces read back. -/
def out2 (c : Dev nD) (i : grid2.Coords) (arg1 : Memref sig .tc .vmem S1x256x3136 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S1x256x3136 .f32) (harg10 : arg10.IsWhole)
    (x0 : Vec F S1x256x3136 .f32) (x1 : Vec F S256x256 .f32) (x2 : Vec F S256x256 .f32) (x3 : Vec F S256x1 .f32) (x4 : Vec F S256x1 .f32) (x5 : Vec F S256x1 .f32) (x6 : Vec F S256x1 .f32) (x7 : Vec F S256x1 .f32) (x8 : Vec F S256x1 .f32) : Vec F S1x256x3136 .f32 :=
  vOut2.read (Elt F) (vOut2.writes (Elt F) vOut2.junk (runBody2 c i arg1 harg1 arg2 harg2 arg3 harg3 arg4 harg4 arg5 harg5 arg6 harg6 arg7 harg7 arg8 harg8 arg9 harg9 arg10 harg10 x0 x1 x2 x3 x4 x5 x6 x7 x8).1)

/-- The proof data: the arrays as the region finds them; after the body each input's buffer at its block
    and the output's at the run's result; the class invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2 c (grid2.coords t) (m2_0 t) (h2_0 t) (m2_1 t) (h2_1 t) (m2_2 t) (h2_2 t) (m2_3 t) (h2_3 t) (m2_4 t) (h2_4 t) (m2_5 t) (h2_5 t) (m2_6 t) (h2_6 t) (m2_7 t) (h2_7 t) (m2_8 t) (h2_8 t) (m2_9 t) (h2_9 t) (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2 c (grid2.coords t) (m2_0 t) (h2_0 t) (m2_1 t) (h2_1 t) (m2_2 t) (h2_2 t) (m2_3 t) (h2_3 t) (m2_4 t) (h2_4 t) (m2_5 t) (h2_5 t) (m2_6 t) (h2_6 t) (m2_7 t) (h2_7 t) (m2_8 t) (h2_8 t) (m2_9 t) (h2_9 t) (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

def bodyPre2 (c : Dev nD) (t : Fin cfg2.N) : sProp 𝕄 :=
  iprop((dat2 V c).Φ t.castSucc ∗ (dat2 V c).owesAt () t.castSucc
    ∗ (∃ d, owns (c : Thread nD τ) (m2_0 t) fullShare ((dat2 V c).before 0 t d))
    ∗ (∃ d, owns (c : Thread nD τ) (m2_1 t) fullShare ((dat2 V c).before 1 t d))
    ∗ (∃ d, owns (c : Thread nD τ) (m2_2 t) fullShare ((dat2 V c).before 2 t d))
    ∗ (∃ d, owns (c : Thread nD τ) (m2_3 t) fullShare ((dat2 V c).before 3 t d))
    ∗ (∃ d, owns (c : Thread nD τ) (m2_4 t) fullShare ((dat2 V c).before 4 t d))
    ∗ (∃ d, owns (c : Thread nD τ) (m2_5 t) fullShare ((dat2 V c).before 5 t d))
    ∗ (∃ d, owns (c : Thread nD τ) (m2_6 t) fullShare ((dat2 V c).before 6 t d))
    ∗ (∃ d, owns (c : Thread nD τ) (m2_7 t) fullShare ((dat2 V c).before 7 t d))
    ∗ (∃ d, owns (c : Thread nD τ) (m2_8 t) fullShare ((dat2 V c).before 8 t d))
    ∗ (∃ d, owns (c : Thread nD τ) (m2_9 t) fullShare ((dat2 V c).before 9 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl]
  rw [show (dat2 V c).leavesExact 0 t = owns (c : Thread nD τ) (m2_0 t) fullShare ((dat2 V c).after 0 t) from by
    unfold Dat.leavesExact; rw [live2_0 t], after2_0]
  rw [show (dat2 V c).leavesExact 1 t = owns (c : Thread nD τ) (m2_1 t) fullShare ((dat2 V c).after 1 t) from by
    unfold Dat.leavesExact; rw [live2_1 t], after2_1]
  rw [show (dat2 V c).leavesExact 2 t = owns (c : Thread nD τ) (m2_2 t) fullShare ((dat2 V c).after 2 t) from by
    unfold Dat.leavesExact; rw [live2_2 t], after2_2]
  rw [show (dat2 V c).leavesExact 3 t = owns (c : Thread nD τ) (m2_3 t) fullShare ((dat2 V c).after 3 t) from by
    unfold Dat.leavesExact; rw [live2_3 t], after2_3]
  rw [show (dat2 V c).leavesExact 4 t = owns (c : Thread nD τ) (m2_4 t) fullShare ((dat2 V c).after 4 t) from by
    unfold Dat.leavesExact; rw [live2_4 t], after2_4]
  rw [show (dat2 V c).leavesExact 5 t = owns (c : Thread nD τ) (m2_5 t) fullShare ((dat2 V c).after 5 t) from by
    unfold Dat.leavesExact; rw [live2_5 t], after2_5]
  rw [show (dat2 V c).leavesExact 6 t = owns (c : Thread nD τ) (m2_6 t) fullShare ((dat2 V c).after 6 t) from by
    unfold Dat.leavesExact; rw [live2_6 t], after2_6]
  rw [show (dat2 V c).leavesExact 7 t = owns (c : Thread nD τ) (m2_7 t) fullShare ((dat2 V c).after 7 t) from by
    unfold Dat.leavesExact; rw [live2_7 t], after2_7]
  rw [show (dat2 V c).leavesExact 8 t = owns (c : Thread nD τ) (m2_8 t) fullShare ((dat2 V c).after 8 t) from by
    unfold Dat.leavesExact; rw [live2_8 t], after2_8]
  rw [show (dat2 V c).leavesExact 9 t = owns (c : Thread nD τ) (m2_9 t) fullShare ((dat2 V c).after 9 t) from by
    unfold Dat.leavesExact; rw [live2_9 t], after2_9]
  unfold out2; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runBody2 c (grid2.coords t) _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (coverOut2 c _ _ _ _ _ _ _ _ _ _ _ _ _ _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

end

end Cert.Kernel.Fr

end
-- ==== Proof.Bits.WholeRun.lean ====
/-
  The whole run: @main is three stretches of host operations around three kernel regions, then one last
  reshape. The buffer contents at each boundary are a fold from the launch memory — a stretch applies its
  operations, a region leaves its arrays at what its write-backs leave —, and every weakly fair execution
  terminates with every unscoped buffer at the last boundary's contents.
-/
import proofs.«128398_j30554397343924_2_alg».proof.Proof.Gen.Kernel.Launch
import proofs.«128398_j30554397343924_2_alg».proof.Proof.Gen.Kernel.Skeleton
import proofs.«128398_j30554397343924_2_alg».proof.Proof.Gen.Kernel.Points
import proofs.«128398_j30554397343924_2_alg».proof.Proof.Bits.Region0
import proofs.«128398_j30554397343924_2_alg».proof.Proof.Bits.Region1
import proofs.«128398_j30554397343924_2_alg».proof.Proof.Bits.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last reshape: what the program returns with. -/
abbrev W7 : Dev nD → Valuation τ sig (Elt F) := fun c => StableHlo.after hostOps3 (W6 m ρ c)

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at the contents before it, left at the
    contents after it; its arrays split out of the unscoped buffers and put back at what the write-backs leave. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c); unfold Pipeline.ΦA
    iintro ⟨Hp, -, Hr⟩
    isplitl [Hr]; · iexact Hr
    iexact Hp
  hout c := by
    rw [Pipeline.ownSems0_none]
    refine .trans (hout0 (V1 m ρ) c) ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (fun b => W2 m ρ c b) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it; its arrays split out of the unscoped buffers and put back at what the write-backs leave. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m ρ) c); unfold Pipeline.ΦA
    iintro ⟨Hp, -, Hr⟩
    isplitl [Hr]; · iexact Hr
    iexact Hp
  hout c := by
    rw [Pipeline.ownSems0_none]
    refine .trans (hout1 (V3 m ρ) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (fun b => W4 m ρ c b) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it; its arrays split out of the unscoped buffers and put back at what the write-backs leave. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (fun b => W6 m ρ c b) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

theorem main_run (c : Dev nD) : main (F := F) c = Pipeline.Seg.run (segs m ρ) := (main_chain c).trans (by chain_rfl)

set_option backward.isDefEq.respectTransparency.types false in
/-- Every weakly fair execution of @main from memory `m` with zero counters terminates, nothing faulting, and
    every final state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Fr

end
-- ==== Proof.Bits.Walk.lean ====
/-
  Walking the buffer contents through @main: what each region's input arrays hold when the region is entered,
  and what the host operations between the regions write, in terms of the launch memory and of what the
  regions before left.
-/
import proofs.«128398_j30554397343924_2_alg».proof.Proof.Gen.Kernel.Launch
import proofs.«128398_j30554397343924_2_alg».proof.Proof.Gen.Kernel.Skeleton
import proofs.«128398_j30554397343924_2_alg».proof.Proof.Gen.Kernel.Points
import proofs.«128398_j30554397343924_2_alg».proof.Proof.Bits.WholeRun
import proofs.«128398_j30554397343924_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Before and after the first region -/

/-- The input as 32 × 256 × 3136. -/
theorem V1_x (c : Dev nD) : V1 m ρ c main_v0 = shapeCast _ (m ((c : Thread nD τ).loc main_arg0)) shapeCasts_S32x256x56x56_S32x256x3136 := by
  show StableHlo.after hostOps0 (W0 m ρ c) (Proc.devRef .tc main_v0) = _
  after_results; try rfl
/-- The basis transposed. -/
theorem V1_ut (c : Dev nD) : V1 m ρ c main_v1 = transpose S256x256 [1, 0] (m ((c : Thread nD τ).loc main_arg1)) transposes_S256x256_S256x256_1_0 := by
  show StableHlo.after hostOps0 (W0 m ρ c) (Proc.devRef .tc main_v1) = _
  after_results; try rfl
/-- The clamp values as a column. -/
theorem V1_cv (c : Dev nD) : V1 m ρ c main_v2 = shapeCast _ (m ((c : Thread nD τ).loc main_arg2)) shapeCasts_S256_S256x1 := by
  show StableHlo.after hostOps0 (W0 m ρ c) (Proc.devRef .tc main_v2) = _
  after_results; try rfl
theorem V1_u (c : Dev nD) : V1 m ρ c main_arg1 = m ((c : Thread nD τ).loc main_arg1) :=
  StableHlo.after_of_writes_sub hostOps0 _ hostOps0_writes (by decide)

/-- What the first region leaves in the partial-sum array. -/
abbrev afterSum (c : Dev nD) : Buf (Elt F) ((c : Thread nD τ).loc main_v3) := (dat0 (V1 m ρ) c).arrAt 1 cfg0.N

theorem V2_partial (c : Dev nD) : V2 m ρ c main_v3 = afterSum m ρ c := W2_arr m ρ c 1
theorem V2_x (c : Dev nD) : V2 m ρ c main_v0 = V1 m ρ c main_v0 :=
  (W2_arr m ρ c 0).trans (((dat0 (V1 m ρ) c).arrAt_in 0 rfl _).trans (A_eq0 (V1 m ρ) c 0))
theorem V2_ut (c : Dev nD) : V2 m ρ c main_v1 = V1 m ρ c main_v1 := W2_of_ne m ρ c main_v1 (by decide)
theorem V2_cv (c : Dev nD) : V2 m ρ c main_v2 = V1 m ρ c main_v2 := W2_of_ne m ρ c main_v2 (by decide)
theorem V2_u (c : Dev nD) : V2 m ρ c main_arg1 = V1 m ρ c main_arg1 := W2_of_ne m ρ c main_arg1 (by decide)

/-! ## Between the first and the second region -/

/-- The channel means, as the host computes them from the partial sums. -/
abbrev hostMean (c : Dev nD) : Buf (Elt F) ((c : Thread nD τ).loc main_v6) :=
  Host.divf (Host.reduceAdd (afterSum m ρ c) (constant S_ .f32 0x00000000#32) reducesTo_S2x256x1_S256x1_d0 h_S_)
    (broadcastInDim S256x1 ![] bcast_S_S256x1 (constant S_ .f32 0x47C40000#32))
/-- The projected means. -/
abbrev hostMeanProj (c : Dev nD) : Buf (Elt F) ((c : Thread nD τ).loc main_v7) :=
  Host.dotGeneral dot_S256x256_S256x1_S256x1_1_0_0_1_n_n none (V1 m ρ c main_v1) (hostMean m ρ c)

theorem V3_mean (c : Dev nD) : V3 m ρ c main_v6 = hostMean m ρ c := by
  show StableHlo.after hostOps1 (W2 m ρ c) (Proc.devRef .tc main_v6) = _
  after_results
  rw [show W2 m ρ c (Proc.devRef .tc main_v3) = afterSum m ρ c from V2_partial m ρ c]
theorem V3_meanProj (c : Dev nD) : V3 m ρ c main_v7 = hostMeanProj m ρ c := by
  show StableHlo.after hostOps1 (W2 m ρ c) (Proc.devRef .tc main_v7) = _
  after_results
  rw [show W2 m ρ c (Proc.devRef .tc main_v3) = afterSum m ρ c from V2_partial m ρ c,
    show W2 m ρ c (Proc.devRef .tc main_v1) = V1 m ρ c main_v1 from V2_ut m ρ c]
theorem V3_x (c : Dev nD) : V3 m ρ c main_v0 = V1 m ρ c main_v0 :=
  (StableHlo.after_of_writes_sub hostOps1 _ hostOps1_writes (by decide)).trans (V2_x m ρ c)
theorem V3_ut (c : Dev nD) : V3 m ρ c main_v1 = V1 m ρ c main_v1 :=
  (StableHlo.after_of_writes_sub hostOps1 _ hostOps1_writes (by decide)).trans (V2_ut m ρ c)
theorem V3_cv (c : Dev nD) : V3 m ρ c main_v2 = V1 m ρ c main_v2 :=
  (StableHlo.after_of_writes_sub hostOps1 _ hostOps1_writes (by decide)).trans (V2_cv m ρ c)
theorem V3_u (c : Dev nD) : V3 m ρ c main_arg1 = V1 m ρ c main_arg1 :=
  (StableHlo.after_of_writes_sub hostOps1 _ hostOps1_writes (by decide)).trans (V2_u m ρ c)

/-! ## After the second region -/

abbrev afterMin (c : Dev nD) : Buf (Elt F) ((c : Thread nD τ).loc main_v8_0) := (dat1 (V3 m ρ) c).arrAt 4 cfg1.N
abbrev afterMax (c : Dev nD) : Buf (Elt F) ((c : Thread nD τ).loc main_v8_1) := (dat1 (V3 m ρ) c).arrAt 5 cfg1.N

theorem V4_min (c : Dev nD) : V4 m ρ c main_v8_0 = afterMin m ρ c := W4_arr m ρ c 4
theorem V4_max (c : Dev nD) : V4 m ρ c main_v8_1 = afterMax m ρ c := W4_arr m ρ c 5
theorem V4_x (c : Dev nD) : V4 m ρ c main_v0 = V1 m ρ c main_v0 :=
  (W4_arr m ρ c 0).trans (((dat1 (V3 m ρ) c).arrAt_in 0 rfl _).trans ((A_eq1 (V3 m ρ) c 0).trans (V3_x m ρ c)))
theorem V4_ut (c : Dev nD) : V4 m ρ c main_v1 = V1 m ρ c main_v1 :=
  (W4_arr m ρ c 1).trans (((dat1 (V3 m ρ) c).arrAt_in 1 rfl _).trans ((A_eq1 (V3 m ρ) c 1).trans (V3_ut m ρ c)))
theorem V4_meanProj (c : Dev nD) : V4 m ρ c main_v7 = hostMeanProj m ρ c :=
  (W4_arr m ρ c 2).trans (((dat1 (V3 m ρ) c).arrAt_in 2 rfl _).trans ((A_eq1 (V3 m ρ) c 2).trans (V3_meanProj m ρ c)))
theorem V4_cv (c : Dev nD) : V4 m ρ c main_v2 = V1 m ρ c main_v2 :=
  (W4_arr m ρ c 3).trans (((dat1 (V3 m ρ) c).arrAt_in 3 rfl _).trans ((A_eq1 (V3 m ρ) c 3).trans (V3_cv m ρ c)))
theorem V4_mean (c : Dev nD) : V4 m ρ c main_v6 = hostMean m ρ c :=
  (W4_of_ne m ρ c main_v6 (by decide)).trans (V3_mean m ρ c)
theorem V4_u (c : Dev nD) : V4 m ρ c main_arg1 = V1 m ρ c main_arg1 :=
  (W4_of_ne m ρ c main_arg1 (by decide)).trans (V3_u m ρ c)

/-! ## Between the second and the third region -/

/-- Each channel's minimum and maximum, as the host combines the two chains' extrema. -/
abbrev hostLo (c : Dev nD) : Buf (Elt F) ((c : Thread nD τ).loc main_v9) :=
  Host.reduce FloatOps.minimumf (afterMin m ρ c) (constant S_ .f32 0x7F800000#32) reducesTo_S2x256x1_S256x1_d0 h_S_
abbrev hostHi (c : Dev nD) : Buf (Elt F) ((c : Thread nD τ).loc main_v10) :=
  Host.reduce FloatOps.maximumf (afterMax m ρ c) (constant S_ .f32 0xFF800000#32) reducesTo_S2x256x1_S256x1_d0 h_S_
/-- Steps per unit, and units per step. -/
abbrev hostScale (c : Dev nD) : Buf (Elt F) ((c : Thread nD τ).loc main_v13) :=
  Host.divf (broadcastInDim S256x1 ![] bcast_S_S256x1 (constant S_ .f32 0x437F0000#32)) (subf (hostHi m ρ c) (hostLo m ρ c))
abbrev hostStep (c : Dev nD) : Buf (Elt F) ((c : Thread nD τ).loc main_v16) :=
  Host.divf (subf (hostHi m ρ c) (hostLo m ρ c)) (broadcastInDim S256x1 ![] bcast_S_S256x1 (constant S_ .f32 0x437F0000#32))

theorem V5_lo (c : Dev nD) : V5 m ρ c main_v9 = hostLo m ρ c := by
  show StableHlo.after hostOps2 (W4 m ρ c) (Proc.devRef .tc main_v9) = _
  after_results
  rw [show W4 m ρ c (Proc.devRef .tc main_v8_0) = afterMin m ρ c from V4_min m ρ c]
theorem V5_scale (c : Dev nD) : V5 m ρ c main_v13 = hostScale m ρ c := by
  show StableHlo.after hostOps2 (W4 m ρ c) (Proc.devRef .tc main_v13) = _
  after_results
  rw [show W4 m ρ c (Proc.devRef .tc main_v8_0) = afterMin m ρ c from V4_min m ρ c,
    show W4 m ρ c (Proc.devRef .tc main_v8_1) = afterMax m ρ c from V4_max m ρ c]
theorem V5_step (c : Dev nD) : V5 m ρ c main_v16 = hostStep m ρ c := by
  show StableHlo.after hostOps2 (W4 m ρ c) (Proc.devRef .tc main_v16) = _
  after_results
  rw [show W4 m ρ c (Proc.devRef .tc main_v8_0) = afterMin m ρ c from V4_min m ρ c,
    show W4 m ρ c (Proc.devRef .tc main_v8_1) = afterMax m ρ c from V4_max m ρ c]
theorem V5_x (c : Dev nD) : V5 m ρ c main_v0 = V1 m ρ c main_v0 :=
  (StableHlo.after_of_writes_sub hostOps2 _ hostOps2_writes (by decide)).trans (V4_x m ρ c)
theorem V5_ut (c : Dev nD) : V5 m ρ c main_v1 = V1 m ρ c main_v1 :=
  (StableHlo.after_of_writes_sub hostOps2 _ hostOps2_writes (by decide)).trans (V4_ut m ρ c)
theorem V5_u (c : Dev nD) : V5 m ρ c main_arg1 = m ((c : Thread nD τ).loc main_arg1) :=
  (StableHlo.after_of_writes_sub hostOps2 _ hostOps2_writes (by decide)).trans ((V4_u m ρ c).trans (V1_u m ρ c))
theorem V5_meanProj (c : Dev nD) : V5 m ρ c main_v7 = hostMeanProj m ρ c :=
  (StableHlo.after_of_writes_sub hostOps2 _ hostOps2_writes (by decide)).trans (V4_meanProj m ρ c)
theorem V5_mean (c : Dev nD) : V5 m ρ c main_v6 = hostMean m ρ c :=
  (StableHlo.after_of_writes_sub hostOps2 _ hostOps2_writes (by decide)).trans (V4_mean m ρ c)
theorem V5_cv (c : Dev nD) : V5 m ρ c main_v2 = V1 m ρ c main_v2 :=
  (StableHlo.after_of_writes_sub hostOps2 _ hostOps2_writes (by decide)).trans (V4_cv m ρ c)

/-! ## After the third region -/

abbrev afterRecon (c : Dev nD) : Buf (Elt F) ((c : Thread nD τ).loc main_v17) := (dat2 (V5 m ρ) c).arrAt 9 cfg2.N

/-- What the program returns: the reconstruction in the input's layout. -/
theorem W7_result (c : Dev nD) :
    W7 m ρ c (Proc.devRef .tc main_v18) = shapeCast _ (afterRecon m ρ c) shapeCasts_S32x256x3136_S32x256x56x56 := by
  show StableHlo.after hostOps3 (W6 m ρ c) (Proc.devRef .tc main_v18) = _
  after_results
  rw [show W6 m ρ c (Proc.devRef .tc main_v17) = afterRecon m ρ c from W6_arr m ρ c 9]
  rfl
theorem W7_arg0 (c : Dev nD) : W7 m ρ c (Proc.devRef .tc main_arg0) = m ((c : Thread nD τ).loc main_arg0) :=
  (StableHlo.after_of_writes_sub hostOps3 _ hostOps3_writes (by decide)).trans <|
  (W6_of_ne m ρ c main_arg0 (by decide)).trans <|
  (StableHlo.after_of_writes_sub hostOps2 _ hostOps2_writes (by decide)).trans <|
  (W4_of_ne m ρ c main_arg0 (by decide)).trans <|
  (StableHlo.after_of_writes_sub hostOps1 _ hostOps1_writes (by decide)).trans <|
  (W2_of_ne m ρ c main_arg0 (by decide)).trans <|
  (StableHlo.after_of_writes_sub hostOps0 _ hostOps0_writes (by decide)).trans rfl
theorem W7_arg2 (c : Dev nD) : W7 m ρ c (Proc.devRef .tc main_arg2) = m ((c : Thread nD τ).loc main_arg2) :=
  (StableHlo.after_of_writes_sub hostOps3 _ hostOps3_writes (by decide)).trans <|
  (W6_of_ne m ρ c main_arg2 (by decide)).trans <|
  (StableHlo.after_of_writes_sub hostOps2 _ hostOps2_writes (by decide)).trans <|
  (W4_of_ne m ρ c main_arg2 (by decide)).trans <|
  (StableHlo.after_of_writes_sub hostOps1 _ hostOps1_writes (by decide)).trans <|
  (W2_of_ne m ρ c main_arg2 (by decide)).trans <|
  (StableHlo.after_of_writes_sub hostOps0 _ hostOps0_writes (by decide)).trans rfl
theorem W7_arg1 (c : Dev nD) : W7 m ρ c (Proc.devRef .tc main_arg1) = m ((c : Thread nD τ).loc main_arg1) :=
  (StableHlo.after_of_writes_sub hostOps3 _ hostOps3_writes (by decide)).trans <|
  ((W6_arr m ρ c 2).trans (((dat2 (V5 m ρ) c).arrAt_in 2 rfl _).trans ((A_eq2 (V5 m ρ) c 2).trans (V5_u m ρ c))))

end Cert.Kernel.Fr

end
-- ==== Proof.Region0Runs.lean ====
/-
  The first kernel region (the per-channel sum of the rectified input): what its runs share.
  The grid is 2 × 16; a point (p, b) adds the lane sums of batch 16·p + b's rectified slab to a
  scratch accumulator that the point b = 0 resets, and copies the accumulator to the output block
  p. Two control cases: the first point of a chain (reset, then add) and a later point (add to what
  the point before left in the scratch).
-/
import proofs.«128398_j30554397343924_2_alg».proof.Proof.Gen.KernelIdeal.Launch
import proofs.«128398_j30554397343924_2_alg».proof.Proof.Gen.KernelIdeal.Skeleton
import proofs.«128398_j30554397343924_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The control case -/

/-- The body's one branch condition from the grid coordinates: the inner coordinate is zero. -/
abbrev chainStart0 (i : grid0.Coords) : Prop :=
  (Scalar.cmpi .ne (Scalar.extui (Scalar.cmpi .eq (BitVec.ofNat 32 (i 1).val) 0#32)) 0#32) = 1#1

/-- It holds exactly at the points ≡ 0 (mod 16): the first point of each of the two chains. -/
theorem chainStart0_iff : ∀ t : Fin cfg0.N, chainStart0 (grid0.coords t) ↔ t.val % 16 = 0 :=
  (by decide +kernel : ∀ t : Fin grid0.N, chainStart0 (grid0.coords t) ↔ t.val % 16 = 0)

/-- No window of this region is ever idle. -/
theorem live0_0 : ∀ t : Fin cfg0.N, cfg0.idle 0 (grid0.coords t) = false := by decide +kernel
theorem live0_1 : ∀ t : Fin cfg0.N, cfg0.idle 1 (grid0.coords t) = false := by decide +kernel

/-! ## The memrefs the body is called with -/

abbrev mIn0 (t : Fin cfg0.N) : Memref sig .tc .vmem S1x256x3136 .f32 := win0_0.stage (cfg0.slots t 0)
abbrev hIn0 (t : Fin cfg0.N) : (mIn0 t).IsWhole := hstage0_0 ((cfg0.slots t 0).cast nbuf0_0)
abbrev mOut0 (t : Fin cfg0.N) : Memref sig .tc .vmem S1x256x1 .f32 := win0_1.stage (cfg0.slots t 1)
abbrev hOut0 (t : Fin cfg0.N) : (mOut0 t).IsWhole := hstage0_1 ((cfg0.slots t 1).cast nbuf0_1)
/-- The accumulator: a whole scoped buffer of the kernel's own. -/
abbrev mAcc0 : Memref sig .tc .vmem S256x1 .f32 := Memref.whole cc0_scratch0
/-- Views through which the output block's and the accumulator's contents are stated. -/
abbrev vOut0 : View sig .tc .vmem S1x256x1 .f32 := (Memref.whole cc0_stg1_0 : Memref sig .tc .vmem S1x256x1 .f32).view
abbrev vAcc0 : View sig .tc .vmem S256x1 .f32 := mAcc0.view

/-! ## The scoped buffers the region does not stage: the accumulator and the others -/

theorem scoped0_split (c : Dev nD) : ∃ R : sProp 𝕄,
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ R) :=
  ⟨_, scopedRest0_eq c⟩

/-- Every scoped buffer that is neither a staging buffer of this region nor its accumulator, at some contents. -/
def others0 (c : Dev nD) : sProp 𝕄 := Classical.choose (scoped0_split (F := F) c)

theorem scoped0_eq (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ others0 c) :=
  Classical.choose_spec (scoped0_split (F := F) c)

/-- The class invariant with the accumulator as a memref owned at some contents. -/
theorem PhiA0_eq (c : Dev nD) :
    (Pipeline.ΦA spec0 c : sProp 𝕄)
      = iprop(((∃ d, owns (c : Thread nD τ) mAcc0 fullShare d) ∗ others0 c) ∗ (∃ r, prngReg c r)) := by
  unfold Pipeline.ΦA; rw [scoped0_eq]; simp only [mAcc0, owns_whole]; try rfl

/-! ## The body's run in each case, with the pieces each buffer ends with as its witness -/

set_option maxHeartbeats 1000000 in
/-- The first point of a chain: the accumulator is reset, then the lane sums are added and the result
    copied to the output block. The pieces each buffer ends with are found by the run. -/
noncomputable def runStart0 (c : Dev nD) (i : grid0.Coords) (arg2 : Memref sig .tc .vmem S1x256x3136 .f32) (harg2 : arg2.IsWhole) (arg3 : Memref sig .tc .vmem S1x256x1 .f32) (harg3 : arg3.IsWhole) (arg4 : Memref sig .tc .vmem S256x1 .f32) (harg4 : arg4.IsWhole) (hc : chainStart0 i)
    (x0 : Vec F S1x256x3136 .f32) :
    Σ' (L1 : List (View.Piece (Elt F) S1x256x1 .f32)), { LS : List (View.Piece (Elt F) S256x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS)) -∗ K ⟨⟩))
          ⊢ wp frame (wpE (defs₀ (F := F)) Variants.none c none) E (cc0_kernel i arg2 harg2 arg3 harg3 arg4 harg4) K } := by
  refine ⟨?_, ?_, fun E K => ?run⟩
  case run =>
    simp only [cc0_kernel_eq_skeleton]; unfold cc0_kernel_skel
    unfold owns
    iintro ⟨⟨%f0, %hf0, H0⟩, ⟨%d1, %f1, -, H1⟩, ⟨%ds, %fs, -, HS⟩, Hk⟩
    obtain rfl := harg2.eq_unread hf0
    sl_exec (disch := first | exact hc)
    sl_step
    iapply Hk
    isplitl [H0]
    · iexists _; isplitr; · ipureintro; exact harg2.read_unread _
      iexact H0
    isplitl [H1]; · iexists _; iexact H1
    iexists _; iexact HS

set_option maxHeartbeats 1000000 in
/-- A later point of a chain: the lane sums are added to what the point before left in the accumulator
    (`xs`), and the result copied to the output block. -/
noncomputable def runNext0 (c : Dev nD) (i : grid0.Coords) (arg2 : Memref sig .tc .vmem S1x256x3136 .f32) (harg2 : arg2.IsWhole) (arg3 : Memref sig .tc .vmem S1x256x1 .f32) (harg3 : arg3.IsWhole) (arg4 : Memref sig .tc .vmem S256x1 .f32) (harg4 : arg4.IsWhole) (hc : ¬chainStart0 i)
    (x0 : Vec F S1x256x3136 .f32) (xs : Vec F S256x1 .f32) :
    Σ' (L1 : List (View.Piece (Elt F) S1x256x1 .f32)), { LS : List (View.Piece (Elt F) S256x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS)) -∗ K ⟨⟩))
          ⊢ wp frame (wpE (defs₀ (F := F)) Variants.none c none) E (cc0_kernel i arg2 harg2 arg3 harg3 arg4 harg4) K } := by
  refine ⟨?_, ?_, fun E K => ?run⟩
  case run =>
    simp only [cc0_kernel_eq_skeleton]; unfold cc0_kernel_skel
    unfold owns
    iintro ⟨⟨%f0, %hf0, H0⟩, ⟨%d1, %f1, -, H1⟩, ⟨%fs, %hfs, HS⟩, Hk⟩
    obtain rfl := harg2.eq_unread hf0; obtain rfl := harg4.eq_unread hfs
    sl_exec (disch := first | exact hc)
    sl_step
    iapply Hk
    isplitl [H0]
    · iexists _; isplitr; · ipureintro; exact harg2.read_unread _
      iexact H0
    isplitl [H1]; · iexists _; iexact H1
    iexists _; iexact HS

end Cert.KernelIdeal.Fr

end
-- ==== Proof.Region0.lean ====
/-
  The first kernel region (the per-channel sum of the rectified input): what its buffers hold point by
  point, the proof data and the body obligation, at the buffer contents `V` the region is entered with.
-/
import proofs.«128398_j30554397343924_2_alg».proof.Proof.Gen.KernelIdeal.Launch
import proofs.«128398_j30554397343924_2_alg».proof.Proof.Gen.KernelIdeal.Skeleton
import proofs.«128398_j30554397343924_2_alg».proof.Proof.Gen.KernelIdeal.Points
import proofs.«128398_j30554397343924_2_alg».proof.Proof.Region0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the output block's buffer and in the accumulator -/

theorem coverOutStart0 (c : Dev nD) (i : grid0.Coords) (arg2 : Memref sig .tc .vmem S1x256x3136 .f32) (harg2 : arg2.IsWhole) (arg3 : Memref sig .tc .vmem S1x256x1 .f32) (harg3 : arg3.IsWhole) (arg4 : Memref sig .tc .vmem S256x1 .f32) (harg4 : arg4.IsWhole) (hc : chainStart0 i)
    (x0 : Vec F S1x256x3136 .f32) (y : S1x256x1.Idx) :
    ∃ pc ∈ (runStart0 c i arg2 harg2 arg3 harg3 arg4 harg4 hc x0).1, y ∈ pc.1.set :=
  View.cover_of_tiledL (runStart0 c i arg2 harg2 arg3 harg3 arg4 harg4 hc x0).1 S1x256x1.size (by sl_kernel_rfl) y

def outStart0 (c : Dev nD) (i : grid0.Coords) (arg2 : Memref sig .tc .vmem S1x256x3136 .f32) (harg2 : arg2.IsWhole) (arg3 : Memref sig .tc .vmem S1x256x1 .f32) (harg3 : arg3.IsWhole) (arg4 : Memref sig .tc .vmem S256x1 .f32) (harg4 : arg4.IsWhole) (hc : chainStart0 i)
    (x0 : Vec F S1x256x3136 .f32) : Vec F S1x256x1 .f32 :=
  vOut0.read (Elt F) (vOut0.writes (Elt F) vOut0.junk (runStart0 c i arg2 harg2 arg3 harg3 arg4 harg4 hc x0).1)

theorem coverAccStart0 (c : Dev nD) (i : grid0.Coords) (arg2 : Memref sig .tc .vmem S1x256x3136 .f32) (harg2 : arg2.IsWhole) (arg3 : Memref sig .tc .vmem S1x256x1 .f32) (harg3 : arg3.IsWhole) (arg4 : Memref sig .tc .vmem S256x1 .f32) (harg4 : arg4.IsWhole) (hc : chainStart0 i)
    (x0 : Vec F S1x256x3136 .f32) (y : S256x1.Idx) :
    ∃ pc ∈ (runStart0 c i arg2 harg2 arg3 harg3 arg4 harg4 hc x0).2.1, y ∈ pc.1.set :=
  View.cover_of_tiledL (runStart0 c i arg2 harg2 arg3 harg3 arg4 harg4 hc x0).2.1 S256x1.size (by sl_kernel_rfl) y

def accStart0 (c : Dev nD) (i : grid0.Coords) (arg2 : Memref sig .tc .vmem S1x256x3136 .f32) (harg2 : arg2.IsWhole) (arg3 : Memref sig .tc .vmem S1x256x1 .f32) (harg3 : arg3.IsWhole) (arg4 : Memref sig .tc .vmem S256x1 .f32) (harg4 : arg4.IsWhole) (hc : chainStart0 i)
    (x0 : Vec F S1x256x3136 .f32) : Vec F S256x1 .f32 :=
  vAcc0.read (Elt F) (vAcc0.writes (Elt F) vAcc0.junk (runStart0 c i arg2 harg2 arg3 harg3 arg4 harg4 hc x0).2.1)

theorem coverOutNext0 (c : Dev nD) (i : grid0.Coords) (arg2 : Memref sig .tc .vmem S1x256x3136 .f32) (harg2 : arg2.IsWhole) (arg3 : Memref sig .tc .vmem S1x256x1 .f32) (harg3 : arg3.IsWhole) (arg4 : Memref sig .tc .vmem S256x1 .f32) (harg4 : arg4.IsWhole) (hc : ¬chainStart0 i)
    (x0 : Vec F S1x256x3136 .f32) (xs : Vec F S256x1 .f32) (y : S1x256x1.Idx) :
    ∃ pc ∈ (runNext0 c i arg2 harg2 arg3 harg3 arg4 harg4 hc x0 xs).1, y ∈ pc.1.set :=
  View.cover_of_tiledL (runNext0 c i arg2 harg2 arg3 harg3 arg4 harg4 hc x0 xs).1 S1x256x1.size (by sl_kernel_rfl) y

def outNext0 (c : Dev nD) (i : grid0.Coords) (arg2 : Memref sig .tc .vmem S1x256x3136 .f32) (harg2 : arg2.IsWhole) (arg3 : Memref sig .tc .vmem S1x256x1 .f32) (harg3 : arg3.IsWhole) (arg4 : Memref sig .tc .vmem S256x1 .f32) (harg4 : arg4.IsWhole) (hc : ¬chainStart0 i)
    (x0 : Vec F S1x256x3136 .f32) (xs : Vec F S256x1 .f32) : Vec F S1x256x1 .f32 :=
  vOut0.read (Elt F) (vOut0.writes (Elt F) vOut0.junk (runNext0 c i arg2 harg2 arg3 harg3 arg4 harg4 hc x0 xs).1)

theorem coverAccNext0 (c : Dev nD) (i : grid0.Coords) (arg2 : Memref sig .tc .vmem S1x256x3136 .f32) (harg2 : arg2.IsWhole) (arg3 : Memref sig .tc .vmem S1x256x1 .f32) (harg3 : arg3.IsWhole) (arg4 : Memref sig .tc .vmem S256x1 .f32) (harg4 : arg4.IsWhole) (hc : ¬chainStart0 i)
    (x0 : Vec F S1x256x3136 .f32) (xs : Vec F S256x1 .f32) (y : S256x1.Idx) :
    ∃ pc ∈ (runNext0 c i arg2 harg2 arg3 harg3 arg4 harg4 hc x0 xs).2.1, y ∈ pc.1.set :=
  View.cover_of_tiledL (runNext0 c i arg2 harg2 arg3 harg3 arg4 harg4 hc x0 xs).2.1 S256x1.size (by sl_kernel_rfl) y

def accNext0 (c : Dev nD) (i : grid0.Coords) (arg2 : Memref sig .tc .vmem S1x256x3136 .f32) (harg2 : arg2.IsWhole) (arg3 : Memref sig .tc .vmem S1x256x1 .f32) (harg3 : arg3.IsWhole) (arg4 : Memref sig .tc .vmem S256x1 .f32) (harg4 : arg4.IsWhole) (hc : ¬chainStart0 i)
    (x0 : Vec F S1x256x3136 .f32) (xs : Vec F S256x1 .f32) : Vec F S256x1 .f32 :=
  vAcc0.read (Elt F) (vAcc0.writes (Elt F) vAcc0.junk (runNext0 c i arg2 harg2 arg3 harg3 arg4 harg4 hc x0 xs).2.1)

/-! ## What the output block's buffer and the accumulator hold after each point -/

/-- After the body at position `n`: (the output block's buffer, the accumulator). At the first point of
    a chain the reset case; elsewhere the adding case over what the point before left in the accumulator. -/
def held0 (c : Dev nD) : (n : ℕ) → n < cfg0.N → Vec F S1x256x1 .f32 × Vec F S256x1 .f32
  | 0, hn => (outStart0 c (grid0.coords ⟨0, hn⟩) (mIn0 ⟨0, hn⟩) (hIn0 ⟨0, hn⟩) (mOut0 ⟨0, hn⟩) (hOut0 ⟨0, hn⟩) mAcc0 (Memref.isWhole_whole _) ((chainStart0_iff ⟨0, hn⟩).mpr (Nat.zero_mod _)) (iblk0 V c 0 ⟨0, hn⟩),
      accStart0 c (grid0.coords ⟨0, hn⟩) (mIn0 ⟨0, hn⟩) (hIn0 ⟨0, hn⟩) (mOut0 ⟨0, hn⟩) (hOut0 ⟨0, hn⟩) mAcc0 (Memref.isWhole_whole _) ((chainStart0_iff ⟨0, hn⟩).mpr (Nat.zero_mod _)) (iblk0 V c 0 ⟨0, hn⟩))
  | n + 1, hn =>
    if h0 : (n + 1) % 16 = 0 then
      (outStart0 c (grid0.coords ⟨n + 1, hn⟩) (mIn0 ⟨n + 1, hn⟩) (hIn0 ⟨n + 1, hn⟩) (mOut0 ⟨n + 1, hn⟩) (hOut0 ⟨n + 1, hn⟩) mAcc0 (Memref.isWhole_whole _) ((chainStart0_iff ⟨n + 1, hn⟩).mpr h0) (iblk0 V c 0 ⟨n + 1, hn⟩),
        accStart0 c (grid0.coords ⟨n + 1, hn⟩) (mIn0 ⟨n + 1, hn⟩) (hIn0 ⟨n + 1, hn⟩) (mOut0 ⟨n + 1, hn⟩) (hOut0 ⟨n + 1, hn⟩) mAcc0 (Memref.isWhole_whole _) ((chainStart0_iff ⟨n + 1, hn⟩).mpr h0) (iblk0 V c 0 ⟨n + 1, hn⟩))
    else
      (outNext0 c (grid0.coords ⟨n + 1, hn⟩) (mIn0 ⟨n + 1, hn⟩) (hIn0 ⟨n + 1, hn⟩) (mOut0 ⟨n + 1, hn⟩) (hOut0 ⟨n + 1, hn⟩) mAcc0 (Memref.isWhole_whole _) (fun h => h0 ((chainStart0_iff ⟨n + 1, hn⟩).mp h)) (iblk0 V c 0 ⟨n + 1, hn⟩) (held0 c n (Nat.lt_of_succ_lt hn)).2,
        accNext0 c (grid0.coords ⟨n + 1, hn⟩) (mIn0 ⟨n + 1, hn⟩) (hIn0 ⟨n + 1, hn⟩) (mOut0 ⟨n + 1, hn⟩) (hOut0 ⟨n + 1, hn⟩) mAcc0 (Memref.isWhole_whole _) (fun h => h0 ((chainStart0_iff ⟨n + 1, hn⟩).mp h)) (iblk0 V c 0 ⟨n + 1, hn⟩) (held0 c n (Nat.lt_of_succ_lt hn)).2)

theorem held0_start (c : Dev nD) (t : Fin cfg0.N) (h0 : t.val % 16 = 0) :
    held0 V c t.val t.isLt = (outStart0 c (grid0.coords t) (mIn0 t) (hIn0 t) (mOut0 t) (hOut0 t) mAcc0 (Memref.isWhole_whole _) ((chainStart0_iff t).mpr h0) (iblk0 V c 0 t),
      accStart0 c (grid0.coords t) (mIn0 t) (hIn0 t) (mOut0 t) (hOut0 t) mAcc0 (Memref.isWhole_whole _) ((chainStart0_iff t).mpr h0) (iblk0 V c 0 t)) := by
  obtain ⟨n, hn⟩ := t
  cases n with
  | zero => exact rfl
  | succ n => exact (dif_pos h0).trans rfl

theorem held0_next (c : Dev nD) (t : Fin cfg0.N) (h0 : ¬t.val % 16 = 0) :
    held0 V c t.val t.isLt = (outNext0 c (grid0.coords t) (mIn0 t) (hIn0 t) (mOut0 t) (hOut0 t) mAcc0 (Memref.isWhole_whole _) (fun h => h0 ((chainStart0_iff t).mp h)) (iblk0 V c 0 t) (held0 V c (t.val - 1) (Nat.lt_of_le_of_lt (Nat.sub_le _ _) t.isLt)).2,
      accNext0 c (grid0.coords t) (mIn0 t) (hIn0 t) (mOut0 t) (hOut0 t) mAcc0 (Memref.isWhole_whole _) (fun h => h0 ((chainStart0_iff t).mp h)) (iblk0 V c 0 t) (held0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region invariant -/

/-- Before position `n`: at the start the class invariant (every scoped buffer at anything); afterwards
    the accumulator at what the point before left, the other scoped buffers at anything, and the
    generator register at some state. -/
def inv0 (c : Dev nD) : (n : ℕ) → n ≤ cfg0.N → sProp 𝕄
  | 0, _ => Pipeline.ΦA spec0 c
  | n + 1, hn => iprop((owns (c : Thread nD τ) mAcc0 fullShare ((held0 V c n hn).2) ∗ others0 c) ∗ (∃ r, prngReg c r))

theorem inv0_zero (c : Dev nD) (n : ℕ) (h : n ≤ cfg0.N) (hz : n = 0) : inv0 V c n h = Pipeline.ΦA spec0 c := by
  subst hz; rfl

theorem inv0_succ (c : Dev nD) (n : ℕ) (hn : n < cfg0.N) :
    inv0 V c (n + 1) hn = iprop((owns (c : Thread nD τ) mAcc0 fullShare ((held0 V c n hn).2) ∗ others0 c) ∗ (∃ r, prngReg c r)) := rfl

theorem inv0_pos (c : Dev nD) (n : ℕ) (h : n ≤ cfg0.N) (hz : n ≠ 0) :
    inv0 V c n h = iprop((owns (c : Thread nD τ) mAcc0 fullShare ((held0 V c (n - 1) (by omega)).2) ∗ others0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (held0 V c t.val t.isLt).1
  Φ t := inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem inv0_castSucc (c : Dev nD) (t : Fin cfg0.N) :
    (dat0 V c).Φ t.castSucc = inv0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (held0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (mIn0 t) fullShare ((dat0 V c).before 0 t d))
    ∗ (∃ d, owns (c : Thread nD τ) (mOut0 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = inv0 V c (t.val + 1) t.isLt from rfl, inv0_succ]
  have hN : t.val < 32 := lt_of_lt_of_eq t.isLt (show cfg0.N = 32 from N_0)
  rw [show (dat0 V c).leavesExact 0 t = owns (c : Thread nD τ) (mIn0 t) fullShare ((dat0 V c).after 0 t) from by
    unfold Dat.leavesExact; rw [live0_0 t], after0_0]
  rw [show (dat0 V c).leavesExact 1 t = owns (c : Thread nD τ) (mOut0 t) fullShare ((dat0 V c).after 1 t) from by
    unfold Dat.leavesExact; rw [live0_1 t], after0_1]
  by_cases h0 : t.val % 16 = 0
  · rw [held0_start V c t h0]
    unfold outStart0 accStart0; (try dsimp only)
    have hpre : (dat0 V c).Φ t.castSucc ⊢ (iprop(((∃ d, owns (c : Thread nD τ) mAcc0 fullShare d) ∗ others0 c) ∗ (∃ r, prngReg c r)) : sProp 𝕄) := by
      rw [inv0_castSucc V c t]
      by_cases hz : t.val = 0
      · rw [inv0_zero V c _ _ hz, PhiA0_eq]
      · rw [inv0_pos V c _ _ hz]
        iintro ⟨⟨HS, Hr⟩, Hg⟩
        isplitl [HS Hr]
        · isplitl [HS]; · iexists _; iexact HS
          iexact Hr
        iexact Hg
    iintro ⟨HΦ, Ho, ⟨%d0, H0⟩, ⟨%d1, H1⟩⟩
    ihave HΦ' := hpre $$ HΦ
    icases HΦ' with ⟨⟨HS, Hr⟩, Hg⟩
    iapply ((runStart0 c (grid0.coords t) _ _ _ _ _ _ ((chainStart0_iff t).mpr h0) (iblk0 V c 0 t)).2.2 Set.univ _)
    isplitl [H0]; · iexact H0
    isplitl [H1]; · iexists _; iexact H1
    isplitl [HS]; · iexact HS
    iintro ⟨H0, ⟨%e1, H1⟩, ⟨%es, HS⟩⟩
    isplitl [HS Hr Hg]
    · isplitl [HS Hr]
      · isplitl [HS]
        · unfold owns; iexists _; isplitr
          swap; · iexact HS
          ipureintro; exact View.read_writes_of_cover _ _ _ _ _ (coverAccStart0 c _ _ _ _ _ _ _ _ _)
        iexact Hr
      iexact Hg
    isplitl [Ho]; · iexact Ho
    isplitl [H0]; · iexact H0
    unfold owns; iexists _; isplitr
    swap; · iexact H1
    ipureintro; exact View.read_writes_of_cover _ _ _ _ _ (coverOutStart0 c _ _ _ _ _ _ _ _ _)
  · rw [held0_next V c t h0]
    unfold outNext0 accNext0; (try dsimp only)
    have hz : t.val ≠ 0 := fun h => h0 (by rw [h])
    rw [inv0_castSucc V c t, inv0_pos V c _ _ hz]
    iintro ⟨⟨⟨HS, Hr⟩, Hg⟩, Ho, ⟨%d0, H0⟩, ⟨%d1, H1⟩⟩
    iapply ((runNext0 c (grid0.coords t) _ _ _ _ _ _ (fun h => h0 ((chainStart0_iff t).mp h)) (iblk0 V c 0 t) _).2.2 Set.univ _)
    isplitl [H0]; · iexact H0
    isplitl [H1]; · iexists _; iexact H1
    isplitl [HS]; · iexact HS
    iintro ⟨H0, ⟨%e1, H1⟩, ⟨%es, HS⟩⟩
    isplitl [HS Hr Hg]
    · isplitl [HS Hr]
      · isplitl [HS]
        · unfold owns; iexists _; isplitr
          swap; · iexact HS
          ipureintro; exact View.read_writes_of_cover _ _ _ _ _ (coverAccNext0 c _ _ _ _ _ _ _ _ _ _)
        iexact Hr
      iexact Hg
    isplitl [Ho]; · iexact Ho
    isplitl [H0]; · iexact H0
    unfold owns; iexists _; isplitr
    swap; · iexact H1
    ipureintro; exact View.read_writes_of_cover _ _ _ _ _ (coverOutNext0 c _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = inv0 V c 0 (Nat.zero_le _) from rfl, inv0_zero V c 0 _ rfl]

/-- After the last point the invariant gives the class invariant back: the accumulator's contents are forgotten. -/
theorem hout0 (c : Dev nD) : (dat0 V c).Φ (Fin.last cfg0.N) ⊢ Pipeline.ΦA spec0 c := by
  rw [show (dat0 V c).Φ (Fin.last cfg0.N) = inv0 V c (Fin.last cfg0.N).val (Nat.le_of_lt_succ (Fin.last cfg0.N).isLt) from rfl,
    inv0_pos V c _ _ (by rw [Fin.val_last]; have : cfg0.N = 32 := N_0; omega), PhiA0_eq]
  iintro ⟨⟨HS, Hr⟩, Hg⟩
  isplitl [HS Hr]
  · isplitl [HS]; · iexists _; iexact HS
    iexact Hr
  iexact Hg

end

end Cert.KernelIdeal.Fr

end
-- ==== Proof.Region1Runs.lean ====
/-
  The second kernel region (the running per-channel minimum and maximum of the clamped projection): what
  its runs share. The grid is 2 × 16; a point (p, b) projects batch 16·p + b's rectified slab, subtracts
  the projected mean, clamps, and folds the lane minima and maxima into two scratch accumulators that the
  point b = 0 resets to +∞ and −∞; both accumulators are copied to the output blocks p.
-/
import proofs.«128398_j30554397343924_2_alg».proof.Proof.Gen.KernelIdeal.Launch
import proofs.«128398_j30554397343924_2_alg».proof.Proof.Gen.KernelIdeal.Skeleton
import proofs.«128398_j30554397343924_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The control case -/

abbrev chainStart1 (i : grid1.Coords) : Prop :=
  (Scalar.cmpi .ne (Scalar.extui (Scalar.cmpi .eq (BitVec.ofNat 32 (i 1).val) 0#32)) 0#32) = 1#1

theorem chainStart1_iff : ∀ t : Fin cfg1.N, chainStart1 (grid1.coords t) ↔ t.val % 16 = 0 :=
  (by decide +kernel : ∀ t : Fin grid1.N, chainStart1 (grid1.coords t) ↔ t.val % 16 = 0)

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
theorem live1_5 : ∀ t : Fin cfg1.N, cfg1.idle 5 (grid1.coords t) = false := by decide +kernel

/-! ## The memrefs the body is called with -/

abbrev m1_0 (t : Fin cfg1.N) : Memref sig .tc .vmem S1x256x3136 .f32 := win1_0.stage (cfg1.slots t 0)
abbrev h1_0 (t : Fin cfg1.N) : (m1_0 t).IsWhole := hstage1_0 ((cfg1.slots t 0).cast nbuf1_0)
abbrev m1_1 (t : Fin cfg1.N) : Memref sig .tc .vmem S256x256 .f32 := win1_1.stage (cfg1.slots t 1)
abbrev h1_1 (t : Fin cfg1.N) : (m1_1 t).IsWhole := hstage1_1 ((cfg1.slots t 1).cast nbuf1_1)
abbrev m1_2 (t : Fin cfg1.N) : Memref sig .tc .vmem S256x1 .f32 := win1_2.stage (cfg1.slots t 2)
abbrev h1_2 (t : Fin cfg1.N) : (m1_2 t).IsWhole := hstage1_2 ((cfg1.slots t 2).cast nbuf1_2)
abbrev m1_3 (t : Fin cfg1.N) : Memref sig .tc .vmem S256x1 .f32 := win1_3.stage (cfg1.slots t 3)
abbrev h1_3 (t : Fin cfg1.N) : (m1_3 t).IsWhole := hstage1_3 ((cfg1.slots t 3).cast nbuf1_3)
abbrev m1_4 (t : Fin cfg1.N) : Memref sig .tc .vmem S1x256x1 .f32 := win1_4.stage (cfg1.slots t 4)
abbrev h1_4 (t : Fin cfg1.N) : (m1_4 t).IsWhole := hstage1_4 ((cfg1.slots t 4).cast nbuf1_4)
abbrev m1_5 (t : Fin cfg1.N) : Memref sig .tc .vmem S1x256x1 .f32 := win1_5.stage (cfg1.slots t 5)
abbrev h1_5 (t : Fin cfg1.N) : (m1_5 t).IsWhole := hstage1_5 ((cfg1.slots t 5).cast nbuf1_5)
/-- The two accumulators (running minimum, running maximum): whole scoped buffers of the kernel's own. -/
abbrev mMin1 : Memref sig .tc .vmem S256x1 .f32 := Memref.whole cc1_scratch0
abbrev mMax1 : Memref sig .tc .vmem S256x1 .f32 := Memref.whole cc1_scratch1
abbrev vOutMin1 : View sig .tc .vmem S1x256x1 .f32 := (Memref.whole cc1_stg4_0 : Memref sig .tc .vmem S1x256x1 .f32).view
abbrev vOutMax1 : View sig .tc .vmem S1x256x1 .f32 := (Memref.whole cc1_stg5_0 : Memref sig .tc .vmem S1x256x1 .f32).view
abbrev vMin1 : View sig .tc .vmem S256x1 .f32 := mMin1.view
abbrev vMax1 : View sig .tc .vmem S256x1 .f32 := mMax1.view

/-! ## The scoped buffers the region does not stage: the two accumulators and the others -/

/-- A scoped buffer whole at some contents. -/
abbrev anyAt (c : Dev nD) (b : Ref sig .tc) : sProp 𝕄 :=
  iprop(∃ f : Buf (Elt F) ((c : Thread nD τ).loc b), ((c : Thread nD τ).loc b) ↦{fullShare} f)

theorem scoped1_split (c : Dev nD) : ∃ R : sProp 𝕄,
    (Pipeline.scopedRest (Ix := Unit) (Name := ℕ) (U := UR sig nD τ) (Lvl := ℕ) (Val := Elt F) spec1 c : sProp 𝕄)
      = iprop(anyAt c cc0_stg0_0 ∗ anyAt c cc0_stg0_1 ∗ anyAt c cc0_stg1_0 ∗ anyAt c cc0_stg1_1 ∗ anyAt c cc0_scratch0 ∗ anyAt c cc1_scratch0 ∗ anyAt c cc1_scratch1 ∗ R) :=
  ⟨_, scopedRest1_eq c⟩

/-- The scoped buffers listed after the accumulators, at some contents. -/
def tail1 (c : Dev nD) : sProp 𝕄 := Classical.choose (scoped1_split (F := F) c)

theorem scoped1_eq (c : Dev nD) :
    (Pipeline.scopedRest (Ix := Unit) (Name := ℕ) (U := UR sig nD τ) (Lvl := ℕ) (Val := Elt F) spec1 c : sProp 𝕄)
      = iprop(anyAt c cc0_stg0_0 ∗ anyAt c cc0_stg0_1 ∗ anyAt c cc0_stg1_0 ∗ anyAt c cc0_stg1_1 ∗ anyAt c cc0_scratch0 ∗ anyAt c cc1_scratch0 ∗ anyAt c cc1_scratch1 ∗ tail1 c) :=
  Classical.choose_spec (scoped1_split (F := F) c)

/-- Every scoped buffer that is neither a staging buffer of this region nor one of its accumulators, at some contents. -/
def others1 (c : Dev nD) : sProp 𝕄 :=
  iprop(anyAt c cc0_stg0_0 ∗ anyAt c cc0_stg0_1 ∗ anyAt c cc0_stg1_0 ∗ anyAt c cc0_stg1_1 ∗ anyAt c cc0_scratch0 ∗ tail1 c)

/-- The class invariant opened: the two accumulators as memrefs owned at some contents, beside the others. -/
theorem PhiA1_open (c : Dev nD) :
    (Pipeline.ΦA spec1 c : sProp 𝕄)
      ⊢ iprop(((∃ d, owns (c : Thread nD τ) mMin1 fullShare d) ∗ (∃ d, owns (c : Thread nD τ) mMax1 fullShare d) ∗ others1 c) ∗ (∃ r, prngReg c r)) := by
  unfold Pipeline.ΦA others1; rw [scoped1_eq]; simp only [mMin1, mMax1, owns_whole]
  iintro ⟨⟨A1, A2, A3, A4, A5, S0, S1, R⟩, Hg⟩
  isplitr [Hg]
  · isplitl [S0]; · iexact S0
    isplitl [S1]; · iexact S1
    isplitl [A1]; · iexact A1
    isplitl [A2]; · iexact A2
    isplitl [A3]; · iexact A3
    isplitl [A4]; · iexact A4
    isplitl [A5]; · iexact A5
    iexact R
  iexact Hg

/-- And closed again. -/
theorem PhiA1_close (c : Dev nD) :
    (iprop(((∃ d, owns (c : Thread nD τ) mMin1 fullShare d) ∗ (∃ d, owns (c : Thread nD τ) mMax1 fullShare d) ∗ others1 c) ∗ (∃ r, prngReg c r)) : sProp 𝕄)
      ⊢ Pipeline.ΦA spec1 c := by
  unfold Pipeline.ΦA others1; rw [scoped1_eq]; simp only [mMin1, mMax1, owns_whole]
  iintro ⟨⟨S0, S1, A1, A2, A3, A4, A5, R⟩, Hg⟩
  isplitr [Hg]
  · isplitl [A1]; · iexact A1
    isplitl [A2]; · iexact A2
    isplitl [A3]; · iexact A3
    isplitl [A4]; · iexact A4
    isplitl [A5]; · iexact A5
    isplitl [S0]; · iexact S0
    isplitl [S1]; · iexact S1
    iexact R
  iexact Hg

/-! ## The body's run in each case -/

set_option maxHeartbeats 2000000 in
noncomputable def runStart1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : chainStart1 i)
    (x0 : Vec F S1x256x3136 .f32) (x1 : Vec F S256x256 .f32) (x2 : Vec F S256x1 .f32) (x3 : Vec F S256x1 .f32) :
    Σ' (L4 : List (View.Piece (Elt F) S1x256x1 .f32)) (L5 : List (View.Piece (Elt F) S1x256x1 .f32)) (LS0 : List (View.Piece (Elt F) S256x1 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1_kernel i arg2 harg2 arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

set_option maxHeartbeats 2000000 in
noncomputable def runNext1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : ¬chainStart1 i)
    (x0 : Vec F S1x256x3136 .f32) (x1 : Vec F S256x256 .f32) (x2 : Vec F S256x1 .f32) (x3 : Vec F S256x1 .f32) (xs0 : Vec F S256x1 .f32) (xs1 : Vec F S256x1 .f32) :
    Σ' (L4 : List (View.Piece (Elt F) S1x256x1 .f32)) (L5 : List (View.Piece (Elt F) S1x256x1 .f32)) (LS0 : List (View.Piece (Elt F) S256x1 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1_kernel i arg2 harg2 arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg8.eq_unread hfs0; obtain rfl := harg9.eq_unread hfs1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.KernelIdeal.Fr

end
-- ==== Proof.Region1.lean ====
/-
  The second kernel region (running per-channel minimum and maximum of the clamped projection): what its
  buffers hold point by point, the proof data and the body obligation, at the buffer contents `V` the
  region is entered with.
-/
import proofs.«128398_j30554397343924_2_alg».proof.Proof.Gen.KernelIdeal.Launch
import proofs.«128398_j30554397343924_2_alg».proof.Proof.Gen.KernelIdeal.Skeleton
import proofs.«128398_j30554397343924_2_alg».proof.Proof.Gen.KernelIdeal.Points
import proofs.«128398_j30554397343924_2_alg».proof.Proof.Region1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the two output blocks' buffers and in the two accumulators -/

theorem coverOutMinStart1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : chainStart1 i)
    (x0 : Vec F S1x256x3136 .f32) (x1 : Vec F S256x256 .f32) (x2 : Vec F S256x1 .f32) (x3 : Vec F S256x1 .f32) (y : S1x256x1.Idx) :
    ∃ pc ∈ (runStart1 c i arg2 harg2 arg3 harg3 arg4 harg4 arg5 harg5 arg6 harg6 arg7 harg7 arg8 harg8 arg9 harg9 hc x0 x1 x2 x3).1, y ∈ pc.1.set :=
  View.cover_of_tiledL (runStart1 c i arg2 harg2 arg3 harg3 arg4 harg4 arg5 harg5 arg6 harg6 arg7 harg7 arg8 harg8 arg9 harg9 hc x0 x1 x2 x3).1 S1x256x1.size (by sl_kernel_rfl) y

def valOutMinStart1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : chainStart1 i)
    (x0 : Vec F S1x256x3136 .f32) (x1 : Vec F S256x256 .f32) (x2 : Vec F S256x1 .f32) (x3 : Vec F S256x1 .f32) : Vec F S1x256x1 .f32 :=
  vOutMin1.read (Elt F) (vOutMin1.writes (Elt F) vOutMin1.junk (runStart1 c i arg2 harg2 arg3 harg3 arg4 harg4 arg5 harg5 arg6 harg6 arg7 harg7 arg8 harg8 arg9 harg9 hc x0 x1 x2 x3).1)

theorem coverOutMaxStart1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : chainStart1 i)
    (x0 : Vec F S1x256x3136 .f32) (x1 : Vec F S256x256 .f32) (x2 : Vec F S256x1 .f32) (x3 : Vec F S256x1 .f32) (y : S1x256x1.Idx) :
    ∃ pc ∈ (runStart1 c i arg2 harg2 arg3 harg3 arg4 harg4 arg5 harg5 arg6 harg6 arg7 harg7 arg8 harg8 arg9 harg9 hc x0 x1 x2 x3).2.1, y ∈ pc.1.set :=
  View.cover_of_tiledL (runStart1 c i arg2 harg2 arg3 harg3 arg4 harg4 arg5 harg5 arg6 harg6 arg7 harg7 arg8 harg8 arg9 harg9 hc x0 x1 x2 x3).2.1 S1x256x1.size (by sl_kernel_rfl) y

def valOutMaxStart1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : chainStart1 i)
    (x0 : Vec F S1x256x3136 .f32) (x1 : Vec F S256x256 .f32) (x2 : Vec F S256x1 .f32) (x3 : Vec F S256x1 .f32) : Vec F S1x256x1 .f32 :=
  vOutMax1.read (Elt F) (vOutMax1.writes (Elt F) vOutMax1.junk (runStart1 c i arg2 harg2 arg3 harg3 arg4 harg4 arg5 harg5 arg6 harg6 arg7 harg7 arg8 harg8 arg9 harg9 hc x0 x1 x2 x3).2.1)

theorem coverMinStart1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : chainStart1 i)
    (x0 : Vec F S1x256x3136 .f32) (x1 : Vec F S256x256 .f32) (x2 : Vec F S256x1 .f32) (x3 : Vec F S256x1 .f32) (y : S256x1.Idx) :
    ∃ pc ∈ (runStart1 c i arg2 harg2 arg3 harg3 arg4 harg4 arg5 harg5 arg6 harg6 arg7 harg7 arg8 harg8 arg9 harg9 hc x0 x1 x2 x3).2.2.1, y ∈ pc.1.set :=
  View.cover_of_tiledL (runStart1 c i arg2 harg2 arg3 harg3 arg4 harg4 arg5 harg5 arg6 harg6 arg7 harg7 arg8 harg8 arg9 harg9 hc x0 x1 x2 x3).2.2.1 S256x1.size (by sl_kernel_rfl) y

def valMinStart1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : chainStart1 i)
    (x0 : Vec F S1x256x3136 .f32) (x1 : Vec F S256x256 .f32) (x2 : Vec F S256x1 .f32) (x3 : Vec F S256x1 .f32) : Vec F S256x1 .f32 :=
  vMin1.read (Elt F) (vMin1.writes (Elt F) vMin1.junk (runStart1 c i arg2 harg2 arg3 harg3 arg4 harg4 arg5 harg5 arg6 harg6 arg7 harg7 arg8 harg8 arg9 harg9 hc x0 x1 x2 x3).2.2.1)

theorem coverMaxStart1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : chainStart1 i)
    (x0 : Vec F S1x256x3136 .f32) (x1 : Vec F S256x256 .f32) (x2 : Vec F S256x1 .f32) (x3 : Vec F S256x1 .f32) (y : S256x1.Idx) :
    ∃ pc ∈ (runStart1 c i arg2 harg2 arg3 harg3 arg4 harg4 arg5 harg5 arg6 harg6 arg7 harg7 arg8 harg8 arg9 harg9 hc x0 x1 x2 x3).2.2.2.1, y ∈ pc.1.set :=
  View.cover_of_tiledL (runStart1 c i arg2 harg2 arg3 harg3 arg4 harg4 arg5 harg5 arg6 harg6 arg7 harg7 arg8 harg8 arg9 harg9 hc x0 x1 x2 x3).2.2.2.1 S256x1.size (by sl_kernel_rfl) y

def valMaxStart1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : chainStart1 i)
    (x0 : Vec F S1x256x3136 .f32) (x1 : Vec F S256x256 .f32) (x2 : Vec F S256x1 .f32) (x3 : Vec F S256x1 .f32) : Vec F S256x1 .f32 :=
  vMax1.read (Elt F) (vMax1.writes (Elt F) vMax1.junk (runStart1 c i arg2 harg2 arg3 harg3 arg4 harg4 arg5 harg5 arg6 harg6 arg7 harg7 arg8 harg8 arg9 harg9 hc x0 x1 x2 x3).2.2.2.1)

theorem coverOutMinNext1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : ¬chainStart1 i)
    (x0 : Vec F S1x256x3136 .f32) (x1 : Vec F S256x256 .f32) (x2 : Vec F S256x1 .f32) (x3 : Vec F S256x1 .f32) (xs0 : Vec F S256x1 .f32) (xs1 : Vec F S256x1 .f32) (y : S1x256x1.Idx) :
    ∃ pc ∈ (runNext1 c i arg2 harg2 arg3 harg3 arg4 harg4 arg5 harg5 arg6 harg6 arg7 harg7 arg8 harg8 arg9 harg9 hc x0 x1 x2 x3 xs0 xs1).1, y ∈ pc.1.set :=
  View.cover_of_tiledL (runNext1 c i arg2 harg2 arg3 harg3 arg4 harg4 arg5 harg5 arg6 harg6 arg7 harg7 arg8 harg8 arg9 harg9 hc x0 x1 x2 x3 xs0 xs1).1 S1x256x1.size (by sl_kernel_rfl) y

def valOutMinNext1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : ¬chainStart1 i)
    (x0 : Vec F S1x256x3136 .f32) (x1 : Vec F S256x256 .f32) (x2 : Vec F S256x1 .f32) (x3 : Vec F S256x1 .f32) (xs0 : Vec F S256x1 .f32) (xs1 : Vec F S256x1 .f32) : Vec F S1x256x1 .f32 :=
  vOutMin1.read (Elt F) (vOutMin1.writes (Elt F) vOutMin1.junk (runNext1 c i arg2 harg2 arg3 harg3 arg4 harg4 arg5 harg5 arg6 harg6 arg7 harg7 arg8 harg8 arg9 harg9 hc x0 x1 x2 x3 xs0 xs1).1)

theorem coverOutMaxNext1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : ¬chainStart1 i)
    (x0 : Vec F S1x256x3136 .f32) (x1 : Vec F S256x256 .f32) (x2 : Vec F S256x1 .f32) (x3 : Vec F S256x1 .f32) (xs0 : Vec F S256x1 .f32) (xs1 : Vec F S256x1 .f32) (y : S1x256x1.Idx) :
    ∃ pc ∈ (runNext1 c i arg2 harg2 arg3 harg3 arg4 harg4 arg5 harg5 arg6 harg6 arg7 harg7 arg8 harg8 arg9 harg9 hc x0 x1 x2 x3 xs0 xs1).2.1, y ∈ pc.1.set :=
  View.cover_of_tiledL (runNext1 c i arg2 harg2 arg3 harg3 arg4 harg4 arg5 harg5 arg6 harg6 arg7 harg7 arg8 harg8 arg9 harg9 hc x0 x1 x2 x3 xs0 xs1).2.1 S1x256x1.size (by sl_kernel_rfl) y

def valOutMaxNext1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : ¬chainStart1 i)
    (x0 : Vec F S1x256x3136 .f32) (x1 : Vec F S256x256 .f32) (x2 : Vec F S256x1 .f32) (x3 : Vec F S256x1 .f32) (xs0 : Vec F S256x1 .f32) (xs1 : Vec F S256x1 .f32) : Vec F S1x256x1 .f32 :=
  vOutMax1.read (Elt F) (vOutMax1.writes (Elt F) vOutMax1.junk (runNext1 c i arg2 harg2 arg3 harg3 arg4 harg4 arg5 harg5 arg6 harg6 arg7 harg7 arg8 harg8 arg9 harg9 hc x0 x1 x2 x3 xs0 xs1).2.1)

theorem coverMinNext1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : ¬chainStart1 i)
    (x0 : Vec F S1x256x3136 .f32) (x1 : Vec F S256x256 .f32) (x2 : Vec F S256x1 .f32) (x3 : Vec F S256x1 .f32) (xs0 : Vec F S256x1 .f32) (xs1 : Vec F S256x1 .f32) (y : S256x1.Idx) :
    ∃ pc ∈ (runNext1 c i arg2 harg2 arg3 harg3 arg4 harg4 arg5 harg5 arg6 harg6 arg7 harg7 arg8 harg8 arg9 harg9 hc x0 x1 x2 x3 xs0 xs1).2.2.1, y ∈ pc.1.set :=
  View.cover_of_tiledL (runNext1 c i arg2 harg2 arg3 harg3 arg4 harg4 arg5 harg5 arg6 harg6 arg7 harg7 arg8 harg8 arg9 harg9 hc x0 x1 x2 x3 xs0 xs1).2.2.1 S256x1.size (by sl_kernel_rfl) y

def valMinNext1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : ¬chainStart1 i)
    (x0 : Vec F S1x256x3136 .f32) (x1 : Vec F S256x256 .f32) (x2 : Vec F S256x1 .f32) (x3 : Vec F S256x1 .f32) (xs0 : Vec F S256x1 .f32) (xs1 : Vec F S256x1 .f32) : Vec F S256x1 .f32 :=
  vMin1.read (Elt F) (vMin1.writes (Elt F) vMin1.junk (runNext1 c i arg2 harg2 arg3 harg3 arg4 harg4 arg5 harg5 arg6 harg6 arg7 harg7 arg8 harg8 arg9 harg9 hc x0 x1 x2 x3 xs0 xs1).2.2.1)

theorem coverMaxNext1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : ¬chainStart1 i)
    (x0 : Vec F S1x256x3136 .f32) (x1 : Vec F S256x256 .f32) (x2 : Vec F S256x1 .f32) (x3 : Vec F S256x1 .f32) (xs0 : Vec F S256x1 .f32) (xs1 : Vec F S256x1 .f32) (y : S256x1.Idx) :
    ∃ pc ∈ (runNext1 c i arg2 harg2 arg3 harg3 arg4 harg4 arg5 harg5 arg6 harg6 arg7 harg7 arg8 harg8 arg9 harg9 hc x0 x1 x2 x3 xs0 xs1).2.2.2.1, y ∈ pc.1.set :=
  View.cover_of_tiledL (runNext1 c i arg2 harg2 arg3 harg3 arg4 harg4 arg5 harg5 arg6 harg6 arg7 harg7 arg8 harg8 arg9 harg9 hc x0 x1 x2 x3 xs0 xs1).2.2.2.1 S256x1.size (by sl_kernel_rfl) y

def valMaxNext1 (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : ¬chainStart1 i)
    (x0 : Vec F S1x256x3136 .f32) (x1 : Vec F S256x256 .f32) (x2 : Vec F S256x1 .f32) (x3 : Vec F S256x1 .f32) (xs0 : Vec F S256x1 .f32) (xs1 : Vec F S256x1 .f32) : Vec F S256x1 .f32 :=
  vMax1.read (Elt F) (vMax1.writes (Elt F) vMax1.junk (runNext1 c i arg2 harg2 arg3 harg3 arg4 harg4 arg5 harg5 arg6 harg6 arg7 harg7 arg8 harg8 arg9 harg9 hc x0 x1 x2 x3 xs0 xs1).2.2.2.1)

/-! ## What the buffers hold after each point -/

/-- After the body at position `n`: (the minimum's output block, the maximum's output block, the running
    minimum, the running maximum). -/
def held1 (c : Dev nD) : (n : ℕ) → n < cfg1.N → Vec F S1x256x1 .f32 × Vec F S1x256x1 .f32 × Vec F S256x1 .f32 × Vec F S256x1 .f32
  | 0, hn => (valOutMinStart1 c (grid1.coords ⟨0, hn⟩) (m1_0 ⟨0, hn⟩) (h1_0 ⟨0, hn⟩) (m1_1 ⟨0, hn⟩) (h1_1 ⟨0, hn⟩) (m1_2 ⟨0, hn⟩) (h1_2 ⟨0, hn⟩) (m1_3 ⟨0, hn⟩) (h1_3 ⟨0, hn⟩) (m1_4 ⟨0, hn⟩) (h1_4 ⟨0, hn⟩) (m1_5 ⟨0, hn⟩) (h1_5 ⟨0, hn⟩) mMin1 (Memref.isWhole_whole _) mMax1 (Memref.isWhole_whole _) ((chainStart1_iff ⟨0, hn⟩).mpr (Nat.zero_mod _)) (iblk1 V c 0 ⟨0, hn⟩) (iblk1 V c 1 ⟨0, hn⟩) (iblk1 V c 2 ⟨0, hn⟩) (iblk1 V c 3 ⟨0, hn⟩),
      valOutMaxStart1 c (grid1.coords ⟨0, hn⟩) (m1_0 ⟨0, hn⟩) (h1_0 ⟨0, hn⟩) (m1_1 ⟨0, hn⟩) (h1_1 ⟨0, hn⟩) (m1_2 ⟨0, hn⟩) (h1_2 ⟨0, hn⟩) (m1_3 ⟨0, hn⟩) (h1_3 ⟨0, hn⟩) (m1_4 ⟨0, hn⟩) (h1_4 ⟨0, hn⟩) (m1_5 ⟨0, hn⟩) (h1_5 ⟨0, hn⟩) mMin1 (Memref.isWhole_whole _) mMax1 (Memref.isWhole_whole _) ((chainStart1_iff ⟨0, hn⟩).mpr (Nat.zero_mod _)) (iblk1 V c 0 ⟨0, hn⟩) (iblk1 V c 1 ⟨0, hn⟩) (iblk1 V c 2 ⟨0, hn⟩) (iblk1 V c 3 ⟨0, hn⟩),
      valMinStart1 c (grid1.coords ⟨0, hn⟩) (m1_0 ⟨0, hn⟩) (h1_0 ⟨0, hn⟩) (m1_1 ⟨0, hn⟩) (h1_1 ⟨0, hn⟩) (m1_2 ⟨0, hn⟩) (h1_2 ⟨0, hn⟩) (m1_3 ⟨0, hn⟩) (h1_3 ⟨0, hn⟩) (m1_4 ⟨0, hn⟩) (h1_4 ⟨0, hn⟩) (m1_5 ⟨0, hn⟩) (h1_5 ⟨0, hn⟩) mMin1 (Memref.isWhole_whole _) mMax1 (Memref.isWhole_whole _) ((chainStart1_iff ⟨0, hn⟩).mpr (Nat.zero_mod _)) (iblk1 V c 0 ⟨0, hn⟩) (iblk1 V c 1 ⟨0, hn⟩) (iblk1 V c 2 ⟨0, hn⟩) (iblk1 V c 3 ⟨0, hn⟩),
      valMaxStart1 c (grid1.coords ⟨0, hn⟩) (m1_0 ⟨0, hn⟩) (h1_0 ⟨0, hn⟩) (m1_1 ⟨0, hn⟩) (h1_1 ⟨0, hn⟩) (m1_2 ⟨0, hn⟩) (h1_2 ⟨0, hn⟩) (m1_3 ⟨0, hn⟩) (h1_3 ⟨0, hn⟩) (m1_4 ⟨0, hn⟩) (h1_4 ⟨0, hn⟩) (m1_5 ⟨0, hn⟩) (h1_5 ⟨0, hn⟩) mMin1 (Memref.isWhole_whole _) mMax1 (Memref.isWhole_whole _) ((chainStart1_iff ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 16 = 0 then
      (valOutMinStart1 c (grid1.coords ⟨n + 1, hn⟩) (m1_0 ⟨n + 1, hn⟩) (h1_0 ⟨n + 1, hn⟩) (m1_1 ⟨n + 1, hn⟩) (h1_1 ⟨n + 1, hn⟩) (m1_2 ⟨n + 1, hn⟩) (h1_2 ⟨n + 1, hn⟩) (m1_3 ⟨n + 1, hn⟩) (h1_3 ⟨n + 1, hn⟩) (m1_4 ⟨n + 1, hn⟩) (h1_4 ⟨n + 1, hn⟩) (m1_5 ⟨n + 1, hn⟩) (h1_5 ⟨n + 1, hn⟩) mMin1 (Memref.isWhole_whole _) mMax1 (Memref.isWhole_whole _) ((chainStart1_iff ⟨n + 1, hn⟩).mpr h0) (iblk1 V c 0 ⟨n + 1, hn⟩) (iblk1 V c 1 ⟨n + 1, hn⟩) (iblk1 V c 2 ⟨n + 1, hn⟩) (iblk1 V c 3 ⟨n + 1, hn⟩),
      valOutMaxStart1 c (grid1.coords ⟨n + 1, hn⟩) (m1_0 ⟨n + 1, hn⟩) (h1_0 ⟨n + 1, hn⟩) (m1_1 ⟨n + 1, hn⟩) (h1_1 ⟨n + 1, hn⟩) (m1_2 ⟨n + 1, hn⟩) (h1_2 ⟨n + 1, hn⟩) (m1_3 ⟨n + 1, hn⟩) (h1_3 ⟨n + 1, hn⟩) (m1_4 ⟨n + 1, hn⟩) (h1_4 ⟨n + 1, hn⟩) (m1_5 ⟨n + 1, hn⟩) (h1_5 ⟨n + 1, hn⟩) mMin1 (Memref.isWhole_whole _) mMax1 (Memref.isWhole_whole _) ((chainStart1_iff ⟨n + 1, hn⟩).mpr h0) (iblk1 V c 0 ⟨n + 1, hn⟩) (iblk1 V c 1 ⟨n + 1, hn⟩) (iblk1 V c 2 ⟨n + 1, hn⟩) (iblk1 V c 3 ⟨n + 1, hn⟩),
      valMinStart1 c (grid1.coords ⟨n + 1, hn⟩) (m1_0 ⟨n + 1, hn⟩) (h1_0 ⟨n + 1, hn⟩) (m1_1 ⟨n + 1, hn⟩) (h1_1 ⟨n + 1, hn⟩) (m1_2 ⟨n + 1, hn⟩) (h1_2 ⟨n + 1, hn⟩) (m1_3 ⟨n + 1, hn⟩) (h1_3 ⟨n + 1, hn⟩) (m1_4 ⟨n + 1, hn⟩) (h1_4 ⟨n + 1, hn⟩) (m1_5 ⟨n + 1, hn⟩) (h1_5 ⟨n + 1, hn⟩) mMin1 (Memref.isWhole_whole _) mMax1 (Memref.isWhole_whole _) ((chainStart1_iff ⟨n + 1, hn⟩).mpr h0) (iblk1 V c 0 ⟨n + 1, hn⟩) (iblk1 V c 1 ⟨n + 1, hn⟩) (iblk1 V c 2 ⟨n + 1, hn⟩) (iblk1 V c 3 ⟨n + 1, hn⟩),
      valMaxStart1 c (grid1.coords ⟨n + 1, hn⟩) (m1_0 ⟨n + 1, hn⟩) (h1_0 ⟨n + 1, hn⟩) (m1_1 ⟨n + 1, hn⟩) (h1_1 ⟨n + 1, hn⟩) (m1_2 ⟨n + 1, hn⟩) (h1_2 ⟨n + 1, hn⟩) (m1_3 ⟨n + 1, hn⟩) (h1_3 ⟨n + 1, hn⟩) (m1_4 ⟨n + 1, hn⟩) (h1_4 ⟨n + 1, hn⟩) (m1_5 ⟨n + 1, hn⟩) (h1_5 ⟨n + 1, hn⟩) mMin1 (Memref.isWhole_whole _) mMax1 (Memref.isWhole_whole _) ((chainStart1_iff ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (valOutMinNext1 c (grid1.coords ⟨n + 1, hn⟩) (m1_0 ⟨n + 1, hn⟩) (h1_0 ⟨n + 1, hn⟩) (m1_1 ⟨n + 1, hn⟩) (h1_1 ⟨n + 1, hn⟩) (m1_2 ⟨n + 1, hn⟩) (h1_2 ⟨n + 1, hn⟩) (m1_3 ⟨n + 1, hn⟩) (h1_3 ⟨n + 1, hn⟩) (m1_4 ⟨n + 1, hn⟩) (h1_4 ⟨n + 1, hn⟩) (m1_5 ⟨n + 1, hn⟩) (h1_5 ⟨n + 1, hn⟩) mMin1 (Memref.isWhole_whole _) mMax1 (Memref.isWhole_whole _) (fun h => h0 ((chainStart1_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (held1 c n (Nat.lt_of_succ_lt hn)).2.2.1 (held1 c n (Nat.lt_of_succ_lt hn)).2.2.2,
      valOutMaxNext1 c (grid1.coords ⟨n + 1, hn⟩) (m1_0 ⟨n + 1, hn⟩) (h1_0 ⟨n + 1, hn⟩) (m1_1 ⟨n + 1, hn⟩) (h1_1 ⟨n + 1, hn⟩) (m1_2 ⟨n + 1, hn⟩) (h1_2 ⟨n + 1, hn⟩) (m1_3 ⟨n + 1, hn⟩) (h1_3 ⟨n + 1, hn⟩) (m1_4 ⟨n + 1, hn⟩) (h1_4 ⟨n + 1, hn⟩) (m1_5 ⟨n + 1, hn⟩) (h1_5 ⟨n + 1, hn⟩) mMin1 (Memref.isWhole_whole _) mMax1 (Memref.isWhole_whole _) (fun h => h0 ((chainStart1_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (held1 c n (Nat.lt_of_succ_lt hn)).2.2.1 (held1 c n (Nat.lt_of_succ_lt hn)).2.2.2,
      valMinNext1 c (grid1.coords ⟨n + 1, hn⟩) (m1_0 ⟨n + 1, hn⟩) (h1_0 ⟨n + 1, hn⟩) (m1_1 ⟨n + 1, hn⟩) (h1_1 ⟨n + 1, hn⟩) (m1_2 ⟨n + 1, hn⟩) (h1_2 ⟨n + 1, hn⟩) (m1_3 ⟨n + 1, hn⟩) (h1_3 ⟨n + 1, hn⟩) (m1_4 ⟨n + 1, hn⟩) (h1_4 ⟨n + 1, hn⟩) (m1_5 ⟨n + 1, hn⟩) (h1_5 ⟨n + 1, hn⟩) mMin1 (Memref.isWhole_whole _) mMax1 (Memref.isWhole_whole _) (fun h => h0 ((chainStart1_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (held1 c n (Nat.lt_of_succ_lt hn)).2.2.1 (held1 c n (Nat.lt_of_succ_lt hn)).2.2.2,
      valMaxNext1 c (grid1.coords ⟨n + 1, hn⟩) (m1_0 ⟨n + 1, hn⟩) (h1_0 ⟨n + 1, hn⟩) (m1_1 ⟨n + 1, hn⟩) (h1_1 ⟨n + 1, hn⟩) (m1_2 ⟨n + 1, hn⟩) (h1_2 ⟨n + 1, hn⟩) (m1_3 ⟨n + 1, hn⟩) (h1_3 ⟨n + 1, hn⟩) (m1_4 ⟨n + 1, hn⟩) (h1_4 ⟨n + 1, hn⟩) (m1_5 ⟨n + 1, hn⟩) (h1_5 ⟨n + 1, hn⟩) mMin1 (Memref.isWhole_whole _) mMax1 (Memref.isWhole_whole _) (fun h => h0 ((chainStart1_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (held1 c n (Nat.lt_of_succ_lt hn)).2.2.1 (held1 c n (Nat.lt_of_succ_lt hn)).2.2.2)

theorem held1_start (c : Dev nD) (t : Fin cfg1.N) (h0 : t.val % 16 = 0) :
    held1 V c t.val t.isLt = (valOutMinStart1 c (grid1.coords t) (m1_0 t) (h1_0 t) (m1_1 t) (h1_1 t) (m1_2 t) (h1_2 t) (m1_3 t) (h1_3 t) (m1_4 t) (h1_4 t) (m1_5 t) (h1_5 t) mMin1 (Memref.isWhole_whole _) mMax1 (Memref.isWhole_whole _) ((chainStart1_iff t).mpr h0) (iblk1 V c 0 t) (iblk1 V c 1 t) (iblk1 V c 2 t) (iblk1 V c 3 t),
      valOutMaxStart1 c (grid1.coords t) (m1_0 t) (h1_0 t) (m1_1 t) (h1_1 t) (m1_2 t) (h1_2 t) (m1_3 t) (h1_3 t) (m1_4 t) (h1_4 t) (m1_5 t) (h1_5 t) mMin1 (Memref.isWhole_whole _) mMax1 (Memref.isWhole_whole _) ((chainStart1_iff t).mpr h0) (iblk1 V c 0 t) (iblk1 V c 1 t) (iblk1 V c 2 t) (iblk1 V c 3 t),
      valMinStart1 c (grid1.coords t) (m1_0 t) (h1_0 t) (m1_1 t) (h1_1 t) (m1_2 t) (h1_2 t) (m1_3 t) (h1_3 t) (m1_4 t) (h1_4 t) (m1_5 t) (h1_5 t) mMin1 (Memref.isWhole_whole _) mMax1 (Memref.isWhole_whole _) ((chainStart1_iff t).mpr h0) (iblk1 V c 0 t) (iblk1 V c 1 t) (iblk1 V c 2 t) (iblk1 V c 3 t),
      valMaxStart1 c (grid1.coords t) (m1_0 t) (h1_0 t) (m1_1 t) (h1_1 t) (m1_2 t) (h1_2 t) (m1_3 t) (h1_3 t) (m1_4 t) (h1_4 t) (m1_5 t) (h1_5 t) mMin1 (Memref.isWhole_whole _) mMax1 (Memref.isWhole_whole _) ((chainStart1_iff t).mpr h0) (iblk1 V c 0 t) (iblk1 V c 1 t) (iblk1 V c 2 t) (iblk1 V c 3 t)) := by
  obtain ⟨n, hn⟩ := t
  cases n with
  | zero => exact rfl
  | succ n => exact (dif_pos h0).trans rfl

theorem held1_next (c : Dev nD) (t : Fin cfg1.N) (h0 : ¬t.val % 16 = 0) :
    held1 V c t.val t.isLt = (valOutMinNext1 c (grid1.coords t) (m1_0 t) (h1_0 t) (m1_1 t) (h1_1 t) (m1_2 t) (h1_2 t) (m1_3 t) (h1_3 t) (m1_4 t) (h1_4 t) (m1_5 t) (h1_5 t) mMin1 (Memref.isWhole_whole _) mMax1 (Memref.isWhole_whole _) (fun h => h0 ((chainStart1_iff t).mp h)) (iblk1 V c 0 t) (iblk1 V c 1 t) (iblk1 V c 2 t) (iblk1 V c 3 t) (held1 V c (t.val - 1) (Nat.lt_of_le_of_lt (Nat.sub_le _ _) t.isLt)).2.2.1 (held1 V c (t.val - 1) (Nat.lt_of_le_of_lt (Nat.sub_le _ _) t.isLt)).2.2.2,
      valOutMaxNext1 c (grid1.coords t) (m1_0 t) (h1_0 t) (m1_1 t) (h1_1 t) (m1_2 t) (h1_2 t) (m1_3 t) (h1_3 t) (m1_4 t) (h1_4 t) (m1_5 t) (h1_5 t) mMin1 (Memref.isWhole_whole _) mMax1 (Memref.isWhole_whole _) (fun h => h0 ((chainStart1_iff t).mp h)) (iblk1 V c 0 t) (iblk1 V c 1 t) (iblk1 V c 2 t) (iblk1 V c 3 t) (held1 V c (t.val - 1) (Nat.lt_of_le_of_lt (Nat.sub_le _ _) t.isLt)).2.2.1 (held1 V c (t.val - 1) (Nat.lt_of_le_of_lt (Nat.sub_le _ _) t.isLt)).2.2.2,
      valMinNext1 c (grid1.coords t) (m1_0 t) (h1_0 t) (m1_1 t) (h1_1 t) (m1_2 t) (h1_2 t) (m1_3 t) (h1_3 t) (m1_4 t) (h1_4 t) (m1_5 t) (h1_5 t) mMin1 (Memref.isWhole_whole _) mMax1 (Memref.isWhole_whole _) (fun h => h0 ((chainStart1_iff t).mp h)) (iblk1 V c 0 t) (iblk1 V c 1 t) (iblk1 V c 2 t) (iblk1 V c 3 t) (held1 V c (t.val - 1) (Nat.lt_of_le_of_lt (Nat.sub_le _ _) t.isLt)).2.2.1 (held1 V c (t.val - 1) (Nat.lt_of_le_of_lt (Nat.sub_le _ _) t.isLt)).2.2.2,
      valMaxNext1 c (grid1.coords t) (m1_0 t) (h1_0 t) (m1_1 t) (h1_1 t) (m1_2 t) (h1_2 t) (m1_3 t) (h1_3 t) (m1_4 t) (h1_4 t) (m1_5 t) (h1_5 t) mMin1 (Memref.isWhole_whole _) mMax1 (Memref.isWhole_whole _) (fun h => h0 ((chainStart1_iff t).mp h)) (iblk1 V c 0 t) (iblk1 V c 1 t) (iblk1 V c 2 t) (iblk1 V c 3 t) (held1 V c (t.val - 1) (Nat.lt_of_le_of_lt (Nat.sub_le _ _) t.isLt)).2.2.1 (held1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The region invariant -/

def inv1 (c : Dev nD) : (n : ℕ) → n ≤ cfg1.N → sProp 𝕄
  | 0, _ => Pipeline.ΦA spec1 c
  | n + 1, hn => iprop((owns (c : Thread nD τ) mMin1 fullShare ((held1 V c n hn).2.2.1) ∗ owns (c : Thread nD τ) mMax1 fullShare ((held1 V c n hn).2.2.2) ∗ others1 c) ∗ (∃ r, prngReg c r))

theorem inv1_zero (c : Dev nD) (n : ℕ) (h : n ≤ cfg1.N) (hz : n = 0) : inv1 V c n h = Pipeline.ΦA spec1 c := by
  subst hz; rfl

theorem inv1_succ (c : Dev nD) (n : ℕ) (hn : n < cfg1.N) :
    inv1 V c (n + 1) hn = iprop((owns (c : Thread nD τ) mMin1 fullShare ((held1 V c n hn).2.2.1) ∗ owns (c : Thread nD τ) mMax1 fullShare ((held1 V c n hn).2.2.2) ∗ others1 c) ∗ (∃ r, prngReg c r)) := rfl

theorem inv1_pos (c : Dev nD) (n : ℕ) (h : n ≤ cfg1.N) (hz : n ≠ 0) :
    inv1 V c n h = iprop((owns (c : Thread nD τ) mMin1 fullShare ((held1 V c (n - 1) (by omega)).2.2.1) ∗ owns (c : Thread nD τ) mMax1 fullShare ((held1 V c (n - 1) (by omega)).2.2.2) ∗ others1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (held1 V c t.val t.isLt).1
    | ⟨5, _⟩ => (held1 V c t.val t.isLt).2.1
  Φ t := inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem inv1_castSucc (c : Dev nD) (t : Fin cfg1.N) :
    (dat1 V c).Φ t.castSucc = inv1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (held1 V c t.val t.isLt).1 := by dsimp only [dat1]
theorem after1_5 (c : Dev nD) (t : Fin cfg1.N) : (dat1 V c).after 5 t = (held1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (m1_0 t) fullShare ((dat1 V c).before 0 t d))
    ∗ (∃ d, owns (c : Thread nD τ) (m1_1 t) fullShare ((dat1 V c).before 1 t d))
    ∗ (∃ d, owns (c : Thread nD τ) (m1_2 t) fullShare ((dat1 V c).before 2 t d))
    ∗ (∃ d, owns (c : Thread nD τ) (m1_3 t) fullShare ((dat1 V c).before 3 t d))
    ∗ (∃ d, owns (c : Thread nD τ) (m1_4 t) fullShare ((dat1 V c).before 4 t d))
    ∗ (∃ d, owns (c : Thread nD τ) (m1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = inv1 V c (t.val + 1) t.isLt from rfl, inv1_succ]
  have hN : t.val < 32 := lt_of_lt_of_eq t.isLt (show cfg1.N = 32 from N_1)
  rw [show (dat1 V c).leavesExact 0 t = owns (c : Thread nD τ) (m1_0 t) fullShare ((dat1 V c).after 0 t) from by
    unfold Dat.leavesExact; rw [live1_0 t], after1_0]
  rw [show (dat1 V c).leavesExact 1 t = owns (c : Thread nD τ) (m1_1 t) fullShare ((dat1 V c).after 1 t) from by
    unfold Dat.leavesExact; rw [live1_1 t], after1_1]
  rw [show (dat1 V c).leavesExact 2 t = owns (c : Thread nD τ) (m1_2 t) fullShare ((dat1 V c).after 2 t) from by
    unfold Dat.leavesExact; rw [live1_2 t], after1_2]
  rw [show (dat1 V c).leavesExact 3 t = owns (c : Thread nD τ) (m1_3 t) fullShare ((dat1 V c).after 3 t) from by
    unfold Dat.leavesExact; rw [live1_3 t], after1_3]
  rw [show (dat1 V c).leavesExact 4 t = owns (c : Thread nD τ) (m1_4 t) fullShare ((dat1 V c).after 4 t) from by
    unfold Dat.leavesExact; rw [live1_4 t], after1_4]
  rw [show (dat1 V c).leavesExact 5 t = owns (c : Thread nD τ) (m1_5 t) fullShare ((dat1 V c).after 5 t) from by
    unfold Dat.leavesExact; rw [live1_5 t], after1_5]
  by_cases h0 : t.val % 16 = 0
  · rw [held1_start V c t h0]
    unfold valOutMinStart1 valOutMaxStart1 valMinStart1 valMaxStart1; (try dsimp only)
    have hpre : (dat1 V c).Φ t.castSucc ⊢ (iprop(((∃ d, owns (c : Thread nD τ) mMin1 fullShare d) ∗ (∃ d, owns (c : Thread nD τ) mMax1 fullShare d) ∗ others1 c) ∗ (∃ r, prngReg c r)) : sProp 𝕄) := by
      rw [inv1_castSucc V c t]
      by_cases hz : t.val = 0
      · rw [inv1_zero V c _ _ hz]; exact PhiA1_open c
      · rw [inv1_pos V c _ _ hz]
        iintro ⟨⟨HS0, HS1, Hr⟩, Hg⟩
        isplitl [HS0 HS1 Hr]
        · isplitl [HS0]; · iexists _; iexact HS0
          isplitl [HS1]; · iexists _; iexact HS1
          iexact Hr
        iexact Hg
    iintro ⟨HΦ, Ho, ⟨%d0, H0⟩, ⟨%d1, H1⟩, ⟨%d2, H2⟩, ⟨%d3, H3⟩, ⟨%d4, H4⟩, ⟨%d5, H5⟩⟩
    ihave HΦ' := hpre $$ HΦ
    icases HΦ' with ⟨⟨HS0, HS1, Hr⟩, Hg⟩
    iapply ((runStart1 c (grid1.coords t) _ _ _ _ _ _ _ _ _ _ _ _ _ _ _ _ ((chainStart1_iff t).mpr h0) (iblk1 V c 0 t) (iblk1 V c 1 t) (iblk1 V c 2 t) (iblk1 V c 3 t)).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, ⟨%e4, H4⟩, ⟨%e5, H5⟩, ⟨%es0, HS0⟩, ⟨%es1, HS1⟩⟩
    isplitl [HS0 HS1 Hr Hg]
    · isplitl [HS0 HS1 Hr]
      · isplitl [HS0]
        · unfold owns; iexists _; isplitr
          swap; · iexact HS0
          ipureintro; exact View.read_writes_of_cover _ _ _ _ _ (coverMinStart1 c _ _ _ _ _ _ _ _ _ _ _ _ _ _ _ _ _ _ _ _ _ _)
        isplitl [HS1]
        · unfold owns; iexists _; isplitr
          swap; · iexact HS1
          ipureintro; exact View.read_writes_of_cover _ _ _ _ _ (coverMaxStart1 c _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverOutMinStart1 c _ _ _ _ _ _ _ _ _ _ _ _ _ _ _ _ _ _ _ _ _ _)
    unfold owns; iexists _; isplitr
    swap; · iexact H5
    ipureintro; exact View.read_writes_of_cover _ _ _ _ _ (coverOutMaxStart1 c _ _ _ _ _ _ _ _ _ _ _ _ _ _ _ _ _ _ _ _ _ _)
  · rw [held1_next V c t h0]
    unfold valOutMinNext1 valOutMaxNext1 valMinNext1 valMaxNext1; (try dsimp only)
    have hz : t.val ≠ 0 := fun h => h0 (by rw [h])
    rw [inv1_castSucc V c t, inv1_pos V c _ _ hz]
    iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
    iapply ((runNext1 c (grid1.coords t) _ _ _ _ _ _ _ _ _ _ _ _ _ _ _ _ (fun h => h0 ((chainStart1_iff t).mp h)) (iblk1 V c 0 t) (iblk1 V c 1 t) (iblk1 V c 2 t) (iblk1 V c 3 t) _ _).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, ⟨%e4, H4⟩, ⟨%e5, H5⟩, ⟨%es0, HS0⟩, ⟨%es1, HS1⟩⟩
    isplitl [HS0 HS1 Hr Hg]
    · isplitl [HS0 HS1 Hr]
      · isplitl [HS0]
        · unfold owns; iexists _; isplitr
          swap; · iexact HS0
          ipureintro; exact View.read_writes_of_cover _ _ _ _ _ (coverMinNext1 c _ _ _ _ _ _ _ _ _ _ _ _ _ _ _ _ _ _ _ _ _ _ _ _)
        isplitl [HS1]
        · unfold owns; iexists _; isplitr
          swap; · iexact HS1
          ipureintro; exact View.read_writes_of_cover _ _ _ _ _ (coverMaxNext1 c _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverOutMinNext1 c _ _ _ _ _ _ _ _ _ _ _ _ _ _ _ _ _ _ _ _ _ _ _ _)
    unfold owns; iexists _; isplitr
    swap; · iexact H5
    ipureintro; exact View.read_writes_of_cover _ _ _ _ _ (coverOutMaxNext1 c _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = inv1 V c 0 (Nat.zero_le _) from rfl, inv1_zero V c 0 _ rfl]

theorem hout1 (c : Dev nD) : (dat1 V c).Φ (Fin.last cfg1.N) ⊢ Pipeline.ΦA spec1 c := by
  rw [show (dat1 V c).Φ (Fin.last cfg1.N) = inv1 V c (Fin.last cfg1.N).val (Nat.le_of_lt_succ (Fin.last cfg1.N).isLt) from rfl,
    inv1_pos V c _ _ (by rw [Fin.val_last]; have : cfg1.N = 32 := N_1; omega)]
  refine .trans ?_ (PhiA1_close c)
  iintro ⟨⟨HS0, HS1, Hr⟩, Hg⟩
  isplitl [HS0 HS1 Hr]
  · isplitl [HS0]; · iexists _; iexact HS0
    isplitl [HS1]; · iexists _; iexact HS1
    iexact Hr
  iexact Hg

end

end Cert.KernelIdeal.Fr

end
-- ==== Proof.Region2Runs.lean ====
/-
  The third kernel region (quantise and reconstruct): its one run. The grid is the 32 batches; a point
  recomputes the clamped projection of its batch's rectified slab, rounds it on the per-channel grid,
  multiplies by the basis and adds the mean back; the whole output block is stored.
-/
import proofs.«128398_j30554397343924_2_alg».proof.Proof.Gen.KernelIdeal.Launch
import proofs.«128398_j30554397343924_2_alg».proof.Proof.Gen.KernelIdeal.Skeleton
import proofs.«128398_j30554397343924_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
theorem live2_4 : ∀ t : Fin cfg2.N, cfg2.idle 4 (grid2.coords t) = false := by decide +kernel
theorem live2_5 : ∀ t : Fin cfg2.N, cfg2.idle 5 (grid2.coords t) = false := by decide +kernel
theorem live2_6 : ∀ t : Fin cfg2.N, cfg2.idle 6 (grid2.coords t) = false := by decide +kernel
theorem live2_7 : ∀ t : Fin cfg2.N, cfg2.idle 7 (grid2.coords t) = false := by decide +kernel
theorem live2_8 : ∀ t : Fin cfg2.N, cfg2.idle 8 (grid2.coords t) = false := by decide +kernel
theorem live2_9 : ∀ t : Fin cfg2.N, cfg2.idle 9 (grid2.coords t) = false := by decide +kernel

/-! ## The memrefs the body is called with -/

abbrev m2_0 (t : Fin cfg2.N) : Memref sig .tc .vmem S1x256x3136 .f32 := win2_0.stage (cfg2.slots t 0)
abbrev h2_0 (t : Fin cfg2.N) : (m2_0 t).IsWhole := hstage2_0 ((cfg2.slots t 0).cast nbuf2_0)
abbrev m2_1 (t : Fin cfg2.N) : Memref sig .tc .vmem S256x256 .f32 := win2_1.stage (cfg2.slots t 1)
abbrev h2_1 (t : Fin cfg2.N) : (m2_1 t).IsWhole := hstage2_1 ((cfg2.slots t 1).cast nbuf2_1)
abbrev m2_2 (t : Fin cfg2.N) : Memref sig .tc .vmem S256x256 .f32 := win2_2.stage (cfg2.slots t 2)
abbrev h2_2 (t : Fin cfg2.N) : (m2_2 t).IsWhole := hstage2_2 ((cfg2.slots t 2).cast nbuf2_2)
abbrev m2_3 (t : Fin cfg2.N) : Memref sig .tc .vmem S256x1 .f32 := win2_3.stage (cfg2.slots t 3)
abbrev h2_3 (t : Fin cfg2.N) : (m2_3 t).IsWhole := hstage2_3 ((cfg2.slots t 3).cast nbuf2_3)
abbrev m2_4 (t : Fin cfg2.N) : Memref sig .tc .vmem S256x1 .f32 := win2_4.stage (cfg2.slots t 4)
abbrev h2_4 (t : Fin cfg2.N) : (m2_4 t).IsWhole := hstage2_4 ((cfg2.slots t 4).cast nbuf2_4)
abbrev m2_5 (t : Fin cfg2.N) : Memref sig .tc .vmem S256x1 .f32 := win2_5.stage (cfg2.slots t 5)
abbrev h2_5 (t : Fin cfg2.N) : (m2_5 t).IsWhole := hstage2_5 ((cfg2.slots t 5).cast nbuf2_5)
abbrev m2_6 (t : Fin cfg2.N) : Memref sig .tc .vmem S256x1 .f32 := win2_6.stage (cfg2.slots t 6)
abbrev h2_6 (t : Fin cfg2.N) : (m2_6 t).IsWhole := hstage2_6 ((cfg2.slots t 6).cast nbuf2_6)
abbrev m2_7 (t : Fin cfg2.N) : Memref sig .tc .vmem S256x1 .f32 := win2_7.stage (cfg2.slots t 7)
abbrev h2_7 (t : Fin cfg2.N) : (m2_7 t).IsWhole := hstage2_7 ((cfg2.slots t 7).cast nbuf2_7)
abbrev m2_8 (t : Fin cfg2.N) : Memref sig .tc .vmem S256x1 .f32 := win2_8.stage (cfg2.slots t 8)
abbrev h2_8 (t : Fin cfg2.N) : (m2_8 t).IsWhole := hstage2_8 ((cfg2.slots t 8).cast nbuf2_8)
abbrev m2_9 (t : Fin cfg2.N) : Memref sig .tc .vmem S1x256x3136 .f32 := win2_9.stage (cfg2.slots t 9)
abbrev h2_9 (t : Fin cfg2.N) : (m2_9 t).IsWhole := hstage2_9 ((cfg2.slots t 9).cast nbuf2_9)
abbrev vOut2 : View sig .tc .vmem S1x256x3136 .f32 := (Memref.whole cc2_stg9_0 : Memref sig .tc .vmem S1x256x3136 .f32).view

/-! ## The body's run -/

set_option maxHeartbeats 2000000 in
noncomputable def runBody2 (c : Dev nD) (i : grid2.Coords) (arg1 : Memref sig .tc .vmem S1x256x3136 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S1x256x3136 .f32) (harg10 : arg10.IsWhole)
    (x0 : Vec F S1x256x3136 .f32) (x1 : Vec F S256x256 .f32) (x2 : Vec F S256x256 .f32) (x3 : Vec F S256x1 .f32) (x4 : Vec F S256x1 .f32) (x5 : Vec F S256x1 .f32) (x6 : Vec F S256x1 .f32) (x7 : Vec F S256x1 .f32) (x8 : Vec F S256x1 .f32) :
    { L9 : List (View.Piece (Elt F) S1x256x3136 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9)) -∗ K ⟨⟩))
          ⊢ wp frame (wpE (defs₀ (F := F)) Variants.none c none) E (cc2_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    iexists _; iexact H9

end Cert.KernelIdeal.Fr

end
-- ==== Proof.Region2.lean ====
/-
  The third kernel region (quantise and reconstruct): what the output block's buffer holds after the
  body, the proof data and the body obligation, at the buffer contents `V` the region is entered with.
-/
import proofs.«128398_j30554397343924_2_alg».proof.Proof.Gen.KernelIdeal.Launch
import proofs.«128398_j30554397343924_2_alg».proof.Proof.Gen.KernelIdeal.Skeleton
import proofs.«128398_j30554397343924_2_alg».proof.Proof.Gen.KernelIdeal.Points
import proofs.«128398_j30554397343924_2_alg».proof.Proof.Region2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- The run's one store tiles the output block. -/
theorem coverOut2 (c : Dev nD) (i : grid2.Coords) (arg1 : Memref sig .tc .vmem S1x256x3136 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S1x256x3136 .f32) (harg10 : arg10.IsWhole)
    (x0 : Vec F S1x256x3136 .f32) (x1 : Vec F S256x256 .f32) (x2 : Vec F S256x256 .f32) (x3 : Vec F S256x1 .f32) (x4 : Vec F S256x1 .f32) (x5 : Vec F S256x1 .f32) (x6 : Vec F S256x1 .f32) (x7 : Vec F S256x1 .f32) (x8 : Vec F S256x1 .f32) (y : S1x256x3136.Idx) :
    ∃ pc ∈ (runBody2 c i arg1 harg1 arg2 harg2 arg3 harg3 arg4 harg4 arg5 harg5 arg6 harg6 arg7 harg7 arg8 harg8 arg9 harg9 arg10 harg10 x0 x1 x2 x3 x4 x5 x6 x7 x8).1, y ∈ pc.1.set :=
  View.cover_of_tiledL (runBody2 c i arg1 harg1 arg2 harg2 arg3 harg3 arg4 harg4 arg5 harg5 arg6 harg6 arg7 harg7 arg8 harg8 arg9 harg9 arg10 harg10 x0 x1 x2 x3 x4 x5 x6 x7 x8).1 S1x256x3136.size (by sl_kernel_rfl) y

/-- What the body leaves in the output block's buffer: its pieces read back. -/
def out2 (c : Dev nD) (i : grid2.Coords) (arg1 : Memref sig .tc .vmem S1x256x3136 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S1x256x3136 .f32) (harg10 : arg10.IsWhole)
    (x0 : Vec F S1x256x3136 .f32) (x1 : Vec F S256x256 .f32) (x2 : Vec F S256x256 .f32) (x3 : Vec F S256x1 .f32) (x4 : Vec F S256x1 .f32) (x5 : Vec F S256x1 .f32) (x6 : Vec F S256x1 .f32) (x7 : Vec F S256x1 .f32) (x8 : Vec F S256x1 .f32) : Vec F S1x256x3136 .f32 :=
  vOut2.read (Elt F) (vOut2.writes (Elt F) vOut2.junk (runBody2 c i arg1 harg1 arg2 harg2 arg3 harg3 arg4 harg4 arg5 harg5 arg6 harg6 arg7 harg7 arg8 harg8 arg9 harg9 arg10 harg10 x0 x1 x2 x3 x4 x5 x6 x7 x8).1)

/-- The proof data: the arrays as the region finds them; after the body each input's buffer at its block
    and the output's at the run's result; the class invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2 c (grid2.coords t) (m2_0 t) (h2_0 t) (m2_1 t) (h2_1 t) (m2_2 t) (h2_2 t) (m2_3 t) (h2_3 t) (m2_4 t) (h2_4 t) (m2_5 t) (h2_5 t) (m2_6 t) (h2_6 t) (m2_7 t) (h2_7 t) (m2_8 t) (h2_8 t) (m2_9 t) (h2_9 t) (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2 c (grid2.coords t) (m2_0 t) (h2_0 t) (m2_1 t) (h2_1 t) (m2_2 t) (h2_2 t) (m2_3 t) (h2_3 t) (m2_4 t) (h2_4 t) (m2_5 t) (h2_5 t) (m2_6 t) (h2_6 t) (m2_7 t) (h2_7 t) (m2_8 t) (h2_8 t) (m2_9 t) (h2_9 t) (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

def bodyPre2 (c : Dev nD) (t : Fin cfg2.N) : sProp 𝕄 :=
  iprop((dat2 V c).Φ t.castSucc ∗ (dat2 V c).owesAt () t.castSucc
    ∗ (∃ d, owns (c : Thread nD τ) (m2_0 t) fullShare ((dat2 V c).before 0 t d))
    ∗ (∃ d, owns (c : Thread nD τ) (m2_1 t) fullShare ((dat2 V c).before 1 t d))
    ∗ (∃ d, owns (c : Thread nD τ) (m2_2 t) fullShare ((dat2 V c).before 2 t d))
    ∗ (∃ d, owns (c : Thread nD τ) (m2_3 t) fullShare ((dat2 V c).before 3 t d))
    ∗ (∃ d, owns (c : Thread nD τ) (m2_4 t) fullShare ((dat2 V c).before 4 t d))
    ∗ (∃ d, owns (c : Thread nD τ) (m2_5 t) fullShare ((dat2 V c).before 5 t d))
    ∗ (∃ d, owns (c : Thread nD τ) (m2_6 t) fullShare ((dat2 V c).before 6 t d))
    ∗ (∃ d, owns (c : Thread nD τ) (m2_7 t) fullShare ((dat2 V c).before 7 t d))
    ∗ (∃ d, owns (c : Thread nD τ) (m2_8 t) fullShare ((dat2 V c).before 8 t d))
    ∗ (∃ d, owns (c : Thread nD τ) (m2_9 t) fullShare ((dat2 V c).before 9 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl]
  rw [show (dat2 V c).leavesExact 0 t = owns (c : Thread nD τ) (m2_0 t) fullShare ((dat2 V c).after 0 t) from by
    unfold Dat.leavesExact; rw [live2_0 t], after2_0]
  rw [show (dat2 V c).leavesExact 1 t = owns (c : Thread nD τ) (m2_1 t) fullShare ((dat2 V c).after 1 t) from by
    unfold Dat.leavesExact; rw [live2_1 t], after2_1]
  rw [show (dat2 V c).leavesExact 2 t = owns (c : Thread nD τ) (m2_2 t) fullShare ((dat2 V c).after 2 t) from by
    unfold Dat.leavesExact; rw [live2_2 t], after2_2]
  rw [show (dat2 V c).leavesExact 3 t = owns (c : Thread nD τ) (m2_3 t) fullShare ((dat2 V c).after 3 t) from by
    unfold Dat.leavesExact; rw [live2_3 t], after2_3]
  rw [show (dat2 V c).leavesExact 4 t = owns (c : Thread nD τ) (m2_4 t) fullShare ((dat2 V c).after 4 t) from by
    unfold Dat.leavesExact; rw [live2_4 t], after2_4]
  rw [show (dat2 V c).leavesExact 5 t = owns (c : Thread nD τ) (m2_5 t) fullShare ((dat2 V c).after 5 t) from by
    unfold Dat.leavesExact; rw [live2_5 t], after2_5]
  rw [show (dat2 V c).leavesExact 6 t = owns (c : Thread nD τ) (m2_6 t) fullShare ((dat2 V c).after 6 t) from by
    unfold Dat.leavesExact; rw [live2_6 t], after2_6]
  rw [show (dat2 V c).leavesExact 7 t = owns (c : Thread nD τ) (m2_7 t) fullShare ((dat2 V c).after 7 t) from by
    unfold Dat.leavesExact; rw [live2_7 t], after2_7]
  rw [show (dat2 V c).leavesExact 8 t = owns (c : Thread nD τ) (m2_8 t) fullShare ((dat2 V c).after 8 t) from by
    unfold Dat.leavesExact; rw [live2_8 t], after2_8]
  rw [show (dat2 V c).leavesExact 9 t = owns (c : Thread nD τ) (m2_9 t) fullShare ((dat2 V c).after 9 t) from by
    unfold Dat.leavesExact; rw [live2_9 t], after2_9]
  unfold out2; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runBody2 c (grid2.coords t) _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (coverOut2 c _ _ _ _ _ _ _ _ _ _ _ _ _ _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

end

end Cert.KernelIdeal.Fr

end
-- ==== Proof.WholeRun.lean ====
/-
  The whole run: @main is three stretches of host operations around three kernel regions, then one last
  reshape. The buffer contents at each boundary are a fold from the launch memory — a stretch applies its
  operations, a region leaves its arrays at what its write-backs leave —, and every weakly fair execution
  terminates with every unscoped buffer at the last boundary's contents.
-/
import proofs.«128398_j30554397343924_2_alg».proof.Proof.Gen.KernelIdeal.Launch
import proofs.«128398_j30554397343924_2_alg».proof.Proof.Gen.KernelIdeal.Skeleton
import proofs.«128398_j30554397343924_2_alg».proof.Proof.Gen.KernelIdeal.Points
import proofs.«128398_j30554397343924_2_alg».proof.Proof.Region0
import proofs.«128398_j30554397343924_2_alg».proof.Proof.Region1
import proofs.«128398_j30554397343924_2_alg».proof.Proof.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last reshape: what the program returns with. -/
abbrev W7 : Dev nD → Valuation τ sig (Elt F) := fun c => StableHlo.after hostOps3 (W6 m ρ c)

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at the contents before it, left at the
    contents after it; its arrays split out of the unscoped buffers and put back at what the write-backs leave. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c); unfold Pipeline.ΦA
    iintro ⟨Hp, -, Hr⟩
    isplitl [Hr]; · iexact Hr
    iexact Hp
  hout c := by
    rw [Pipeline.ownSems0_none]
    refine .trans (hout0 (V1 m ρ) c) ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (fun b => W2 m ρ c b) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it; its arrays split out of the unscoped buffers and put back at what the write-backs leave. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m ρ) c); unfold Pipeline.ΦA
    iintro ⟨Hp, -, Hr⟩
    isplitl [Hr]; · iexact Hr
    iexact Hp
  hout c := by
    rw [Pipeline.ownSems0_none]
    refine .trans (hout1 (V3 m ρ) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (fun b => W4 m ρ c b) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it; its arrays split out of the unscoped buffers and put back at what the write-backs leave. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (fun b => W6 m ρ c b) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

theorem main_run (c : Dev nD) : main (F := F) c = Pipeline.Seg.run (segs m ρ) := (main_chain c).trans (by chain_rfl)

set_option backward.isDefEq.respectTransparency.types false in
/-- Every weakly fair execution of @main from memory `m` with zero counters terminates, nothing faulting, and
    every final state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Fr

end
-- ==== Proof.Walk.lean ====
/-
  Walking the buffer contents through @main: what each region's input arrays hold when the region is entered,
  and what the host operations between the regions write, in terms of the launch memory and of what the
  regions before left.
-/
import proofs.«128398_j30554397343924_2_alg».proof.Proof.Gen.KernelIdeal.Launch
import proofs.«128398_j30554397343924_2_alg».proof.Proof.Gen.KernelIdeal.Skeleton
import proofs.«128398_j30554397343924_2_alg».proof.Proof.Gen.KernelIdeal.Points
import proofs.«128398_j30554397343924_2_alg».proof.Proof.WholeRun
import proofs.«128398_j30554397343924_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Before and after the first region -/

/-- The input as 32 × 256 × 3136. -/
theorem V1_x (c : Dev nD) : V1 m ρ c main_v0 = shapeCast _ (m ((c : Thread nD τ).loc main_arg0)) shapeCasts_S32x256x56x56_S32x256x3136 := by
  show StableHlo.after hostOps0 (W0 m ρ c) (Proc.devRef .tc main_v0) = _
  after_results; try rfl
/-- The basis transposed. -/
theorem V1_ut (c : Dev nD) : V1 m ρ c main_v1 = transpose S256x256 [1, 0] (m ((c : Thread nD τ).loc main_arg1)) transposes_S256x256_S256x256_1_0 := by
  show StableHlo.after hostOps0 (W0 m ρ c) (Proc.devRef .tc main_v1) = _
  after_results; try rfl
/-- The clamp values as a column. -/
theorem V1_cv (c : Dev nD) : V1 m ρ c main_v2 = shapeCast _ (m ((c : Thread nD τ).loc main_arg2)) shapeCasts_S256_S256x1 := by
  show StableHlo.after hostOps0 (W0 m ρ c) (Proc.devRef .tc main_v2) = _
  after_results; try rfl
theorem V1_u (c : Dev nD) : V1 m ρ c main_arg1 = m ((c : Thread nD τ).loc main_arg1) :=
  StableHlo.after_of_writes_sub hostOps0 _ hostOps0_writes (by decide)

/-- What the first region leaves in the partial-sum array. -/
abbrev afterSum (c : Dev nD) : Buf (Elt F) ((c : Thread nD τ).loc main_v3) := (dat0 (V1 m ρ) c).arrAt 1 cfg0.N

theorem V2_partial (c : Dev nD) : V2 m ρ c main_v3 = afterSum m ρ c := W2_arr m ρ c 1
theorem V2_x (c : Dev nD) : V2 m ρ c main_v0 = V1 m ρ c main_v0 :=
  (W2_arr m ρ c 0).trans (((dat0 (V1 m ρ) c).arrAt_in 0 rfl _).trans (A_eq0 (V1 m ρ) c 0))
theorem V2_ut (c : Dev nD) : V2 m ρ c main_v1 = V1 m ρ c main_v1 := W2_of_ne m ρ c main_v1 (by decide)
theorem V2_cv (c : Dev nD) : V2 m ρ c main_v2 = V1 m ρ c main_v2 := W2_of_ne m ρ c main_v2 (by decide)
theorem V2_u (c : Dev nD) : V2 m ρ c main_arg1 = V1 m ρ c main_arg1 := W2_of_ne m ρ c main_arg1 (by decide)

/-! ## Between the first and the second region -/

/-- The channel means, as the host computes them from the partial sums. -/
abbrev hostMean (c : Dev nD) : Buf (Elt F) ((c : Thread nD τ).loc main_v6) :=
  Host.divf (Host.reduceAdd (afterSum m ρ c) (constant S_ .f32 0x00000000#32) reducesTo_S2x256x1_S256x1_d0 h_S_)
    (broadcastInDim S256x1 ![] bcast_S_S256x1 (constant S_ .f32 0x47C40000#32))
/-- The projected means. -/
abbrev hostMeanProj (c : Dev nD) : Buf (Elt F) ((c : Thread nD τ).loc main_v7) :=
  Host.dotGeneral dot_S256x256_S256x1_S256x1_1_0_0_1_n_n none (V1 m ρ c main_v1) (hostMean m ρ c)

theorem V3_mean (c : Dev nD) : V3 m ρ c main_v6 = hostMean m ρ c := by
  show StableHlo.after hostOps1 (W2 m ρ c) (Proc.devRef .tc main_v6) = _
  after_results
  rw [show W2 m ρ c (Proc.devRef .tc main_v3) = afterSum m ρ c from V2_partial m ρ c]
theorem V3_meanProj (c : Dev nD) : V3 m ρ c main_v7 = hostMeanProj m ρ c := by
  show StableHlo.after hostOps1 (W2 m ρ c) (Proc.devRef .tc main_v7) = _
  after_results
  rw [show W2 m ρ c (Proc.devRef .tc main_v3) = afterSum m ρ c from V2_partial m ρ c,
    show W2 m ρ c (Proc.devRef .tc main_v1) = V1 m ρ c main_v1 from V2_ut m ρ c]
theorem V3_x (c : Dev nD) : V3 m ρ c main_v0 = V1 m ρ c main_v0 :=
  (StableHlo.after_of_writes_sub hostOps1 _ hostOps1_writes (by decide)).trans (V2_x m ρ c)
theorem V3_ut (c : Dev nD) : V3 m ρ c main_v1 = V1 m ρ c main_v1 :=
  (StableHlo.after_of_writes_sub hostOps1 _ hostOps1_writes (by decide)).trans (V2_ut m ρ c)
theorem V3_cv (c : Dev nD) : V3 m ρ c main_v2 = V1 m ρ c main_v2 :=
  (StableHlo.after_of_writes_sub hostOps1 _ hostOps1_writes (by decide)).trans (V2_cv m ρ c)
theorem V3_u (c : Dev nD) : V3 m ρ c main_arg1 = V1 m ρ c main_arg1 :=
  (StableHlo.after_of_writes_sub hostOps1 _ hostOps1_writes (by decide)).trans (V2_u m ρ c)

/-! ## After the second region -/

abbrev afterMin (c : Dev nD) : Buf (Elt F) ((c : Thread nD τ).loc main_v8_0) := (dat1 (V3 m ρ) c).arrAt 4 cfg1.N
abbrev afterMax (c : Dev nD) : Buf (Elt F) ((c : Thread nD τ).loc main_v8_1) := (dat1 (V3 m ρ) c).arrAt 5 cfg1.N

theorem V4_min (c : Dev nD) : V4 m ρ c main_v8_0 = afterMin m ρ c := W4_arr m ρ c 4
theorem V4_max (c : Dev nD) : V4 m ρ c main_v8_1 = afterMax m ρ c := W4_arr m ρ c 5
theorem V4_x (c : Dev nD) : V4 m ρ c main_v0 = V1 m ρ c main_v0 :=
  (W4_arr m ρ c 0).trans (((dat1 (V3 m ρ) c).arrAt_in 0 rfl _).trans ((A_eq1 (V3 m ρ) c 0).trans (V3_x m ρ c)))
theorem V4_ut (c : Dev nD) : V4 m ρ c main_v1 = V1 m ρ c main_v1 :=
  (W4_arr m ρ c 1).trans (((dat1 (V3 m ρ) c).arrAt_in 1 rfl _).trans ((A_eq1 (V3 m ρ) c 1).trans (V3_ut m ρ c)))
theorem V4_meanProj (c : Dev nD) : V4 m ρ c main_v7 = hostMeanProj m ρ c :=
  (W4_arr m ρ c 2).trans (((dat1 (V3 m ρ) c).arrAt_in 2 rfl _).trans ((A_eq1 (V3 m ρ) c 2).trans (V3_meanProj m ρ c)))
theorem V4_cv (c : Dev nD) : V4 m ρ c main_v2 = V1 m ρ c main_v2 :=
  (W4_arr m ρ c 3).trans (((dat1 (V3 m ρ) c).arrAt_in 3 rfl _).trans ((A_eq1 (V3 m ρ) c 3).trans (V3_cv m ρ c)))
theorem V4_mean (c : Dev nD) : V4 m ρ c main_v6 = hostMean m ρ c :=
  (W4_of_ne m ρ c main_v6 (by decide)).trans (V3_mean m ρ c)
theorem V4_u (c : Dev nD) : V4 m ρ c main_arg1 = V1 m ρ c main_arg1 :=
  (W4_of_ne m ρ c main_arg1 (by decide)).trans (V3_u m ρ c)

/-! ## Between the second and the third region -/

/-- Each channel's minimum and maximum, as the host combines the two chains' extrema. -/
abbrev hostLo (c : Dev nD) : Buf (Elt F) ((c : Thread nD τ).loc main_v9) :=
  Host.reduce FloatOps.minimumf (afterMin m ρ c) (constant S_ .f32 0x7F800000#32) reducesTo_S2x256x1_S256x1_d0 h_S_
abbrev hostHi (c : Dev nD) : Buf (Elt F) ((c : Thread nD τ).loc main_v10) :=
  Host.reduce FloatOps.maximumf (afterMax m ρ c) (constant S_ .f32 0xFF800000#32) reducesTo_S2x256x1_S256x1_d0 h_S_
/-- Steps per unit, and units per step. -/
abbrev hostScale (c : Dev nD) : Buf (Elt F) ((c : Thread nD τ).loc main_v13) :=
  Host.divf (broadcastInDim S256x1 ![] bcast_S_S256x1 (constant S_ .f32 0x437F0000#32)) (subf (hostHi m ρ c) (hostLo m ρ c))
abbrev hostStep (c : Dev nD) : Buf (Elt F) ((c : Thread nD τ).loc main_v16) :=
  Host.divf (subf (hostHi m ρ c) (hostLo m ρ c)) (broadcastInDim S256x1 ![] bcast_S_S256x1 (constant S_ .f32 0x437F0000#32))

theorem V5_lo (c : Dev nD) : V5 m ρ c main_v9 = hostLo m ρ c := by
  show StableHlo.after hostOps2 (W4 m ρ c) (Proc.devRef .tc main_v9) = _
  after_results
  rw [show W4 m ρ c (Proc.devRef .tc main_v8_0) = afterMin m ρ c from V4_min m ρ c]
theorem V5_scale (c : Dev nD) : V5 m ρ c main_v13 = hostScale m ρ c := by
  show StableHlo.after hostOps2 (W4 m ρ c) (Proc.devRef .tc main_v13) = _
  after_results
  rw [show W4 m ρ c (Proc.devRef .tc main_v8_0) = afterMin m ρ c from V4_min m ρ c,
    show W4 m ρ c (Proc.devRef .tc main_v8_1) = afterMax m ρ c from V4_max m ρ c]
theorem V5_step (c : Dev nD) : V5 m ρ c main_v16 = hostStep m ρ c := by
  show StableHlo.after hostOps2 (W4 m ρ c) (Proc.devRef .tc main_v16) = _
  after_results
  rw [show W4 m ρ c (Proc.devRef .tc main_v8_0) = afterMin m ρ c from V4_min m ρ c,
    show W4 m ρ c (Proc.devRef .tc main_v8_1) = afterMax m ρ c from V4_max m ρ c]
theorem V5_x (c : Dev nD) : V5 m ρ c main_v0 = V1 m ρ c main_v0 :=
  (StableHlo.after_of_writes_sub hostOps2 _ hostOps2_writes (by decide)).trans (V4_x m ρ c)
theorem V5_ut (c : Dev nD) : V5 m ρ c main_v1 = V1 m ρ c main_v1 :=
  (StableHlo.after_of_writes_sub hostOps2 _ hostOps2_writes (by decide)).trans (V4_ut m ρ c)
theorem V5_u (c : Dev nD) : V5 m ρ c main_arg1 = m ((c : Thread nD τ).loc main_arg1) :=
  (StableHlo.after_of_writes_sub hostOps2 _ hostOps2_writes (by decide)).trans ((V4_u m ρ c).trans (V1_u m ρ c))
theorem V5_meanProj (c : Dev nD) : V5 m ρ c main_v7 = hostMeanProj m ρ c :=
  (StableHlo.after_of_writes_sub hostOps2 _ hostOps2_writes (by decide)).trans (V4_meanProj m ρ c)
theorem V5_mean (c : Dev nD) : V5 m ρ c main_v6 = hostMean m ρ c :=
  (StableHlo.after_of_writes_sub hostOps2 _ hostOps2_writes (by decide)).trans (V4_mean m ρ c)
theorem V5_cv (c : Dev nD) : V5 m ρ c main_v2 = V1 m ρ c main_v2 :=
  (StableHlo.after_of_writes_sub hostOps2 _ hostOps2_writes (by decide)).trans (V4_cv m ρ c)

/-! ## After the third region -/

abbrev afterRecon (c : Dev nD) : Buf (Elt F) ((c : Thread nD τ).loc main_v17) := (dat2 (V5 m ρ) c).arrAt 9 cfg2.N

/-- What the program returns: the reconstruction in the input's layout. -/
theorem W7_result (c : Dev nD) :
    W7 m ρ c (Proc.devRef .tc main_v18) = shapeCast _ (afterRecon m ρ c) shapeCasts_S32x256x3136_S32x256x56x56 := by
  show StableHlo.after hostOps3 (W6 m ρ c) (Proc.devRef .tc main_v18) = _
  after_results
  rw [show W6 m ρ c (Proc.devRef .tc main_v17) = afterRecon m ρ c from W6_arr m ρ c 9]
  rfl
theorem W7_arg0 (c : Dev nD) : W7 m ρ c (Proc.devRef .tc main_arg0) = m ((c : Thread nD τ).loc main_arg0) :=
  (StableHlo.after_of_writes_sub hostOps3 _ hostOps3_writes (by decide)).trans <|
  (W6_of_ne m ρ c main_arg0 (by decide)).trans <|
  (StableHlo.after_of_writes_sub hostOps2 _ hostOps2_writes (by decide)).trans <|
  (W4_of_ne m ρ c main_arg0 (by decide)).trans <|
  (StableHlo.after_of_writes_sub hostOps1 _ hostOps1_writes (by decide)).trans <|
  (W2_of_ne m ρ c main_arg0 (by decide)).trans <|
  (StableHlo.after_of_writes_sub hostOps0 _ hostOps0_writes (by decide)).trans rfl
theorem W7_arg2 (c : Dev nD) : W7 m ρ c (Proc.devRef .tc main_arg2) = m ((c : Thread nD τ).loc main_arg2) :=
  (StableHlo.after_of_writes_sub hostOps3 _ hostOps3_writes (by decide)).trans <|
  (W6_of_ne m ρ c main_arg2 (by decide)).trans <|
  (StableHlo.after_of_writes_sub hostOps2 _ hostOps2_writes (by decide)).trans <|
  (W4_of_ne m ρ c main_arg2 (by decide)).trans <|
  (StableHlo.after_of_writes_sub hostOps1 _ hostOps1_writes (by decide)).trans <|
  (W2_of_ne m ρ c main_arg2 (by decide)).trans <|
  (StableHlo.after_of_writes_sub hostOps0 _ hostOps0_writes (by decide)).trans rfl
theorem W7_arg1 (c : Dev nD) : W7 m ρ c (Proc.devRef .tc main_arg1) = m ((c : Thread nD τ).loc main_arg1) :=
  (StableHlo.after_of_writes_sub hostOps3 _ hostOps3_writes (by decide)).trans <|
  ((W6_arr m ρ c 2).trans (((dat2 (V5 m ρ) c).arrAt_in 2 rfl _).trans ((A_eq2 (V5 m ρ) c 2).trans (V5_u m ρ c))))

end Cert.KernelIdeal.Fr

end
-- ==== Proof.Value0.lean ====
/-
  The first kernel region read as values: each control case leaves, in the accumulator, the lane sums of
  the point's rectified slab added to what it held (zero at the first point of a chain), and the same in
  the output block; so after point n the accumulator holds the running sum of its chain so far.
-/
import proofs.«128398_j30554397343924_2_alg».proof.Proof.Gen.KernelIdeal.Launch
import proofs.«128398_j30554397343924_2_alg».proof.Proof.Gen.KernelIdeal.Skeleton
import proofs.«128398_j30554397343924_2_alg».proof.Proof.Gen.KernelIdeal.Points
import proofs.«128398_j30554397343924_2_alg».proof.Proof.Region0
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl
theorem zeros3 : (![0, 0, 0] : Fin 3 → Nat) = fun _ => 0 := funext fun a => by fin_cases a <;> rfl

/-- A load of the whole buffer after a list of stores whose last is a store of the whole buffer reads that store's payload. -/
theorem readCov_cons_whole {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

section
variable (V : (c : Dev nD) → (b : Ref sig .tc) → Buf (Elt F) ((c : Thread nD τ).loc b))

theorem accNext0_eq (c : Dev nD) (i : grid0.Coords) (arg2 : Memref sig .tc .vmem S1x256x3136 .f32) (harg2 : arg2.IsWhole) (arg3 : Memref sig .tc .vmem S1x256x1 .f32) (harg3 : arg3.IsWhole) (arg4 : Memref sig .tc .vmem S256x1 .f32) (harg4 : arg4.IsWhole) (hc : ¬chainStart0 i)
    (x0 : Vec F S1x256x3136 .f32) (xs : Vec F S256x1 .f32) : accNext0 c i arg2 harg2 arg3 harg3 arg4 harg4 hc x0 xs = k0_pay2 x0 xs := by
  unfold accNext0
  rw [View.read_writes_eq_canon _ _ _ (coverAccNext0 c i arg2 harg2 arg3 harg3 arg4 harg4 hc x0 xs)]
  unfold runNext0
  dsimp only
  sl_unfold_words
  rw [View.canon_unit_zero zeros2]
  simp only [View.readAt_eq_ld, harg2.read_unread, harg4.read_unread, View.ld_unit_zero (S := S1x256x3136) zeros3, View.ld_unit_zero (S := S256x1) zeros2]

theorem outNext0_eq (c : Dev nD) (i : grid0.Coords) (arg2 : Memref sig .tc .vmem S1x256x3136 .f32) (harg2 : arg2.IsWhole) (arg3 : Memref sig .tc .vmem S1x256x1 .f32) (harg3 : arg3.IsWhole) (arg4 : Memref sig .tc .vmem S256x1 .f32) (harg4 : arg4.IsWhole) (hc : ¬chainStart0 i)
    (x0 : Vec F S1x256x3136 .f32) (xs : Vec F S256x1 .f32) : outNext0 c i arg2 harg2 arg3 harg3 arg4 harg4 hc x0 xs = k0_pay3 (k0_pay2 x0 xs) := by
  unfold outNext0
  rw [View.read_writes_eq_canon _ _ _ (coverOutNext0 c i arg2 harg2 arg3 harg3 arg4 harg4 hc x0 xs)]
  unfold runNext0
  dsimp only
  sl_unfold_words
  rw [View.canon_unit_zero zeros3, View.readCov_unit_zero (S := S256x1) _ zeros2]
  simp only [View.readAt_eq_ld, harg2.read_unread, harg4.read_unread, View.ld_unit_zero (S := S1x256x3136) zeros3, View.ld_unit_zero (S := S256x1) zeros2]

theorem accStart0_eq (c : Dev nD) (i : grid0.Coords) (arg2 : Memref sig .tc .vmem S1x256x3136 .f32) (harg2 : arg2.IsWhole) (arg3 : Memref sig .tc .vmem S1x256x1 .f32) (harg3 : arg3.IsWhole) (arg4 : Memref sig .tc .vmem S256x1 .f32) (harg4 : arg4.IsWhole) (hc : chainStart0 i)
    (x0 : Vec F S1x256x3136 .f32) : accStart0 c i arg2 harg2 arg3 harg3 arg4 harg4 hc x0 = k0_pay2 x0 k0_pay1 := by
  unfold accStart0
  rw [View.read_writes_eq_canon _ _ _ (coverAccStart0 c i arg2 harg2 arg3 harg3 arg4 harg4 hc x0)]
  unfold runStart0
  dsimp only
  sl_unfold_words
  rw [View.canon_cons_unit_zero (S := S256x1) zeros2, View.readCov_unit_zero (S := S256x1) _ zeros2]
  simp only [View.readAt_eq_ld, harg2.read_unread, View.ld_unit_zero (S := S1x256x3136) zeros3]

theorem outStart0_eq (c : Dev nD) (i : grid0.Coords) (arg2 : Memref sig .tc .vmem S1x256x3136 .f32) (harg2 : arg2.IsWhole) (arg3 : Memref sig .tc .vmem S1x256x1 .f32) (harg3 : arg3.IsWhole) (arg4 : Memref sig .tc .vmem S256x1 .f32) (harg4 : arg4.IsWhole) (hc : chainStart0 i)
    (x0 : Vec F S1x256x3136 .f32) : outStart0 c i arg2 harg2 arg3 harg3 arg4 harg4 hc x0 = k0_pay3 (k0_pay2 x0 k0_pay1) := by
  unfold outStart0
  rw [View.read_writes_eq_canon _ _ _ (coverOutStart0 c i arg2 harg2 arg3 harg3 arg4 harg4 hc x0)]
  unfold runStart0
  dsimp only
  sl_unfold_words
  rw [View.canon_unit_zero zeros3, readCov_cons_whole _ zeros2, View.readCov_unit_zero (S := S256x1) _ zeros2]
  simp only [View.readAt_eq_ld, harg2.read_unread, View.ld_unit_zero (S := S1x256x3136) zeros3]

/-- The accumulator after point `n`: the point's slab folded into what the point before left, from the
    reset value at the first point of a chain. -/
def acc0 (c : Dev nD) : (n : ℕ) → n < cfg0.N → Vec F S256x1 .f32
  | 0, h => k0_pay2 (iblk0 V c 0 ⟨0, h⟩) k0_pay1
  | n + 1, h =>
    if (n + 1) % 16 = 0 then k0_pay2 (iblk0 V c 0 ⟨n + 1, h⟩) k0_pay1
    else k0_pay2 (iblk0 V c 0 ⟨n + 1, h⟩) (acc0 c n (Nat.lt_of_succ_lt h))

/-- What the two buffers hold after point `n` is the accumulator's closed form, and its copy. -/
theorem held0_eq (c : Dev nD) : ∀ (n : ℕ) (h : n < cfg0.N), held0 V c n h = (k0_pay3 (acc0 V c n h), acc0 V c n h)
  | 0, h => by
    rw [held0_start V c ⟨0, h⟩ rfl, outStart0_eq, accStart0_eq]; rfl
  | n + 1, h => by
    by_cases h0 : (n + 1) % 16 = 0
    · rw [held0_start V c ⟨n + 1, h⟩ h0, outStart0_eq, accStart0_eq]
      simp only [acc0, if_pos h0]
    · rw [held0_next V c ⟨n + 1, h⟩ h0, outNext0_eq, accNext0_eq]
      show (k0_pay3 (k0_pay2 _ (held0 V c n _).2), k0_pay2 _ (held0 V c n _).2) = _
      rw [held0_eq c n]
      simp only [acc0, if_neg h0]

end

end Cert.KernelIdeal.Fr

end
-- ==== Proof.Sum0.lean ====
/-
  The first kernel region at the extended reals: the accumulator after a chain's point is the sum, over the
  chain's points so far, of the lane sums of their rectified slabs; the point that ends a chain writes that
  total to the chain's block of the partial-sum array.
-/
import proofs.«128398_j30554397343924_2_alg».proof.Proof.Gen.KernelIdeal.Launch
import proofs.«128398_j30554397343924_2_alg».proof.Proof.Gen.KernelIdeal.Skeleton
import proofs.«128398_j30554397343924_2_alg».proof.Proof.Gen.KernelIdeal.Points
import proofs.«128398_j30554397343924_2_alg».proof.Proof.Value0
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- A lane sum over the 3136 lanes of a [256, 3136] array, read at row `k`. -/
theorem laneAdd_apply (src : FVec Ideal S256x3136 .f32) (hφ : FKind.Formats .f32)
    (hacc : (0x00000000#32 : BitVec 32) = FKind.add.neutral .f32 hφ) (k : Fin 256) :
    multiReduction .add [1] S256 src 0x00000000#32 reduces_S256x3136_S256 hφ hacc (ix1 k) = ∑ q : Fin 3136, src (ix2 k q) := by
  refine (Ideal.multiReduction_add_single src 0x00000000#32 reduces_S256x3136_S256 hφ hacc (ix1 k)).trans ?_
  refine Finset.sum_congr rfl fun q _ => congrArg src ?_
  funext a
  match a with
  | ⟨0, _⟩ => rfl
  | ⟨1, _⟩ => rfl

/-- The column form of a vector: entry (k, 0) of the [256, 1] array is entry k of the [256] vector. -/
theorem column_apply {α : Type} (v : S256.Idx → α) (k : Fin 256) (z : Fin 1) :
    shapeCast S256x1 v shapeCasts_S256_S256x1 (ix2 k z) = v (ix1 k) :=
  shapeCast_apply v shapeCasts_S256_S256x1 (ix2 k z) (ix1 k) (by
    rw [Shape.rowMajor_val_one, Shape.rowMajor_val_two]
    show k.val = k.val * 1 + z.val
    have := z.isLt; omega)

/-- A [1, 256, 3136] slab read as a [256, 3136] matrix. -/
theorem slab_apply {α : Type} (x : S1x256x3136.Idx → α) (k : Fin 256) (q : Fin 3136) :
    shapeCast S256x3136 x shapeCasts_S1x256x3136_S256x3136 (ix2 k q) = x (ix3 0 k q) :=
  shapeCast_apply x shapeCasts_S1x256x3136_S256x3136 (ix2 k q) (ix3 0 k q) (by
    rw [Shape.rowMajor_val_three, Shape.rowMajor_val_two]
    show (0 * 256 + k.val) * 3136 + q.val = k.val * 3136 + q.val
    omega)

/-- A [256, 1] column stored as a [1, 256, 1] block. -/
theorem block_of_column_apply {α : Type} (v : S256x1.Idx → α) (p : Fin 1) (k : Fin 256) (z : Fin 1) :
    shapeCast S1x256x1 v shapeCasts_S256x1_S1x256x1 (ix3 p k z) = v (ix2 k z) :=
  shapeCast_apply v shapeCasts_S256x1_S1x256x1 (ix3 p k z) (ix2 k z) (by
    rw [Shape.rowMajor_val_three, Shape.rowMajor_val_two]
    show k.val * 1 + z.val = (p.val * 256 + k.val) * 1 + z.val
    have := p.isLt; omega)

/-- The lane sum of a slab's rectified entries, per channel. -/
def laneSum (x : Vec Ideal S1x256x3136 .f32) (k : Fin 256) : EReal := ∑ q : Fin 3136, max (x (ix3 0 k q)) 0

theorem reset_apply (i : S256x1.Idx) : k0_pay1 (F := Ideal) i = 0 := by
  unfold k0_pay1
  rw [shapeCast_self]
  exact Ideal.ofBits_zero_f32

theorem fold_apply (x : Vec Ideal S1x256x3136 .f32) (xs : Vec Ideal S256x1 .f32) (k : Fin 256) (z : Fin 1) :
    k0_pay2 x xs (ix2 k z) = xs (ix2 k z) + laneSum x k := by
  unfold k0_pay2
  rw [shapeCast_self]
  refine congrArg (xs (ix2 k z) + ·) ?_
  refine (column_apply _ k z).trans ?_
  refine (laneAdd_apply _ _ _ k).trans ?_
  refine Finset.sum_congr rfl fun q _ => ?_
  show max (shapeCast S256x3136 x shapeCasts_S1x256x3136_S256x3136 (ix2 k q)) (Ideal.ofBits .f32 0x00000000#32) = _
  rw [slab_apply, Ideal.ofBits_zero_f32]

theorem copy_apply (v : Vec Ideal S256x1 .f32) (p : Fin 1) (k : Fin 256) (z : Fin 1) :
    k0_pay3 v (ix3 p k z) = v (ix2 k z) := by
  unfold k0_pay3
  exact block_of_column_apply v p k z

end Cert.KernelIdeal.Fr

end
-- ==== Proof.Inputs.lean ====
/-
  The arrays the regions read, entry by entry, in terms of the program's three arguments: the input read as
  32 batches × 256 channels × 3136 positions, the basis and its transpose, the clamp values as a column; and
  the blocks the windows of the first two regions stage.
-/
import proofs.«128398_j30554397343924_2_alg».proof.Proof.Gen.KernelIdeal.Launch
import proofs.«128398_j30554397343924_2_alg».proof.Proof.Gen.KernelIdeal.Skeleton
import proofs.«128398_j30554397343924_2_alg».proof.Proof.Gen.KernelIdeal.Points
import proofs.«128398_j30554397343924_2_alg».proof.Proof.Walk
import proofs.«128398_j30554397343924_2_alg».proof.Proof.Sum0
import Idealize.ShloMosaic.Lib.Pipeline.Value
import Idealize.ShloMosaic.Lib.ValueLayout
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- Position q of a 56 × 56 plane: row q / 56, column q % 56. -/
abbrev planeRow (q : Fin 3136) : Fin 56 := ⟨q.val / 56, by have := q.isLt; omega⟩
abbrev planeCol (q : Fin 3136) : Fin 56 := ⟨q.val % 56, Nat.mod_lt _ (by decide)⟩

/-- The [32, 256, 56, 56] input flattened over its planes. -/
theorem flat_apply {α : Type} (x : S32x256x56x56.Idx → α) (b : Fin 32) (k : Fin 256) (q : Fin 3136) :
    shapeCast S32x256x3136 x shapeCasts_S32x256x56x56_S32x256x3136 (ix3 b k q) = x (ix4 b k (planeRow q) (planeCol q)) :=
  shapeCast_apply x shapeCasts_S32x256x56x56_S32x256x3136 (ix3 b k q) (ix4 b k (planeRow q) (planeCol q)) (by
    rw [Shape.rowMajor_val_four, Shape.rowMajor_val_three]
    show ((b.val * 256 + k.val) * 56 + q.val / 56) * 56 + q.val % 56 = (b.val * 256 + k.val) * 3136 + q.val
    have := Nat.div_add_mod q.val 56
    omega)

/-- And back: the [32, 256, 3136] result unflattened. -/
theorem unflat_apply {α : Type} (y : S32x256x3136.Idx → α) (b : Fin 32) (j : Fin 256) (h w : Fin 56) (q : Fin 3136)
    (hq : q.val = h.val * 56 + w.val) :
    shapeCast S32x256x56x56 y shapeCasts_S32x256x3136_S32x256x56x56 (ix4 b j h w) = y (ix3 b j q) :=
  shapeCast_apply y shapeCasts_S32x256x3136_S32x256x56x56 (ix4 b j h w) (ix3 b j q) (by
    rw [Shape.rowMajor_val_four, Shape.rowMajor_val_three]
    show (b.val * 256 + j.val) * 3136 + q.val = ((b.val * 256 + j.val) * 56 + h.val) * 56 + w.val
    rw [hq]; ring)

/-- The transposed basis. -/
theorem transposed_apply {α : Type} (u : S256x256.Idx → α) (c k : Fin 256) :
    transpose S256x256 [1, 0] u transposes_S256x256_S256x256_1_0 (ix2 c k) = u (ix2 k c) :=
  transpose_apply [1, 0] u transposes_S256x256_S256x256_1_0 (ix2 c k) (ix2 k c) (fun b => by
    match b with
    | ⟨0, _⟩ => rfl
    | ⟨1, _⟩ => rfl)

section
variable (V : (c : Dev nD) → (b : Ref sig .tc) → Buf (Elt Ideal) ((c : Thread nD τ).loc b))

theorem inIndex0 : ∀ t : Fin cfg0.N, win0_0.index t (0 : Fin 3) = t.val ∧ win0_0.index t (1 : Fin 3) = 0 ∧ win0_0.index t (2 : Fin 3) = 0 :=
  (by decide +kernel : ∀ t : Fin grid0.N, _)

/-- In the first region the slab window's block at point t is batch t. -/
theorem iblk0_apply (c : Dev nD) (t : Fin cfg0.N) (p : Fin 1) (k : Fin 256) (q : Fin 3136) :
    iblk0 V c 0 t (ix3 p k q) = V c main_v0 (ix3 ⟨t.val, lt_of_lt_of_eq t.isLt N_0⟩ k q) := by
  obtain ⟨e0, e1, e2⟩ := inIndex0 t
  unfold iblk0
  rw [View.read_apply]
  refine congrArg (V c main_v0) (funext fun a => Fin.ext ?_)
  match a with
  | ⟨0, _⟩ => show win0_0.index t (0 : Fin 3) * 1 + 1 * p.val = t.val; rw [e0]; have := p.isLt; omega
  | ⟨1, _⟩ => show win0_0.index t (1 : Fin 3) * 256 + 1 * k.val = k.val; rw [e1]; omega
  | ⟨2, _⟩ => show win0_0.index t (2 : Fin 3) * 3136 + 1 * q.val = q.val; rw [e2]; omega

theorem inIndex1 : ∀ t : Fin cfg1.N, win1_0.index t (0 : Fin 3) = t.val ∧ win1_0.index t (1 : Fin 3) = 0 ∧ win1_0.index t (2 : Fin 3) = 0
    ∧ win1_1.index t (0 : Fin 2) = 0 ∧ win1_1.index t (1 : Fin 2) = 0 ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- In the second region the slab window's block at point t is batch t. -/
theorem iblk1_0_apply (c : Dev nD) (t : Fin cfg1.N) (p : Fin 1) (k : Fin 256) (q : Fin 3136) :
    iblk1 V c 0 t (ix3 p k q) = V c main_v0 (ix3 ⟨t.val, lt_of_lt_of_eq t.isLt N_1⟩ k q) := by
  obtain ⟨e0, e1, e2, -⟩ := inIndex1 t
  unfold iblk1
  rw [View.read_apply]
  refine congrArg (V c main_v0) (funext fun a => Fin.ext ?_)
  match a with
  | ⟨0, _⟩ => show win1_0.index t (0 : Fin 3) * 1 + 1 * p.val = t.val; rw [e0]; have := p.isLt; omega
  | ⟨1, _⟩ => show win1_0.index t (1 : Fin 3) * 256 + 1 * k.val = k.val; rw [e1]; omega
  | ⟨2, _⟩ => show win1_0.index t (2 : Fin 3) * 3136 + 1 * q.val = q.val; rw [e2]; omega

/-- Its other windows' blocks are their whole arrays. -/
theorem iblk1_1_eq (c : Dev nD) (t : Fin cfg1.N) : (iblk1 V c 1 t : Vec Ideal S256x256 .f32) = V c main_v1 := by
  obtain ⟨-, -, -, ea, eb, -⟩ := inIndex1 t
  funext y
  unfold iblk1
  rw [View.read_apply]
  refine congrArg (V c main_v1) (funext fun a => Fin.ext ?_)
  match a with
  | ⟨0, _⟩ => show win1_1.index t (0 : Fin 2) * 256 + 1 * (y 0).val = (y 0).val; rw [ea]; omega
  | ⟨1, _⟩ => show win1_1.index t (1 : Fin 2) * 256 + 1 * (y 1).val = (y 1).val; rw [eb]; omega
theorem iblk1_2_eq (c : Dev nD) (t : Fin cfg1.N) : (iblk1 V c 2 t : Vec Ideal S256x1 .f32) = V c main_v7 := by
  obtain ⟨-, -, -, -, -, ea, eb, -⟩ := inIndex1 t
  funext y
  unfold iblk1
  rw [View.read_apply]
  refine congrArg (V c main_v7) (funext fun a => Fin.ext ?_)
  match a with
  | ⟨0, _⟩ => show win1_2.index t (0 : Fin 2) * 256 + 1 * (y 0).val = (y 0).val; rw [ea]; omega
  | ⟨1, _⟩ => show win1_2.index t (1 : Fin 2) * 1 + 1 * (y 1).val = (y 1).val; rw [eb]; omega
theorem iblk1_3_eq (c : Dev nD) (t : Fin cfg1.N) : (iblk1 V c 3 t : Vec Ideal S256x1 .f32) = V c main_v2 := by
  obtain ⟨-, -, -, -, -, -, -, ea, eb⟩ := inIndex1 t
  funext y
  unfold iblk1
  rw [View.read_apply]
  refine congrArg (V c main_v2) (funext fun a => Fin.ext ?_)
  match a with
  | ⟨0, _⟩ => show win1_3.index t (0 : Fin 2) * 256 + 1 * (y 0).val = (y 0).val; rw [ea]; omega
  | ⟨1, _⟩ => show win1_3.index t (1 : Fin 2) * 1 + 1 * (y 1).val = (y 1).val; rw [eb]; omega

end

end Cert.KernelIdeal.Fr

end
-- ==== Proof.Sum0Acc.lean ====
/-
  The first kernel region at the extended reals, point by point: the accumulator after a point is the sum of
  the lane sums of its chain's points so far, and the partial-sum array ends holding each chain's total.
-/
import proofs.«128398_j30554397343924_2_alg».proof.Proof.Gen.KernelIdeal.Launch
import proofs.«128398_j30554397343924_2_alg».proof.Proof.Gen.KernelIdeal.Skeleton
import proofs.«128398_j30554397343924_2_alg».proof.Proof.Gen.KernelIdeal.Points
import proofs.«128398_j30554397343924_2_alg».proof.Proof.Sum0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section
variable (V : (c : Dev nD) → (b : Ref sig .tc) → Buf (Elt Ideal) ((c : Thread nD τ).loc b))

/-- Point `n`'s addend to channel `i 0`: the lane sum of its rectified slab (zero past the grid). -/
def addend0 (c : Dev nD) (n : ℕ) (i : S256x1.Idx) : EReal :=
  if h : n < cfg0.N then laneSum (iblk0 V c 0 ⟨n, h⟩) (i 0) else 0

theorem acc0_reset (c : Dev nD) : ∀ (n : ℕ) (h : n < cfg0.N), n % 16 = 0 →
    acc0 V c n h = k0_pay2 (iblk0 V c 0 ⟨n, h⟩) (k0_pay1 (F := Ideal))
  | 0, _, _ => rfl
  | n + 1, h, h0 => by simp only [acc0, if_pos h0]

theorem acc0_step (c : Dev nD) (n : ℕ) (h : n + 1 < cfg0.N) (h0 : ¬(n + 1) % 16 = 0) :
    acc0 V c (n + 1) h = k0_pay2 (iblk0 V c 0 ⟨n + 1, h⟩) (acc0 V c n (Nat.lt_of_succ_lt h)) := by
  simp only [acc0, if_neg h0]

/-- After point `t` the accumulator holds the sum of the addends of its chain's points up to `t`. -/
theorem acc0_apply (c : Dev nD) (t : ℕ) (ht : t < cfg0.N) (i : S256x1.Idx) :
    acc0 V c t ht i = ∑ s ∈ Finset.range (t % 16 + 1), addend0 V c (16 * (t / 16) + s) i := by
  have h' : 16 * (t / 16) + t % 16 < cfg0.N := by rw [Nat.div_add_mod]; exact ht
  rw [Pipeline.eq_accAt_of_mod (acc0 V c) 16 (fun n h => k0_pay2 (iblk0 V c 0 ⟨n, h⟩) (k0_pay1 (F := Ideal)))
    (fun n h acc => k0_pay2 (iblk0 V c 0 ⟨n, h⟩) acc) (acc0_reset V c) (acc0_step V c) (by decide) t ht h']
  rw [Pipeline.accAt_add_apply _ _ (fun _ => (0 : EReal)) (addend0 V c) (16 * (t / 16)) 15
    (fun h j => by
      obtain ⟨k, z, rfl⟩ : ∃ (k : Fin 256) (z : Fin 1), j = ix2 k z := ⟨j 0, j 1, eq_ix2 j⟩
      rw [fold_apply, reset_apply]; unfold addend0; rw [dif_pos h])
    (fun n h acc j _ _ => by
      obtain ⟨k, z, rfl⟩ : ∃ (k : Fin 256) (z : Fin 1), j = ix2 k z := ⟨j 0, j 1, eq_ix2 j⟩
      rw [fold_apply]; unfold addend0; rw [dif_pos h])
    (t % 16) (by omega) h' i, zero_add]

end

end Cert.KernelIdeal.Fr

end
-- ==== Proof.Sum0Final.lean ====
/-
  The partial-sum array after the first kernel region: block p (one per chain) holds, per channel, the sum
  of the lane sums of the sixteen batches 16·p … 16·p + 15.
-/
import proofs.«128398_j30554397343924_2_alg».proof.Proof.Gen.KernelIdeal.Launch
import proofs.«128398_j30554397343924_2_alg».proof.Proof.Gen.KernelIdeal.Skeleton
import proofs.«128398_j30554397343924_2_alg».proof.Proof.Gen.KernelIdeal.Points
import proofs.«128398_j30554397343924_2_alg».proof.Proof.Sum0Acc
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section
variable (V : (c : Dev nD) → (b : Ref sig .tc) → Buf (Elt Ideal) ((c : Thread nD τ).loc b))

/-- What the partial-sum array ends holding: entry (p, k, 0) is chain p's total for channel k. -/
def partial0 (c : Dev nD) : S2x256x1.Idx → EReal :=
  fun i => ∑ s ∈ Finset.range 16, addend0 V c (16 * (i 0).val + s) (ix2 (i 1) (i 2))

/-- The printed index map of the output window: point t writes block t / 16. -/
theorem outIndex0 : ∀ t : Fin cfg0.N, win0_1.index t (0 : Fin 3) = t.val / 16 ∧ win0_1.index t (1 : Fin 3) = 0 ∧ win0_1.index t (2 : Fin 3) = 0 :=
  (by decide +kernel : ∀ t : Fin grid0.N, _)

/-- What a chain's last point writes back is its block of the totals. -/
theorem flushed0_eq (c : Dev nD) (t : Fin cfg0.N) (hf : (cfg0.win 1).flush t = true) :
    (dat0 V c).flushed 1 t = ((cfg0.win 1).blk t).view.read (Elt Ideal) (partial0 V c) := by
  have h15 : t.val % 16 = 15 := (flush0_1 t).mp hf
  show (cfg0.win 1).cut (grid0.coords t) ((dat0 V c).after 1 t) = _
  rw [after0_1, held0_eq]
  obtain ⟨e0, e1, e2⟩ := outIndex0 t
  funext y
  obtain ⟨p, k, z, rfl⟩ : ∃ (p : Fin 1) (k : Fin 256) (z : Fin 1), y = ix3 p k z := ⟨y 0, y 1, y 2, eq_ix3 y⟩
  show k0_pay3 (acc0 V c t.val t.isLt) (ix3 p k z) = partial0 V c (((cfg0.win 1).blk t).view.emb (ix3 p k z))
  rw [copy_apply, acc0_apply, h15]
  unfold partial0
  have hp : p.val = 0 := by have := p.isLt; omega
  have hz : z.val = 0 := by have := z.isLt; omega
  have hi0 : ((((cfg0.win 1).blk t).view.emb (ix3 p k z)) 0).val = t.val / 16 := by
    show win0_1.index t (0 : Fin 3) * 1 + 1 * p.val = _
    rw [e0, hp]; omega
  have hi1 : ((((cfg0.win 1).blk t).view.emb (ix3 p k z)) 1) = k := by
    apply Fin.ext
    show win0_1.index t (1 : Fin 3) * 256 + 1 * k.val = _
    rw [e1]; omega
  have hi2 : ((((cfg0.win 1).blk t).view.emb (ix3 p k z)) 2) = z := by
    apply Fin.ext
    show win0_1.index t (2 : Fin 3) * 1 + 1 * z.val = _
    rw [e2]; omega
  rw [hi0, hi1, hi2]

theorem mem_blk0 (t : Fin cfg0.N) (i : S2x256x1.Idx) :
    i ∈ ((cfg0.win 1).blk t).view.set ↔ ∀ a : Fin 3, win0_1.index t a * S1x256x1.size a ≤ (i a).val ∧ (i a).val < win0_1.index t a * S1x256x1.size a + S1x256x1.size a := by
  show i ∈ ((View.whole main_v3).slice (win0_1.rect t)).set ↔ _
  rw [View.set_slice_whole, Rect.mem_set_unit]
  exact Iff.rfl

/-- So the partial-sum array ends holding the chains' totals. -/
theorem final0 (c : Dev nD) : (dat0 V c).arrAt 1 cfg0.N = partial0 V c :=
  (dat0 V c).arrAt_eq_of_cover 1 (partial0 V c) (flushed0_eq V c) fun i => by
    have hN : cfg0.N = 32 := N_0
    have hi0 : (i 0).val < 2 := (i 0).isLt
    have hi1 : (i 1).val < 256 := (i 1).isLt
    have hi2 : (i 2).val < 1 := (i 2).isLt
    refine ⟨⟨16 * (i 0).val + 15, by omega⟩, (flush0_1 _).mpr (by show (16 * (i 0).val + 15) % 16 = 15; omega), ?_⟩
    rw [mem_blk0]
    obtain ⟨e0, e1, e2⟩ := outIndex0 ⟨16 * (i 0).val + 15, by omega⟩
    intro a
    match a with
    | ⟨0, _⟩ => show win0_1.index _ (0 : Fin 3) * 1 ≤ (i 0).val ∧ (i 0).val < win0_1.index _ (0 : Fin 3) * 1 + 1; rw [e0]; show (16 * (i 0).val + 15) / 16 * 1 ≤ _ ∧ _ < (16 * (i 0).val + 15) / 16 * 1 + 1; omega
    | ⟨1, _⟩ => show win0_1.index _ (1 : Fin 3) * 256 ≤ (i 1).val ∧ (i 1).val < win0_1.index _ (1 : Fin 3) * 256 + 256; rw [e1]; omega
    | ⟨2, _⟩ => show win0_1.index _ (2 : Fin 3) * 1 ≤ (i 2).val ∧ (i 2).val < win0_1.index _ (2 : Fin 3) * 1 + 1; rw [e2]; omega

end

end Cert.KernelIdeal.Fr

end
-- ==== Proof.Dots.lean ====
/-
  The two matrix products of the program read at an entry, over the extended reals: a [256, 256] operand
  against a [256, N] operand, contracting the left operand's columns with the right operand's rows, is at
  row p and column q the sum over k of lhs (p, k) · rhs (k, q) — for the matrix unit into a zero
  accumulator and for the host's product alike.
-/
import proofs.«128398_j30554397343924_2_alg».proof.Proof.Gen.KernelIdeal
import Idealize.ShloMosaic.PureOps.Ideal.Laws
import Idealize.ShloMosaic.Lib.ValueIdx

noncomputable section

namespace Cert.KernelIdeal.Fr

open Cert.KernelIdeal Cert.KernelIdeal.Gen
open Idealize.ShloMosaic Idealize.ShloMosaic.ValueIdx

theorem lhs0_3136 (i : S256x3136.Idx) (q : dot_S256x256_S256x3136_S256x3136_1_0_0_1_n_n.contr.Idx) : (dot_S256x256_S256x3136_S256x3136_1_0_0_1_n_n.lhsIdx i q 0).val = (i 0).val := by
  unfold DotDims.lhsIdx
  rw [dif_neg (show ¬(0 : Fin S256x256.rank) ∈ dot_S256x256_S256x3136_S256x3136_1_0_0_1_n_n.lhsBatch by decide), dif_pos (show (0 : Fin S256x256.rank) ∈ dot_S256x256_S256x3136_S256x3136_1_0_0_1_n_n.lhsNonContracting by decide)]
  rfl
theorem rhs1_3136 (i : S256x3136.Idx) (q : dot_S256x256_S256x3136_S256x3136_1_0_0_1_n_n.contr.Idx) : (dot_S256x256_S256x3136_S256x3136_1_0_0_1_n_n.rhsIdx i q 1).val = (i 1).val := by
  unfold DotDims.rhsIdx
  rw [dif_neg (show ¬(1 : Fin S256x3136.rank) ∈ dot_S256x256_S256x3136_S256x3136_1_0_0_1_n_n.rhsBatch by decide), dif_pos (show (1 : Fin S256x3136.rank) ∈ dot_S256x256_S256x3136_S256x3136_1_0_0_1_n_n.rhsNonContracting by decide)]
  rfl

/-- The contraction's sum at row `p`, column `q`: over k of the left operand's (p, k) times the right's (k, q). -/
theorem contr_3136 (lhs : S256x256.Idx → EReal) (rhs : S256x3136.Idx → EReal) (p : Fin 256) (q : Fin 3136) :
    (∑ k : dot_S256x256_S256x3136_S256x3136_1_0_0_1_n_n.contr.Idx, lhs (dot_S256x256_S256x3136_S256x3136_1_0_0_1_n_n.lhsIdx (ix2 p q) k) * rhs (dot_S256x256_S256x3136_S256x3136_1_0_0_1_n_n.rhsIdx (ix2 p q) k))
      = ∑ k : Fin 256, lhs (ix2 p k) * rhs (ix2 k q) := by
  rw [← Equiv.sum_comp (contrEquiv1 dot_S256x256_S256x3136_S256x3136_1_0_0_1_n_n 256 rfl rfl).symm]
  refine Finset.sum_congr rfl fun k _ => ?_
  have hk := contrEquiv1_symm_val dot_S256x256_S256x3136_S256x3136_1_0_0_1_n_n 256 rfl rfl k
  have el : dot_S256x256_S256x3136_S256x3136_1_0_0_1_n_n.lhsIdx (ix2 p q) ((contrEquiv1 dot_S256x256_S256x3136_S256x3136_1_0_0_1_n_n 256 rfl rfl).symm k) = ix2 p k := funext fun a => Fin.ext (by
    match a with
    | ⟨0, _⟩ => exact lhs0_3136 _ _
    | ⟨1, _⟩ => exact (dot_S256x256_S256x3136_S256x3136_1_0_0_1_n_n.lhsIdx_val_of_single rfl _ _).trans hk)
  have er : dot_S256x256_S256x3136_S256x3136_1_0_0_1_n_n.rhsIdx (ix2 p q) ((contrEquiv1 dot_S256x256_S256x3136_S256x3136_1_0_0_1_n_n 256 rfl rfl).symm k) = ix2 k q := funext fun a => Fin.ext (by
    match a with
    | ⟨0, _⟩ => exact (dot_S256x256_S256x3136_S256x3136_1_0_0_1_n_n.rhsIdx_val_of_single rfl _ _).trans hk
    | ⟨1, _⟩ => exact rhs1_3136 _ _)
  rw [el, er]

theorem lhs0_1 (i : S256x1.Idx) (q : dot_S256x256_S256x1_S256x1_1_0_0_1_n_n.contr.Idx) : (dot_S256x256_S256x1_S256x1_1_0_0_1_n_n.lhsIdx i q 0).val = (i 0).val := by
  unfold DotDims.lhsIdx
  rw [dif_neg (show ¬(0 : Fin S256x256.rank) ∈ dot_S256x256_S256x1_S256x1_1_0_0_1_n_n.lhsBatch by decide), dif_pos (show (0 : Fin S256x256.rank) ∈ dot_S256x256_S256x1_S256x1_1_0_0_1_n_n.lhsNonContracting by decide)]
  rfl
theorem rhs1_1 (i : S256x1.Idx) (q : dot_S256x256_S256x1_S256x1_1_0_0_1_n_n.contr.Idx) : (dot_S256x256_S256x1_S256x1_1_0_0_1_n_n.rhsIdx i q 1).val = (i 1).val := by
  unfold DotDims.rhsIdx
  rw [dif_neg (show ¬(1 : Fin S256x1.rank) ∈ dot_S256x256_S256x1_S256x1_1_0_0_1_n_n.rhsBatch by decide), dif_pos (show (1 : Fin S256x1.rank) ∈ dot_S256x256_S256x1_S256x1_1_0_0_1_n_n.rhsNonContracting by decide)]
  rfl

/-- The contraction's sum at row `p`, column `q`: over k of the left operand's (p, k) times the right's (k, q). -/
theorem contr_1 (lhs : S256x256.Idx → EReal) (rhs : S256x1.Idx → EReal) (p : Fin 256) (q : Fin 1) :
    (∑ k : dot_S256x256_S256x1_S256x1_1_0_0_1_n_n.contr.Idx, lhs (dot_S256x256_S256x1_S256x1_1_0_0_1_n_n.lhsIdx (ix2 p q) k) * rhs (dot_S256x256_S256x1_S256x1_1_0_0_1_n_n.rhsIdx (ix2 p q) k))
      = ∑ k : Fin 256, lhs (ix2 p k) * rhs (ix2 k q) := by
  rw [← Equiv.sum_comp (contrEquiv1 dot_S256x256_S256x1_S256x1_1_0_0_1_n_n 256 rfl rfl).symm]
  refine Finset.sum_congr rfl fun k _ => ?_
  have hk := contrEquiv1_symm_val dot_S256x256_S256x1_S256x1_1_0_0_1_n_n 256 rfl rfl k
  have el : dot_S256x256_S256x1_S256x1_1_0_0_1_n_n.lhsIdx (ix2 p q) ((contrEquiv1 dot_S256x256_S256x1_S256x1_1_0_0_1_n_n 256 rfl rfl).symm k) = ix2 p k := funext fun a => Fin.ext (by
    match a with
    | ⟨0, _⟩ => exact lhs0_1 _ _
    | ⟨1, _⟩ => exact (dot_S256x256_S256x1_S256x1_1_0_0_1_n_n.lhsIdx_val_of_single rfl _ _).trans hk)
  have er : dot_S256x256_S256x1_S256x1_1_0_0_1_n_n.rhsIdx (ix2 p q) ((contrEquiv1 dot_S256x256_S256x1_S256x1_1_0_0_1_n_n 256 rfl rfl).symm k) = ix2 k q := funext fun a => Fin.ext (by
    match a with
    | ⟨0, _⟩ => exact (dot_S256x256_S256x1_S256x1_1_0_0_1_n_n.rhsIdx_val_of_single rfl _ _).trans hk
    | ⟨1, _⟩ => exact rhs1_1 _ _)
  rw [el, er]

/-- The matrix unit's product of a [256, 256] and a [256, 3136] operand into the zero accumulator. -/
theorem matmul_slab_apply {φ₁ φ₂ : FTy} (lhs : FVec Ideal S256x256 φ₁) (rhs : FVec Ideal S256x3136 φ₂) (p : Fin 256) (q : Fin 3136) :
    FloatOps.matmul dot_S256x256_S256x3136_S256x3136_1_0_0_1_n_n none lhs rhs (constant S256x3136 .f32 0x00000000#32) (ix2 p q)
      = ∑ k : Fin 256, lhs (ix2 p k) * rhs (ix2 k q) :=
  (Ideal.matmul_constant_zero_apply _ none lhs rhs (ix2 p q)).trans (contr_3136 lhs rhs p q)

/-- The host's product of a [256, 256] operand and a [256, 1] column. -/
theorem dot_column_apply {φ₁ φ₂ : FTy} (sched : HostSchedule) (lhs : FVec Ideal S256x256 φ₁) (rhs : FVec Ideal S256x1 φ₂) (p : Fin 256) (z : Fin 1) :
    FloatOps.dotGeneral dot_S256x256_S256x1_S256x1_1_0_0_1_n_n none sched lhs rhs (ix2 p z)
      = ∑ k : Fin 256, lhs (ix2 p k) * rhs (ix2 k z) :=
  (Ideal.dotGeneral_apply _ none sched lhs rhs (ix2 p z)).trans (contr_1 lhs rhs p z)

end Cert.KernelIdeal.Fr

end
-- ==== Proof.Spec.lean ====
/-
  The mathematics of the two programs, over the extended reals, in one vocabulary.

  x is the input read as 32 batches × 256 channels × 3136 positions, u the 256 × 256 basis, cv the per-channel
  clamp values. Both programs rectify x, centre each channel by its mean over all batches and positions,
  project on the basis, clamp each projected channel to [-cv, cv], take each channel's minimum and maximum over
  all batches and positions, round each entry on the 255-step grid between them, project back and add the
  mean. They differ in two places: the reference subtracts the mean before projecting where the kernel
  projects first and subtracts the projected mean, and the reference divides the rounded value by the step
  count per unit where the kernel multiplies it by the unit per step count.
-/
import Idealize.ShloMosaic.PureOps.Ideal.Laws

noncomputable section

namespace Cert.Spec

open Idealize.ShloMosaic

/-- The number of batches times positions, 100352, as the programs spell it. -/
abbrev count : EReal := Ideal.ofBits .f32 0x47C40000#32
/-- The number of quantisation steps, 255, as the programs spell it. -/
abbrev steps : EReal := Ideal.ofBits .f32 0x437F0000#32
/-- Rounding to the nearest integer, ties to even. -/
abbrev roundEven (a : EReal) : EReal := Ideal.liftRound Ideal.roundHalfEven a

variable (x : Fin 32 → Fin 256 → Fin 3136 → EReal) (u : Fin 256 → Fin 256 → EReal) (cv : Fin 256 → EReal)

/-- The rectified input. -/
def relu (b : Fin 32) (k : Fin 256) (q : Fin 3136) : EReal := max (x b k q) 0
/-- A channel's total over every batch and position. -/
def total (k : Fin 256) : EReal := ∑ b : Fin 32, ∑ q : Fin 3136, relu x b k q
/-- A channel's mean. -/
def mean (k : Fin 256) : EReal := Ideal.div (total x k) count
/-- The projection of the centred input: centre, then project. -/
def projCentred (c : Fin 256) (b : Fin 32) (q : Fin 3136) : EReal := ∑ k : Fin 256, u k c * (relu x b k q - mean x k)
/-- The same computed as the projection of the input less the projection of the mean. -/
def projLess (c : Fin 256) (b : Fin 32) (q : Fin 3136) : EReal :=
  (∑ k : Fin 256, u k c * relu x b k q) - ∑ k : Fin 256, u k c * mean x k
/-- Clamping `p` to [-a, a]. -/
def clamp (a p : EReal) : EReal := min a (max (-a) p)

variable (cl : Fin 256 → Fin 32 → Fin 3136 → EReal)

/-- A channel's maximum over every batch and position. -/
def hi (c : Fin 256) : EReal := Finset.univ.sup fun bq : Fin 32 × Fin 3136 => cl c bq.1 bq.2
/-- A channel's minimum over every batch and position. -/
def lo (c : Fin 256) : EReal := Finset.univ.inf fun bq : Fin 32 × Fin 3136 => cl c bq.1 bq.2
/-- Steps per unit. -/
def scale (c : Fin 256) : EReal := Ideal.div steps (hi cl c - lo cl c)
/-- The rounded position on the grid. -/
def gridPos (c : Fin 256) (b : Fin 32) (q : Fin 3136) : EReal := roundEven ((cl c b q - lo cl c) * scale cl c)
/-- Back to the value: divide by steps per unit. -/
def quantDiv (c : Fin 256) (b : Fin 32) (q : Fin 3136) : EReal := Ideal.div (gridPos cl c b q) (scale cl c) + lo cl c
/-- Back to the value: multiply by units per step. -/
def quantMul (c : Fin 256) (b : Fin 32) (q : Fin 3136) : EReal :=
  gridPos cl c b q * Ideal.div (hi cl c - lo cl c) steps + lo cl c

/-- Projecting back and adding the mean. -/
def recon (qz : Fin 256 → Fin 32 → Fin 3136 → EReal) (mn : Fin 256 → EReal) (j : Fin 256) (b : Fin 32) (q : Fin 3136) : EReal :=
  (∑ c : Fin 256, u j c * qz c b q) + mn j

/-- What the reference computes. -/
def outRef (j : Fin 256) (b : Fin 32) (q : Fin 3136) : EReal :=
  recon u (quantDiv fun c b q => clamp (cv c) (projCentred x u c b q)) (mean x) j b q
/-- What the kernel computes. -/
def outKer (j : Fin 256) (b : Fin 32) (q : Fin 3136) : EReal :=
  recon u (quantMul fun c b q => clamp (cv c) (projLess x u c b q)) (mean x) j b q

end Cert.Spec

end
-- ==== Proof.LibBlockSum.lean ====
/- Block sums: a sum over Fin (n * b) is the sum over the n blocks of the b entries of each block,
   the entry j of block k sitting at position k * b + j. Over any commutative additive monoid. -/
import Mathlib.Algebra.BigOperators.Fin
import Mathlib.Data.Fintype.BigOperators
import Mathlib.Logic.Equiv.Fin.Basic

namespace BlockSum

variable {M : Type*} [AddCommMonoid M]

/-- Position k * b + j, with k < n and j < b, lies below n * b. -/
theorem block_lt {n b : ℕ} (k : Fin n) (j : Fin b) : k.val * b + j.val < n * b :=
  calc k.val * b + j.val < k.val * b + b := Nat.add_lt_add_left j.isLt _
    _ = (k.val + 1) * b := (Nat.succ_mul _ _).symm
    _ ≤ n * b := Nat.mul_le_mul_right _ k.isLt

/-- A sum over Fin (n * b) is the sum over the n blocks of the sums over the b entries of each block:
    ∑ k < n, ∑ j < b, f (k * b + j) = ∑ i < n * b, f i. -/
theorem sum_blocks (n b : ℕ) (f : Fin (n * b) → M) :
    (∑ k : Fin n, ∑ j : Fin b, f ⟨k.val * b + j.val, block_lt k j⟩) = ∑ i : Fin (n * b), f i := by
  rw [← Equiv.sum_comp finProdFinEquiv f, Fintype.sum_prod_type]
  refine Finset.sum_congr rfl fun k _ => Finset.sum_congr rfl fun j _ => ?_
  exact congrArg f (Fin.ext (by simp [finProdFinEquiv, Nat.mul_comm, Nat.add_comm]))

/-- 8 blocks of 1024 over Fin 8192. -/
theorem sum_blocks_8_1024 (f : Fin 8192 → M) :
    (∑ k : Fin 8, ∑ j : Fin 1024, f ⟨k.val * 1024 + j.val, by omega⟩) = ∑ i : Fin 8192, f i :=
  sum_blocks 8 1024 f

/-- 8 blocks of 2048 over Fin 16384. -/
theorem sum_blocks_8_2048 (f : Fin 16384 → M) :
    (∑ k : Fin 8, ∑ j : Fin 2048, f ⟨k.val * 2048 + j.val, by omega⟩) = ∑ i : Fin 16384, f i :=
  sum_blocks 8 2048 f

/-- 4 blocks of 2048 over Fin 8192. -/
theorem sum_blocks_4_2048 (f : Fin 8192 → M) :
    (∑ k : Fin 4, ∑ j : Fin 2048, f ⟨k.val * 2048 + j.val, by omega⟩) = ∑ i : Fin 8192, f i :=
  sum_blocks 4 2048 f

end BlockSum
-- ==== Proof.MeanK.lean ====
/-
  The channel means and their projection as the kernel's program computes them, in the vocabulary of the
  specification: the two chains' partial sums add up to each channel's total over all 32 batches.
-/
import proofs.«128398_j30554397343924_2_alg».proof.Proof.Gen.KernelIdeal.Launch
import proofs.«128398_j30554397343924_2_alg».proof.Proof.Gen.KernelIdeal.Skeleton
import proofs.«128398_j30554397343924_2_alg».proof.Proof.Gen.KernelIdeal.Points
import proofs.«128398_j30554397343924_2_alg».proof.Proof.Inputs
import proofs.«128398_j30554397343924_2_alg».proof.Proof.Sum0Final
import proofs.«128398_j30554397343924_2_alg».proof.Proof.Dots
import proofs.«128398_j30554397343924_2_alg».proof.Proof.Spec
import proofs.«128398_j30554397343924_2_alg».proof.Proof.LibBlockSum
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section
variable (m : (ℓ : Loc nD τ sig) → Buf (Elt Ideal) ℓ) (ρ : Dev nD → PrngReg)

/-- The three arguments in the specification's indexing. -/
def xIn (c : Dev nD) (b : Fin 32) (k : Fin 256) (q : Fin 3136) : EReal :=
  m ((c : Thread nD τ).loc main_arg0) (ix4 b k (planeRow q) (planeCol q))
def uIn (c : Dev nD) (k ch : Fin 256) : EReal := m ((c : Thread nD τ).loc main_arg1) (ix2 k ch)
def cvIn (c : Dev nD) (ch : Fin 256) : EReal := m ((c : Thread nD τ).loc main_arg2) (ix1 ch)

theorem V1_x_apply (c : Dev nD) (b : Fin 32) (k : Fin 256) (q : Fin 3136) : V1 m ρ c main_v0 (ix3 b k q) = xIn m c b k q := by
  rw [V1_x]; exact flat_apply _ b k q
theorem V1_ut_apply (c : Dev nD) (ch k : Fin 256) : V1 m ρ c main_v1 (ix2 ch k) = uIn m c k ch := by
  rw [V1_ut]; exact transposed_apply _ ch k
theorem V1_cv_apply (c : Dev nD) (ch : Fin 256) (z : Fin 1) : V1 m ρ c main_v2 (ix2 ch z) = cvIn m c ch := by
  rw [V1_cv]; exact column_apply _ ch z

/-- A point's addend is its batch's lane sum of the rectified input. -/
theorem addend0_eq (c : Dev nD) (b : Fin 32) (k : Fin 256) (z : Fin 1) :
    addend0 (V1 m ρ) c b.val (ix2 k z) = ∑ q : Fin 3136, Cert.Spec.relu (xIn m c) b k q := by
  have hb : b.val < cfg0.N := lt_of_lt_of_eq b.isLt N_0.symm
  unfold addend0
  rw [dif_pos hb]
  unfold laneSum
  refine Finset.sum_congr rfl fun q _ => ?_
  rw [iblk0_apply, V1_x_apply]
  rfl

theorem partial0_apply (V : (c : Dev nD) → (b : Ref sig .tc) → Buf (Elt Ideal) ((c : Thread nD τ).loc b)) (c : Dev nD) (p : Fin 2) (k : Fin 256) (z : Fin 1) :
    partial0 V c (ix3 p k z) = ∑ s ∈ Finset.range 16, addend0 V c (16 * p.val + s) (ix2 k z) := rfl

/-- The two chains' partial sums add up to the channel's total. -/
theorem partials_total (c : Dev nD) (k : Fin 256) (z : Fin 1) :
    (∑ p : Fin 2, partial0 (V1 m ρ) c (ix3 p k z)) = Cert.Spec.total (xIn m c) k := by
  unfold Cert.Spec.total
  simp only [partial0_apply]
  have e : ∀ p : Fin 2, (∑ s ∈ Finset.range 16, addend0 (V1 m ρ) c (16 * p.val + s) (ix2 k z))
      = ∑ s : Fin 16, (fun b : Fin (2 * 16) => ∑ q : Fin 3136, Cert.Spec.relu (xIn m c) b k q) ⟨p.val * 16 + s.val, BlockSum.block_lt p s⟩ := by
    intro p
    rw [Finset.sum_range]
    refine Finset.sum_congr rfl fun s _ => ?_
    show addend0 (V1 m ρ) c (16 * p.val + s.val) (ix2 k z) = ∑ q : Fin 3136, Cert.Spec.relu (xIn m c) ⟨p.val * 16 + s.val, BlockSum.block_lt p s⟩ k q
    rw [← addend0_eq m ρ c ⟨p.val * 16 + s.val, BlockSum.block_lt p s⟩ k z]
    show addend0 (V1 m ρ) c (16 * p.val + s.val) (ix2 k z) = addend0 (V1 m ρ) c (p.val * 16 + s.val) (ix2 k z)
    rw [Nat.mul_comm]
  rw [Finset.sum_congr rfl fun p _ => e p]
  exact BlockSum.sum_blocks 2 16 (fun b : Fin (2 * 16) => ∑ q : Fin 3136, Cert.Spec.relu (xIn m c) b k q)

/-- The host's mean is the specification's. -/
theorem hostMean_apply (c : Dev nD) (k : Fin 256) (z : Fin 1) : hostMean m ρ c (ix2 k z) = Cert.Spec.mean (xIn m c) k := by
  unfold Cert.Spec.mean
  show Ideal.div (Host.reduceAdd (F := Ideal) (afterSum m ρ c) (constant (F := Ideal) S_ .f32 0x00000000#32) reducesTo_S2x256x1_S256x1_d0 h_S_ (ix2 k z))
    (Ideal.ofBits .f32 0x47C40000#32) = _
  refine congrArg (fun a => Ideal.div a Cert.Spec.count) ?_
  rw [show afterSum m ρ c = partial0 (V1 m ρ) c from final0 (V1 m ρ) c]
  simp only [Host.reduceAdd, Ideal.hostReduceAdd_def]
  rw [Ideal.hostReduceAdd_single reducesTo_S2x256x1_S256x1_d0 (by decide)]
  show Ideal.ofBits .f32 0x00000000#32 + (∑ p : Fin 2, partial0 (V1 m ρ) c (ix3 p k z)) = _
  rw [Ideal.ofBits_zero_f32, zero_add, partials_total]

/-- The projected mean: the basis column against the means. -/
theorem hostMeanProj_apply (c : Dev nD) (ch : Fin 256) (z : Fin 1) :
    (hostMeanProj m ρ c (ix2 ch z) : EReal) = ∑ k : Fin 256, uIn m c k ch * Cert.Spec.mean (xIn m c) k := by
  refine (dot_column_apply .single (V1 m ρ c main_v1) (hostMean m ρ c) ch z).trans ?_
  refine Finset.sum_congr rfl fun k _ => ?_
  rw [V1_ut_apply, hostMean_apply]

end

end Cert.KernelIdeal.Fr

end
-- ==== Proof.Value1.lean ====
/-
  The second kernel region read as values: each control case folds the lane minima (maxima) of the point's
  clamped projection into the running minimum (maximum) — from +∞ (−∞) at the first point of a chain — and
  copies both to the output blocks.
-/
import proofs.«128398_j30554397343924_2_alg».proof.Proof.Gen.KernelIdeal.Launch
import proofs.«128398_j30554397343924_2_alg».proof.Proof.Gen.KernelIdeal.Skeleton
import proofs.«128398_j30554397343924_2_alg».proof.Proof.Gen.KernelIdeal.Points
import proofs.«128398_j30554397343924_2_alg».proof.Proof.Region1
import proofs.«128398_j30554397343924_2_alg».proof.Proof.Value0
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

theorem valMinNext1_eq (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : ¬chainStart1 i)
    (x0 : Vec F S1x256x3136 .f32) (x1 : Vec F S256x256 .f32) (x2 : Vec F S256x1 .f32) (x3 : Vec F S256x1 .f32) (xs0 xs1 : Vec F S256x1 .f32) : valMinNext1 c i arg2 harg2 arg3 harg3 arg4 harg4 arg5 harg5 arg6 harg6 arg7 harg7 arg8 harg8 arg9 harg9 hc x0 x1 x2 x3 xs0 xs1 = k1_pay8 x0 x1 x2 x3 xs0 := by
  unfold valMinNext1
  rw [View.read_writes_eq_canon _ _ _ (coverMinNext1 c i arg2 harg2 arg3 harg3 arg4 harg4 arg5 harg5 arg6 harg6 arg7 harg7 arg8 harg8 arg9 harg9 hc x0 x1 x2 x3 xs0 xs1)]
  unfold runNext1
  dsimp only
  sl_unfold_words
  rw [View.canon_unit_zero zeros2]
  simp only [View.readAt_eq_ld, harg2.read_unread, harg3.read_unread, harg4.read_unread, harg5.read_unread, View.ld_unit_zero (S := S1x256x3136) zeros3, View.ld_unit_zero (S := S256x256) zeros2, View.ld_unit_zero (S := S256x1) zeros2, harg8.read_unread]

theorem valMaxNext1_eq (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : ¬chainStart1 i)
    (x0 : Vec F S1x256x3136 .f32) (x1 : Vec F S256x256 .f32) (x2 : Vec F S256x1 .f32) (x3 : Vec F S256x1 .f32) (xs0 xs1 : Vec F S256x1 .f32) : valMaxNext1 c i arg2 harg2 arg3 harg3 arg4 harg4 arg5 harg5 arg6 harg6 arg7 harg7 arg8 harg8 arg9 harg9 hc x0 x1 x2 x3 xs0 xs1 = k1_pay1 (k1_pay7 x0 x1 x2 x3) xs1 := by
  unfold valMaxNext1
  rw [View.read_writes_eq_canon _ _ _ (coverMaxNext1 c i arg2 harg2 arg3 harg3 arg4 harg4 arg5 harg5 arg6 harg6 arg7 harg7 arg8 harg8 arg9 harg9 hc x0 x1 x2 x3 xs0 xs1)]
  unfold runNext1
  dsimp only
  sl_unfold_words
  rw [View.canon_unit_zero zeros2]
  simp only [View.readAt_eq_ld, harg2.read_unread, harg3.read_unread, harg4.read_unread, harg5.read_unread, View.ld_unit_zero (S := S1x256x3136) zeros3, View.ld_unit_zero (S := S256x256) zeros2, View.ld_unit_zero (S := S256x1) zeros2, harg9.read_unread]

theorem valOutMinNext1_eq (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : ¬chainStart1 i)
    (x0 : Vec F S1x256x3136 .f32) (x1 : Vec F S256x256 .f32) (x2 : Vec F S256x1 .f32) (x3 : Vec F S256x1 .f32) (xs0 xs1 : Vec F S256x1 .f32) : valOutMinNext1 c i arg2 harg2 arg3 harg3 arg4 harg4 arg5 harg5 arg6 harg6 arg7 harg7 arg8 harg8 arg9 harg9 hc x0 x1 x2 x3 xs0 xs1 = k1_pay2 (k1_pay8 x0 x1 x2 x3 xs0) := by
  unfold valOutMinNext1
  rw [View.read_writes_eq_canon _ _ _ (coverOutMinNext1 c i arg2 harg2 arg3 harg3 arg4 harg4 arg5 harg5 arg6 harg6 arg7 harg7 arg8 harg8 arg9 harg9 hc x0 x1 x2 x3 xs0 xs1)]
  unfold runNext1
  dsimp only
  sl_unfold_words
  rw [View.canon_unit_zero zeros3, readCov_cons_whole _ zeros2]
  simp only [View.readAt_eq_ld, harg2.read_unread, harg3.read_unread, harg4.read_unread, harg5.read_unread, View.ld_unit_zero (S := S1x256x3136) zeros3, View.ld_unit_zero (S := S256x256) zeros2, View.ld_unit_zero (S := S256x1) zeros2, harg8.read_unread]

theorem valOutMaxNext1_eq (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : ¬chainStart1 i)
    (x0 : Vec F S1x256x3136 .f32) (x1 : Vec F S256x256 .f32) (x2 : Vec F S256x1 .f32) (x3 : Vec F S256x1 .f32) (xs0 xs1 : Vec F S256x1 .f32) : valOutMaxNext1 c i arg2 harg2 arg3 harg3 arg4 harg4 arg5 harg5 arg6 harg6 arg7 harg7 arg8 harg8 arg9 harg9 hc x0 x1 x2 x3 xs0 xs1 = k1_pay3 (k1_pay1 (k1_pay7 x0 x1 x2 x3) xs1) := by
  unfold valOutMaxNext1
  rw [View.read_writes_eq_canon _ _ _ (coverOutMaxNext1 c i arg2 harg2 arg3 harg3 arg4 harg4 arg5 harg5 arg6 harg6 arg7 harg7 arg8 harg8 arg9 harg9 hc x0 x1 x2 x3 xs0 xs1)]
  unfold runNext1
  dsimp only
  sl_unfold_words
  rw [View.canon_unit_zero zeros3, readCov_cons_whole _ zeros2]
  simp only [View.readAt_eq_ld, harg2.read_unread, harg3.read_unread, harg4.read_unread, harg5.read_unread, View.ld_unit_zero (S := S1x256x3136) zeros3, View.ld_unit_zero (S := S256x256) zeros2, View.ld_unit_zero (S := S256x1) zeros2, harg9.read_unread]

theorem valMinStart1_eq (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : chainStart1 i)
    (x0 : Vec F S1x256x3136 .f32) (x1 : Vec F S256x256 .f32) (x2 : Vec F S256x1 .f32) (x3 : Vec F S256x1 .f32) : valMinStart1 c i arg2 harg2 arg3 harg3 arg4 harg4 arg5 harg5 arg6 harg6 arg7 harg7 arg8 harg8 arg9 harg9 hc x0 x1 x2 x3 = k1_pay8 x0 x1 x2 x3 k1_pay4 := by
  unfold valMinStart1
  rw [View.read_writes_eq_canon _ _ _ (coverMinStart1 c i arg2 harg2 arg3 harg3 arg4 harg4 arg5 harg5 arg6 harg6 arg7 harg7 arg8 harg8 arg9 harg9 hc x0 x1 x2 x3)]
  unfold runStart1
  dsimp only
  sl_unfold_words
  rw [View.canon_cons_unit_zero (S := S256x1) zeros2, readCov_cons_whole _ zeros2]
  simp only [View.readAt_eq_ld, harg2.read_unread, harg3.read_unread, harg4.read_unread, harg5.read_unread, View.ld_unit_zero (S := S1x256x3136) zeros3, View.ld_unit_zero (S := S256x256) zeros2, View.ld_unit_zero (S := S256x1) zeros2]

theorem valMaxStart1_eq (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : chainStart1 i)
    (x0 : Vec F S1x256x3136 .f32) (x1 : Vec F S256x256 .f32) (x2 : Vec F S256x1 .f32) (x3 : Vec F S256x1 .f32) : valMaxStart1 c i arg2 harg2 arg3 harg3 arg4 harg4 arg5 harg5 arg6 harg6 arg7 harg7 arg8 harg8 arg9 harg9 hc x0 x1 x2 x3 = k1_pay1 (k1_pay7 x0 x1 x2 x3) k1_pay5 := by
  unfold valMaxStart1
  rw [View.read_writes_eq_canon _ _ _ (coverMaxStart1 c i arg2 harg2 arg3 harg3 arg4 harg4 arg5 harg5 arg6 harg6 arg7 harg7 arg8 harg8 arg9 harg9 hc x0 x1 x2 x3)]
  unfold runStart1
  dsimp only
  sl_unfold_words
  rw [View.canon_cons_unit_zero (S := S256x1) zeros2, readCov_cons_whole _ zeros2]
  simp only [View.readAt_eq_ld, harg2.read_unread, harg3.read_unread, harg4.read_unread, harg5.read_unread, View.ld_unit_zero (S := S1x256x3136) zeros3, View.ld_unit_zero (S := S256x256) zeros2, View.ld_unit_zero (S := S256x1) zeros2]

theorem valOutMinStart1_eq (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : chainStart1 i)
    (x0 : Vec F S1x256x3136 .f32) (x1 : Vec F S256x256 .f32) (x2 : Vec F S256x1 .f32) (x3 : Vec F S256x1 .f32) : valOutMinStart1 c i arg2 harg2 arg3 harg3 arg4 harg4 arg5 harg5 arg6 harg6 arg7 harg7 arg8 harg8 arg9 harg9 hc x0 x1 x2 x3 = k1_pay2 (k1_pay8 x0 x1 x2 x3 k1_pay4) := by
  unfold valOutMinStart1
  rw [View.read_writes_eq_canon _ _ _ (coverOutMinStart1 c i arg2 harg2 arg3 harg3 arg4 harg4 arg5 harg5 arg6 harg6 arg7 harg7 arg8 harg8 arg9 harg9 hc x0 x1 x2 x3)]
  unfold runStart1
  dsimp only
  sl_unfold_words
  rw [View.canon_unit_zero zeros3, readCov_cons_whole _ zeros2, readCov_cons_whole _ zeros2]
  simp only [View.readAt_eq_ld, harg2.read_unread, harg3.read_unread, harg4.read_unread, harg5.read_unread, View.ld_unit_zero (S := S1x256x3136) zeros3, View.ld_unit_zero (S := S256x256) zeros2, View.ld_unit_zero (S := S256x1) zeros2]

theorem valOutMaxStart1_eq (c : Dev nD) (i : grid1.Coords) (arg2 : Memref sig .tc .vmem S1x256x3136 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S256x1 .f32) (harg8 : arg8.IsWhole) (arg9 : Memref sig .tc .vmem S256x1 .f32) (harg9 : arg9.IsWhole) (hc : chainStart1 i)
    (x0 : Vec F S1x256x3136 .f32) (x1 : Vec F S256x256 .f32) (x2 : Vec F S256x1 .f32) (x3 : Vec F S256x1 .f32) : valOutMaxStart1 c i arg2 harg2 arg3 harg3 arg4 harg4 arg5 harg5 arg6 harg6 arg7 harg7 arg8 harg8 arg9 harg9 hc x0 x1 x2 x3 = k1_pay3 (k1_pay1 (k1_pay7 x0 x1 x2 x3) k1_pay5) := by
  unfold valOutMaxStart1
  rw [View.read_writes_eq_canon _ _ _ (coverOutMaxStart1 c i arg2 harg2 arg3 harg3 arg4 harg4 arg5 harg5 arg6 harg6 arg7 harg7 arg8 harg8 arg9 harg9 hc x0 x1 x2 x3)]
  unfold runStart1
  dsimp only
  sl_unfold_words
  rw [View.canon_unit_zero zeros3, readCov_cons_whole _ zeros2, readCov_cons_whole _ zeros2]
  simp only [View.readAt_eq_ld, harg2.read_unread, harg3.read_unread, harg4.read_unread, harg5.read_unread, View.ld_unit_zero (S := S1x256x3136) zeros3, View.ld_unit_zero (S := S256x256) zeros2, View.ld_unit_zero (S := S256x1) zeros2]

/-- The running minimum after point `n`. -/
def runMin1 (c : Dev nD) : (n : ℕ) → n < cfg1.N → Vec F S256x1 .f32
  | 0, h => k1_pay8 (iblk1 V c 0 ⟨0, h⟩) (iblk1 V c 1 ⟨0, h⟩) (iblk1 V c 2 ⟨0, h⟩) (iblk1 V c 3 ⟨0, h⟩) k1_pay4
  | n + 1, h =>
    if (n + 1) % 16 = 0 then k1_pay8 (iblk1 V c 0 ⟨n + 1, h⟩) (iblk1 V c 1 ⟨n + 1, h⟩) (iblk1 V c 2 ⟨n + 1, h⟩) (iblk1 V c 3 ⟨n + 1, h⟩) k1_pay4
    else k1_pay8 (iblk1 V c 0 ⟨n + 1, h⟩) (iblk1 V c 1 ⟨n + 1, h⟩) (iblk1 V c 2 ⟨n + 1, h⟩) (iblk1 V c 3 ⟨n + 1, h⟩) (runMin1 c n (Nat.lt_of_succ_lt h))

/-- The running maximum after point `n`. -/
def runMax1 (c : Dev nD) : (n : ℕ) → n < cfg1.N → Vec F S256x1 .f32
  | 0, h => k1_pay1 (k1_pay7 (iblk1 V c 0 ⟨0, h⟩) (iblk1 V c 1 ⟨0, h⟩) (iblk1 V c 2 ⟨0, h⟩) (iblk1 V c 3 ⟨0, h⟩)) k1_pay5
  | n + 1, h =>
    if (n + 1) % 16 = 0 then k1_pay1 (k1_pay7 (iblk1 V c 0 ⟨n + 1, h⟩) (iblk1 V c 1 ⟨n + 1, h⟩) (iblk1 V c 2 ⟨n + 1, h⟩) (iblk1 V c 3 ⟨n + 1, h⟩)) k1_pay5
    else k1_pay1 (k1_pay7 (iblk1 V c 0 ⟨n + 1, h⟩) (iblk1 V c 1 ⟨n + 1, h⟩) (iblk1 V c 2 ⟨n + 1, h⟩) (iblk1 V c 3 ⟨n + 1, h⟩)) (runMax1 c n (Nat.lt_of_succ_lt h))

/-- What the four buffers hold after point `n`: the two running extrema and their copies. -/
theorem held1_eq (c : Dev nD) : ∀ (n : ℕ) (h : n < cfg1.N),
    held1 V c n h = (k1_pay2 (runMin1 V c n h), k1_pay3 (runMax1 V c n h), runMin1 V c n h, runMax1 V c n h)
  | 0, h => by
    rw [held1_start V c ⟨0, h⟩ rfl, valOutMinStart1_eq, valOutMaxStart1_eq, valMinStart1_eq, valMaxStart1_eq]; rfl
  | n + 1, h => by
    by_cases h0 : (n + 1) % 16 = 0
    · rw [held1_start V c ⟨n + 1, h⟩ h0, valOutMinStart1_eq, valOutMaxStart1_eq, valMinStart1_eq, valMaxStart1_eq]
      simp only [runMin1, runMax1, if_pos h0]
    · rw [held1_next V c ⟨n + 1, h⟩ h0, valOutMinNext1_eq, valOutMaxNext1_eq, valMinNext1_eq, valMaxNext1_eq]
      show (k1_pay2 (k1_pay8 _ _ _ _ (held1 V c n _).2.2.1), k1_pay3 (k1_pay1 (k1_pay7 _ _ _ _) (held1 V c n _).2.2.2),
        k1_pay8 _ _ _ _ (held1 V c n _).2.2.1, k1_pay1 (k1_pay7 _ _ _ _) (held1 V c n _).2.2.2) = _
      rw [held1_eq c n]
      simp only [runMin1, runMax1, if_neg h0]

end

end Cert.KernelIdeal.Fr

end
-- ==== Proof.Extrema1.lean ====
/-
  The second kernel region at the extended reals: the clamped projection of a slab, entry by entry, and its
  lane minima and maxima folded into the running extrema.
-/
import proofs.«128398_j30554397343924_2_alg».proof.Proof.Gen.KernelIdeal.Launch
import proofs.«128398_j30554397343924_2_alg».proof.Proof.Gen.KernelIdeal.Skeleton
import proofs.«128398_j30554397343924_2_alg».proof.Proof.Gen.KernelIdeal.Points
import proofs.«128398_j30554397343924_2_alg».proof.Proof.Value1
import proofs.«128398_j30554397343924_2_alg».proof.Proof.Sum0
import proofs.«128398_j30554397343924_2_alg».proof.Proof.Dots
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- A [256, 1] column broadcast along the lanes: entry (c, q) is the column's entry c. -/
theorem bcast_column_apply {α : Type} (v : S256x1.Idx → α) (c : Fin 256) (q : Fin 3136) :
    broadcastTo S256x3136 v broadcasts_S256x1_S256x3136 (ix2 c q) = v (ix2 c 0) :=
  broadcastTo_apply v broadcasts_S256x1_S256x3136 (ix2 c q) (ix2 c 0) fun a =>
    match a with
    | ⟨0, _⟩ => by show c.val = if (256 : Nat) = 1 then 0 else c.val; rw [if_neg (by decide)]
    | ⟨1, _⟩ => by show (0 : Nat) = if (1 : Nat) = 1 then 0 else q.val; rw [if_pos rfl]

/-- The clamped projection of a slab: channel c of the basis against the rectified slab, less the projected
    mean, clamped to [-cv c, cv c]. -/
def clampedOf (x : Vec Ideal S1x256x3136 .f32) (ut : Vec Ideal S256x256 .f32) (mc cvr : Vec Ideal S256x1 .f32)
    (c : Fin 256) (q : Fin 3136) : EReal :=
  min (cvr (ix2 c 0)) (max (0 - cvr (ix2 c 0)) ((∑ k : Fin 256, ut (ix2 c k) * max (x (ix3 0 k q)) 0) - mc (ix2 c 0)))

theorem clamped_apply (x : Vec Ideal S1x256x3136 .f32) (ut : Vec Ideal S256x256 .f32) (mc cvr : Vec Ideal S256x1 .f32)
    (c : Fin 256) (q : Fin 3136) : k1_pay6 x ut mc cvr (ix2 c q) = clampedOf x ut mc cvr c q := by
  unfold k1_pay6 clampedOf
  simp only [shapeCast_self]
  simp only [minimumf_apply, maximumf_apply, subf_apply, bcast_column_apply, matmul_slab_apply, truncf_apply,
    broadcast_apply, slab_apply, Ideal.ofBits_def, Ideal.ofBits_zero_f32]

end Cert.KernelIdeal.Fr

end
-- ==== Proof.LibExtrema.lean ====
/-
  Running extrema over a chain of grid points, and extrema over blocks.

  A fold of min (max) from an initial value is the minimum (maximum) of that value and the infimum (supremum) of
  the folded family. A quantity that a chain of points updates by acc ↦ min acc (its point's term), from
  min Z (the first point's term), is after j further points the minimum of Z and the infimum of the terms of the
  points so far; dually for max. And the infimum over 2 chains × 16 points × 3136 lanes of a family indexed by
  the batch 16·p + s is the infimum over all 32 batches and 3136 lanes.
-/
import Idealize.ShloMosaic.Lib.Pipeline.Value
import Idealize.ShloMosaic.PureOps.Ideal

namespace LibExtrema

open Idealize.ShloMosaic

/-- A fold of min from `b` over a finite family is the minimum of `b` and the family's infimum. -/
theorem fold_min_eq_inf {ι : Type*} [DecidableEq ι] (s : Finset ι) (f : ι → EReal) (b : EReal) :
    s.fold min b f = min b (s.inf f) := by
  induction s using Finset.induction_on with
  | empty => simp
  | insert a s ha ih => rw [Finset.fold_insert ha, Finset.inf_insert, ih]; exact min_left_comm _ _ _

/-- A fold of max from `b` over a finite family is the maximum of `b` and the family's supremum. -/
theorem fold_max_eq_sup {ι : Type*} [DecidableEq ι] (s : Finset ι) (f : ι → EReal) (b : EReal) :
    s.fold max b f = max b (s.sup f) := by
  induction s using Finset.induction_on with
  | empty => simp
  | insert a s ha ih => rw [Finset.fold_insert ha, Finset.sup_insert, ih]; exact max_left_comm _ _ _

variable {N : Nat} {ι : Type*}

/-- The running minimum after `j` further points of a chain that starts at point `b`. -/
theorem accAt_min_apply (a : (n : Nat) → n < N → ι → EReal) (g : (n : Nat) → n < N → (ι → EReal) → ι → EReal)
    (Z : ι → EReal) (M : Nat → ι → EReal) (b e : Nat)
    (ha : ∀ (h : b < N) (i : ι), a b h i = min (Z i) (M b i))
    (hg : ∀ (n : Nat) (h : n < N) (acc : ι → EReal) (i : ι), b < n → n ≤ b + e → g n h acc i = min (acc i) (M n i)) :
    ∀ (j : Nat), j ≤ e → ∀ (h : b + j < N) (i : ι),
      Pipeline.accAt a g b j h i = min (Z i) ((Finset.range (j + 1)).inf fun s => M (b + s) i)
  | 0, _, h, i => by
    rw [Pipeline.accAt_zero, ha]
    simp
  | j + 1, hj, h, i => by
    rw [Pipeline.accAt_succ, hg (b + (j + 1)) h _ i (by omega) (by omega),
      accAt_min_apply a g Z M b e ha hg j (Nat.le_of_succ_le hj) (Nat.lt_of_succ_lt h) i,
      Finset.range_add_one (n := j + 1), Finset.inf_insert, min_assoc]
    exact congrArg (min (Z i)) (min_comm _ _)

/-- The running maximum after `j` further points of a chain that starts at point `b`. -/
theorem accAt_max_apply (a : (n : Nat) → n < N → ι → EReal) (g : (n : Nat) → n < N → (ι → EReal) → ι → EReal)
    (Z : ι → EReal) (M : Nat → ι → EReal) (b e : Nat)
    (ha : ∀ (h : b < N) (i : ι), a b h i = max (Z i) (M b i))
    (hg : ∀ (n : Nat) (h : n < N) (acc : ι → EReal) (i : ι), b < n → n ≤ b + e → g n h acc i = max (acc i) (M n i)) :
    ∀ (j : Nat), j ≤ e → ∀ (h : b + j < N) (i : ι),
      Pipeline.accAt a g b j h i = max (Z i) ((Finset.range (j + 1)).sup fun s => M (b + s) i)
  | 0, _, h, i => by
    rw [Pipeline.accAt_zero, ha]
    simp
  | j + 1, hj, h, i => by
    rw [Pipeline.accAt_succ, hg (b + (j + 1)) h _ i (by omega) (by omega),
      accAt_max_apply a g Z M b e ha hg j (Nat.le_of_succ_le hj) (Nat.lt_of_succ_lt h) i,
      Finset.range_add_one (n := j + 1), Finset.sup_insert, max_assoc]
    exact congrArg (max (Z i)) (max_comm _ _)

/-- The infimum over 2 chains of 16 batches is the infimum over the 32 batches. -/
theorem inf_blocks (f : Fin 32 → Fin 3136 → EReal) (g : Nat → Fin 3136 → EReal) (hg : ∀ b : Fin 32, g b.val = f b) :
    ((Finset.univ : Finset (Fin 2)).inf fun p => (Finset.range 16).inf fun s => Finset.univ.inf fun q => g (16 * p.val + s) q)
      = Finset.univ.inf fun bq : Fin 32 × Fin 3136 => f bq.1 bq.2 := by
  apply le_antisymm
  · refine Finset.le_inf fun bq _ => ?_
    have hb : bq.1.val < 32 := bq.1.isLt
    refine (Finset.inf_le (Finset.mem_univ (⟨bq.1.val / 16, by omega⟩ : Fin 2))).trans ?_
    refine (Finset.inf_le (Finset.mem_range.mpr (Nat.mod_lt bq.1.val (by decide : 0 < 16)))).trans ?_
    refine (Finset.inf_le (Finset.mem_univ bq.2)).trans ?_
    rw [show 16 * (bq.1.val / 16) + bq.1.val % 16 = bq.1.val from Nat.div_add_mod _ _, hg]
  · refine Finset.le_inf fun p _ => Finset.le_inf fun s hs => Finset.le_inf fun q _ => ?_
    have hp : p.val < 2 := p.isLt
    have hs' : s < 16 := Finset.mem_range.mp hs
    have e : g (16 * p.val + s) q = f ⟨16 * p.val + s, by omega⟩ q := congrFun (hg ⟨16 * p.val + s, by omega⟩) q
    rw [e]
    exact Finset.inf_le (f := fun bq : Fin 32 × Fin 3136 => f bq.1 bq.2) (Finset.mem_univ ((⟨16 * p.val + s, by omega⟩ : Fin 32), q))

/-- The supremum over 2 chains of 16 batches is the supremum over the 32 batches. -/
theorem sup_blocks (f : Fin 32 → Fin 3136 → EReal) (g : Nat → Fin 3136 → EReal) (hg : ∀ b : Fin 32, g b.val = f b) :
    ((Finset.univ : Finset (Fin 2)).sup fun p => (Finset.range 16).sup fun s => Finset.univ.sup fun q => g (16 * p.val + s) q)
      = Finset.univ.sup fun bq : Fin 32 × Fin 3136 => f bq.1 bq.2 := by
  apply le_antisymm
  · refine Finset.sup_le fun p _ => Finset.sup_le fun s hs => Finset.sup_le fun q _ => ?_
    have hp : p.val < 2 := p.isLt
    have hs' : s < 16 := Finset.mem_range.mp hs
    have e : g (16 * p.val + s) q = f ⟨16 * p.val + s, by omega⟩ q := congrFun (hg ⟨16 * p.val + s, by omega⟩) q
    rw [e]
    exact Finset.le_sup (f := fun bq : Fin 32 × Fin 3136 => f bq.1 bq.2) (Finset.mem_univ ((⟨16 * p.val + s, by omega⟩ : Fin 32), q))
  · refine Finset.sup_le fun bq _ => ?_
    have hb : bq.1.val < 32 := bq.1.isLt
    refine le_trans ?_ (Finset.le_sup (Finset.mem_univ (⟨bq.1.val / 16, by omega⟩ : Fin 2)))
    refine le_trans ?_ (Finset.le_sup (Finset.mem_range.mpr (Nat.mod_lt bq.1.val (by decide : 0 < 16))))
    refine le_trans ?_ (Finset.le_sup (Finset.mem_univ bq.2))
    rw [show 16 * (bq.1.val / 16) + bq.1.val % 16 = bq.1.val from Nat.div_add_mod _ _, hg]

end LibExtrema
-- ==== Proof.Extrema1Lane.lean ====
/-
  The second kernel region at the extended reals: the lane minimum and maximum of the clamped projection and
  their folding into the running extrema.
-/
import proofs.«128398_j30554397343924_2_alg».proof.Proof.Gen.KernelIdeal.Launch
import proofs.«128398_j30554397343924_2_alg».proof.Proof.Gen.KernelIdeal.Skeleton
import proofs.«128398_j30554397343924_2_alg».proof.Proof.Gen.KernelIdeal.Points
import proofs.«128398_j30554397343924_2_alg».proof.Proof.Extrema1
import proofs.«128398_j30554397343924_2_alg».proof.Proof.LibExtrema
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem ofBits_posInf : Ideal.ofBits .f32 0x7F800000#32 = (⊤ : EReal) := by simp [Ideal.ofBits, Ideal.ieee]
theorem ofBits_negInf : Ideal.ofBits .f32 0xFF800000#32 = (⊥ : EReal) := by simp [Ideal.ofBits, Ideal.ieee]

theorem lift_lane (c : Fin 256) (q : Fin 3136) : reduces_S256x3136_S256.lift (ix1 c) q = ix2 c q := by
  funext a
  match a with
  | ⟨0, _⟩ => rfl
  | ⟨1, _⟩ => rfl

/-- A lane maximum over the 3136 lanes of a [256, 3136] array, from −∞, read at row `c`. -/
theorem laneMax_apply (src : FVec Ideal S256x3136 .f32) (hφ : FKind.Formats .f32)
    (hacc : (0xFF800000#32 : BitVec 32) = FKind.maximumf.neutral .f32 hφ) (c : Fin 256) :
    multiReduction .maximumf [1] S256 src 0xFF800000#32 reduces_S256x3136_S256 hφ hacc (ix1 c)
      = Finset.univ.sup fun q : Fin 3136 => src (ix2 c q) := by
  refine (Ideal.multiReduction_maximumf_single src 0xFF800000#32 reduces_S256x3136_S256 hφ hacc (ix1 c)).trans ?_
  refine (LibExtrema.fold_max_eq_sup (Finset.univ : Finset (Fin 3136)) (src ∘ reduces_S256x3136_S256.lift (ix1 c)) (Ideal.ofBits .f32 0xFF800000#32)).trans ?_
  refine (congrArg (fun b : EReal => max b ((Finset.univ : Finset (Fin 3136)).sup (src ∘ reduces_S256x3136_S256.lift (ix1 c)))) ofBits_negInf).trans ?_
  refine (max_bot_left _).trans ?_
  exact congrArg (Finset.univ : Finset (Fin 3136)).sup (funext fun q => congrArg src (lift_lane c q))

/-- A lane minimum over the 3136 lanes of a [256, 3136] array, from +∞, read at row `c`. -/
theorem laneMin_apply (src : FVec Ideal S256x3136 .f32) (hφ : FKind.Formats .f32)
    (hacc : (0x7F800000#32 : BitVec 32) = FKind.minimumf.neutral .f32 hφ) (c : Fin 256) :
    multiReduction .minimumf [1] S256 src 0x7F800000#32 reduces_S256x3136_S256 hφ hacc (ix1 c)
      = Finset.univ.inf fun q : Fin 3136 => src (ix2 c q) := by
  rw [multiReduction_minimumf_eq_fold]
  refine (reduces_S256x3136_S256.fold_filter_drop_single _ _ src (ix1 c)).trans ?_
  refine (LibExtrema.fold_min_eq_inf (Finset.univ : Finset (Fin 3136)) (src ∘ reduces_S256x3136_S256.lift (ix1 c)) (Ideal.ofBits .f32 0x7F800000#32)).trans ?_
  refine (congrArg (fun b : EReal => min b ((Finset.univ : Finset (Fin 3136)).inf (src ∘ reduces_S256x3136_S256.lift (ix1 c)))) ofBits_posInf).trans ?_
  refine (min_top_left _).trans ?_
  exact congrArg (Finset.univ : Finset (Fin 3136)).inf (funext fun q => congrArg src (lift_lane c q))

theorem resetMin_apply (i : S256x1.Idx) : k1_pay4 (F := Ideal) i = ⊤ := by
  unfold k1_pay4
  rw [shapeCast_self]
  exact ofBits_posInf
theorem resetMax_apply (i : S256x1.Idx) : k1_pay5 (F := Ideal) i = ⊥ := by
  unfold k1_pay5
  rw [shapeCast_self]
  exact ofBits_negInf

/-- The lane maximum of a slab's clamped projection, as a column. -/
theorem slabMax_apply (x : Vec Ideal S1x256x3136 .f32) (ut : Vec Ideal S256x256 .f32) (mc cvr : Vec Ideal S256x1 .f32)
    (c : Fin 256) (z : Fin 1) :
    k1_pay7 x ut mc cvr (ix2 c z) = Finset.univ.sup fun q : Fin 3136 => clampedOf x ut mc cvr c q := by
  unfold k1_pay7
  refine (column_apply _ c z).trans ?_
  refine (laneMax_apply _ _ _ c).trans ?_
  exact congrArg (Finset.univ.sup) (funext fun q => clamped_apply x ut mc cvr c q)

/-- Folding a slab's lane minimum into the running minimum. -/
theorem foldMin_apply (x : Vec Ideal S1x256x3136 .f32) (ut : Vec Ideal S256x256 .f32) (mc cvr xs : Vec Ideal S256x1 .f32)
    (c : Fin 256) (z : Fin 1) :
    k1_pay8 x ut mc cvr xs (ix2 c z) = min (xs (ix2 c z)) (Finset.univ.inf fun q : Fin 3136 => clampedOf x ut mc cvr c q) := by
  unfold k1_pay8
  rw [shapeCast_self]
  refine congrArg (min (xs (ix2 c z))) ?_
  refine (column_apply _ c z).trans ?_
  refine (laneMin_apply _ _ _ c).trans ?_
  exact congrArg (Finset.univ.inf) (funext fun q => clamped_apply x ut mc cvr c q)

/-- Folding a lane maximum into the running maximum. -/
theorem foldMax_apply (v xs : Vec Ideal S256x1 .f32) (i : S256x1.Idx) :
    k1_pay1 v xs i = max (xs i) (v i) := by
  unfold k1_pay1
  rw [shapeCast_self]
  rfl

theorem copyMin_apply (v : Vec Ideal S256x1 .f32) (p : Fin 1) (c : Fin 256) (z : Fin 1) :
    k1_pay2 v (ix3 p c z) = v (ix2 c z) := by
  unfold k1_pay2
  exact block_of_column_apply v p c z
theorem copyMax_apply (v : Vec Ideal S256x1 .f32) (p : Fin 1) (c : Fin 256) (z : Fin 1) :
    k1_pay3 v (ix3 p c z) = v (ix2 c z) := by
  unfold k1_pay3
  exact block_of_column_apply v p c z

end Cert.KernelIdeal.Fr

end
-- ==== Proof.Extrema1Acc.lean ====
/-
  The second kernel region at the extended reals, point by point: the running minimum (maximum) after a point
  is the infimum (supremum) of the lane minima (maxima) of its chain's points so far, and the two arrays of
  partial extrema end holding each chain's extremum.
-/
import proofs.«128398_j30554397343924_2_alg».proof.Proof.Gen.KernelIdeal.Launch
import proofs.«128398_j30554397343924_2_alg».proof.Proof.Gen.KernelIdeal.Skeleton
import proofs.«128398_j30554397343924_2_alg».proof.Proof.Gen.KernelIdeal.Points
import proofs.«128398_j30554397343924_2_alg».proof.Proof.Extrema1Lane
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section
variable (V : (c : Dev nD) → (b : Ref sig .tc) → Buf (Elt Ideal) ((c : Thread nD τ).loc b))

/-- The clamped projection of point `n`'s slab (zero past the grid). -/
def clampedAt (c : Dev nD) (n : ℕ) (ch : Fin 256) (q : Fin 3136) : EReal :=
  if h : n < cfg1.N then clampedOf (iblk1 V c 0 ⟨n, h⟩) (iblk1 V c 1 ⟨n, h⟩) (iblk1 V c 2 ⟨n, h⟩) (iblk1 V c 3 ⟨n, h⟩) ch q else 0

/-- Point `n`'s lane minimum and maximum for channel `i 0`. -/
def laneLo (c : Dev nD) (n : ℕ) (i : S256x1.Idx) : EReal := Finset.univ.inf fun q : Fin 3136 => clampedAt V c n (i 0) q
def laneHi (c : Dev nD) (n : ℕ) (i : S256x1.Idx) : EReal := Finset.univ.sup fun q : Fin 3136 => clampedAt V c n (i 0) q

theorem runMin1_reset (c : Dev nD) : ∀ (n : ℕ) (h : n < cfg1.N), n % 16 = 0 →
    runMin1 V c n h = k1_pay8 (iblk1 V c 0 ⟨n, h⟩) (iblk1 V c 1 ⟨n, h⟩) (iblk1 V c 2 ⟨n, h⟩) (iblk1 V c 3 ⟨n, h⟩) (k1_pay4 (F := Ideal))
  | 0, _, _ => rfl
  | n + 1, h, h0 => by simp only [runMin1, if_pos h0]
theorem runMin1_step (c : Dev nD) (n : ℕ) (h : n + 1 < cfg1.N) (h0 : ¬(n + 1) % 16 = 0) :
    runMin1 V c (n + 1) h = k1_pay8 (iblk1 V c 0 ⟨n + 1, h⟩) (iblk1 V c 1 ⟨n + 1, h⟩) (iblk1 V c 2 ⟨n + 1, h⟩) (iblk1 V c 3 ⟨n + 1, h⟩) (runMin1 V c n (Nat.lt_of_succ_lt h)) := by
  simp only [runMin1, if_neg h0]
theorem runMax1_reset (c : Dev nD) : ∀ (n : ℕ) (h : n < cfg1.N), n % 16 = 0 →
    runMax1 V c n h = k1_pay1 (k1_pay7 (iblk1 V c 0 ⟨n, h⟩) (iblk1 V c 1 ⟨n, h⟩) (iblk1 V c 2 ⟨n, h⟩) (iblk1 V c 3 ⟨n, h⟩)) (k1_pay5 (F := Ideal))
  | 0, _, _ => rfl
  | n + 1, h, h0 => by simp only [runMax1, if_pos h0]
theorem runMax1_step (c : Dev nD) (n : ℕ) (h : n + 1 < cfg1.N) (h0 : ¬(n + 1) % 16 = 0) :
    runMax1 V c (n + 1) h = k1_pay1 (k1_pay7 (iblk1 V c 0 ⟨n + 1, h⟩) (iblk1 V c 1 ⟨n + 1, h⟩) (iblk1 V c 2 ⟨n + 1, h⟩) (iblk1 V c 3 ⟨n + 1, h⟩)) (runMax1 V c n (Nat.lt_of_succ_lt h)) := by
  simp only [runMax1, if_neg h0]

/-- After point `t` the running minimum is the infimum of the lane minima of its chain's points up to `t`. -/
theorem runMin1_apply (c : Dev nD) (t : ℕ) (ht : t < cfg1.N) (i : S256x1.Idx) :
    runMin1 V c t ht i = (Finset.range (t % 16 + 1)).inf fun s => laneLo V c (16 * (t / 16) + s) i := by
  have h' : 16 * (t / 16) + t % 16 < cfg1.N := by rw [Nat.div_add_mod]; exact ht
  rw [Pipeline.eq_accAt_of_mod (runMin1 V c) 16 (fun n h => k1_pay8 (iblk1 V c 0 ⟨n, h⟩) (iblk1 V c 1 ⟨n, h⟩) (iblk1 V c 2 ⟨n, h⟩) (iblk1 V c 3 ⟨n, h⟩) (k1_pay4 (F := Ideal)))
    (fun n h acc => k1_pay8 (iblk1 V c 0 ⟨n, h⟩) (iblk1 V c 1 ⟨n, h⟩) (iblk1 V c 2 ⟨n, h⟩) (iblk1 V c 3 ⟨n, h⟩) acc) (runMin1_reset V c) (runMin1_step V c) (by decide) t ht h']
  rw [LibExtrema.accAt_min_apply _ _ (fun _ => (⊤ : EReal)) (laneLo V c) (16 * (t / 16)) 15
    (fun h j => by
      obtain ⟨k, z, rfl⟩ : ∃ (k : Fin 256) (z : Fin 1), j = ix2 k z := ⟨j 0, j 1, eq_ix2 j⟩
      rw [foldMin_apply, resetMin_apply]; unfold laneLo clampedAt; simp only [dif_pos h])
    (fun n h acc j _ _ => by
      obtain ⟨k, z, rfl⟩ : ∃ (k : Fin 256) (z : Fin 1), j = ix2 k z := ⟨j 0, j 1, eq_ix2 j⟩
      rw [foldMin_apply]; unfold laneLo clampedAt; simp only [dif_pos h])
    (t % 16) (by omega) h' i, min_top_left]

/-- After point `t` the running maximum is the supremum of the lane maxima of its chain's points up to `t`. -/
theorem runMax1_apply (c : Dev nD) (t : ℕ) (ht : t < cfg1.N) (i : S256x1.Idx) :
    runMax1 V c t ht i = (Finset.range (t % 16 + 1)).sup fun s => laneHi V c (16 * (t / 16) + s) i := by
  have h' : 16 * (t / 16) + t % 16 < cfg1.N := by rw [Nat.div_add_mod]; exact ht
  rw [Pipeline.eq_accAt_of_mod (runMax1 V c) 16 (fun n h => k1_pay1 (k1_pay7 (iblk1 V c 0 ⟨n, h⟩) (iblk1 V c 1 ⟨n, h⟩) (iblk1 V c 2 ⟨n, h⟩) (iblk1 V c 3 ⟨n, h⟩)) (k1_pay5 (F := Ideal)))
    (fun n h acc => k1_pay1 (k1_pay7 (iblk1 V c 0 ⟨n, h⟩) (iblk1 V c 1 ⟨n, h⟩) (iblk1 V c 2 ⟨n, h⟩) (iblk1 V c 3 ⟨n, h⟩)) acc) (runMax1_reset V c) (runMax1_step V c) (by decide) t ht h']
  rw [LibExtrema.accAt_max_apply _ _ (fun _ => (⊥ : EReal)) (laneHi V c) (16 * (t / 16)) 15
    (fun h j => by
      obtain ⟨k, z, rfl⟩ : ∃ (k : Fin 256) (z : Fin 1), j = ix2 k z := ⟨j 0, j 1, eq_ix2 j⟩
      rw [foldMax_apply, resetMax_apply, slabMax_apply]; unfold laneHi clampedAt; simp only [dif_pos h])
    (fun n h acc j _ _ => by
      obtain ⟨k, z, rfl⟩ : ∃ (k : Fin 256) (z : Fin 1), j = ix2 k z := ⟨j 0, j 1, eq_ix2 j⟩
      rw [foldMax_apply, slabMax_apply]; unfold laneHi clampedAt; simp only [dif_pos h])
    (t % 16) (by omega) h' i, max_bot_left]

/-! ## The two arrays of partial extrema -/

def partialLo (c : Dev nD) : S2x256x1.Idx → EReal :=
  fun i => (Finset.range 16).inf fun s => laneLo V c (16 * (i 0).val + s) (ix2 (i 1) (i 2))
def partialHi (c : Dev nD) : S2x256x1.Idx → EReal :=
  fun i => (Finset.range 16).sup fun s => laneHi V c (16 * (i 0).val + s) (ix2 (i 1) (i 2))

theorem outIndex1_4 : ∀ t : Fin cfg1.N, win1_4.index t (0 : Fin 3) = t.val / 16 ∧ win1_4.index t (1 : Fin 3) = 0 ∧ win1_4.index t (2 : Fin 3) = 0 :=
  (by decide +kernel : ∀ t : Fin grid1.N, _)
theorem outIndex1_5 : ∀ t : Fin cfg1.N, win1_5.index t (0 : Fin 3) = t.val / 16 ∧ win1_5.index t (1 : Fin 3) = 0 ∧ win1_5.index t (2 : Fin 3) = 0 :=
  (by decide +kernel : ∀ t : Fin grid1.N, _)

theorem flushed1_4_eq (c : Dev nD) (t : Fin cfg1.N) (hf : (cfg1.win 4).flush t = true) :
    (dat1 V c).flushed 4 t = ((cfg1.win 4).blk t).view.read (Elt Ideal) (partialLo V c) := by
  have h15 : t.val % 16 = 15 := (flush1_4 t).mp hf
  show (cfg1.win 4).cut (grid1.coords t) ((dat1 V c).after 4 t) = _
  rw [after1_4, held1_eq]
  obtain ⟨e0, e1, e2⟩ := outIndex1_4 t
  funext y
  obtain ⟨p, k, z, rfl⟩ : ∃ (p : Fin 1) (k : Fin 256) (z : Fin 1), y = ix3 p k z := ⟨y 0, y 1, y 2, eq_ix3 y⟩
  show k1_pay2 (runMin1 V c t.val t.isLt) (ix3 p k z) = partialLo V c (((cfg1.win 4).blk t).view.emb (ix3 p k z))
  rw [copyMin_apply, runMin1_apply, h15]
  unfold partialLo
  have hp : p.val = 0 := by have := p.isLt; omega
  have hi0 : ((((cfg1.win 4).blk t).view.emb (ix3 p k z)) 0).val = t.val / 16 := by
    show win1_4.index t (0 : Fin 3) * 1 + 1 * p.val = _
    rw [e0, hp]; omega
  have hi1 : ((((cfg1.win 4).blk t).view.emb (ix3 p k z)) 1) = k := by
    apply Fin.ext
    show win1_4.index t (1 : Fin 3) * 256 + 1 * k.val = _
    rw [e1]; omega
  have hi2 : ((((cfg1.win 4).blk t).view.emb (ix3 p k z)) 2) = z := by
    apply Fin.ext
    show win1_4.index t (2 : Fin 3) * 1 + 1 * z.val = _
    rw [e2]; omega
  rw [hi0, hi1, hi2]

theorem mem_blk1_4 (t : Fin cfg1.N) (i : S2x256x1.Idx) :
    i ∈ ((cfg1.win 4).blk t).view.set ↔ ∀ a : Fin 3, win1_4.index t a * S1x256x1.size a ≤ (i a).val ∧ (i a).val < win1_4.index t a * S1x256x1.size a + S1x256x1.size a := by
  show i ∈ ((View.whole main_v8_0).slice (win1_4.rect t)).set ↔ _
  rw [View.set_slice_whole, Rect.mem_set_unit]
  exact Iff.rfl

theorem finalLo (c : Dev nD) : (dat1 V c).arrAt 4 cfg1.N = partialLo V c :=
  (dat1 V c).arrAt_eq_of_cover 4 (partialLo V c) (flushed1_4_eq V c) fun i => by
    have hN : cfg1.N = 32 := N_1
    have hi0 : (i 0).val < 2 := (i 0).isLt
    have hi1 : (i 1).val < 256 := (i 1).isLt
    have hi2 : (i 2).val < 1 := (i 2).isLt
    refine ⟨⟨16 * (i 0).val + 15, by omega⟩, (flush1_4 _).mpr (by show (16 * (i 0).val + 15) % 16 = 15; omega), ?_⟩
    rw [mem_blk1_4]
    obtain ⟨e0, e1, e2⟩ := outIndex1_4 ⟨16 * (i 0).val + 15, by omega⟩
    intro a
    match a with
    | ⟨0, _⟩ => show win1_4.index _ (0 : Fin 3) * 1 ≤ (i 0).val ∧ (i 0).val < win1_4.index _ (0 : Fin 3) * 1 + 1; rw [e0]; show (16 * (i 0).val + 15) / 16 * 1 ≤ _ ∧ _ < (16 * (i 0).val + 15) / 16 * 1 + 1; omega
    | ⟨1, _⟩ => show win1_4.index _ (1 : Fin 3) * 256 ≤ (i 1).val ∧ (i 1).val < win1_4.index _ (1 : Fin 3) * 256 + 256; rw [e1]; omega
    | ⟨2, _⟩ => show win1_4.index _ (2 : Fin 3) * 1 ≤ (i 2).val ∧ (i 2).val < win1_4.index _ (2 : Fin 3) * 1 + 1; rw [e2]; omega

theorem flushed1_5_eq (c : Dev nD) (t : Fin cfg1.N) (hf : (cfg1.win 5).flush t = true) :
    (dat1 V c).flushed 5 t = ((cfg1.win 5).blk t).view.read (Elt Ideal) (partialHi V c) := by
  have h15 : t.val % 16 = 15 := (flush1_5 t).mp hf
  show (cfg1.win 5).cut (grid1.coords t) ((dat1 V c).after 5 t) = _
  rw [after1_5, held1_eq]
  obtain ⟨e0, e1, e2⟩ := outIndex1_5 t
  funext y
  obtain ⟨p, k, z, rfl⟩ : ∃ (p : Fin 1) (k : Fin 256) (z : Fin 1), y = ix3 p k z := ⟨y 0, y 1, y 2, eq_ix3 y⟩
  show k1_pay3 (runMax1 V c t.val t.isLt) (ix3 p k z) = partialHi V c (((cfg1.win 5).blk t).view.emb (ix3 p k z))
  rw [copyMax_apply, runMax1_apply, h15]
  unfold partialHi
  have hp : p.val = 0 := by have := p.isLt; omega
  have hi0 : ((((cfg1.win 5).blk t).view.emb (ix3 p k z)) 0).val = t.val / 16 := by
    show win1_5.index t (0 : Fin 3) * 1 + 1 * p.val = _
    rw [e0, hp]; omega
  have hi1 : ((((cfg1.win 5).blk t).view.emb (ix3 p k z)) 1) = k := by
    apply Fin.ext
    show win1_5.index t (1 : Fin 3) * 256 + 1 * k.val = _
    rw [e1]; omega
  have hi2 : ((((cfg1.win 5).blk t).view.emb (ix3 p k z)) 2) = z := by
    apply Fin.ext
    show win1_5.index t (2 : Fin 3) * 1 + 1 * z.val = _
    rw [e2]; omega
  rw [hi0, hi1, hi2]

theorem mem_blk1_5 (t : Fin cfg1.N) (i : S2x256x1.Idx) :
    i ∈ ((cfg1.win 5).blk t).view.set ↔ ∀ a : Fin 3, win1_5.index t a * S1x256x1.size a ≤ (i a).val ∧ (i a).val < win1_5.index t a * S1x256x1.size a + S1x256x1.size a := by
  show i ∈ ((View.whole main_v8_1).slice (win1_5.rect t)).set ↔ _
  rw [View.set_slice_whole, Rect.mem_set_unit]
  exact Iff.rfl

theorem finalHi (c : Dev nD) : (dat1 V c).arrAt 5 cfg1.N = partialHi V c :=
  (dat1 V c).arrAt_eq_of_cover 5 (partialHi V c) (flushed1_5_eq V c) fun i => by
    have hN : cfg1.N = 32 := N_1
    have hi0 : (i 0).val < 2 := (i 0).isLt
    have hi1 : (i 1).val < 256 := (i 1).isLt
    have hi2 : (i 2).val < 1 := (i 2).isLt
    refine ⟨⟨16 * (i 0).val + 15, by omega⟩, (flush1_5 _).mpr (by show (16 * (i 0).val + 15) % 16 = 15; omega), ?_⟩
    rw [mem_blk1_5]
    obtain ⟨e0, e1, e2⟩ := outIndex1_5 ⟨16 * (i 0).val + 15, by omega⟩
    intro a
    match a with
    | ⟨0, _⟩ => show win1_5.index _ (0 : Fin 3) * 1 ≤ (i 0).val ∧ (i 0).val < win1_5.index _ (0 : Fin 3) * 1 + 1; rw [e0]; show (16 * (i 0).val + 15) / 16 * 1 ≤ _ ∧ _ < (16 * (i 0).val + 15) / 16 * 1 + 1; omega
    | ⟨1, _⟩ => show win1_5.index _ (1 : Fin 3) * 256 ≤ (i 1).val ∧ (i 1).val < win1_5.index _ (1 : Fin 3) * 256 + 256; rw [e1]; omega
    | ⟨2, _⟩ => show win1_5.index _ (2 : Fin 3) * 1 ≤ (i 2).val ∧ (i 2).val < win1_5.index _ (2 : Fin 3) * 1 + 1; rw [e2]; omega

end

end Cert.KernelIdeal.Fr

end
-- ==== Proof.ClampK.lean ====
/-
  The clamped projection, each channel's extrema and the quantisation scale as the kernel's program computes
  them, in the vocabulary of the specification.
-/
import proofs.«128398_j30554397343924_2_alg».proof.Proof.Gen.KernelIdeal.Launch
import proofs.«128398_j30554397343924_2_alg».proof.Proof.Gen.KernelIdeal.Skeleton
import proofs.«128398_j30554397343924_2_alg».proof.Proof.Gen.KernelIdeal.Points
import proofs.«128398_j30554397343924_2_alg».proof.Proof.MeanK
import proofs.«128398_j30554397343924_2_alg».proof.Proof.Extrema1Acc
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section
variable (m : (ℓ : Loc nD τ sig) → Buf (Elt Ideal) ℓ) (ρ : Dev nD → PrngReg)

/-- The clamped projection in the specification's vocabulary, the kernel's way round. -/
def clK (c : Dev nD) : Fin 256 → Fin 32 → Fin 3136 → EReal :=
  fun ch b q => Cert.Spec.clamp (cvIn m c ch) (Cert.Spec.projLess (xIn m c) (uIn m c) ch b q)

theorem V3_x_apply (c : Dev nD) (b : Fin 32) (k : Fin 256) (q : Fin 3136) : V3 m ρ c main_v0 (ix3 b k q) = xIn m c b k q := by
  rw [V3_x]; exact V1_x_apply m ρ c b k q
theorem V3_ut_apply (c : Dev nD) (ch k : Fin 256) : V3 m ρ c main_v1 (ix2 ch k) = uIn m c k ch := by
  rw [V3_ut]; exact V1_ut_apply m ρ c ch k
theorem V3_cv_apply (c : Dev nD) (ch : Fin 256) (z : Fin 1) : V3 m ρ c main_v2 (ix2 ch z) = cvIn m c ch := by
  rw [V3_cv]; exact V1_cv_apply m ρ c ch z
theorem V3_mc_apply (c : Dev nD) (ch : Fin 256) (z : Fin 1) :
    (V3 m ρ c main_v7 (ix2 ch z) : EReal) = ∑ k : Fin 256, uIn m c k ch * Cert.Spec.mean (xIn m c) k := by
  rw [V3_meanProj]; exact hostMeanProj_apply m ρ c ch z

theorem zero_sub_ereal (a : EReal) : 0 - a = -a := by rw [sub_eq_add_neg, zero_add]

/-- A point's clamped projection is its batch's. -/
theorem clampedAt_eq (c : Dev nD) (b : Fin 32) (ch : Fin 256) (q : Fin 3136) :
    clampedAt (V3 m ρ) c b.val ch q = clK m c ch b q := by
  have hb : b.val < cfg1.N := lt_of_lt_of_eq b.isLt N_1.symm
  unfold clampedAt
  rw [dif_pos hb]
  unfold clampedOf clK Cert.Spec.clamp Cert.Spec.projLess
  rw [iblk1_1_eq, iblk1_2_eq, iblk1_3_eq]
  simp only [iblk1_0_apply, zero_sub_ereal]
  rw [V3_cv_apply m ρ c ch 0, V3_mc_apply m ρ c ch 0]
  refine congrArg (min (cvIn m c ch)) (congrArg (max (-cvIn m c ch)) (congrArg (fun s : EReal => s - _) (Finset.sum_congr rfl fun k _ => ?_)))
  rw [V3_ut_apply m ρ c ch k, V3_x_apply m ρ c _ k q]
  rfl

/-- The host's per-channel minimum of the two chains' minima is the minimum over all batches and positions. -/
theorem hostLo_apply (c : Dev nD) (ch : Fin 256) (z : Fin 1) : hostLo m ρ c (ix2 ch z) = Cert.Spec.lo (clK m c) ch := by
  unfold hostLo
  rw [show afterMin m ρ c = partialLo (V3 m ρ) c from finalLo (V3 m ρ) c]
  refine (Host.reduce_eq_fold_single FloatOps.minimumf _ _ reducesTo_S2x256x1_S256x1_d0 (by decide) h_S_ (ix2 ch z)).trans ?_
  refine (LibExtrema.fold_min_eq_inf (Finset.univ : Finset (Fin 2)) (fun p : Fin 2 => partialLo (V3 m ρ) c (ix3 p ch z)) (Ideal.ofBits .f32 0x7F800000#32)).trans ?_
  refine (congrArg (fun b : EReal => min b ((Finset.univ : Finset (Fin 2)).inf fun p : Fin 2 => partialLo (V3 m ρ) c (ix3 p ch z))) ofBits_posInf).trans ?_
  refine (min_top_left _).trans ?_
  unfold partialLo laneLo Cert.Spec.lo
  exact LibExtrema.inf_blocks (fun b q => clK m c ch b q) (fun n q => clampedAt (V3 m ρ) c n ch q)
    (fun b => funext fun q => clampedAt_eq m ρ c b ch q)

theorem hostHi_apply (c : Dev nD) (ch : Fin 256) (z : Fin 1) : hostHi m ρ c (ix2 ch z) = Cert.Spec.hi (clK m c) ch := by
  unfold hostHi
  rw [show afterMax m ρ c = partialHi (V3 m ρ) c from finalHi (V3 m ρ) c]
  refine (Host.reduce_eq_fold_single FloatOps.maximumf _ _ reducesTo_S2x256x1_S256x1_d0 (by decide) h_S_ (ix2 ch z)).trans ?_
  refine (LibExtrema.fold_max_eq_sup (Finset.univ : Finset (Fin 2)) (fun p : Fin 2 => partialHi (V3 m ρ) c (ix3 p ch z)) (Ideal.ofBits .f32 0xFF800000#32)).trans ?_
  refine (congrArg (fun b : EReal => max b ((Finset.univ : Finset (Fin 2)).sup fun p : Fin 2 => partialHi (V3 m ρ) c (ix3 p ch z))) ofBits_negInf).trans ?_
  refine (max_bot_left _).trans ?_
  unfold partialHi laneHi Cert.Spec.hi
  exact LibExtrema.sup_blocks (fun b q => clK m c ch b q) (fun n q => clampedAt (V3 m ρ) c n ch q)
    (fun b => funext fun q => clampedAt_eq m ρ c b ch q)

/-- A scalar word broadcast to a column reads as that word everywhere. -/
theorem splat_apply (w : BitVec 32) (i : S256x1.Idx) :
    broadcastInDim S256x1 ![] bcast_S_S256x1 (constant (F := Ideal) S_ .f32 w) i = Ideal.ofBits .f32 w :=
  broadcastInDim_apply _ bcast_S_S256x1 (constant (F := Ideal) S_ .f32 w) i (fun a => a.elim0) (fun a => a.elim0)

/-- The host's quotient of two columns, entry by entry. -/
theorem quotient_apply (a b : FVec Ideal S256x1 .f32) (i : S256x1.Idx) : Host.divf a b i = Ideal.div (a i) (b i) := rfl

/-- Steps per unit, and units per step. -/
theorem hostScale_apply (c : Dev nD) (ch : Fin 256) (z : Fin 1) : hostScale m ρ c (ix2 ch z) = Cert.Spec.scale (clK m c) ch := by
  unfold hostScale Cert.Spec.scale
  rw [quotient_apply, splat_apply, subf_apply, hostHi_apply m ρ c ch z, hostLo_apply m ρ c ch z]
theorem hostStep_apply (c : Dev nD) (ch : Fin 256) (z : Fin 1) :
    hostStep m ρ c (ix2 ch z) = Ideal.div (Cert.Spec.hi (clK m c) ch - Cert.Spec.lo (clK m c) ch) Cert.Spec.steps := by
  unfold hostStep
  rw [quotient_apply, splat_apply, subf_apply, hostHi_apply m ρ c ch z, hostLo_apply m ρ c ch z]

end

end Cert.KernelIdeal.Fr

end
-- ==== Proof.Value2.lean ====
/-
  The third kernel region read as values: the output block is the reconstruction payload of the quantised
  clamped projection of the point's slab.
-/
import proofs.«128398_j30554397343924_2_alg».proof.Proof.Gen.KernelIdeal.Launch
import proofs.«128398_j30554397343924_2_alg».proof.Proof.Gen.KernelIdeal.Skeleton
import proofs.«128398_j30554397343924_2_alg».proof.Proof.Gen.KernelIdeal.Points
import proofs.«128398_j30554397343924_2_alg».proof.Proof.Region2
import proofs.«128398_j30554397343924_2_alg».proof.Proof.Value0
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem out2_eq (c : Dev nD) (i : grid2.Coords) (arg1 : Memref sig .tc .vmem S1x256x3136 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S1x256x3136 .f32) (harg10 : arg10.IsWhole)
    (x0 : Vec F S1x256x3136 .f32) (x1 : Vec F S256x256 .f32) (x2 : Vec F S256x256 .f32) (x3 : Vec F S256x1 .f32) (x4 : Vec F S256x1 .f32) (x5 : Vec F S256x1 .f32) (x6 : Vec F S256x1 .f32) (x7 : Vec F S256x1 .f32) (x8 : Vec F S256x1 .f32) :
    out2 c i arg1 harg1 arg2 harg2 arg3 harg3 arg4 harg4 arg5 harg5 arg6 harg6 arg7 harg7 arg8 harg8 arg9 harg9 arg10 harg10 x0 x1 x2 x3 x4 x5 x6 x7 x8 = k2_pay1 (k2_pay2 x0 x1 x3 x5 x6 x7 x8) (k2_pay3 x2) x4 := by
  unfold out2
  rw [View.read_writes_eq_canon _ _ _ (coverOut2 c i arg1 harg1 arg2 harg2 arg3 harg3 arg4 harg4 arg5 harg5 arg6 harg6 arg7 harg7 arg8 harg8 arg9 harg9 arg10 harg10 x0 x1 x2 x3 x4 x5 x6 x7 x8)]
  unfold runBody2
  dsimp only
  sl_unfold_words
  rw [View.canon_unit_zero zeros3]
  simp only [View.readAt_eq_ld, harg1.read_unread, harg2.read_unread, harg3.read_unread, harg4.read_unread, harg5.read_unread, harg6.read_unread, harg7.read_unread, harg8.read_unread, harg9.read_unread, View.ld_unit_zero (S := S1x256x3136) zeros3, View.ld_unit_zero (S := S256x256) zeros2, View.ld_unit_zero (S := S256x1) zeros2]

end Cert.KernelIdeal.Fr

end
-- ==== Proof.Quant2.lean ====
/-
  The third kernel region at the extended reals: the quantised clamped projection of a slab, entry by entry,
  projected back on the basis with the mean added.
-/
import proofs.«128398_j30554397343924_2_alg».proof.Proof.Gen.KernelIdeal.Launch
import proofs.«128398_j30554397343924_2_alg».proof.Proof.Gen.KernelIdeal.Skeleton
import proofs.«128398_j30554397343924_2_alg».proof.Proof.Gen.KernelIdeal.Points
import proofs.«128398_j30554397343924_2_alg».proof.Proof.Value2
import proofs.«128398_j30554397343924_2_alg».proof.Proof.Extrema1
import proofs.«128398_j30554397343924_2_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- A [256, 3136] matrix stored as a [1, 256, 3136] slab. -/
theorem slab_of_matrix_apply {α : Type} (v : S256x3136.Idx → α) (p : Fin 1) (j : Fin 256) (q : Fin 3136) :
    shapeCast S1x256x3136 v shapeCasts_S256x3136_S1x256x3136 (ix3 p j q) = v (ix2 j q) :=
  shapeCast_apply v shapeCasts_S256x3136_S1x256x3136 (ix3 p j q) (ix2 j q) (by
    rw [Shape.rowMajor_val_three, Shape.rowMajor_val_two]
    show j.val * 3136 + q.val = (p.val * 256 + j.val) * 3136 + q.val
    have := p.isLt; omega)

/-- The quantised clamped projection: the position on the per-channel grid rounded, scaled back and shifted. -/
def quantOf (x : Vec Ideal S1x256x3136 .f32) (ut : Vec Ideal S256x256 .f32) (mc cvr lo sc st : Vec Ideal S256x1 .f32)
    (c : Fin 256) (q : Fin 3136) : EReal :=
  Cert.Spec.roundEven ((clampedOf x ut mc cvr c q - lo (ix2 c 0)) * sc (ix2 c 0)) * st (ix2 c 0) + lo (ix2 c 0)

theorem quant_apply (x : Vec Ideal S1x256x3136 .f32) (ut : Vec Ideal S256x256 .f32) (mc cvr lo sc st : Vec Ideal S256x1 .f32)
    (c : Fin 256) (q : Fin 3136) : k2_pay2 x ut mc cvr lo sc st (ix2 c q) = quantOf x ut mc cvr lo sc st c q := by
  unfold k2_pay2 quantOf clampedOf
  simp only [shapeCast_self]
  simp only [roundeven, addf_apply, mulf_apply, minimumf_apply, maximumf_apply, subf_apply, bcast_column_apply, matmul_slab_apply,
    truncf_apply, broadcast_apply, slab_apply, Ideal.ofBits_def, Ideal.ofBits_zero_f32, Ideal.roundeven_def]

/-- Projecting back and adding the mean, entry by entry. -/
theorem recon_apply (qz : FVec Ideal S256x3136 .bf16) (u : FVec Ideal S256x256 .bf16) (mn : Vec Ideal S256x1 .f32)
    (p : Fin 1) (j : Fin 256) (q : Fin 3136) :
    k2_pay1 qz u mn (ix3 p j q) = (∑ c : Fin 256, u (ix2 j c) * qz (ix2 c q)) + mn (ix2 j 0) := by
  unfold k2_pay1
  rw [shapeCast_self]
  refine (slab_of_matrix_apply _ p j q).trans ?_
  simp only [addf_apply, bcast_column_apply, matmul_slab_apply]

theorem basis_apply (u : Vec Ideal S256x256 .f32) (i : S256x256.Idx) : k2_pay3 u i = u i := rfl

end Cert.KernelIdeal.Fr

end
-- ==== Proof.Recon2Final.lean ====
/-
  The reconstruction array after the third kernel region: batch b, channel j, position q holds the basis row j
  against the quantised clamped projection of batch b at q, plus channel j's mean.
-/
import proofs.«128398_j30554397343924_2_alg».proof.Proof.Gen.KernelIdeal.Launch
import proofs.«128398_j30554397343924_2_alg».proof.Proof.Gen.KernelIdeal.Skeleton
import proofs.«128398_j30554397343924_2_alg».proof.Proof.Gen.KernelIdeal.Points
import proofs.«128398_j30554397343924_2_alg».proof.Proof.Quant2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section
variable (V : (c : Dev nD) → (b : Ref sig .tc) → Buf (Elt Ideal) ((c : Thread nD τ).loc b))

/-- The index maps of the windows whose block is their whole array stay at zero; the slab windows follow the batch. -/
theorem wholeIndex2 : ∀ t : Fin cfg2.N, win2_1.index t (0 : Fin 2) = 0 ∧ win2_1.index t (1 : Fin 2) = 0 ∧ win2_2.index t (0 : Fin 2) = 0 ∧ win2_2.index t (1 : Fin 2) = 0 ∧ win2_3.index t (0 : Fin 2) = 0 ∧ win2_3.index t (1 : Fin 2) = 0 ∧ win2_4.index t (0 : Fin 2) = 0 ∧ win2_4.index t (1 : Fin 2) = 0 ∧ win2_5.index t (0 : Fin 2) = 0 ∧ win2_5.index t (1 : Fin 2) = 0 ∧ win2_6.index t (0 : Fin 2) = 0 ∧ win2_6.index t (1 : Fin 2) = 0 ∧ win2_7.index t (0 : Fin 2) = 0 ∧ win2_7.index t (1 : Fin 2) = 0 ∧ win2_8.index t (0 : Fin 2) = 0 ∧ win2_8.index t (1 : Fin 2) = 0 :=
  (by decide +kernel : ∀ t : Fin grid2.N, _)
theorem slabIndex2 : ∀ t : Fin cfg2.N, win2_0.index t (0 : Fin 3) = t.val ∧ win2_0.index t (1 : Fin 3) = 0 ∧ win2_0.index t (2 : Fin 3) = 0
    ∧ win2_9.index t (0 : Fin 3) = t.val ∧ win2_9.index t (1 : Fin 3) = 0 ∧ win2_9.index t (2 : Fin 3) = 0 :=
  (by decide +kernel : ∀ t : Fin grid2.N, _)

/-- Window 1's block is its whole array at every point. -/
theorem iblk2_1_eq (c : Dev nD) (t : Fin cfg2.N) : (iblk2 V c 1 t : Vec Ideal S256x256 .f32) = V c (Pipeline.arrRef spec2 1) := by
  obtain ⟨e1a, e1b, e2a, e2b, e3a, e3b, e4a, e4b, e5a, e5b, e6a, e6b, e7a, e7b, e8a, e8b⟩ := wholeIndex2 t
  funext y
  unfold iblk2
  rw [View.read_apply]
  refine congrArg (V c (Pipeline.arrRef spec2 1)) (funext fun a => Fin.ext ?_)
  match a with
  | ⟨0, _⟩ => show win2_1.index t (0 : Fin 2) * 256 + 1 * (y 0).val = (y 0).val; rw [e1a]; omega
  | ⟨1, _⟩ => show win2_1.index t (1 : Fin 2) * 256 + 1 * (y 1).val = (y 1).val; rw [e1b]; omega

/-- Window 2's block is its whole array at every point. -/
theorem iblk2_2_eq (c : Dev nD) (t : Fin cfg2.N) : (iblk2 V c 2 t : Vec Ideal S256x256 .f32) = V c (Pipeline.arrRef spec2 2) := by
  obtain ⟨e1a, e1b, e2a, e2b, e3a, e3b, e4a, e4b, e5a, e5b, e6a, e6b, e7a, e7b, e8a, e8b⟩ := wholeIndex2 t
  funext y
  unfold iblk2
  rw [View.read_apply]
  refine congrArg (V c (Pipeline.arrRef spec2 2)) (funext fun a => Fin.ext ?_)
  match a with
  | ⟨0, _⟩ => show win2_2.index t (0 : Fin 2) * 256 + 1 * (y 0).val = (y 0).val; rw [e2a]; omega
  | ⟨1, _⟩ => show win2_2.index t (1 : Fin 2) * 256 + 1 * (y 1).val = (y 1).val; rw [e2b]; omega

/-- Window 3's block is its whole array at every point. -/
theorem iblk2_3_eq (c : Dev nD) (t : Fin cfg2.N) : (iblk2 V c 3 t : Vec Ideal S256x1 .f32) = V c (Pipeline.arrRef spec2 3) := by
  obtain ⟨e1a, e1b, e2a, e2b, e3a, e3b, e4a, e4b, e5a, e5b, e6a, e6b, e7a, e7b, e8a, e8b⟩ := wholeIndex2 t
  funext y
  unfold iblk2
  rw [View.read_apply]
  refine congrArg (V c (Pipeline.arrRef spec2 3)) (funext fun a => Fin.ext ?_)
  match a with
  | ⟨0, _⟩ => show win2_3.index t (0 : Fin 2) * 256 + 1 * (y 0).val = (y 0).val; rw [e3a]; omega
  | ⟨1, _⟩ => show win2_3.index t (1 : Fin 2) * 1 + 1 * (y 1).val = (y 1).val; rw [e3b]; omega

/-- Window 4's block is its whole array at every point. -/
theorem iblk2_4_eq (c : Dev nD) (t : Fin cfg2.N) : (iblk2 V c 4 t : Vec Ideal S256x1 .f32) = V c (Pipeline.arrRef spec2 4) := by
  obtain ⟨e1a, e1b, e2a, e2b, e3a, e3b, e4a, e4b, e5a, e5b, e6a, e6b, e7a, e7b, e8a, e8b⟩ := wholeIndex2 t
  funext y
  unfold iblk2
  rw [View.read_apply]
  refine congrArg (V c (Pipeline.arrRef spec2 4)) (funext fun a => Fin.ext ?_)
  match a with
  | ⟨0, _⟩ => show win2_4.index t (0 : Fin 2) * 256 + 1 * (y 0).val = (y 0).val; rw [e4a]; omega
  | ⟨1, _⟩ => show win2_4.index t (1 : Fin 2) * 1 + 1 * (y 1).val = (y 1).val; rw [e4b]; omega

/-- Window 5's block is its whole array at every point. -/
theorem iblk2_5_eq (c : Dev nD) (t : Fin cfg2.N) : (iblk2 V c 5 t : Vec Ideal S256x1 .f32) = V c (Pipeline.arrRef spec2 5) := by
  obtain ⟨e1a, e1b, e2a, e2b, e3a, e3b, e4a, e4b, e5a, e5b, e6a, e6b, e7a, e7b, e8a, e8b⟩ := wholeIndex2 t
  funext y
  unfold iblk2
  rw [View.read_apply]
  refine congrArg (V c (Pipeline.arrRef spec2 5)) (funext fun a => Fin.ext ?_)
  match a with
  | ⟨0, _⟩ => show win2_5.index t (0 : Fin 2) * 256 + 1 * (y 0).val = (y 0).val; rw [e5a]; omega
  | ⟨1, _⟩ => show win2_5.index t (1 : Fin 2) * 1 + 1 * (y 1).val = (y 1).val; rw [e5b]; omega

/-- Window 6's block is its whole array at every point. -/
theorem iblk2_6_eq (c : Dev nD) (t : Fin cfg2.N) : (iblk2 V c 6 t : Vec Ideal S256x1 .f32) = V c (Pipeline.arrRef spec2 6) := by
  obtain ⟨e1a, e1b, e2a, e2b, e3a, e3b, e4a, e4b, e5a, e5b, e6a, e6b, e7a, e7b, e8a, e8b⟩ := wholeIndex2 t
  funext y
  unfold iblk2
  rw [View.read_apply]
  refine congrArg (V c (Pipeline.arrRef spec2 6)) (funext fun a => Fin.ext ?_)
  match a with
  | ⟨0, _⟩ => show win2_6.index t (0 : Fin 2) * 256 + 1 * (y 0).val = (y 0).val; rw [e6a]; omega
  | ⟨1, _⟩ => show win2_6.index t (1 : Fin 2) * 1 + 1 * (y 1).val = (y 1).val; rw [e6b]; omega

/-- Window 7's block is its whole array at every point. -/
theorem iblk2_7_eq (c : Dev nD) (t : Fin cfg2.N) : (iblk2 V c 7 t : Vec Ideal S256x1 .f32) = V c (Pipeline.arrRef spec2 7) := by
  obtain ⟨e1a, e1b, e2a, e2b, e3a, e3b, e4a, e4b, e5a, e5b, e6a, e6b, e7a, e7b, e8a, e8b⟩ := wholeIndex2 t
  funext y
  unfold iblk2
  rw [View.read_apply]
  refine congrArg (V c (Pipeline.arrRef spec2 7)) (funext fun a => Fin.ext ?_)
  match a with
  | ⟨0, _⟩ => show win2_7.index t (0 : Fin 2) * 256 + 1 * (y 0).val = (y 0).val; rw [e7a]; omega
  | ⟨1, _⟩ => show win2_7.index t (1 : Fin 2) * 1 + 1 * (y 1).val = (y 1).val; rw [e7b]; omega

/-- Window 8's block is its whole array at every point. -/
theorem iblk2_8_eq (c : Dev nD) (t : Fin cfg2.N) : (iblk2 V c 8 t : Vec Ideal S256x1 .f32) = V c (Pipeline.arrRef spec2 8) := by
  obtain ⟨e1a, e1b, e2a, e2b, e3a, e3b, e4a, e4b, e5a, e5b, e6a, e6b, e7a, e7b, e8a, e8b⟩ := wholeIndex2 t
  funext y
  unfold iblk2
  rw [View.read_apply]
  refine congrArg (V c (Pipeline.arrRef spec2 8)) (funext fun a => Fin.ext ?_)
  match a with
  | ⟨0, _⟩ => show win2_8.index t (0 : Fin 2) * 256 + 1 * (y 0).val = (y 0).val; rw [e8a]; omega
  | ⟨1, _⟩ => show win2_8.index t (1 : Fin 2) * 1 + 1 * (y 1).val = (y 1).val; rw [e8b]; omega

/-- The slab window's block at point t is batch t of the input. -/
theorem iblk2_0_apply (c : Dev nD) (t : Fin cfg2.N) (p : Fin 1) (k : Fin 256) (q : Fin 3136) :
    iblk2 V c 0 t (ix3 p k q) = V c main_v0 (ix3 ⟨t.val, lt_of_lt_of_eq t.isLt N_2⟩ k q) := by
  obtain ⟨e0, e1, e2, -, -, -⟩ := slabIndex2 t
  unfold iblk2
  rw [View.read_apply]
  refine congrArg (V c main_v0) (funext fun a => Fin.ext ?_)
  match a with
  | ⟨0, _⟩ => show win2_0.index t (0 : Fin 3) * 1 + 1 * p.val = t.val; rw [e0]; have := p.isLt; omega
  | ⟨1, _⟩ => show win2_0.index t (1 : Fin 3) * 256 + 1 * k.val = k.val; rw [e1]; omega
  | ⟨2, _⟩ => show win2_0.index t (2 : Fin 3) * 3136 + 1 * q.val = q.val; rw [e2]; omega

/-- One entry of the reconstruction: the basis row j against the quantised clamped projection at q, plus the mean. -/
def reconEntry (u : Vec Ideal S256x256 .f32) (mn : Vec Ideal S256x1 .f32) (x : Vec Ideal S1x256x3136 .f32)
    (ut : Vec Ideal S256x256 .f32) (mc cvr lo sc st : Vec Ideal S256x1 .f32) (j : Fin 256) (q : Fin 3136) : EReal :=
  (∑ ch : Fin 256, u (ix2 j ch) * quantOf x ut mc cvr lo sc st ch q) + mn (ix2 j 0)

/-- What the reconstruction array ends holding. -/
def reconOf (c : Dev nD) : S32x256x3136.Idx → EReal := fun i =>
  reconEntry (iblk2 V c 2 ⟨(i 0).val, lt_of_lt_of_eq (i 0).isLt N_2.symm⟩) (iblk2 V c 4 ⟨(i 0).val, lt_of_lt_of_eq (i 0).isLt N_2.symm⟩) (iblk2 V c 0 ⟨(i 0).val, lt_of_lt_of_eq (i 0).isLt N_2.symm⟩) (iblk2 V c 1 ⟨(i 0).val, lt_of_lt_of_eq (i 0).isLt N_2.symm⟩) (iblk2 V c 3 ⟨(i 0).val, lt_of_lt_of_eq (i 0).isLt N_2.symm⟩) (iblk2 V c 5 ⟨(i 0).val, lt_of_lt_of_eq (i 0).isLt N_2.symm⟩) (iblk2 V c 6 ⟨(i 0).val, lt_of_lt_of_eq (i 0).isLt N_2.symm⟩) (iblk2 V c 7 ⟨(i 0).val, lt_of_lt_of_eq (i 0).isLt N_2.symm⟩) (iblk2 V c 8 ⟨(i 0).val, lt_of_lt_of_eq (i 0).isLt N_2.symm⟩) (i 1) (i 2)

theorem flushed2_eq (c : Dev nD) (t : Fin cfg2.N) :
    (dat2 V c).flushed 9 t = ((cfg2.win 9).blk t).view.read (Elt Ideal) (reconOf V c) := by
  show (cfg2.win 9).cut (grid2.coords t) ((dat2 V c).after 9 t) = _
  rw [after2_9, out2_eq]
  obtain ⟨-, -, -, e0, e1, e2⟩ := slabIndex2 t
  funext y
  obtain ⟨p, j, q, rfl⟩ : ∃ (p : Fin 1) (j : Fin 256) (q : Fin 3136), y = ix3 p j q := ⟨y 0, y 1, y 2, eq_ix3 y⟩
  show k2_pay1 (k2_pay2 (iblk2 V c 0 t) (iblk2 V c 1 t) (iblk2 V c 3 t) (iblk2 V c 5 t) (iblk2 V c 6 t) (iblk2 V c 7 t) (iblk2 V c 8 t)) (k2_pay3 (iblk2 V c 2 t)) (iblk2 V c 4 t) (ix3 p j q)
    = reconOf V c (((cfg2.win 9).blk t).view.emb (ix3 p j q))
  rw [recon_apply]
  simp only [quant_apply, basis_apply]
  unfold reconOf reconEntry
  have hp : p.val = 0 := by have := p.isLt; omega
  have hi0 : ((((cfg2.win 9).blk t).view.emb (ix3 p j q)) 0).val = t.val := by
    show win2_9.index t (0 : Fin 3) * 1 + 1 * p.val = _
    rw [e0, hp]; omega
  have hi1 : ((((cfg2.win 9).blk t).view.emb (ix3 p j q)) 1) = j := by
    apply Fin.ext
    show win2_9.index t (1 : Fin 3) * 256 + 1 * j.val = _
    rw [e1]; omega
  have hi2 : ((((cfg2.win 9).blk t).view.emb (ix3 p j q)) 2) = q := by
    apply Fin.ext
    show win2_9.index t (2 : Fin 3) * 3136 + 1 * q.val = _
    rw [e2]; omega
  have ht : (⟨((((cfg2.win 9).blk t).view.emb (ix3 p j q)) 0).val, lt_of_lt_of_eq ((((cfg2.win 9).blk t).view.emb (ix3 p j q)) 0).isLt N_2.symm⟩ : Fin cfg2.N) = t := Fin.ext hi0
  rw [ht, hi1, hi2]

theorem mem_blk2_9 (t : Fin cfg2.N) (i : S32x256x3136.Idx) :
    i ∈ ((cfg2.win 9).blk t).view.set ↔ ∀ a : Fin 3, win2_9.index t a * S1x256x3136.size a ≤ (i a).val ∧ (i a).val < win2_9.index t a * S1x256x3136.size a + S1x256x3136.size a := by
  show i ∈ ((View.whole main_v17).slice (win2_9.rect t)).set ↔ _
  rw [View.set_slice_whole, Rect.mem_set_unit]
  exact Iff.rfl

theorem finalRecon (c : Dev nD) : (dat2 V c).arrAt 9 cfg2.N = reconOf V c :=
  (dat2 V c).arrAt_eq_of_cover 9 (reconOf V c) (fun t _ => flushed2_eq V c t) fun i => by
    have hN : cfg2.N = 32 := N_2
    have hi0 : (i 0).val < 32 := (i 0).isLt
    have hi1 : (i 1).val < 256 := (i 1).isLt
    have hi2 : (i 2).val < 3136 := (i 2).isLt
    refine ⟨⟨(i 0).val, by omega⟩, flush2_9 _, ?_⟩
    rw [mem_blk2_9]
    obtain ⟨-, -, -, e0, e1, e2⟩ := slabIndex2 ⟨(i 0).val, by omega⟩
    intro a
    match a with
    | ⟨0, _⟩ => show win2_9.index _ (0 : Fin 3) * 1 ≤ (i 0).val ∧ (i 0).val < win2_9.index _ (0 : Fin 3) * 1 + 1; rw [e0]; show (i 0).val * 1 ≤ _ ∧ _ < (i 0).val * 1 + 1; omega
    | ⟨1, _⟩ => show win2_9.index _ (1 : Fin 3) * 256 ≤ (i 1).val ∧ (i 1).val < win2_9.index _ (1 : Fin 3) * 256 + 256; rw [e1]; omega
    | ⟨2, _⟩ => show win2_9.index _ (2 : Fin 3) * 3136 ≤ (i 2).val ∧ (i 2).val < win2_9.index _ (2 : Fin 3) * 3136 + 3136; rw [e2]; omega

end

end Cert.KernelIdeal.Fr

end
-- ==== Proof.OutK.lean ====
/-
  The kernel's program, start to end, in the vocabulary of the specification: what it returns is, entry by
  entry, the specification's kernel-side function of the three arguments.
-/
import proofs.«128398_j30554397343924_2_alg».proof.Proof.Gen.KernelIdeal.Launch
import proofs.«128398_j30554397343924_2_alg».proof.Proof.Gen.KernelIdeal.Skeleton
import proofs.«128398_j30554397343924_2_alg».proof.Proof.Gen.KernelIdeal.Points
import proofs.«128398_j30554397343924_2_alg».proof.Proof.ClampK
import proofs.«128398_j30554397343924_2_alg».proof.Proof.Recon2Final
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section
variable (m : (ℓ : Loc nD τ sig) → Buf (Elt Ideal) ℓ) (ρ : Dev nD → PrngReg)

theorem V5_x_apply (c : Dev nD) (b : Fin 32) (k : Fin 256) (q : Fin 3136) : V5 m ρ c main_v0 (ix3 b k q) = xIn m c b k q := by
  rw [V5_x]; exact V1_x_apply m ρ c b k q
theorem V5_ut_apply (c : Dev nD) (ch k : Fin 256) : V5 m ρ c main_v1 (ix2 ch k) = uIn m c k ch := by
  rw [V5_ut]; exact V1_ut_apply m ρ c ch k
theorem V5_cv_apply (c : Dev nD) (ch : Fin 256) (z : Fin 1) : V5 m ρ c main_v2 (ix2 ch z) = cvIn m c ch := by
  rw [V5_cv]; exact V1_cv_apply m ρ c ch z
theorem V5_u_apply (c : Dev nD) (j ch : Fin 256) : V5 m ρ c main_arg1 (ix2 j ch) = uIn m c j ch := by
  rw [V5_u]; rfl
theorem V5_mean_apply (c : Dev nD) (k : Fin 256) (z : Fin 1) : V5 m ρ c main_v6 (ix2 k z) = Cert.Spec.mean (xIn m c) k := by
  rw [V5_mean]; exact hostMean_apply m ρ c k z
theorem V5_mc_apply (c : Dev nD) (ch : Fin 256) (z : Fin 1) :
    (V5 m ρ c main_v7 (ix2 ch z) : EReal) = ∑ k : Fin 256, uIn m c k ch * Cert.Spec.mean (xIn m c) k := by
  rw [V5_meanProj]; exact hostMeanProj_apply m ρ c ch z
theorem V5_lo_apply (c : Dev nD) (ch : Fin 256) (z : Fin 1) : V5 m ρ c main_v9 (ix2 ch z) = Cert.Spec.lo (clK m c) ch := by
  rw [V5_lo]; exact hostLo_apply m ρ c ch z
theorem V5_scale_apply (c : Dev nD) (ch : Fin 256) (z : Fin 1) : V5 m ρ c main_v13 (ix2 ch z) = Cert.Spec.scale (clK m c) ch := by
  rw [V5_scale]; exact hostScale_apply m ρ c ch z
theorem V5_step_apply (c : Dev nD) (ch : Fin 256) (z : Fin 1) :
    V5 m ρ c main_v16 (ix2 ch z) = Ideal.div (Cert.Spec.hi (clK m c) ch - Cert.Spec.lo (clK m c) ch) Cert.Spec.steps := by
  rw [V5_step]; exact hostStep_apply m ρ c ch z

/-- The third region recomputes the same clamped projection. -/
theorem clamped2_eq (c : Dev nD) (b : Fin 32) (ch : Fin 256) (q : Fin 3136) :
    clampedOf (iblk2 (V5 m ρ) c 0 ⟨b.val, lt_of_lt_of_eq b.isLt N_2.symm⟩) (V5 m ρ c main_v1) (V5 m ρ c main_v7) (V5 m ρ c main_v2) ch q
      = clK m c ch b q := by
  unfold clampedOf clK Cert.Spec.clamp Cert.Spec.projLess
  simp only [iblk2_0_apply, zero_sub_ereal]
  rw [V5_cv_apply m ρ c ch 0, V5_mc_apply m ρ c ch 0]
  refine congrArg (min (cvIn m c ch)) (congrArg (max (-cvIn m c ch)) (congrArg (fun s : EReal => s - _) (Finset.sum_congr rfl fun k _ => ?_)))
  rw [V5_ut_apply m ρ c ch k, V5_x_apply m ρ c _ k q]
  rfl

/-- The reconstruction array is the specification's kernel-side function. -/
theorem reconOf_eq (c : Dev nD) (b : Fin 32) (j : Fin 256) (q : Fin 3136) :
    reconOf (V5 m ρ) c (ix3 b j q) = Cert.Spec.outKer (xIn m c) (uIn m c) (cvIn m c) j b q := by
  unfold reconOf
  have h1 : (iblk2 (V5 m ρ) c 1 ⟨b.val, lt_of_lt_of_eq b.isLt N_2.symm⟩ : Vec Ideal S256x256 .f32) = V5 m ρ c main_v1 := iblk2_1_eq (V5 m ρ) c _
  have h2 : (iblk2 (V5 m ρ) c 2 ⟨b.val, lt_of_lt_of_eq b.isLt N_2.symm⟩ : Vec Ideal S256x256 .f32) = V5 m ρ c main_arg1 := iblk2_2_eq (V5 m ρ) c _
  have h3 : (iblk2 (V5 m ρ) c 3 ⟨b.val, lt_of_lt_of_eq b.isLt N_2.symm⟩ : Vec Ideal S256x1 .f32) = V5 m ρ c main_v7 := iblk2_3_eq (V5 m ρ) c _
  have h4 : (iblk2 (V5 m ρ) c 4 ⟨b.val, lt_of_lt_of_eq b.isLt N_2.symm⟩ : Vec Ideal S256x1 .f32) = V5 m ρ c main_v6 := iblk2_4_eq (V5 m ρ) c _
  have h5 : (iblk2 (V5 m ρ) c 5 ⟨b.val, lt_of_lt_of_eq b.isLt N_2.symm⟩ : Vec Ideal S256x1 .f32) = V5 m ρ c main_v2 := iblk2_5_eq (V5 m ρ) c _
  have h6 : (iblk2 (V5 m ρ) c 6 ⟨b.val, lt_of_lt_of_eq b.isLt N_2.symm⟩ : Vec Ideal S256x1 .f32) = V5 m ρ c main_v9 := iblk2_6_eq (V5 m ρ) c _
  have h7 : (iblk2 (V5 m ρ) c 7 ⟨b.val, lt_of_lt_of_eq b.isLt N_2.symm⟩ : Vec Ideal S256x1 .f32) = V5 m ρ c main_v13 := iblk2_7_eq (V5 m ρ) c _
  have h8 : (iblk2 (V5 m ρ) c 8 ⟨b.val, lt_of_lt_of_eq b.isLt N_2.symm⟩ : Vec Ideal S256x1 .f32) = V5 m ρ c main_v16 := iblk2_8_eq (V5 m ρ) c _
  show reconEntry (iblk2 (V5 m ρ) c 2 ⟨b.val, lt_of_lt_of_eq b.isLt N_2.symm⟩) (iblk2 (V5 m ρ) c 4 ⟨b.val, lt_of_lt_of_eq b.isLt N_2.symm⟩) (iblk2 (V5 m ρ) c 0 ⟨b.val, lt_of_lt_of_eq b.isLt N_2.symm⟩)
    (iblk2 (V5 m ρ) c 1 ⟨b.val, lt_of_lt_of_eq b.isLt N_2.symm⟩) (iblk2 (V5 m ρ) c 3 ⟨b.val, lt_of_lt_of_eq b.isLt N_2.symm⟩) (iblk2 (V5 m ρ) c 5 ⟨b.val, lt_of_lt_of_eq b.isLt N_2.symm⟩) (iblk2 (V5 m ρ) c 6 ⟨b.val, lt_of_lt_of_eq b.isLt N_2.symm⟩)
    (iblk2 (V5 m ρ) c 7 ⟨b.val, lt_of_lt_of_eq b.isLt N_2.symm⟩) (iblk2 (V5 m ρ) c 8 ⟨b.val, lt_of_lt_of_eq b.isLt N_2.symm⟩) j q = _
  rw [h1, h2, h3, h4, h5, h6, h7, h8]
  unfold reconEntry
  unfold quantOf Cert.Spec.outKer Cert.Spec.recon Cert.Spec.quantMul Cert.Spec.gridPos
  rw [V5_mean_apply m ρ c j 0]
  refine congrArg (fun s : EReal => s + _) (Finset.sum_congr rfl fun ch _ => ?_)
  rw [V5_u_apply m ρ c j ch, clamped2_eq m ρ c b ch q, V5_lo_apply m ρ c ch 0, V5_scale_apply m ρ c ch 0, V5_step_apply m ρ c ch 0]
  rfl

/-- What the kernel's program returns, entry by entry. -/
theorem kernel_result (c : Dev nD) (b : Fin 32) (j : Fin 256) (h w : Fin 56) :
    W7 m ρ c (Proc.devRef .tc main_v18) (ix4 b j h w)
      = Cert.Spec.outKer (xIn m c) (uIn m c) (cvIn m c) j b ⟨h.val * 56 + w.val, by have := h.isLt; have := w.isLt; omega⟩ := by
  rw [W7_result, unflat_apply _ b j h w ⟨h.val * 56 + w.val, by have := h.isLt; have := w.isLt; omega⟩ rfl,
    show afterRecon m ρ c = reconOf (V5 m ρ) c from finalRecon (V5 m ρ) c, reconOf_eq]

end

end Cert.KernelIdeal.Fr

end
-- ==== Proof.RefRun.lean ====
/-
  What the reference program leaves in its result buffer, read off the fold of its 47 operations without ever
  writing the composed term.

  The fold of a concatenation of operation lists is the fold of the second from the fold of the first, so the
  fold of the 47 operations is seven folds in a row, cut where few buffers are live: after the rectified
  input (main_v3), the channel means (main_v7), the projection of the centred input (main_v11), its clamp
  (main_v14), each channel's minimum and the steps per unit (main_v18, main_v21), the quantised projection
  (main_v30) and the result (main_v36).  Over an ARBITRARY valuation each run of operations turns the stage
  values it reads into the stage values the later runs read, and leaves the other live buffers and the three
  arguments as they were; a stage value is by definition its operation applied to the stage values before it, so
  each of these equations is one unfolding.  Chained, they give the result buffer as the last stage's value of
  the three arguments, and the arguments unchanged; the run then states its post with that.
-/
import proofs.«128398_j30554397343924_2_alg».proof.Proof.RefOps
import proofs.«128398_j30554397343924_2_alg».proof.Proof.RefRead
import Idealize.ShloMosaic.Lib.StableHlo.Run

noncomputable section

namespace Cert.ReferenceIdeal.RefValue

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- The fold over a concatenation is the fold over the second list, from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The operations in seven runs, cut where few buffers are live -/

/-- Operations 1 to 6 of @main, in order: they write main_call0_cst, main_call0_v0, main_v0, main_v1, main_v2, main_v3. -/
def c1 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S32x256x56x56, .f32⟩) main_call0_v0) (broadcastInDim S32x256x56x56 ![] bcast_S_S32x256x56x56),
    TRef.binary (TRef.of (T := ⟨S32x256x56x56, .f32⟩) main_arg0) (TRef.of (T := ⟨S32x256x56x56, .f32⟩) main_call0_v0) (TRef.of (T := ⟨S32x256x56x56, .f32⟩) main_v0) maximumf,
    unary main_v0 main_v1 ((transpose S32x56x56x256 [0, 2, 3, 1] · transposes_S32x256x56x56_S32x56x56x256_0_2_3_1) : (⟨S32x256x56x56, .f32⟩ : BufTy).Contents (Elt F) → (⟨S32x56x56x256, .f32⟩ : BufTy).Contents (Elt F)),
    reshape main_v1 main_v2 rfl shapeCasts_S32x56x56x256_S100352x256,
    unary main_v2 main_v3 ((transpose S256x100352 [1, 0] · transposes_S100352x256_S256x100352_1_0) : (⟨S100352x256, .f32⟩ : BufTy).Contents (Elt F) → (⟨S256x100352, .f32⟩ : BufTy).Contents (Elt F)) ]

/-- Operations 7 to 12 of @main, in order: they write main_cst, main_v4, main_v5, main_cst_0, main_v6, main_v7. -/
def c2 : List (HloOp τ sig (Elt F)) :=
  [ nullary main_cst (constant S_ .f32 0x00000000#32),
    binary main_v3 main_cst main_v4 ((fun x v => Host.reduceAdd x v reducesTo_S256x100352_S256_d1 h_S_) : (⟨S256x100352, .f32⟩ : BufTy).Contents (Elt F) → (⟨S_, .f32⟩ : BufTy).Contents (Elt F) → (⟨S256, .f32⟩ : BufTy).Contents (Elt F)),
    unary main_v4 main_v5 (broadcastInDim S256x1 ![0] bcast_S256_S256x1_0 : (⟨S256, .f32⟩ : BufTy).Contents (Elt F) → (⟨S256x1, .f32⟩ : BufTy).Contents (Elt F)),
    nullary main_cst_0 (constant S_ .f32 0x47C40000#32),
    unary main_cst_0 main_v6 (broadcastInDim S256x1 ![] bcast_S_S256x1 : (⟨S_, .f32⟩ : BufTy).Contents (Elt F) → (⟨S256x1, .f32⟩ : BufTy).Contents (Elt F)),
    binary main_v5 main_v6 main_v7 (Host.divf : (⟨S256x1, .f32⟩ : BufTy).Contents (Elt F) → (⟨S256x1, .f32⟩ : BufTy).Contents (Elt F) → (⟨S256x1, .f32⟩ : BufTy).Contents (Elt F)) ]

/-- Operations 13 to 16 of @main, in order: they write main_v8, main_v9, main_v10, main_v11. -/
def c3 : List (HloOp τ sig (Elt F)) :=
  [ unary main_v7 main_v8 (broadcastInDim S256x100352 ![0, 1] bcast_S256x1_S256x100352_0_1 : (⟨S256x1, .f32⟩ : BufTy).Contents (Elt F) → (⟨S256x100352, .f32⟩ : BufTy).Contents (Elt F)),
    binary main_v3 main_v8 main_v9 (subf : (⟨S256x100352, .f32⟩ : BufTy).Contents (Elt F) → (⟨S256x100352, .f32⟩ : BufTy).Contents (Elt F) → (⟨S256x100352, .f32⟩ : BufTy).Contents (Elt F)),
    unary main_arg1 main_v10 ((transpose S256x256 [1, 0] · transposes_S256x256_S256x256_1_0) : (⟨S256x256, .f32⟩ : BufTy).Contents (Elt F) → (⟨S256x256, .f32⟩ : BufTy).Contents (Elt F)),
    binary main_v10 main_v9 main_v11 ((fun l r => Host.dotGeneral dot_S256x256_S256x100352_S256x100352_1_0_0_1_n_n none l r) : (⟨S256x256, .f32⟩ : BufTy).Contents (Elt F) → (⟨S256x100352, .f32⟩ : BufTy).Contents (Elt F) → (⟨S256x100352, .f32⟩ : BufTy).Contents (Elt F)) ]

/-- Operations 17 to 22 of @main, in order: they write main_v12, main_v13, main_call1_v0, main_call1_v1, main_call1_v2, main_v14. -/
def c4 : List (HloOp τ sig (Elt F)) :=
  [ unary main_arg2 main_v12 (broadcastInDim S256x1 ![0] bcast_S256_S256x1_0 : (⟨S256, .f32⟩ : BufTy).Contents (Elt F) → (⟨S256x1, .f32⟩ : BufTy).Contents (Elt F)),
    unary main_v12 main_v13 (Host.negf : (⟨S256x1, .f32⟩ : BufTy).Contents (Elt F) → (⟨S256x1, .f32⟩ : BufTy).Contents (Elt F)),
    TRef.unary (TRef.of (T := ⟨S256x1, .f32⟩) main_v13) (TRef.of (T := ⟨S256x100352, .f32⟩) main_call1_v0) (broadcastInDim S256x100352 ![0, 1] bcast_S256x1_S256x100352_0_1),
    TRef.binary (TRef.of (T := ⟨S256x100352, .f32⟩) main_call1_v0) (TRef.of (T := ⟨S256x100352, .f32⟩) main_v11) (TRef.of (T := ⟨S256x100352, .f32⟩) main_call1_v1) maximumf,
    TRef.unary (TRef.of (T := ⟨S256x1, .f32⟩) main_v12) (TRef.of (T := ⟨S256x100352, .f32⟩) main_call1_v2) (broadcastInDim S256x100352 ![0, 1] bcast_S256x1_S256x100352_0_1),
    TRef.binary (TRef.of (T := ⟨S256x100352, .f32⟩) main_call1_v2) (TRef.of (T := ⟨S256x100352, .f32⟩) main_call1_v1) (TRef.of (T := ⟨S256x100352, .f32⟩) main_v14) minimumf ]

/-- Operations 23 to 32 of @main, in order: they write main_cst_1, main_v15, main_v16, main_cst_2, main_v17, main_v18, main_v19, main_cst_3, main_v20, main_v21. -/
def c5 : List (HloOp τ sig (Elt F)) :=
  [ nullary main_cst_1 (constant S_ .f32 0xFF800000#32),
    binary main_v14 main_cst_1 main_v15 ((fun x v => Host.reduce FloatOps.maximumf x v reducesTo_S256x100352_S256_d1 h_S_) : (⟨S256x100352, .f32⟩ : BufTy).Contents (Elt F) → (⟨S_, .f32⟩ : BufTy).Contents (Elt F) → (⟨S256, .f32⟩ : BufTy).Contents (Elt F)),
    unary main_v15 main_v16 (broadcastInDim S256x1 ![0] bcast_S256_S256x1_0 : (⟨S256, .f32⟩ : BufTy).Contents (Elt F) → (⟨S256x1, .f32⟩ : BufTy).Contents (Elt F)),
    nullary main_cst_2 (constant S_ .f32 0x7F800000#32),
    binary main_v14 main_cst_2 main_v17 ((fun x v => Host.reduce FloatOps.minimumf x v reducesTo_S256x100352_S256_d1 h_S_) : (⟨S256x100352, .f32⟩ : BufTy).Contents (Elt F) → (⟨S_, .f32⟩ : BufTy).Contents (Elt F) → (⟨S256, .f32⟩ : BufTy).Contents (Elt F)),
    unary main_v17 main_v18 (broadcastInDim S256x1 ![0] bcast_S256_S256x1_0 : (⟨S256, .f32⟩ : BufTy).Contents (Elt F) → (⟨S256x1, .f32⟩ : BufTy).Contents (Elt F)),
    binary main_v16 main_v18 main_v19 (subf : (⟨S256x1, .f32⟩ : BufTy).Contents (Elt F) → (⟨S256x1, .f32⟩ : BufTy).Contents (Elt F) → (⟨S256x1, .f32⟩ : BufTy).Contents (Elt F)),
    nullary main_cst_3 (constant S_ .f32 0x437F0000#32),
    unary main_cst_3 main_v20 (broadcastInDim S256x1 ![] bcast_S_S256x1 : (⟨S_, .f32⟩ : BufTy).Contents (Elt F) → (⟨S256x1, .f32⟩ : BufTy).Contents (Elt F)),
    binary main_v20 main_v19 main_v21 (Host.divf : (⟨S256x1, .f32⟩ : BufTy).Contents (Elt F) → (⟨S256x1, .f32⟩ : BufTy).Contents (Elt F) → (⟨S256x1, .f32⟩ : BufTy).Contents (Elt F)) ]

/-- Operations 33 to 41 of @main, in order: they write main_v22, main_v23, main_v24, main_v25, main_v26, main_v27, main_v28, main_v29, main_v30. -/
def c6 : List (HloOp τ sig (Elt F)) :=
  [ unary main_v18 main_v22 (broadcastInDim S256x100352 ![0, 1] bcast_S256x1_S256x100352_0_1 : (⟨S256x1, .f32⟩ : BufTy).Contents (Elt F) → (⟨S256x100352, .f32⟩ : BufTy).Contents (Elt F)),
    binary main_v14 main_v22 main_v23 (subf : (⟨S256x100352, .f32⟩ : BufTy).Contents (Elt F) → (⟨S256x100352, .f32⟩ : BufTy).Contents (Elt F) → (⟨S256x100352, .f32⟩ : BufTy).Contents (Elt F)),
    unary main_v21 main_v24 (broadcastInDim S256x100352 ![0, 1] bcast_S256x1_S256x100352_0_1 : (⟨S256x1, .f32⟩ : BufTy).Contents (Elt F) → (⟨S256x100352, .f32⟩ : BufTy).Contents (Elt F)),
    binary main_v23 main_v24 main_v25 (mulf : (⟨S256x100352, .f32⟩ : BufTy).Contents (Elt F) → (⟨S256x100352, .f32⟩ : BufTy).Contents (Elt F) → (⟨S256x100352, .f32⟩ : BufTy).Contents (Elt F)),
    TRef.unary (TRef.of (T := ⟨S256x100352, .f32⟩) main_v25) (TRef.of (T := ⟨S256x100352, .f32⟩) main_v26) Host.roundeven,
    unary main_v21 main_v27 (broadcastInDim S256x100352 ![0, 1] bcast_S256x1_S256x100352_0_1 : (⟨S256x1, .f32⟩ : BufTy).Contents (Elt F) → (⟨S256x100352, .f32⟩ : BufTy).Contents (Elt F)),
    binary main_v26 main_v27 main_v28 (Host.divf : (⟨S256x100352, .f32⟩ : BufTy).Contents (Elt F) → (⟨S256x100352, .f32⟩ : BufTy).Contents (Elt F) → (⟨S256x100352, .f32⟩ : BufTy).Contents (Elt F)),
    unary main_v18 main_v29 (broadcastInDim S256x100352 ![0, 1] bcast_S256x1_S256x100352_0_1 : (⟨S256x1, .f32⟩ : BufTy).Contents (Elt F) → (⟨S256x100352, .f32⟩ : BufTy).Contents (Elt F)),
    binary main_v28 main_v29 main_v30 (addf : (⟨S256x100352, .f32⟩ : BufTy).Contents (Elt F) → (⟨S256x100352, .f32⟩ : BufTy).Contents (Elt F) → (⟨S256x100352, .f32⟩ : BufTy).Contents (Elt F)) ]

/-- Operations 42 to 47 of @main, in order: they write main_v31, main_v32, main_v33, main_v34, main_v35, main_v36. -/
def c7 : List (HloOp τ sig (Elt F)) :=
  [ binary main_arg1 main_v30 main_v31 ((fun l r => Host.dotGeneral dot_S256x256_S256x100352_S256x100352_1_0_0_1_n_n none l r) : (⟨S256x256, .f32⟩ : BufTy).Contents (Elt F) → (⟨S256x100352, .f32⟩ : BufTy).Contents (Elt F) → (⟨S256x100352, .f32⟩ : BufTy).Contents (Elt F)),
    unary main_v7 main_v32 (broadcastInDim S256x100352 ![0, 1] bcast_S256x1_S256x100352_0_1 : (⟨S256x1, .f32⟩ : BufTy).Contents (Elt F) → (⟨S256x100352, .f32⟩ : BufTy).Contents (Elt F)),
    binary main_v31 main_v32 main_v33 (addf : (⟨S256x100352, .f32⟩ : BufTy).Contents (Elt F) → (⟨S256x100352, .f32⟩ : BufTy).Contents (Elt F) → (⟨S256x100352, .f32⟩ : BufTy).Contents (Elt F)),
    unary main_v33 main_v34 ((transpose S100352x256 [1, 0] · transposes_S256x100352_S100352x256_1_0) : (⟨S256x100352, .f32⟩ : BufTy).Contents (Elt F) → (⟨S100352x256, .f32⟩ : BufTy).Contents (Elt F)),
    reshape main_v34 main_v35 rfl shapeCasts_S100352x256_S32x56x56x256,
    unary main_v35 main_v36 ((transpose S32x256x56x56 [0, 3, 1, 2] · transposes_S32x56x56x256_S32x256x56x56_0_3_1_2) : (⟨S32x56x56x256, .f32⟩ : BufTy).Contents (Elt F) → (⟨S32x256x56x56, .f32⟩ : BufTy).Contents (Elt F)) ]

/-- The 47 operations are the seven runs, in order. -/
theorem ops_split : (ops : List (HloOp τ sig (Elt F))) = c1 ++ (c2 ++ (c3 ++ (c4 ++ (c5 ++ (c6 ++ c7))))) := rfl

/-! ## What each run leaves in the buffers read after it -/

/-- The first six operations leave the rectified input, as channels by batch-positions, in main_v3. -/
theorem c1_v3 (W : Valuation τ sig (Elt F)) :
    after c1 W (Proc.devRef .tc main_v3) = Read.val_main_v3 (F := F) (W (Proc.devRef .tc main_arg0)) := by
  unfold c1; after_results <;> rfl
/-- From the rectified input, the next six operations leave the channel means in main_v7. -/
theorem c2_v7 (W : Valuation τ sig (Elt F)) (x0 : (⟨S32x256x56x56, .f32⟩ : BufTy).Contents (Elt F))
    (h3 : W (Proc.devRef .tc main_v3) = Read.val_main_v3 (F := F) x0) :
    after c2 W (Proc.devRef .tc main_v7) = Read.val_main_v7 (F := F) x0 := by
  unfold c2; after_results; rw [h3]; rfl
/-- From the rectified input, the means and the basis, the next four leave the projection of the centred input in main_v11. -/
theorem c3_v11 (W : Valuation τ sig (Elt F)) (x0 : (⟨S32x256x56x56, .f32⟩ : BufTy).Contents (Elt F)) (x1 : (⟨S256x256, .f32⟩ : BufTy).Contents (Elt F))
    (h3 : W (Proc.devRef .tc main_v3) = Read.val_main_v3 (F := F) x0) (h7 : W (Proc.devRef .tc main_v7) = Read.val_main_v7 (F := F) x0) (h1 : W (Proc.devRef .tc main_arg1) = x1) :
    after c3 W (Proc.devRef .tc main_v11) = Read.val_main_v11 (F := F) x0 x1 := by
  unfold c3; after_results; rw [h3, h7, h1]; rfl
/-- From the projection and the clamp values, the next six leave the clamped projection in main_v14. -/
theorem c4_v14 (W : Valuation τ sig (Elt F)) (x0 : (⟨S32x256x56x56, .f32⟩ : BufTy).Contents (Elt F)) (x1 : (⟨S256x256, .f32⟩ : BufTy).Contents (Elt F)) (x2 : (⟨S256, .f32⟩ : BufTy).Contents (Elt F))
    (h11 : W (Proc.devRef .tc main_v11) = Read.val_main_v11 (F := F) x0 x1) (h2 : W (Proc.devRef .tc main_arg2) = x2) :
    after c4 W (Proc.devRef .tc main_v14) = Read.val_main_v14 (F := F) x0 x1 x2 := by
  unfold c4; after_results; rw [h11, h2]; rfl
/-- From the clamped projection, the next ten leave each channel's minimum in main_v18 … -/
theorem c5_v18 (W : Valuation τ sig (Elt F)) (x0 : (⟨S32x256x56x56, .f32⟩ : BufTy).Contents (Elt F)) (x1 : (⟨S256x256, .f32⟩ : BufTy).Contents (Elt F)) (x2 : (⟨S256, .f32⟩ : BufTy).Contents (Elt F))
    (h14 : W (Proc.devRef .tc main_v14) = Read.val_main_v14 (F := F) x0 x1 x2) :
    after c5 W (Proc.devRef .tc main_v18) = Read.val_main_v18 (F := F) x0 x1 x2 := by
  unfold c5; after_results; rw [h14]; rfl
/-- … and the steps per unit, 255 over maximum less minimum, in main_v21. -/
theorem c5_v21 (W : Valuation τ sig (Elt F)) (x0 : (⟨S32x256x56x56, .f32⟩ : BufTy).Contents (Elt F)) (x1 : (⟨S256x256, .f32⟩ : BufTy).Contents (Elt F)) (x2 : (⟨S256, .f32⟩ : BufTy).Contents (Elt F))
    (h14 : W (Proc.devRef .tc main_v14) = Read.val_main_v14 (F := F) x0 x1 x2) :
    after c5 W (Proc.devRef .tc main_v21) = Read.val_main_v21 (F := F) x0 x1 x2 := by
  unfold c5; after_results; rw [h14]; rfl
/-- From the clamped projection, the minimum and the scale, the next nine leave the quantised projection in main_v30. -/
theorem c6_v30 (W : Valuation τ sig (Elt F)) (x0 : (⟨S32x256x56x56, .f32⟩ : BufTy).Contents (Elt F)) (x1 : (⟨S256x256, .f32⟩ : BufTy).Contents (Elt F)) (x2 : (⟨S256, .f32⟩ : BufTy).Contents (Elt F))
    (h14 : W (Proc.devRef .tc main_v14) = Read.val_main_v14 (F := F) x0 x1 x2) (h18 : W (Proc.devRef .tc main_v18) = Read.val_main_v18 (F := F) x0 x1 x2)
    (h21 : W (Proc.devRef .tc main_v21) = Read.val_main_v21 (F := F) x0 x1 x2) :
    after c6 W (Proc.devRef .tc main_v30) = Read.val_main_v30 (F := F) x0 x1 x2 := by
  unfold c6; after_results; rw [h14, h18, h21]; rfl
/-- From the quantised projection, the means and the basis, the last six leave the result in main_v36. -/
theorem c7_v36 (W : Valuation τ sig (Elt F)) (x0 : (⟨S32x256x56x56, .f32⟩ : BufTy).Contents (Elt F)) (x1 : (⟨S256x256, .f32⟩ : BufTy).Contents (Elt F)) (x2 : (⟨S256, .f32⟩ : BufTy).Contents (Elt F))
    (h30 : W (Proc.devRef .tc main_v30) = Read.val_main_v30 (F := F) x0 x1 x2) (h7 : W (Proc.devRef .tc main_v7) = Read.val_main_v7 (F := F) x0) (h1 : W (Proc.devRef .tc main_arg1) = x1) :
    after c7 W (Proc.devRef .tc main_v36) = Read.val_main_v36 (F := F) x0 x1 x2 := by
  unfold c7; after_results; rw [h30, h7, h1]; rfl

/-! ## What each run leaves untouched, of the buffers read after it -/

theorem c1_keep_arg0 (W : Valuation τ sig (Elt F)) : after c1 W (Proc.devRef .tc main_arg0) = W (Proc.devRef .tc main_arg0) := by
  unfold c1; after_results <;> rfl
theorem c1_keep_arg1 (W : Valuation τ sig (Elt F)) : after c1 W (Proc.devRef .tc main_arg1) = W (Proc.devRef .tc main_arg1) := by
  unfold c1; after_results <;> rfl
theorem c1_keep_arg2 (W : Valuation τ sig (Elt F)) : after c1 W (Proc.devRef .tc main_arg2) = W (Proc.devRef .tc main_arg2) := by
  unfold c1; after_results <;> rfl
theorem c2_keep_v3 (W : Valuation τ sig (Elt F)) : after c2 W (Proc.devRef .tc main_v3) = W (Proc.devRef .tc main_v3) := by
  unfold c2; after_results <;> rfl
theorem c2_keep_arg0 (W : Valuation τ sig (Elt F)) : after c2 W (Proc.devRef .tc main_arg0) = W (Proc.devRef .tc main_arg0) := by
  unfold c2; after_results <;> rfl
theorem c2_keep_arg1 (W : Valuation τ sig (Elt F)) : after c2 W (Proc.devRef .tc main_arg1) = W (Proc.devRef .tc main_arg1) := by
  unfold c2; after_results <;> rfl
theorem c2_keep_arg2 (W : Valuation τ sig (Elt F)) : after c2 W (Proc.devRef .tc main_arg2) = W (Proc.devRef .tc main_arg2) := by
  unfold c2; after_results <;> rfl
theorem c3_keep_v7 (W : Valuation τ sig (Elt F)) : after c3 W (Proc.devRef .tc main_v7) = W (Proc.devRef .tc main_v7) := by
  unfold c3; after_results <;> rfl
theorem c3_keep_arg0 (W : Valuation τ sig (Elt F)) : after c3 W (Proc.devRef .tc main_arg0) = W (Proc.devRef .tc main_arg0) := by
  unfold c3; after_results <;> rfl
theorem c3_keep_arg1 (W : Valuation τ sig (Elt F)) : after c3 W (Proc.devRef .tc main_arg1) = W (Proc.devRef .tc main_arg1) := by
  unfold c3; after_results <;> rfl
theorem c3_keep_arg2 (W : Valuation τ sig (Elt F)) : after c3 W (Proc.devRef .tc main_arg2) = W (Proc.devRef .tc main_arg2) := by
  unfold c3; after_results <;> rfl
theorem c4_keep_v7 (W : Valuation τ sig (Elt F)) : after c4 W (Proc.devRef .tc main_v7) = W (Proc.devRef .tc main_v7) := by
  unfold c4; after_results <;> rfl
theorem c4_keep_arg0 (W : Valuation τ sig (Elt F)) : after c4 W (Proc.devRef .tc main_arg0) = W (Proc.devRef .tc main_arg0) := by
  unfold c4; after_results <;> rfl
theorem c4_keep_arg1 (W : Valuation τ sig (Elt F)) : after c4 W (Proc.devRef .tc main_arg1) = W (Proc.devRef .tc main_arg1) := by
  unfold c4; after_results <;> rfl
theorem c4_keep_arg2 (W : Valuation τ sig (Elt F)) : after c4 W (Proc.devRef .tc main_arg2) = W (Proc.devRef .tc main_arg2) := by
  unfold c4; after_results <;> rfl
theorem c5_keep_v14 (W : Valuation τ sig (Elt F)) : after c5 W (Proc.devRef .tc main_v14) = W (Proc.devRef .tc main_v14) := by
  unfold c5; after_results <;> rfl
theorem c5_keep_v7 (W : Valuation τ sig (Elt F)) : after c5 W (Proc.devRef .tc main_v7) = W (Proc.devRef .tc main_v7) := by
  unfold c5; after_results <;> rfl
theorem c5_keep_arg0 (W : Valuation τ sig (Elt F)) : after c5 W (Proc.devRef .tc main_arg0) = W (Proc.devRef .tc main_arg0) := by
  unfold c5; after_results <;> rfl
theorem c5_keep_arg1 (W : Valuation τ sig (Elt F)) : after c5 W (Proc.devRef .tc main_arg1) = W (Proc.devRef .tc main_arg1) := by
  unfold c5; after_results <;> rfl
theorem c5_keep_arg2 (W : Valuation τ sig (Elt F)) : after c5 W (Proc.devRef .tc main_arg2) = W (Proc.devRef .tc main_arg2) := by
  unfold c5; after_results <;> rfl
theorem c6_keep_v7 (W : Valuation τ sig (Elt F)) : after c6 W (Proc.devRef .tc main_v7) = W (Proc.devRef .tc main_v7) := by
  unfold c6; after_results <;> rfl
theorem c6_keep_arg0 (W : Valuation τ sig (Elt F)) : after c6 W (Proc.devRef .tc main_arg0) = W (Proc.devRef .tc main_arg0) := by
  unfold c6; after_results <;> rfl
theorem c6_keep_arg1 (W : Valuation τ sig (Elt F)) : after c6 W (Proc.devRef .tc main_arg1) = W (Proc.devRef .tc main_arg1) := by
  unfold c6; after_results <;> rfl
theorem c6_keep_arg2 (W : Valuation τ sig (Elt F)) : after c6 W (Proc.devRef .tc main_arg2) = W (Proc.devRef .tc main_arg2) := by
  unfold c6; after_results <;> rfl
theorem c7_keep_arg0 (W : Valuation τ sig (Elt F)) : after c7 W (Proc.devRef .tc main_arg0) = W (Proc.devRef .tc main_arg0) := by
  unfold c7; after_results <;> rfl
theorem c7_keep_arg1 (W : Valuation τ sig (Elt F)) : after c7 W (Proc.devRef .tc main_arg1) = W (Proc.devRef .tc main_arg1) := by
  unfold c7; after_results <;> rfl
theorem c7_keep_arg2 (W : Valuation τ sig (Elt F)) : after c7 W (Proc.devRef .tc main_arg2) = W (Proc.devRef .tc main_arg2) := by
  unfold c7; after_results <;> rfl

/-! ## The whole fold -/

/-- After all 47 operations the result buffer holds the last stage's value of the three arguments: each run
    turns the stage values its operations read into the stage values later runs read. -/
theorem result_eq (V : Valuation τ sig (Elt F)) :
    after ops V (Proc.devRef .tc main_v36)
      = Read.val_main_v36 (F := F) (V (Proc.devRef .tc main_arg0)) (V (Proc.devRef .tc main_arg1)) (V (Proc.devRef .tc main_arg2)) := by
  rw [ops_split, after_app, after_app, after_app, after_app, after_app, after_app]
  have a1 := c1_v3 V
  have k1a1 := c1_keep_arg1 V
  have k1a2 := c1_keep_arg2 V
  have a2 := c2_v7 _ _ a1
  have k2v3 := (c2_keep_v3 _).trans a1
  have k2a1 := (c2_keep_arg1 _).trans k1a1
  have k2a2 := (c2_keep_arg2 _).trans k1a2
  have a3 := c3_v11 _ _ _ k2v3 a2 k2a1
  have k3v7 := (c3_keep_v7 _).trans a2
  have k3a1 := (c3_keep_arg1 _).trans k2a1
  have k3a2 := (c3_keep_arg2 _).trans k2a2
  have a4 := c4_v14 _ _ _ _ a3 k3a2
  have k4v7 := (c4_keep_v7 _).trans k3v7
  have k4a1 := (c4_keep_arg1 _).trans k3a1
  have a5v18 := c5_v18 _ _ _ _ a4
  have a5v21 := c5_v21 _ _ _ _ a4
  have k5v14 := (c5_keep_v14 _).trans a4
  have k5v7 := (c5_keep_v7 _).trans k4v7
  have k5a1 := (c5_keep_arg1 _).trans k4a1
  have a6 := c6_v30 _ _ _ _ k5v14 a5v18 a5v21
  have k6v7 := (c6_keep_v7 _).trans k5v7
  have k6a1 := (c6_keep_arg1 _).trans k5a1
  exact c7_v36 _ _ _ _ a6 k6v7 k6a1

/-- No operation writes argument 0: the fold leaves it as it was. -/
theorem arg0_kept (V : Valuation τ sig (Elt F)) : after ops V (Proc.devRef .tc main_arg0) = V (Proc.devRef .tc main_arg0) := by
  rw [ops_split, after_app, after_app, after_app, after_app, after_app, after_app]
  exact (c7_keep_arg0 _).trans ((c6_keep_arg0 _).trans ((c5_keep_arg0 _).trans ((c4_keep_arg0 _).trans
    ((c3_keep_arg0 _).trans ((c2_keep_arg0 _).trans (c1_keep_arg0 V))))))
/-- No operation writes argument 1: the fold leaves it as it was. -/
theorem arg1_kept (V : Valuation τ sig (Elt F)) : after ops V (Proc.devRef .tc main_arg1) = V (Proc.devRef .tc main_arg1) := by
  rw [ops_split, after_app, after_app, after_app, after_app, after_app, after_app]
  exact (c7_keep_arg1 _).trans ((c6_keep_arg1 _).trans ((c5_keep_arg1 _).trans ((c4_keep_arg1 _).trans
    ((c3_keep_arg1 _).trans ((c2_keep_arg1 _).trans (c1_keep_arg1 V))))))
/-- No operation writes argument 2: the fold leaves it as it was. -/
theorem arg2_kept (V : Valuation τ sig (Elt F)) : after ops V (Proc.devRef .tc main_arg2) = V (Proc.devRef .tc main_arg2) := by
  rw [ops_split, after_app, after_app, after_app, after_app, after_app, after_app]
  exact (c7_keep_arg2 _).trans ((c6_keep_arg2 _).trans ((c5_keep_arg2 _).trans ((c4_keep_arg2 _).trans
    ((c3_keep_arg2 _).trans ((c2_keep_arg2 _).trans (c1_keep_arg2 V))))))

/-! ## The run -/

/-- On every device, for any float values, from any memory with zero counters: every weakly fair execution of @main
    terminates with the result buffer at the last stage's value of the three arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36)
        = Read.val_main_v36 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v36).trans (result_eq _), (h c main_arg0).trans (arg0_kept _),
      (h c main_arg1).trans (arg1_kept _), (h c main_arg2).trans (arg2_kept _)⟩) (run_folded m ρ)

end Cert.ReferenceIdeal.RefValue

end
-- ==== Proof.RefSpecA.lean ====
/-
  The reference program, entry by entry, in the vocabulary of the specification. Part one: the rectified input,
  each channel's total and mean over all batches and positions, the centred input, its projection on the basis and
  the clamp of the projection.

  The program works on [256, 100352] arrays whose second coordinate is the flat position n = b · 3136 + q of
  position q of batch b (q = h · 56 + w in the 56 × 56 plane); the specification indexes by (b, q).
-/
import proofs.«128398_j30554397343924_2_alg».proof.Proof.RefRead
import proofs.«128398_j30554397343924_2_alg».proof.Proof.Spec
import proofs.«128398_j30554397343924_2_alg».proof.Proof.LibBlockSum
import proofs.«128398_j30554397343924_2_alg».proof.Proof.LibExtrema
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefSpec

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

variable (x : (⟨S32x256x56x56, .f32⟩ : BufTy).Contents (Elt Ideal)) (u : (⟨S256x256, .f32⟩ : BufTy).Contents (Elt Ideal))
  (cv : (⟨S256, .f32⟩ : BufTy).Contents (Elt Ideal))

/-- The input read as 32 batches × 256 channels × 3136 positions: position q is row q / 56, column q % 56. -/
abbrev X : Fin 32 → Fin 256 → Fin 3136 → EReal :=
  fun b k q => x (ix4 b k ⟨q.val / 56, by have := q.isLt; omega⟩ ⟨q.val % 56, Nat.mod_lt _ (by decide)⟩)
/-- The basis by its two coordinates. -/
abbrev U : Fin 256 → Fin 256 → EReal := fun k c => u (ix2 k c)
/-- The clamp values by channel. -/
abbrev CV : Fin 256 → EReal := fun c => cv (ix1 c)

/-- The flat position of position q of batch b. -/
abbrev pos (b : Fin 32) (q : Fin 3136) : Fin 100352 :=
  ⟨b.val * 3136 + q.val, by have := b.isLt; have := q.isLt; omega⟩

/-- The rectified input at channel k, batch b, position q. -/
theorem v3_apply (k : Fin 256) (b : Fin 32) (q : Fin 3136) :
    val_main_v3 (F := Ideal) x (ix2 k (pos b q)) = Cert.Spec.relu (X x) b k q := by
  rw [val_main_v3_apply, val_main_v2_apply, val_main_v1_apply, val_main_v0_apply, val_main_call0_v0_apply,
    val_main_call0_cst_apply]
  have e : idx_main_v1 (idx_main_v2 (idx_main_v3 (ix2 k (pos b q))))
      = ix4 b k ⟨q.val / 56, by have := q.isLt; omega⟩ ⟨q.val % 56, Nat.mod_lt _ (by decide)⟩ :=
    funext fun a => Fin.ext (by
      have hb := b.isLt; have hk := k.isLt; have hq := q.isLt
      match a with
      | ⟨0, _⟩ => show ((b.val * 3136 + q.val) * 256 + k.val) / 802816 = b.val; omega
      | ⟨1, _⟩ => show ((b.val * 3136 + q.val) * 256 + k.val) % 256 = k.val; omega
      | ⟨2, _⟩ => show ((b.val * 3136 + q.val) * 256 + k.val) / 14336 % 56 = q.val / 56; omega
      | ⟨3, _⟩ => show ((b.val * 3136 + q.val) * 256 + k.val) / 256 % 56 = q.val % 56; omega)
  rw [e]
  show max (X x b k q) (Ideal.ofBits .f32 0x00000000#32) = max (X x b k q) 0
  rw [Ideal.ofBits_zero_f32]

/-- A channel's total: the sum over the 100352 flat positions is the sum over the batches of the sums over
    each batch's positions. -/
theorem v4_apply (k : Fin 256) : val_main_v4 (F := Ideal) x (ix1 k) = Cert.Spec.total (X x) k := by
  rw [val_main_v4_apply, val_main_cst_apply]
  show Ideal.ofBits .f32 0x00000000#32 + (∑ n : Fin 100352, val_main_v3 (F := Ideal) x (idx_main_v4 (ix1 k) n)) = _
  rw [Ideal.ofBits_zero_f32, zero_add]
  unfold Cert.Spec.total
  refine (BlockSum.sum_blocks 32 3136
    (fun n : Fin (32 * 3136) => val_main_v3 (F := Ideal) x (idx_main_v4 (ix1 k) n))).symm.trans ?_
  refine Finset.sum_congr rfl fun b _ => Finset.sum_congr rfl fun q _ => ?_
  rw [← v3_apply x k b q]
  exact congrArg (val_main_v3 (F := Ideal) x)
    (funext fun a => Fin.ext (by match a with | ⟨0, _⟩ => rfl | ⟨1, _⟩ => rfl))

/-- A channel's mean. -/
theorem v7_apply (k : Fin 256) (z : Fin 1) : val_main_v7 (F := Ideal) x (ix2 k z) = Cert.Spec.mean (X x) k := by
  rw [val_main_v7_apply, val_main_v5_apply, val_main_v6_apply, val_main_cst_0_apply]
  have e : idx_main_v5 (ix2 k z) = ix1 k := funext fun a => Fin.ext (by match a with | ⟨0, _⟩ => rfl)
  rw [e, v4_apply]
  rfl

/-- The centred input. -/
theorem v9_apply (k : Fin 256) (b : Fin 32) (q : Fin 3136) :
    val_main_v9 (F := Ideal) x (ix2 k (pos b q)) = Cert.Spec.relu (X x) b k q - Cert.Spec.mean (X x) k := by
  rw [val_main_v9_apply, val_main_v8_apply, v3_apply]
  have e : idx_main_v8 (ix2 k (pos b q)) = ix2 k (0 : Fin 1) :=
    funext fun a => Fin.ext (by match a with | ⟨0, _⟩ => rfl | ⟨1, _⟩ => rfl)
  rw [e, v7_apply]
  rfl

/-- The projection of the centred input on the basis. -/
theorem v11_apply (c : Fin 256) (b : Fin 32) (q : Fin 3136) :
    val_main_v11 (F := Ideal) x u (ix2 c (pos b q)) = Cert.Spec.projCentred (X x) (U u) c b q := by
  rw [val_main_v11_apply]
  unfold Cert.Spec.projCentred
  refine Finset.sum_congr rfl fun k _ => ?_
  rw [val_main_v10_apply]
  have el : idx_main_v10 (lidx_main_v11 (ix2 c (pos b q)) k) = ix2 k c :=
    funext fun a => Fin.ext (by match a with | ⟨0, _⟩ => rfl | ⟨1, _⟩ => rfl)
  have er : ridx_main_v11 (ix2 c (pos b q)) k = ix2 k (pos b q) :=
    funext fun a => Fin.ext (by match a with | ⟨0, _⟩ => rfl | ⟨1, _⟩ => rfl)
  rw [el, er, v9_apply]

/-- The clamped projection, in the specification's indexing. -/
abbrev cl : Fin 256 → Fin 32 → Fin 3136 → EReal :=
  fun c b q => Cert.Spec.clamp (CV cv c) (Cert.Spec.projCentred (X x) (U u) c b q)

/-- The clamp of the projection to [-cv c, cv c]. -/
theorem v14_apply (c : Fin 256) (b : Fin 32) (q : Fin 3136) :
    val_main_v14 (F := Ideal) x u cv (ix2 c (pos b q)) = cl x u cv c b q := by
  rw [val_main_v14_apply, val_main_call1_v2_apply, val_main_call1_v1_apply, val_main_call1_v0_apply,
    val_main_v13_apply, val_main_v12_apply, v11_apply]
  have e : idx_main_v12 (idx_main_call1_v2 (ix2 c (pos b q))) = ix1 c :=
    funext fun a => Fin.ext (by match a with | ⟨0, _⟩ => rfl)
  rw [e]
  rfl

end Cert.ReferenceIdeal.RefSpec

end
-- ==== Proof.RefSpec.lean ====
/-
  The reference program, entry by entry, is the specification's reference function. Part two: each channel's maximum and
  minimum of the clamped projection over all batches and positions, the steps per unit, the rounded grid position
  and the quantised value, the projection back with the mean added, and the result's layout.

  A maximum (minimum) over the 100352 flat positions n = b · 3136 + q, folded from −∞ (+∞), is the supremum (infimum)
  over the pairs (b, q); the result at batch b, channel j, row h, column w is the reconstruction at channel j, batch b,
  position h · 56 + w.
-/
import proofs.«128398_j30554397343924_2_alg».proof.Proof.RefSpecA
import proofs.«128398_j30554397343924_2_alg».proof.Proof.RefRead
import proofs.«128398_j30554397343924_2_alg».proof.Proof.Spec
import proofs.«128398_j30554397343924_2_alg».proof.Proof.LibExtrema
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefSpec

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

variable (x : (⟨S32x256x56x56, .f32⟩ : BufTy).Contents (Elt Ideal)) (u : (⟨S256x256, .f32⟩ : BufTy).Contents (Elt Ideal))
  (cv : (⟨S256, .f32⟩ : BufTy).Contents (Elt Ideal))

/-- The word 0x7F800000 is +∞. -/
theorem posInf_word : Ideal.ofBits .f32 0x7F800000#32 = (⊤ : EReal) := by simp [Ideal.ofBits, Ideal.ieee]
/-- The word 0xFF800000 is −∞. -/
theorem negInf_word : Ideal.ofBits .f32 0xFF800000#32 = (⊥ : EReal) := by simp [Ideal.ofBits, Ideal.ieee]

/-- Every flat position is the position of one batch and one position in it. -/
theorem exists_pos (n : Fin 100352) : ∃ (b : Fin 32) (q : Fin 3136), n = pos b q :=
  ⟨⟨n.val / 3136, by have := n.isLt; omega⟩, ⟨n.val % 3136, Nat.mod_lt _ (by decide)⟩,
    Fin.ext (by show n.val = n.val / 3136 * 3136 + n.val % 3136; omega)⟩

/-- A supremum over the 100352 flat positions is the supremum over batches and positions. -/
theorem sup_flat (f : Fin 100352 → EReal) (g : Fin 32 → Fin 3136 → EReal) (h : ∀ b q, f (pos b q) = g b q) :
    Finset.univ.sup f = Finset.univ.sup fun bq : Fin 32 × Fin 3136 => g bq.1 bq.2 := by
  apply le_antisymm
  · refine Finset.sup_le fun n _ => ?_
    obtain ⟨b, q, rfl⟩ := exists_pos n
    rw [h]
    exact Finset.le_sup (f := fun bq : Fin 32 × Fin 3136 => g bq.1 bq.2) (Finset.mem_univ (b, q))
  · refine Finset.sup_le fun bq _ => ?_
    rw [← h]
    exact Finset.le_sup (Finset.mem_univ (pos bq.1 bq.2))

/-- An infimum over the 100352 flat positions is the infimum over batches and positions. -/
theorem inf_flat (f : Fin 100352 → EReal) (g : Fin 32 → Fin 3136 → EReal) (h : ∀ b q, f (pos b q) = g b q) :
    Finset.univ.inf f = Finset.univ.inf fun bq : Fin 32 × Fin 3136 => g bq.1 bq.2 := by
  apply le_antisymm
  · refine Finset.le_inf fun bq _ => ?_
    rw [← h]
    exact Finset.inf_le (Finset.mem_univ (pos bq.1 bq.2))
  · refine Finset.le_inf fun n _ => ?_
    obtain ⟨b, q, rfl⟩ := exists_pos n
    rw [h]
    exact Finset.inf_le (f := fun bq : Fin 32 × Fin 3136 => g bq.1 bq.2) (Finset.mem_univ (b, q))

/-- The reduced axis of the [256, 100352] arrays is the flat position. -/
theorem reduces_d1 : S256x100352.Reduces [1] S256 := by decide

/-- Channel c with flat position n inserted is the entry (c, n). -/
theorem lift_pos (c : Fin 256) (n : Fin 100352) : reduces_d1.lift (ix1 c) n = ix2 c n := by
  funext a
  match a with
  | ⟨0, _⟩ => rfl
  | ⟨1, _⟩ => rfl

/-- A channel's maximum over all batches and positions: the fold of max from −∞ over the flat positions. -/
theorem v15_apply (c : Fin 256) : val_main_v15 (F := Ideal) x u cv (ix1 c) = Cert.Spec.hi (cl x u cv) c := by
  unfold val_main_v15
  refine (Host.reduce_eq_fold_single FloatOps.maximumf _ _ reducesTo_S256x100352_S256_d1 reduces_d1 h_S_ (ix1 c)).trans ?_
  refine (LibExtrema.fold_max_eq_sup (Finset.univ : Finset (Fin 100352))
    (val_main_v14 (F := Ideal) x u cv ∘ reduces_d1.lift (ix1 c)) (Ideal.ofBits .f32 0xFF800000#32)).trans ?_
  refine (congrArg (fun t : EReal => max t ((Finset.univ : Finset (Fin 100352)).sup
    (val_main_v14 (F := Ideal) x u cv ∘ reduces_d1.lift (ix1 c)))) negInf_word).trans ?_
  refine (max_bot_left _).trans ?_
  unfold Cert.Spec.hi
  exact sup_flat _ _ fun b q =>
    (congrArg (val_main_v14 (F := Ideal) x u cv) (lift_pos c (pos b q))).trans (v14_apply x u cv c b q)

/-- A channel's minimum over all batches and positions: the fold of min from +∞ over the flat positions. -/
theorem v17_apply (c : Fin 256) : val_main_v17 (F := Ideal) x u cv (ix1 c) = Cert.Spec.lo (cl x u cv) c := by
  unfold val_main_v17
  refine (Host.reduce_eq_fold_single FloatOps.minimumf _ _ reducesTo_S256x100352_S256_d1 reduces_d1 h_S_ (ix1 c)).trans ?_
  refine (LibExtrema.fold_min_eq_inf (Finset.univ : Finset (Fin 100352))
    (val_main_v14 (F := Ideal) x u cv ∘ reduces_d1.lift (ix1 c)) (Ideal.ofBits .f32 0x7F800000#32)).trans ?_
  refine (congrArg (fun t : EReal => min t ((Finset.univ : Finset (Fin 100352)).inf
    (val_main_v14 (F := Ideal) x u cv ∘ reduces_d1.lift (ix1 c)))) posInf_word).trans ?_
  refine (min_top_left _).trans ?_
  unfold Cert.Spec.lo
  exact inf_flat _ _ fun b q =>
    (congrArg (val_main_v14 (F := Ideal) x u cv) (lift_pos c (pos b q))).trans (v14_apply x u cv c b q)

/-- The maximum as a column. -/
theorem v16_apply (c : Fin 256) (z : Fin 1) :
    val_main_v16 (F := Ideal) x u cv (ix2 c z) = Cert.Spec.hi (cl x u cv) c := by
  rw [val_main_v16_apply]
  have e : idx_main_v16 (ix2 c z) = ix1 c := funext fun a => Fin.ext (by match a with | ⟨0, _⟩ => rfl)
  rw [e, v15_apply]

/-- The minimum as a column. -/
theorem v18_apply (c : Fin 256) (z : Fin 1) :
    val_main_v18 (F := Ideal) x u cv (ix2 c z) = Cert.Spec.lo (cl x u cv) c := by
  rw [val_main_v18_apply]
  have e : idx_main_v18 (ix2 c z) = ix1 c := funext fun a => Fin.ext (by match a with | ⟨0, _⟩ => rfl)
  rw [e, v17_apply]

/-- Steps per unit: 255 over the channel's range. -/
theorem v21_apply (c : Fin 256) (z : Fin 1) :
    val_main_v21 (F := Ideal) x u cv (ix2 c z) = Cert.Spec.scale (cl x u cv) c := by
  rw [val_main_v21_apply, val_main_v20_apply, val_main_cst_3_apply, val_main_v19_apply, v16_apply, v18_apply]
  rfl

/-- A column broadcast along the flat positions reads the column's entry. -/
theorem column_idx (c : Fin 256) (n : Fin 100352) : idx_main_v22 (ix2 c n) = ix2 c (0 : Fin 1) :=
  funext fun a => Fin.ext (by match a with | ⟨0, _⟩ => rfl | ⟨1, _⟩ => rfl)

/-- The quantised value: the rounded grid position divided by the steps per unit, plus the minimum. -/
theorem v30_apply (c : Fin 256) (b : Fin 32) (q : Fin 3136) :
    val_main_v30 (F := Ideal) x u cv (ix2 c (pos b q)) = Cert.Spec.quantDiv (cl x u cv) c b q := by
  rw [val_main_v30_apply, val_main_v28_apply, val_main_v29_apply, val_main_v27_apply, val_main_v26_apply,
    val_main_v25_apply, val_main_v24_apply, val_main_v23_apply, val_main_v22_apply, v14_apply]
  have e29 : idx_main_v29 (ix2 c (pos b q)) = ix2 c (0 : Fin 1) := column_idx c (pos b q)
  have e27 : idx_main_v27 (ix2 c (pos b q)) = ix2 c (0 : Fin 1) := column_idx c (pos b q)
  have e24 : idx_main_v24 (ix2 c (pos b q)) = ix2 c (0 : Fin 1) := column_idx c (pos b q)
  have e22 : idx_main_v22 (ix2 c (pos b q)) = ix2 c (0 : Fin 1) := column_idx c (pos b q)
  rw [e29, e27, e24, e22, v18_apply, v21_apply]
  rfl

/-- The reconstruction at channel j, batch b, position q: project back and add the mean. -/
theorem v33_apply (j : Fin 256) (b : Fin 32) (q : Fin 3136) :
    val_main_v33 (F := Ideal) x u cv (ix2 j (pos b q)) = Cert.Spec.outRef (X x) (U u) (CV cv) j b q := by
  rw [val_main_v33_apply, val_main_v31_apply, val_main_v32_apply]
  have e : idx_main_v32 (ix2 j (pos b q)) = ix2 j (0 : Fin 1) :=
    funext fun a => Fin.ext (by match a with | ⟨0, _⟩ => rfl | ⟨1, _⟩ => rfl)
  rw [e, v7_apply]
  show (∑ c : Fin 256, u (lidx_main_v31 (ix2 j (pos b q)) c)
      * val_main_v30 (F := Ideal) x u cv (ridx_main_v31 (ix2 j (pos b q)) c)) + Cert.Spec.mean (X x) j
    = (∑ c : Fin 256, U u j c * Cert.Spec.quantDiv (cl x u cv) c b q) + Cert.Spec.mean (X x) j
  refine congrArg (fun t : EReal => t + Cert.Spec.mean (X x) j) (Finset.sum_congr rfl fun c _ => ?_)
  have el : lidx_main_v31 (ix2 j (pos b q)) c = ix2 j c :=
    funext fun a => Fin.ext (by match a with | ⟨0, _⟩ => rfl | ⟨1, _⟩ => rfl)
  have er : ridx_main_v31 (ix2 j (pos b q)) c = ix2 c (pos b q) :=
    funext fun a => Fin.ext (by match a with | ⟨0, _⟩ => rfl | ⟨1, _⟩ => rfl)
  rw [el, er, v30_apply]

/-- The reference's result at batch b, channel j, row h, column w is the specification's reference function at
    channel j, batch b, position h · 56 + w. -/
theorem ref_result (x : (⟨S32x256x56x56, .f32⟩ : BufTy).Contents (Elt Ideal)) (u : (⟨S256x256, .f32⟩ : BufTy).Contents (Elt Ideal))
    (cv : (⟨S256, .f32⟩ : BufTy).Contents (Elt Ideal)) (b : Fin 32) (j : Fin 256) (h w : Fin 56) :
    Read.val_main_v36 (F := Ideal) x u cv (ix4 b j h w)
      = Cert.Spec.outRef (fun b k q => x (ix4 b k ⟨q.val / 56, by have := q.isLt; omega⟩ ⟨q.val % 56, Nat.mod_lt _ (by decide)⟩))
          (fun k c => u (ix2 k c)) (fun c => cv (ix1 c)) j b
          ⟨h.val * 56 + w.val, by have := h.isLt; have := w.isLt; omega⟩ := by
  rw [val_main_v36_apply, val_main_v35_apply, val_main_v34_apply]
  have e : idx_main_v34 (idx_main_v35 (idx_main_v36 (ix4 b j h w)))
      = ix2 j (pos b ⟨h.val * 56 + w.val, by have := h.isLt; have := w.isLt; omega⟩) :=
    funext fun a => Fin.ext (by
      have hb := b.isLt; have hj := j.isLt; have hh := h.isLt; have hw := w.isLt
      match a with
      | ⟨0, _⟩ => show (((b.val * 56 + h.val) * 56 + w.val) * 256 + j.val) % 256 = j.val; omega
      | ⟨1, _⟩ => show (((b.val * 56 + h.val) * 56 + w.val) * 256 + j.val) / 256 = b.val * 3136 + (h.val * 56 + w.val); omega)
  rw [e]
  exact v33_apply x u cv j b ⟨h.val * 56 + w.val, by have := h.isLt; have := w.isLt; omega⟩

end Cert.ReferenceIdeal.RefSpec

end
-- ==== Proof.SpecLaw.lean ====
/-
  The two programs of Spec compute the same function when every input entry is a real number.

  On real inputs every rectified entry, every channel total and every channel mean is real, so the projection
  of the centred input and the projection of the input less the projection of the mean are the same real
  number: the difference of two finite sums of reals is the sum of the differences, and multiplication
  distributes over subtraction in the reals. The clamped arrays are therefore equal and real-valued, and so
  are each channel's maximum and minimum, each being one of the channel's entries. With d the real difference
  of maximum and minimum, dividing by 255 / d and multiplying by d / 255 agree: at d = 0 both give zero (the
  quotient by the infinite scale and the product with zero), and at d ≠ 0 both are the product with the same
  real d / 255. Projecting back and adding the mean is the same operation on both sides.
-/
import proofs.«128398_j30554397343924_2_alg».proof.Proof.Spec

noncomputable section

namespace Cert.Spec

open Idealize.ShloMosaic

/-- The coercion of the reals into the extended reals commutes with the maximum. -/
theorem coe_max_real (r s : ℝ) : max (r : EReal) (s : EReal) = ((max r s : ℝ) : EReal) :=
  (EReal.coe_strictMono.monotone.map_max).symm

/-- The coercion of the reals into the extended reals commutes with the minimum. -/
theorem coe_min_real (r s : ℝ) : min (r : EReal) (s : EReal) = ((min r s : ℝ) : EReal) :=
  (EReal.coe_strictMono.monotone.map_min).symm

/-- The coercion of the reals into the extended reals commutes with finite sums. -/
theorem coe_sum_real {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem real_sum {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_sum_real]; exact Finset.sum_congr rfl fun i _ => hg i⟩

/-- The count literal denotes the real 100352. -/
theorem count_eq : count = ((100352 : ℝ) : EReal) := by
  show Ideal.ofBits .f32 0x47C40000#32 = _
  simp [Ideal.ofBits, Ideal.ieee, -EReal.coe_mul]; norm_num

/-- The step-count literal denotes the real 255. -/
theorem steps_eq : steps = ((255 : ℝ) : EReal) := by
  show Ideal.ofBits .f32 0x437F0000#32 = _
  simp [Ideal.ofBits, Ideal.ieee, -EReal.coe_mul]; norm_num

section Real

variable (x : Fin 32 → Fin 256 → Fin 3136 → EReal) (u : Fin 256 → Fin 256 → EReal) (cv : Fin 256 → EReal)
variable (hx : ∀ b k q, ∃ r : ℝ, x b k q = (r : EReal)) (hu : ∀ k c, ∃ r : ℝ, u k c = (r : EReal))

include hx in
/-- Every rectified entry is real: the maximum of a real and zero. -/
theorem relu_real (b : Fin 32) (k : Fin 256) (q : Fin 3136) : ∃ r : ℝ, relu x b k q = (r : EReal) := by
  obtain ⟨r, hr⟩ := hx b k q
  exact ⟨max r 0, by rw [relu, hr, ← EReal.coe_zero, coe_max_real]⟩

include hx in
/-- Every channel total is real: a finite sum of finite sums of reals. -/
theorem total_real (k : Fin 256) : ∃ r : ℝ, total x k = (r : EReal) :=
  real_sum _ _ fun b => real_sum _ _ fun q => relu_real x hx b k q

include hx in
/-- Every channel mean is real: a real total times the real reciprocal of 100352. -/
theorem mean_real (k : Fin 256) : ∃ r : ℝ, mean x k = (r : EReal) := by
  obtain ⟨t, ht⟩ := total_real x hx k
  exact ⟨t * (1 / 100352), by
    rw [mean, ht, count_eq, Ideal.div_coe (by norm_num : (100352 : ℝ) ≠ 0), EReal.coe_mul]⟩

include hx hu in
/-- On real inputs, projecting then subtracting the projected mean is projecting the centred input:
    ∑ u·r - ∑ u·m = ∑ u·(r - m) in the reals. -/
theorem projLess_eq_projCentred : projLess x u = projCentred x u := by
  funext c b q
  choose ur hur using hu
  choose rr hrr using relu_real x hx
  choose mr hmr using mean_real x hx
  unfold projLess projCentred
  simp only [hur, hrr, hmr, ← EReal.coe_sub, ← EReal.coe_mul, ← coe_sum_real]
  congr 1
  rw [← Finset.sum_sub_distrib]
  exact Finset.sum_congr rfl fun k _ => (mul_sub _ _ _).symm

include hx hu in
/-- On real inputs every entry of the projection of the centred input is real. -/
theorem projCentred_real (c : Fin 256) (b : Fin 32) (q : Fin 3136) :
    ∃ r : ℝ, projCentred x u c b q = (r : EReal) := by
  choose ur hur using hu
  choose rr hrr using relu_real x hx
  choose mr hmr using mean_real x hx
  refine ⟨∑ k, ur k c * (rr b k q - mr k), ?_⟩
  unfold projCentred
  simp only [hur, hrr, hmr, ← EReal.coe_sub, ← EReal.coe_mul, ← coe_sum_real]

end Real

/-- Clamping a real to a real bound gives a real: a minimum of a maximum of reals. -/
theorem clamp_real {a p : EReal} (ha : ∃ r : ℝ, a = (r : EReal)) (hp : ∃ r : ℝ, p = (r : EReal)) :
    ∃ r : ℝ, clamp a p = (r : EReal) := by
  obtain ⟨r, rfl⟩ := ha
  obtain ⟨s, rfl⟩ := hp
  exact ⟨min r (max (-r) s), by rw [clamp, ← EReal.coe_neg, coe_max_real, coe_min_real]⟩

section Quant

variable (cl : Fin 256 → Fin 32 → Fin 3136 → EReal) (hcl : ∀ c b q, ∃ r : ℝ, cl c b q = (r : EReal))

include hcl in
/-- A channel's maximum is one of its entries, hence real. -/
theorem hi_real (c : Fin 256) : ∃ r : ℝ, hi cl c = (r : EReal) := by
  obtain ⟨bq, -, h⟩ := Finset.exists_mem_eq_sup (Finset.univ : Finset (Fin 32 × Fin 3136)) Finset.univ_nonempty
    fun bq => cl c bq.1 bq.2
  obtain ⟨r, hr⟩ := hcl c bq.1 bq.2
  exact ⟨r, h.trans hr⟩

include hcl in
/-- A channel's minimum is one of its entries, hence real. -/
theorem lo_real (c : Fin 256) : ∃ r : ℝ, lo cl c = (r : EReal) := by
  obtain ⟨bq, -, h⟩ := Finset.exists_mem_eq_inf (Finset.univ : Finset (Fin 32 × Fin 3136)) Finset.univ_nonempty
    fun bq => cl c bq.1 bq.2
  obtain ⟨r, hr⟩ := hcl c bq.1 bq.2
  exact ⟨r, h.trans hr⟩

/-- Any quotient by the positive infinity is zero. -/
theorem div_top_eq_zero (g : EReal) : Ideal.div g ⊤ = 0 := by
  rw [Ideal.div, if_neg EReal.top_ne_zero, EReal.inv_top, mul_zero]

/-- For a real d, dividing by 255 / d is multiplying by d / 255, at every extended real g:
    at d = 0 both sides are zero, and otherwise both are g times the real d / 255. -/
theorem div_div_steps (g : EReal) (d : ℝ) :
    Ideal.div g (Ideal.div steps (d : EReal)) = g * Ideal.div (d : EReal) steps := by
  rw [steps_eq]
  have h255 : (255 : ℝ) ≠ 0 := by norm_num
  by_cases hd : d = 0
  · subst hd
    have h1 : Ideal.div ((255 : ℝ) : EReal) ((0 : ℝ) : EReal) = ⊤ := by
      rw [Ideal.div, if_pos EReal.coe_zero, if_pos (EReal.coe_pos.2 (by norm_num))]
    have h2 : Ideal.div ((0 : ℝ) : EReal) ((255 : ℝ) : EReal) = 0 := by
      rw [Ideal.div_coe h255, EReal.coe_zero, zero_mul]
    rw [h1, h2, div_top_eq_zero, mul_zero]
  · have hs : (255 * (1 / d) : ℝ) ≠ 0 := mul_ne_zero h255 (one_div_ne_zero hd)
    have he : (1 / (255 * (1 / d)) : ℝ) = d * (1 / 255) := by field_simp
    rw [Ideal.div_coe hd, ← EReal.coe_mul, Ideal.div_coe hs, Ideal.div_coe h255, ← EReal.coe_mul, he]

include hcl in
/-- On a real-valued array the two ways back from the grid agree. -/
theorem quantMul_eq_quantDiv : quantMul cl = quantDiv cl := by
  funext c b q
  obtain ⟨h, hh⟩ := hi_real cl hcl c
  obtain ⟨l, hl⟩ := lo_real cl hcl c
  unfold quantMul quantDiv scale
  rw [hh, hl, ← EReal.coe_sub, div_div_steps]

end Quant

/-- The kernel's function is the reference's on real inputs. -/
theorem outKer_eq_outRef (x : Fin 32 → Fin 256 → Fin 3136 → EReal) (u : Fin 256 → Fin 256 → EReal) (cv : Fin 256 → EReal)
    (hx : ∀ b k q, ∃ r : ℝ, x b k q = (r : EReal)) (hu : ∀ k c, ∃ r : ℝ, u k c = (r : EReal))
    (hcv : ∀ c, ∃ r : ℝ, cv c = (r : EReal)) :
    outKer x u cv = outRef x u cv := by
  have hcl : ∀ c b q, ∃ r : ℝ, (fun c b q => clamp (cv c) (projCentred x u c b q)) c b q = (r : EReal) :=
    fun c b q => clamp_real (hcv c) (projCentred_real x u hx hu c b q)
  unfold outKer outRef
  rw [projLess_eq_projCentred x u hx hu, quantMul_eq_quantDiv _ hcl]

end Cert.Spec

end
-- ==== Proof.LibFinite.lean ====
/-
  "Every entry is a real number" is kept by the operations of a dense network, on the extended reals.

  An array over the extended reals is ALL REAL when none of its entries is an infinity.  The property passes
  through: every operation that only re-reads its operand at some index (a broadcast, a reshape, a slice, a
  row gather), the pointwise sum, difference, product and maximum, a matrix product (host or vector unit, zero
  accumulator: a finite sum of products), a host sum along axes, the accumulating scatter (each entry plus a
  finite sum of updates), and a quotient by an all-real array with no zero entry.  Nothing here depends on the
  shapes or on which index an operation reads.
-/
import Idealize.ShloMosaic.PureOps.Ideal.Laws

noncomputable section

namespace Cert.LibFinite

open Idealize.ShloMosaic

/-- Every entry of the array is a real number. -/
def AllReal {ι : Type*} (x : ι → EReal) : Prop := ∀ i, ∃ r : ℝ, x i = (r : EReal)

/-! ## Scalars -/

theorem real_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

theorem real_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

theorem real_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

theorem coe_max (r s : ℝ) : max (r : EReal) (s : EReal) = ((max r s : ℝ) : EReal) := by
  rcases le_total r s with h | h
  · rw [max_eq_right h, max_eq_right (EReal.coe_le_coe_iff.2 h)]
  · rw [max_eq_left h, max_eq_left (EReal.coe_le_coe_iff.2 h)]

theorem real_max {a b : EReal} (ha : ∃ r : ℝ, a = (r : EReal)) (hb : ∃ r : ℝ, b = (r : EReal)) :
    ∃ r : ℝ, max a b = (r : EReal) := by
  obtain ⟨r, rfl⟩ := ha; obtain ⟨s, rfl⟩ := hb; exact ⟨max r s, coe_max r s⟩

/-- The maximum of a real and a positive real is a nonzero real. -/
theorem real_max_pos {a : EReal} (ha : ∃ r : ℝ, a = (r : EReal)) {s : ℝ} (hs : 0 < s) :
    ∃ r : ℝ, max a (s : EReal) = (r : EReal) ∧ r ≠ 0 := by
  obtain ⟨r, rfl⟩ := ha
  exact ⟨max r s, coe_max r s, ne_of_gt (lt_of_lt_of_le hs (le_max_right r s))⟩

theorem real_sum {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

theorem real_div {a b : EReal} (ha : ∃ r : ℝ, a = (r : EReal)) (hb : ∃ r : ℝ, b = (r : EReal) ∧ r ≠ 0) :
    ∃ r : ℝ, Ideal.div a b = (r : EReal) := by
  obtain ⟨r, rfl⟩ := ha; obtain ⟨s, rfl, hs⟩ := hb
  exact ⟨r * (1 / s), by rw [Ideal.div_coe hs, ← EReal.coe_mul]⟩

/-! ## Arrays -/

variable {ι κ : Type*}

/-- Reading an all-real array at any indices gives an all-real array: broadcasts, reshapes, slices and gathers. -/
theorem AllReal.read {x : ι → EReal} (hx : AllReal x) (f : κ → ι) : AllReal fun j => x (f j) := fun j => hx (f j)

theorem AllReal.const {c : EReal} (hc : ∃ r : ℝ, c = (r : EReal)) : AllReal fun _ : ι => c := fun _ => hc

theorem AllReal.broadcastInDim {s t : Shape} {dims : Fin s.rank → Fin t.rank} (h : s.BroadcastsInDim t dims)
    {x : s.Idx → EReal} (hx : AllReal x) : AllReal (broadcastInDim t dims h x) := fun _ => hx _

theorem AllReal.gather {s si t : Shape} {w : Nat} (d : GatherDims s si t) {x : s.Idx → EReal} (hx : AllReal x)
    (idx : IVec si w) : AllReal (Host.gather d x idx) := fun _ => hx _

theorem AllReal.addf {s : Shape} {φ : FTy} {x y : FVec Ideal s φ} (hx : AllReal x) (hy : AllReal y) :
    AllReal (addf x y) := fun i => real_add (hx i) (hy i)

theorem AllReal.subf {s : Shape} {φ : FTy} {x y : FVec Ideal s φ} (hx : AllReal x) (hy : AllReal y) :
    AllReal (subf x y) := fun i => real_sub (hx i) (hy i)

theorem AllReal.mulf {s : Shape} {φ : FTy} {x y : FVec Ideal s φ} (hx : AllReal x) (hy : AllReal y) :
    AllReal (mulf x y) := fun i => real_mul (hx i) (hy i)

theorem AllReal.maximumf {s : Shape} {φ : FTy} {x y : FVec Ideal s φ} (hx : AllReal x) (hy : AllReal y) :
    AllReal (maximumf x y) := fun i => real_max (hx i) (hy i)

/-- A quotient by an all-real array without zero entries. -/
theorem AllReal.hostDivf {s : Shape} {φ : FTy} {x y : FVec Ideal s φ} (hx : AllReal x)
    (hy : ∀ i, ∃ r : ℝ, y i = (r : EReal) ∧ r ≠ 0) : AllReal (Host.divf x y) := fun i => real_div (hx i) (hy i)

/-- A host matrix product of all-real arrays, whatever its dimension numbers. -/
theorem AllReal.dotGeneral {sl sr so : Shape} {φ₁ φ₂ : FTy} (d : DotDims sl sr so) (prec : Option ContractPrecision)
    (sched : HostSchedule) {l : FVec Ideal sl φ₁} {r : FVec Ideal sr φ₂} (hl : AllReal l) (hr : AllReal r) :
    AllReal (FloatOps.dotGeneral d prec sched l r) := fun j => by
  rw [Ideal.dotGeneral_apply]
  exact real_sum _ _ fun k _ => real_mul (hl _) (hr _)

/-- The vector unit's matrix product into the zero accumulator. -/
theorem AllReal.matmul_zero {sl sr so : Shape} {φ₁ φ₂ : FTy} (d : DotDims sl sr so) (prec : Option ContractPrecision)
    {l : FVec Ideal sl φ₁} {r : FVec Ideal sr φ₂} (hl : AllReal l) (hr : AllReal r) :
    AllReal (FloatOps.matmul d prec l r (constant so .f32 0x00000000#32)) := fun j => by
  rw [Ideal.matmul_constant_zero_apply]
  exact real_sum _ _ fun k _ => real_mul (hl _) (hr _)

/-- The accumulating scatter: each entry plus a finite sum of updates. -/
theorem AllReal.scatterAdd {s si su : Shape} {φ : FTy} {w : Nat} (d : ScatterDims s si su) {x : FVec Ideal s φ}
    (hx : AllReal x) (idx : IVec si w) {upd : FVec Ideal su φ} (hu : AllReal upd) :
    AllReal (Host.scatterAdd (F := Ideal) d x idx upd) := fun i =>
  real_add (hx i) (real_sum _ _ fun j _ => hu j)

end Cert.LibFinite

end
-- ==== Proof.LibFiniteInput.lean ====
/-
  A float array that passes the "all finite" test is all real.

  The finiteness test of an input, as a precondition states it, is the conjunction over all entries of
  |x| < +∞ (the and-reduction of the comparisons into one bit, from the initial bit 1).  On the extended reals
  |x| = max x (-x) is +∞ at both infinities, so the comparison holds exactly at the real entries: if the reduced
  bit is 1, no entry of the array is an infinity.
-/
import Idealize.ShloMosaic.Lib.ReduceAll
import proofs.«128398_j30554397343924_2_alg».proof.Proof.LibFinite

noncomputable section

namespace Cert.LibFiniteInput

open Idealize.ShloMosaic Cert.LibFinite

/-- The f32 word of +∞ denotes the top of the extended reals. -/
theorem ofBits_inf : Ideal.ofBits .f32 0x7F800000#32 = (⊤ : EReal) := by
  simp [Ideal.ofBits, Ideal.ieee]

/-- An extended real whose absolute value compares below +∞ is real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : Ideal.cmp .olt (max x (-x)) (⊤ : EReal) = 1#1 := by
    have := h
    rwa [Ideal.cmpf_def, Ideal.ofBits_def, ofBits_inf] at this
  induction x using EReal.rec with
  | bot => exact absurd h' (by simp [Ideal.cmp])
  | coe r => exact ⟨r, rfl⟩
  | top => exact absurd h' (by simp [Ideal.cmp])

instance : Subsingleton (⟨0, ![]⟩ : Shape).Idx := ⟨fun a b => funext fun d => d.elim0⟩

/-- If the and-reduction of the tests |x i| < +∞ over the whole array is the bit 1, every entry of x is real. -/
theorem allReal_of_test {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (j : (⟨0, ![]⟩ : Shape).Idx)
    (h : Host.reduce IntOp.andi
        (cmpf .olt (Host.absf x) (broadcastInDim s ![] hb (constant ⟨0, ![]⟩ .f32 0x7F800000#32)))
        (constantI ⟨0, ![]⟩ 1 1#1) hr hu j = 1#1) : AllReal x := fun i =>
  real_of_abs_lt_inf (x i) (Host.reduce_andi_all _ _ hr hu j h i)

end Cert.LibFiniteInput

end
-- ==== Proof.InputsReal.lean ====
/-
  The precondition makes every entry of the three input arrays a real number.

  The precondition is one bit: the conjunction of three tests, one per input array, each the conjunction over
  all entries of |x| < +∞.  A conjunction of bits is 1 only when each of them is 1, so each array passes its
  own test; and on the extended reals |x| = +∞ at both infinities, so an array that passes has no infinite
  entry.
-/
import proofs.«128398_j30554397343924_2_alg».proof.Defs
import proofs.«128398_j30554397343924_2_alg».proof.Proof.Gen.Pre_finite_inputs
import proofs.«128398_j30554397343924_2_alg».proof.Proof.LibFiniteInput

noncomputable section

namespace Cert.KernelIdeal.Fr

open Idealize.ShloMosaic Idealize.SL.Sem Cert.LibFinite Cert.LibFiniteInput

/-- Under the precondition, on every device, each of the three input arrays is all real: the bit read at its
    one index is a conjunction of three bits, each the whole-array test of one input. -/
theorem inputs_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg1))
    ∧ AllReal (m ((c.tc : Thread Cert.KernelIdeal.nD Cert.KernelIdeal.τ).loc Cert.KernelIdeal.main_arg2)) := by
  have h0 := congrFun (h c) (fun a => a.elim0)
  dsimp only [Cert.Pre_finite_inputs.fn] at h0
  obtain ⟨h01, h2⟩ := IntOp.andi_eq_one.1 h0
  obtain ⟨h0', h1⟩ := IntOp.andi_eq_one.1 h01
  exact ⟨allReal_of_test _ _ _ _ _ h0', allReal_of_test _ _ _ _ _ h1, allReal_of_test _ _ _ _ _ h2⟩

end Cert.KernelIdeal.Fr

end
-- ==== Proof.lean ====
/-
  The certificate of the quantising PCA kernel against its reference.

  Both programs rectify the input x (32 batches × 256 channels × 56 × 56 positions), centre each channel by
  its mean over all batches and positions, project on the 256 × 256 basis u, clamp each projected channel c to
  [-cv c, cv c], take each channel's minimum and maximum over all batches and positions, round every entry on
  the 255-step grid between them, project back and add the mean.

  The kernel does this in three passes over the batches. The first adds up, per channel, the lane sums of each
  batch's rectified slab in two chains of sixteen batches, whose two totals the host adds and divides by the
  count. The second projects each batch's rectified slab, subtracts the projected mean, clamps, and keeps
  running per-channel minima and maxima along the same two chains, which the host combines. The third
  recomputes the clamped projection, rounds it on the grid, multiplies by the basis and adds the mean. The
  reference centres before projecting and divides the rounded value by the scale where the kernel multiplies
  by its reciprocal.

  Frames: each kernel region runs point by point, its accumulators carried in the region's invariant; the
  whole run ends with every buffer at a fold from the launch memory through the host operations and the
  regions' write-backs, which no argument array meets. The reference runs operation by operation.
  The ideal pass rewrote nothing. Over the extended reals the kernel's result array is, entry by entry, the
  specification's function of the three arguments computed the kernel's way, the reference's the same
  computed the reference's way; on finite inputs the two ways agree: centring and projecting commute with
  finite sums of reals, and dividing by 255/d equals multiplying by d/255 for every real range d, both being
  zero when d is.
-/
import proofs.«128398_j30554397343924_2_alg».proof.Defs
import proofs.«128398_j30554397343924_2_alg».proof.Proof.Gen.Kernel
import proofs.«128398_j30554397343924_2_alg».proof.Proof.Gen.KernelIdeal
import proofs.«128398_j30554397343924_2_alg».proof.Proof.Gen.ReferenceIdeal
import proofs.«128398_j30554397343924_2_alg».proof.Proof.Gen.Pre_finite_inputs
import proofs.«128398_j30554397343924_2_alg».proof.Proof.Bits.Walk
import proofs.«128398_j30554397343924_2_alg».proof.Proof.OutK
import proofs.«128398_j30554397343924_2_alg».proof.Proof.RefRun
import proofs.«128398_j30554397343924_2_alg».proof.Proof.RefSpec
import proofs.«128398_j30554397343924_2_alg».proof.Proof.SpecLaw
import proofs.«128398_j30554397343924_2_alg».proof.Proof.InputsReal

noncomputable section

namespace Cert.Proof

open Idealize.ShloMosaic Idealize.SL.Sem Idealize.ShloMosaic.ValueIdx

/-- The word-level kernel runs and leaves its arguments as launched. -/
theorem frame_kernel : Cert.frame_Kernel (hKernel := Cert.Kernel.Gen.facts) (hPre_finite_inputs := Cert.Pre_finite_inputs.Gen.facts) := fun m ρ _ =>
  (θ_run Cert.Kernel.defs _ _).mono (fun r h c =>
    ⟨(h c _ (Cert.Kernel.Fr.mem_uc Cert.Kernel.main_arg0 (by decide))).trans (Cert.Kernel.Fr.W7_arg0 m ρ c),
      (h c _ (Cert.Kernel.Fr.mem_uc Cert.Kernel.main_arg1 (by decide))).trans (Cert.Kernel.Fr.W7_arg1 m ρ c),
      (h c _ (Cert.Kernel.Fr.mem_uc Cert.Kernel.main_arg2 (by decide))).trans (Cert.Kernel.Fr.W7_arg2 m ρ c)⟩)
    (Cert.Kernel.Fr.run (F := Bits) m ρ)

/-- So does its idealization. -/
theorem frame_kernelIdeal : Cert.frame_KernelIdeal (hKernelIdeal := Cert.KernelIdeal.Gen.facts) (hPre_finite_inputs := Cert.Pre_finite_inputs.Gen.facts) := fun m ρ _ =>
  (θ_run Cert.KernelIdeal.defs _ _).mono (fun r h c =>
    ⟨(h c _ (Cert.KernelIdeal.Fr.mem_uc Cert.KernelIdeal.main_arg0 (by decide))).trans (Cert.KernelIdeal.Fr.W7_arg0 m ρ c),
      (h c _ (Cert.KernelIdeal.Fr.mem_uc Cert.KernelIdeal.main_arg1 (by decide))).trans (Cert.KernelIdeal.Fr.W7_arg1 m ρ c),
      (h c _ (Cert.KernelIdeal.Fr.mem_uc Cert.KernelIdeal.main_arg2 (by decide))).trans (Cert.KernelIdeal.Fr.W7_arg2 m ρ c)⟩)
    (Cert.KernelIdeal.Fr.run (F := Ideal) m ρ)

/-- And the reference. -/
theorem frame_reference : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.RefValue.run (F := Ideal) m ρ)

/-- The ideal pass rewrote no operation. -/
theorem preserves : Cert.preserves_Kernel_KernelIdeal := trivial

/-- At the extended reals, on finite inputs, the kernel's result array and the reference's are equal entry by entry. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Fr.W7 m ρ c (Proc.devRef .tc Cert.KernelIdeal.main_v18), ?_, ?_⟩
  · exact (θ_run Cert.KernelIdeal.defs _ _).mono (fun r h c =>
      ⟨h c _ (Cert.KernelIdeal.Fr.mem_uc Cert.KernelIdeal.main_v18 (by decide)),
        (h c _ (Cert.KernelIdeal.Fr.mem_uc Cert.KernelIdeal.main_arg0 (by decide))).trans (Cert.KernelIdeal.Fr.W7_arg0 m ρ c),
        (h c _ (Cert.KernelIdeal.Fr.mem_uc Cert.KernelIdeal.main_arg1 (by decide))).trans (Cert.KernelIdeal.Fr.W7_arg1 m ρ c),
        (h c _ (Cert.KernelIdeal.Fr.mem_uc Cert.KernelIdeal.main_arg2 (by decide))).trans (Cert.KernelIdeal.Fr.W7_arg2 m ρ c)⟩)
      (Cert.KernelIdeal.Fr.run (F := Ideal) m ρ)
  · refine (θ_run Cert.ReferenceIdeal.defs _ _).mono (fun r h c => ⟨(h c).1.trans ?_, (h c).2⟩)
      (Cert.ReferenceIdeal.RefValue.run (F := Ideal) m' ρ')
    rw [(hagree c).1, (hagree c).2.1, (hagree c).2.2]
    obtain ⟨hx, hu, hcv⟩ := Cert.KernelIdeal.Fr.inputs_real m hpre c
    funext i
    obtain ⟨b, j, h, w, rfl⟩ : ∃ (b : Fin 32) (j : Fin 256) (h w : Fin 56), i = ix4 b j h w := ⟨i 0, i 1, i 2, i 3, eq_ix4 i⟩
    refine (Cert.ReferenceIdeal.RefSpec.ref_result _ _ _ b j h w).trans ?_
    refine Eq.trans ?_ (Cert.KernelIdeal.Fr.kernel_result m ρ c b j h w).symm
    exact (congrFun (congrFun (congrFun (Cert.Spec.outKer_eq_outRef (Cert.KernelIdeal.Fr.xIn m c) (Cert.KernelIdeal.Fr.uIn m c) (Cert.KernelIdeal.Fr.cvIn m c)
      (fun b k q => hx _) (fun k c => hu _) (fun c => hcv _)) j) b) _).symm

/-- The claim. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
